-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v225)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v225) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v338) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S3x3x128x128 : Shape := ⟨4, ![3, 3, 128, 128]⟩
abbrev S3x3x128 : Shape := ⟨3, ![3, 3, 128]⟩
abbrev S3x128x128 : Shape := ⟨3, ![3, 128, 128]⟩
abbrev S3x128 : Shape := ⟨2, ![3, 128]⟩
abbrev S2x128 : Shape := ⟨2, ![2, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S3x3x128 : S_.BroadcastsInDim S3x3x128 (![] : Fin 0 → Fin S3x3x128.rank)
  reducesTo_S3x3x128_S_d0_1_2 : S3x3x128.ReducesTo [0, 1, 2] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S2x128 : S_.BroadcastsInDim S2x128 (![] : Fin 0 → Fin S2x128.rank)
  reducesTo_S2x128_S_d0_1 : S2x128.ReducesTo [0, 1] S_

variable [Facts]

def fn_part2 {F : FTy → Type} [FloatOps F] (main_arg13 : FVec F S2x128 .f32) (main_arg14 : FVec F S2x128 .f32) (main_v33 : IVec S_ 1) : IVec S_ 1 :=
  let main_v34 : FVec F S2x128 .f32 := Host.absf main_arg13
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg14
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  main_v43

def fn_part1 {F : FTy → Type} [FloatOps F] (main_arg10 : FVec F S3x128 .f32) (main_arg11 : FVec F S2x128 .f32) (main_arg12 : FVec F S2x128 .f32) (main_arg13 : FVec F S2x128 .f32) (main_arg14 : FVec F S2x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg10
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S2x128 .f32 := Host.absf main_arg11
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128 .f32 := Host.absf main_arg12
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg13 main_arg14 main_v33

def fn {F : FTy → Type} [FloatOps F] (main_arg0 : FVec F S100000x128 .f32) (main_arg1 : IVec S600000 32) (main_arg2 : IVec S600000 32) (main_arg3 : IVec S600000 32) (main_arg4 : IVec S600000 32) (main_arg5 : IVec S600000 32) (main_arg6 : IVec S600000 32) (main_arg7 : FVec F S3x3x128x128 .f32) (main_arg8 : FVec F S3x3x128 .f32) (main_arg9 : FVec F S3x128x128 .f32) (main_arg10 : FVec F S3x128 .f32) (main_arg11 : FVec F S2x128 .f32) (main_arg12 : FVec F S2x128 .f32) (main_arg13 : FVec F S2x128 .f32) (main_arg14 : FVec F S2x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x3x128x128 .f32 := Host.absf main_arg7
  let main_cst_0 : FVec F S_ .f32 := constant S_ .f32 0x7F800000#32
  let main_v5 : FVec F S3x3x128x128 .f32 := broadcastInDim S3x3x128x128 ![] bcast_S_S3x3x128x128 main_cst_0
  let main_v6 : IVec S3x3x128x128 1 := cmpf .olt main_v4 main_v5
  let main_c_1 : IVec S_ 1 := constantI S_ 1 1#1
  let main_v7 : IVec S_ 1 := (fun x v => Host.reduce IntOp.andi x v reducesTo_S3x3x128x128_S_d0_1_2_3 h_S_) main_v6 main_c_1
  let main_v8 : IVec S_ 1 := andi main_v3 main_v7
  let main_v9 : FVec F S3x3x128 .f32 := Host.absf main_arg8
  let main_cst_2 : FVec F S_ .f32 := constant S_ .f32 0x7F800000#32
  let main_v10 : FVec F S3x3x128 .f32 := broadcastInDim S3x3x128 ![] bcast_S_S3x3x128 main_cst_2
  let main_v11 : IVec S3x3x128 1 := cmpf .olt main_v9 main_v10
  let main_c_3 : IVec S_ 1 := constantI S_ 1 1#1
  let main_v12 : IVec S_ 1 := (fun x v => Host.reduce IntOp.andi x v reducesTo_S3x3x128_S_d0_1_2 h_S_) main_v11 main_c_3
  let main_v13 : IVec S_ 1 := andi main_v8 main_v12
  let main_v14 : FVec F S3x128x128 .f32 := Host.absf main_arg9
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg10 main_arg11 main_arg12 main_arg13 main_arg14 main_v13 main_v16
-- ==== Kernel.lean ====
abbrev S100000x128 : Shape := ⟨2, ![100000, 128]⟩
abbrev S600000 : Shape := ⟨1, ![600000]⟩
abbrev S3x3x128x128 : Shape := ⟨4, ![3, 3, 128, 128]⟩
abbrev S3x3x128 : Shape := ⟨3, ![3, 3, 128]⟩
abbrev S3x128x128 : Shape := ⟨3, ![3, 128, 128]⟩
abbrev S3x128 : Shape := ⟨2, ![3, 128]⟩
abbrev S2x128 : Shape := ⟨2, ![2, 128]⟩
abbrev S_ : Shape := ⟨0, ![]⟩
abbrev S100000 : Shape := ⟨1, ![100000]⟩
abbrev S600000x1 : Shape := ⟨2, ![600000, 1]⟩
abbrev S1x100000 : Shape := ⟨2, ![1, 100000]⟩
abbrev S3x100000 : Shape := ⟨2, ![3, 100000]⟩
abbrev S3x100000x1 : Shape := ⟨3, ![3, 100000, 1]⟩
abbrev S1x3x128x128 : Shape := ⟨4, ![1, 3, 128, 128]⟩
abbrev S3x100000x128 : Shape := ⟨3, ![3, 100000, 128]⟩
abbrev S2000x128 : Shape := ⟨2, ![2000, 128]⟩
abbrev S3x2000x1 : Shape := ⟨3, ![3, 2000, 1]⟩
abbrev S3x2000x128 : Shape := ⟨3, ![3, 2000, 128]⟩
abbrev S1x128x128 : Shape := ⟨3, ![1, 128, 128]⟩
abbrev S128x128 : Shape := ⟨2, ![128, 128]⟩
abbrev S1x2000x1 : Shape := ⟨3, ![1, 2000, 1]⟩
abbrev S2000x1 : Shape := ⟨2, ![2000, 1]⟩
abbrev S1x2000x128 : Shape := ⟨3, ![1, 2000, 128]⟩
abbrev S1x100000x128 : Shape := ⟨3, ![1, 100000, 128]⟩
abbrev S600000x128 : Shape := ⟨2, ![600000, 128]⟩
abbrev S1x3x128 : Shape := ⟨3, ![1, 3, 128]⟩
abbrev S1x128 : Shape := ⟨2, ![1, 128]⟩
abbrev S128 : Shape := ⟨1, ![128]⟩

abbrev nBuf : Space → Nat
  | .hbm => 301
  | .vmem => 56
  | .smem => 0
  | _ => 0

abbrev hbmTy0_0 (i : Nat) : BufTy := match i % 128 with
  | 0 => ⟨S100000x128, .f32⟩
  | 1 => ⟨S600000, .i32⟩
  | 2 => ⟨S600000, .i32⟩
  | 3 => ⟨S600000, .i32⟩
  | 4 => ⟨S600000, .i32⟩
  | 5 => ⟨S600000, .i32⟩
  | 6 => ⟨S600000, .i32⟩
  | 7 => ⟨S3x3x128x128, .f32⟩
  | 8 => ⟨S3x3x128, .f32⟩
  | 9 => ⟨S3x128x128, .f32⟩
  | 10 => ⟨S3x128, .f32⟩
  | 11 => ⟨S2x128, .f32⟩
  | 12 => ⟨S2x128, .f32⟩
  | 13 => ⟨S2x128, .f32⟩
  | 14 => ⟨S2x128, .f32⟩
  | 15 => ⟨S_, .f32⟩
  | 16 => ⟨S600000, .f32⟩
  | 17 => ⟨S_, .f32⟩
  | 18 => ⟨S100000, .f32⟩
  | 19 => ⟨S600000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S_, .f32⟩
  | 26 => ⟨S100000, .f32⟩
  | 27 => ⟨S600000x1, .i32⟩
  | 28 => ⟨S100000, .f32⟩
  | 29 => ⟨S_, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .f32⟩
  | 39 => ⟨S_, .f32⟩
  | 40 => ⟨S600000, .f32⟩
  | 41 => ⟨S_, .f32⟩
  | 42 => ⟨S100000, .f32⟩
  | 43 => ⟨S600000x1, .i32⟩
  | 44 => ⟨S100000, .f32⟩
  | 45 => ⟨S_, .f32⟩
  | 46 => ⟨S_, .f32⟩
  | 47 => ⟨S100000, .f32⟩
  | 48 => ⟨S100000, .f32⟩
  | 49 => ⟨S_, .f32⟩
  | 50 => ⟨S100000, .f32⟩
  | 51 => ⟨S600000x1, .i32⟩
  | 52 => ⟨S100000, .f32⟩
  | 53 => ⟨S_, .f32⟩
  | 54 => ⟨S_, .f32⟩
  | 55 => ⟨S100000, .f32⟩
  | 56 => ⟨S100000, .f32⟩
  | 57 => ⟨S_, .f32⟩
  | 58 => ⟨S100000, .f32⟩
  | 59 => ⟨S100000, .f32⟩
  | 60 => ⟨S_, .f32⟩
  | 61 => ⟨S100000, .f32⟩
  | 62 => ⟨S100000, .f32⟩
  | 63 => ⟨S_, .f32⟩
  | 64 => ⟨S600000, .f32⟩
  | 65 => ⟨S_, .f32⟩
  | 66 => ⟨S100000, .f32⟩
  | 67 => ⟨S600000x1, .i32⟩
  | 68 => ⟨S100000, .f32⟩
  | 69 => ⟨S_, .f32⟩
  | 70 => ⟨S_, .f32⟩
  | 71 => ⟨S100000, .f32⟩
  | 72 => ⟨S100000, .f32⟩
  | 73 => ⟨S_, .f32⟩
  | 74 => ⟨S100000, .f32⟩
  | 75 => ⟨S600000x1, .i32⟩
  | 76 => ⟨S100000, .f32⟩
  | 77 => ⟨S_, .f32⟩
  | 78 => ⟨S_, .f32⟩
  | 79 => ⟨S100000, .f32⟩
  | 80 => ⟨S100000, .f32⟩
  | 81 => ⟨S_, .f32⟩
  | 82 => ⟨S100000, .f32⟩
  | 83 => ⟨S100000, .f32⟩
  | 84 => ⟨S_, .f32⟩
  | 85 => ⟨S100000, .f32⟩
  | 86 => ⟨S100000, .f32⟩
  | 87 => ⟨S1x100000, .f32⟩
  | 88 => ⟨S1x100000, .f32⟩
  | 89 => ⟨S1x100000, .f32⟩
  | 90 => ⟨S3x100000, .f32⟩
  | 91 => ⟨S3x100000x1, .f32⟩
  | 92 => ⟨S1x100000, .f32⟩
  | 93 => ⟨S1x100000, .f32⟩
  | 94 => ⟨S1x100000, .f32⟩
  | 95 => ⟨S3x100000, .f32⟩
  | 96 => ⟨S3x100000x1, .f32⟩
  | 97 => ⟨S1x3x128x128, .f32⟩
  | 98 => ⟨S3x128x128, .f32⟩
  | 99 => ⟨S3x100000x128, .f32⟩
  | 100 => ⟨S1x100000x128, .f32⟩
  | 101 => ⟨S100000x128, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000x128, .f32⟩
  | 111 => ⟨S_, .f32⟩
  | 112 => ⟨S100000x128, .f32⟩
  | 113 => ⟨S600000x1, .i32⟩
  | 114 => ⟨S100000x128, .f32⟩
  | 115 => ⟨S1x100000x128, .f32⟩
  | 116 => ⟨S100000x128, .f32⟩
  | 117 => ⟨S_, .i32⟩
  | 118 => ⟨S600000, .i32⟩
  | 119 => ⟨S600000, .i1⟩
  | 120 => ⟨S_, .i32⟩
  | 121 => ⟨S600000, .i32⟩
  | 122 => ⟨S600000, .i32⟩
  | 123 => ⟨S600000, .i32⟩
  | 124 => ⟨S600000x1, .i32⟩
  | 125 => ⟨S600000x128, .f32⟩
  | 126 => ⟨S_, .f32⟩
  | 127 => ⟨S100000x128, .f32⟩
  | _ => ⟨S100000x128, .f32⟩

abbrev hbmTy0_1 (i : Nat) : BufTy := match i % 128 with
  | 0 => ⟨S600000x1, .i32⟩
  | 1 => ⟨S100000x128, .f32⟩
  | 2 => ⟨S1x100000x128, .f32⟩
  | 3 => ⟨S100000x128, .f32⟩
  | 4 => ⟨S_, .i32⟩
  | 5 => ⟨S600000, .i32⟩
  | 6 => ⟨S600000, .i1⟩
  | 7 => ⟨S_, .i32⟩
  | 8 => ⟨S600000, .i32⟩
  | 9 => ⟨S600000, .i32⟩
  | 10 => ⟨S600000, .i32⟩
  | 11 => ⟨S600000x1, .i32⟩
  | 12 => ⟨S600000x128, .f32⟩
  | 13 => ⟨S_, .f32⟩
  | 14 => ⟨S100000x128, .f32⟩
  | 15 => ⟨S600000x1, .i32⟩
  | 16 => ⟨S100000x128, .f32⟩
  | 17 => ⟨S1x100000x128, .f32⟩
  | 18 => ⟨S1x100000x128, .f32⟩
  | 19 => ⟨S1x100000x128, .f32⟩
  | 20 => ⟨S3x100000x128, .f32⟩
  | 21 => ⟨S1x3x128, .f32⟩
  | 22 => ⟨S3x128, .f32⟩
  | 23 => ⟨S1x128x128, .f32⟩
  | 24 => ⟨S128x128, .f32⟩
  | 25 => ⟨S1x128, .f32⟩
  | 26 => ⟨S128, .f32⟩
  | 27 => ⟨S1x128, .f32⟩
  | 28 => ⟨S1x128, .f32⟩
  | 29 => ⟨S128, .f32⟩
  | 30 => ⟨S1x128, .f32⟩
  | 31 => ⟨S1x128, .f32⟩
  | 32 => ⟨S128, .f32⟩
  | 33 => ⟨S1x128, .f32⟩
  | 34 => ⟨S1x128, .f32⟩
  | 35 => ⟨S128, .f32⟩
  | 36 => ⟨S1x128, .f32⟩
  | 37 => ⟨S1x128, .f32⟩
  | 38 => ⟨S128, .f32⟩
  | 39 => ⟨S1x128, .f32⟩
  | 40 => ⟨S100000x128, .f32⟩
  | 41 => ⟨S1x3x128x128, .f32⟩
  | 42 => ⟨S3x128x128, .f32⟩
  | 43 => ⟨S3x100000x128, .f32⟩
  | 44 => ⟨S1x100000x128, .f32⟩
  | 45 => ⟨S100000x128, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000x128, .f32⟩
  | 55 => ⟨S_, .f32⟩
  | 56 => ⟨S100000x128, .f32⟩
  | 57 => ⟨S600000x1, .i32⟩
  | 58 => ⟨S100000x128, .f32⟩
  | 59 => ⟨S1x100000x128, .f32⟩
  | 60 => ⟨S100000x128, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S_, .f32⟩
  | 71 => ⟨S100000x128, .f32⟩
  | 72 => ⟨S600000x1, .i32⟩
  | 73 => ⟨S100000x128, .f32⟩
  | 74 => ⟨S1x100000x128, .f32⟩
  | 75 => ⟨S100000x128, .f32⟩
  | 76 => ⟨S_, .i32⟩
  | 77 => ⟨S600000, .i32⟩
  | 78 => ⟨S600000, .i1⟩
  | 79 => ⟨S_, .i32⟩
  | 80 => ⟨S600000, .i32⟩
  | 81 => ⟨S600000, .i32⟩
  | 82 => ⟨S600000, .i32⟩
  | 83 => ⟨S600000x1, .i32⟩
  | 84 => ⟨S600000x128, .f32⟩
  | 85 => ⟨S_, .f32⟩
  | 86 => ⟨S100000x128, .f32⟩
  | 87 => ⟨S600000x1, .i32⟩
  | 88 => ⟨S100000x128, .f32⟩
  | 89 => ⟨S1x100000x128, .f32⟩
  | 90 => ⟨S1x100000x128, .f32⟩
  | 91 => ⟨S1x100000x128, .f32⟩
  | 92 => ⟨S3x100000x128, .f32⟩
  | 93 => ⟨S1x3x128, .f32⟩
  | 94 => ⟨S3x128, .f32⟩
  | 95 => ⟨S1x128x128, .f32⟩
  | 96 => ⟨S128x128, .f32⟩
  | 97 => ⟨S1x128, .f32⟩
  | 98 => ⟨S128, .f32⟩
  | 99 => ⟨S1x128, .f32⟩
  | 100 => ⟨S1x128, .f32⟩
  | 101 => ⟨S128, .f32⟩
  | 102 => ⟨S1x128, .f32⟩
  | 103 => ⟨S1x128, .f32⟩
  | 104 => ⟨S128, .f32⟩
  | 105 => ⟨S1x128, .f32⟩
  | 106 => ⟨S1x128, .f32⟩
  | 107 => ⟨S128, .f32⟩
  | 108 => ⟨S1x128, .f32⟩
  | 109 => ⟨S1x128, .f32⟩
  | 110 => ⟨S128, .f32⟩
  | 111 => ⟨S1x128, .f32⟩
  | 112 => ⟨S100000x128, .f32⟩
  | 113 => ⟨S1x3x128x128, .f32⟩
  | 114 => ⟨S3x128x128, .f32⟩
  | 115 => ⟨S3x100000x128, .f32⟩
  | 116 => ⟨S1x100000x128, .f32⟩
  | 117 => ⟨S100000x128, .f32⟩
  | 118 => ⟨S_, .i32⟩
  | 119 => ⟨S600000, .i32⟩
  | 120 => ⟨S600000, .i1⟩
  | 121 => ⟨S_, .i32⟩
  | 122 => ⟨S600000, .i32⟩
  | 123 => ⟨S600000, .i32⟩
  | 124 => ⟨S600000, .i32⟩
  | 125 => ⟨S600000x1, .i32⟩
  | 126 => ⟨S600000x128, .f32⟩
  | 127 => ⟨S_, .f32⟩
  | _ => ⟨S100000x128, .f32⟩

abbrev hbmTy0_2 (i : Nat) : BufTy := match i % 128 with
  | 0 => ⟨S100000x128, .f32⟩
  | 1 => ⟨S600000x1, .i32⟩
  | 2 => ⟨S100000x128, .f32⟩
  | 3 => ⟨S1x100000x128, .f32⟩
  | 4 => ⟨S100000x128, .f32⟩
  | 5 => ⟨S_, .i32⟩
  | 6 => ⟨S600000, .i32⟩
  | 7 => ⟨S600000, .i1⟩
  | 8 => ⟨S_, .i32⟩
  | 9 => ⟨S600000, .i32⟩
  | 10 => ⟨S600000, .i32⟩
  | 11 => ⟨S600000, .i32⟩
  | 12 => ⟨S600000x1, .i32⟩
  | 13 => ⟨S600000x128, .f32⟩
  | 14 => ⟨S_, .f32⟩
  | 15 => ⟨S100000x128, .f32⟩
  | 16 => ⟨S600000x1, .i32⟩
  | 17 => ⟨S100000x128, .f32⟩
  | 18 => ⟨S1x100000x128, .f32⟩
  | 19 => ⟨S100000x128, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x128, .f32⟩
  | 29 => ⟨S_, .f32⟩
  | 30 => ⟨S100000x128, .f32⟩
  | 31 => ⟨S600000x1, .i32⟩
  | 32 => ⟨S100000x128, .f32⟩
  | 33 => ⟨S1x100000x128, .f32⟩
  | 34 => ⟨S1x100000x128, .f32⟩
  | 35 => ⟨S1x100000x128, .f32⟩
  | 36 => ⟨S3x100000x128, .f32⟩
  | 37 => ⟨S1x3x128, .f32⟩
  | 38 => ⟨S3x128, .f32⟩
  | 39 => ⟨S1x128x128, .f32⟩
  | 40 => ⟨S128x128, .f32⟩
  | 41 => ⟨S1x128, .f32⟩
  | 42 => ⟨S128, .f32⟩
  | 43 => ⟨S1x128, .f32⟩
  | 44 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S3x128x128, .f32⟩
  | .local _ .vmem, ⟨3, _⟩ => ⟨S3x2000x1, .f32⟩
  | .local _ .vmem, ⟨4, _⟩ => ⟨S3x2000x1, .f32⟩
  | .local _ .vmem, ⟨5, _⟩ => ⟨S3x2000x128, .f32⟩
  | .local _ .vmem, ⟨6, _⟩ => ⟨S3x2000x128, .f32⟩
  | .local _ .vmem, ⟨7, _⟩ => ⟨S3x2000x128, .f32⟩
  | .local _ .vmem, ⟨8, _⟩ => ⟨S3x2000x128, .f32⟩
  | .local _ .vmem, ⟨9, _⟩ => ⟨S3x2000x1, .f32⟩
  | .local _ .vmem, ⟨10, _⟩ => ⟨S3x2000x1, .f32⟩
  | .local _ .vmem, ⟨11, _⟩ => ⟨S3x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S3x128x128, .f32⟩
  | .local _ .vmem, ⟨23, _⟩ => ⟨S3x2000x1, .f32⟩
  | .local _ .vmem, ⟨24, _⟩ => ⟨S3x2000x1, .f32⟩
  | .local _ .vmem, ⟨25, _⟩ => ⟨S3x2000x128, .f32⟩
  | .local _ .vmem, ⟨26, _⟩ => ⟨S3x2000x128, .f32⟩
  | .local _ .vmem, ⟨27, _⟩ => ⟨S3x2000x128, .f32⟩
  | .local _ .vmem, ⟨28, _⟩ => ⟨S3x2000x128, .f32⟩
  | .local _ .vmem, ⟨29, _⟩ => ⟨S3x2000x1, .f32⟩
  | .local _ .vmem, ⟨30, _⟩ => ⟨S3x2000x1, .f32⟩
  | .local _ .vmem, ⟨31, _⟩ => ⟨S3x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S3x128x128, .f32⟩
  | .local _ .vmem, ⟨43, _⟩ => ⟨S3x2000x1, .f32⟩
  | .local _ .vmem, ⟨44, _⟩ => ⟨S3x2000x1, .f32⟩
  | .local _ .vmem, ⟨45, _⟩ => ⟨S3x2000x128, .f32⟩
  | .local _ .vmem, ⟨46, _⟩ => ⟨S3x2000x128, .f32⟩
  | .local _ .vmem, ⟨47, _⟩ => ⟨S3x2000x128, .f32⟩
  | .local _ .vmem, ⟨48, _⟩ => ⟨S3x2000x128, .f32⟩
  | .local _ .vmem, ⟨49, _⟩ => ⟨S3x2000x1, .f32⟩
  | .local _ .vmem, ⟨50, _⟩ => ⟨S3x2000x1, .f32⟩
  | .local _ .vmem, ⟨51, _⟩ => ⟨S3x128, .f32⟩
  | .local _ .vmem, ⟨52, _⟩ => ⟨S128x128, .f32⟩
  | .local _ .vmem, ⟨53, _⟩ => ⟨S1x128, .f32⟩
  | .local _ .vmem, ⟨54, _⟩ => ⟨S2000x128, .f32⟩
  | .local _ .vmem, ⟨55, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v8 : Ref sig .tc := ⟨.hbm, 32, rfl⟩
abbrev main_cst_4 : Ref sig .tc := ⟨.hbm, 33, rfl⟩
abbrev main_v9 : Ref sig .tc := ⟨.hbm, 34, rfl⟩
abbrev main_v10 : Ref sig .tc := ⟨.hbm, 35, rfl⟩
abbrev main_cst_5 : Ref sig .tc := ⟨.hbm, 36, rfl⟩
abbrev main_v11 : Ref sig .tc := ⟨.hbm, 37, rfl⟩
abbrev main_v12 : Ref sig .tc := ⟨.hbm, 38, rfl⟩
abbrev main_cst_6 : Ref sig .tc := ⟨.hbm, 39, rfl⟩
abbrev main_v13 : Ref sig .tc := ⟨.hbm, 40, rfl⟩
abbrev main_cst_7 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_8 : Ref sig .tc := ⟨.hbm, 45, rfl⟩
abbrev main_call2_v0 : Ref sig .tc := ⟨.hbm, 46, rfl⟩
abbrev main_call2_v1 : Ref sig .tc := ⟨.hbm, 47, rfl⟩
abbrev main_v17 : Ref sig .tc := ⟨.hbm, 48, rfl⟩
abbrev main_cst_9 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_10 : Ref sig .tc := ⟨.hbm, 53, rfl⟩
abbrev main_call3_v0 : Ref sig .tc := ⟨.hbm, 54, rfl⟩
abbrev main_call3_v1 : Ref sig .tc := ⟨.hbm, 55, rfl⟩
abbrev main_v21 : Ref sig .tc := ⟨.hbm, 56, rfl⟩
abbrev main_cst_11 : Ref sig .tc := ⟨.hbm, 57, rfl⟩
abbrev main_v22 : Ref sig .tc := ⟨.hbm, 58, rfl⟩
abbrev main_v23 : Ref sig .tc := ⟨.hbm, 59, rfl⟩
abbrev main_cst_12 : Ref sig .tc := ⟨.hbm, 60, rfl⟩
abbrev main_v24 : Ref sig .tc := ⟨.hbm, 61, rfl⟩
abbrev main_v25 : Ref sig .tc := ⟨.hbm, 62, rfl⟩
abbrev main_cst_13 : Ref sig .tc := ⟨.hbm, 63, rfl⟩
abbrev main_v26 : Ref sig .tc := ⟨.hbm, 64, rfl⟩
abbrev main_cst_14 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_15 : Ref sig .tc := ⟨.hbm, 69, rfl⟩
abbrev main_call4_v0 : Ref sig .tc := ⟨.hbm, 70, rfl⟩
abbrev main_call4_v1 : Ref sig .tc := ⟨.hbm, 71, rfl⟩
abbrev main_v30 : Ref sig .tc := ⟨.hbm, 72, rfl⟩
abbrev main_cst_16 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_17 : Ref sig .tc := ⟨.hbm, 77, rfl⟩
abbrev main_call5_v0 : Ref sig .tc := ⟨.hbm, 78, rfl⟩
abbrev main_call5_v1 : Ref sig .tc := ⟨.hbm, 79, rfl⟩
abbrev main_v34 : Ref sig .tc := ⟨.hbm, 80, rfl⟩
abbrev main_cst_18 : Ref sig .tc := ⟨.hbm, 81, rfl⟩
abbrev main_v35 : Ref sig .tc := ⟨.hbm, 82, rfl⟩
abbrev main_v36 : Ref sig .tc := ⟨.hbm, 83, rfl⟩
abbrev main_cst_19 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_c : Ref sig .tc := ⟨.hbm, 102, rfl⟩
abbrev main_v54 : Ref sig .tc := ⟨.hbm, 103, rfl⟩
abbrev main_v55 : Ref sig .tc := ⟨.hbm, 104, rfl⟩
abbrev main_c_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_cst_21 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_c_22 : Ref sig .tc := ⟨.hbm, 117, rfl⟩
abbrev main_v66 : Ref sig .tc := ⟨.hbm, 118, rfl⟩
abbrev main_v67 : Ref sig .tc := ⟨.hbm, 119, rfl⟩
abbrev main_c_23 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_cst_24 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_c_25 : Ref sig .tc := ⟨.hbm, 132, rfl⟩
abbrev main_v78 : Ref sig .tc := ⟨.hbm, 133, rfl⟩
abbrev main_v79 : Ref sig .tc := ⟨.hbm, 134, rfl⟩
abbrev main_c_26 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_cst_27 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_c_28 : Ref sig .tc := ⟨.hbm, 174, rfl⟩
abbrev main_v117 : Ref sig .tc := ⟨.hbm, 175, rfl⟩
abbrev main_v118 : Ref sig .tc := ⟨.hbm, 176, rfl⟩
abbrev main_c_29 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_cst_30 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_c_31 : Ref sig .tc := ⟨.hbm, 189, rfl⟩
abbrev main_v129 : Ref sig .tc := ⟨.hbm, 190, rfl⟩
abbrev main_v130 : Ref sig .tc := ⟨.hbm, 191, rfl⟩
abbrev main_c_32 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_cst_33 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_c_34 : Ref sig .tc := ⟨.hbm, 204, rfl⟩
abbrev main_v141 : Ref sig .tc := ⟨.hbm, 205, rfl⟩
abbrev main_v142 : Ref sig .tc := ⟨.hbm, 206, rfl⟩
abbrev main_c_35 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_cst_36 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_c_37 : Ref sig .tc := ⟨.hbm, 246, rfl⟩
abbrev main_v180 : Ref sig .tc := ⟨.hbm, 247, rfl⟩
abbrev main_v181 : Ref sig .tc := ⟨.hbm, 248, rfl⟩
abbrev main_c_38 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_cst_39 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_c_40 : Ref sig .tc := ⟨.hbm, 261, rfl⟩
abbrev main_v192 : Ref sig .tc := ⟨.hbm, 262, rfl⟩
abbrev main_v193 : Ref sig .tc := ⟨.hbm, 263, rfl⟩
abbrev main_c_41 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_cst_42 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_c_43 : Ref sig .tc := ⟨.hbm, 276, rfl⟩
abbrev main_v204 : Ref sig .tc := ⟨.hbm, 277, rfl⟩
abbrev main_v205 : Ref sig .tc := ⟨.hbm, 278, rfl⟩
abbrev main_c_44 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_cst_45 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg9_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg3_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg5_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem3_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem9_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem2_1 : DmaSem sig := 44
abbrev cc4_sem3_0 : DmaSem sig := 45
abbrev cc4_sem3_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem5_1 : DmaSem sig := 55

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3x2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S3x2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3x2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3x2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3x2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S3x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S3x128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S3x2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S3x2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S3x2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S3x2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S3x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S1x100000_1 : S100000.BroadcastsInDim S1x100000 (![1] : Fin 1 → Fin S1x100000.rank)
  concatenates_S1x100000_S1x100000_S1x100000_S3x100000_d0 : Shape.Concatenates [S1x100000, S1x100000, S1x100000] S3x100000 0
  bcast_S3x100000_S3x100000x1_0_1 : S3x100000.BroadcastsInDim S3x100000x1 (![0, 1] : Fin 2 → Fin S3x100000x1.rank)
  slices_S3x3x128x128_S1x3x128x128_0_0_0_0 : S3x3x128x128.Slices ![0, 0, 0, 0] S1x3x128x128
  shapeCasts_S1x3x128x128_S3x128x128 : S1x3x128x128.ShapeCasts S3x128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S3x128x128_S3x128x128_0_0_0 : ∀ a, (![0, 0, 0] : Fin 3 → Nat) a + S3x128x128.size a ≤ S3x128x128.size a
  h_S3x128x128 : 0 < S3x128x128.numel
  shapeCasts_S3x128x128_S3x128x128 : S3x128x128.ShapeCasts S3x128x128
  inb_S3x2000x1_S3x2000x1_0_0_0 : ∀ a, (![0, 0, 0] : Fin 3 → Nat) a + S3x2000x1.size a ≤ S3x2000x1.size a
  h_S3x2000x1 : 0 < S3x2000x1.numel
  shapeCasts_S3x2000x1_S3x2000x1 : S3x2000x1.ShapeCasts S3x2000x1
  slices_S3x128x128_o0_0_0_S1x128x128 : S3x128x128.Slices ![0, 0, 0] S1x128x128
  shapeCasts_S1x128x128_S128x128 : S1x128x128.ShapeCasts S128x128
  slices_S3x2000x1_o0_0_0_S1x2000x1 : S3x2000x1.Slices ![0, 0, 0] S1x2000x1
  shapeCasts_S1x2000x1_S2000x1 : S1x2000x1.ShapeCasts S2000x1
  broadcasts_S2000x1_S2000x128 : S2000x1.Broadcasts S2000x128
  inb_S3x2000x128_S1x2000x128_0_0_0 : ∀ a, (![0, 0, 0] : Fin 3 → Nat) a + S1x2000x128.size a ≤ S3x2000x128.size a
  h_S1x2000x128 : 0 < S1x2000x128.numel
  shapeCasts_S1x2000x128_S2000x128 : S1x2000x128.ShapeCasts S2000x128
  shapeCasts_S2000x128_S1x2000x128 : S2000x128.ShapeCasts S1x2000x128
  slices_S3x128x128_o1_0_0_S1x128x128 : S3x128x128.Slices ![1, 0, 0] S1x128x128
  slices_S3x2000x1_o1_0_0_S1x2000x1 : S3x2000x1.Slices ![1, 0, 0] S1x2000x1
  inb_S3x2000x128_S1x2000x128_1_0_0 : ∀ a, (![1, 0, 0] : Fin 3 → Nat) a + S1x2000x128.size a ≤ S3x2000x128.size a
  slices_S3x128x128_o2_0_0_S1x128x128 : S3x128x128.Slices ![2, 0, 0] S1x128x128
  slices_S3x2000x1_o2_0_0_S1x2000x1 : S3x2000x1.Slices ![2, 0, 0] S1x2000x1
  inb_S3x2000x128_S1x2000x128_2_0_0 : ∀ a, (![2, 0, 0] : Fin 3 → Nat) a + S1x2000x128.size a ≤ S3x2000x128.size a
  slices_S3x100000x128_S1x100000x128_0_0_0 : S3x100000x128.Slices ![0, 0, 0] S1x100000x128
  shapeCasts_S1x100000x128_S100000x128 : S1x100000x128.ShapeCasts S100000x128
  bcast_S_S100000x128 : S_.BroadcastsInDim S100000x128 (![] : Fin 0 → Fin S100000x128.rank)
  slices_S3x100000x128_S1x100000x128_1_0_0 : S3x100000x128.Slices ![1, 0, 0] S1x100000x128
  slices_S3x100000x128_S1x100000x128_2_0_0 : S3x100000x128.Slices ![2, 0, 0] S1x100000x128
  bcast_S100000x128_S1x100000x128_1_2 : S100000x128.BroadcastsInDim S1x100000x128 (![1, 2] : Fin 2 → Fin S1x100000x128.rank)
  concatenates_S1x100000x128_S1x100000x128_S1x100000x128_S3x100000x128_d0 : Shape.Concatenates [S1x100000x128, S1x100000x128, S1x100000x128] S3x100000x128 0
  slices_S3x3x128_S1x3x128_0_0_0 : S3x3x128.Slices ![0, 0, 0] S1x3x128
  shapeCasts_S1x3x128_S3x128 : S1x3x128.ShapeCasts S3x128
  slices_S3x128x128_S1x128x128_0_0_0 : S3x128x128.Slices ![0, 0, 0] S1x128x128
  slices_S3x128_S1x128_0_0 : S3x128.Slices ![0, 0] S1x128
  shapeCasts_S1x128_S128 : S1x128.ShapeCasts S128
  shapeCasts_S128_S1x128 : S128.ShapeCasts S1x128
  slices_S2x128_S1x128_0_0 : S2x128.Slices ![0, 0] S1x128
  inb_S3x2000x128_S3x2000x128_0_0_0 : ∀ a, (![0, 0, 0] : Fin 3 → Nat) a + S3x2000x128.size a ≤ S3x2000x128.size a
  h_S3x2000x128 : 0 < S3x2000x128.numel
  shapeCasts_S3x2000x128_S3x2000x128 : S3x2000x128.ShapeCasts S3x2000x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  slices_S3x2000x128_o0_0_0_S1x2000x128 : S3x2000x128.Slices ![0, 0, 0] S1x2000x128
  slices_S3x128_o0_0_S1x128 : S3x128.Slices ![0, 0] S1x128
  broadcasts_S1x128_S2000x128 : S1x128.Broadcasts S2000x128
  slices_S3x2000x128_o1_0_0_S1x2000x128 : S3x2000x128.Slices ![1, 0, 0] S1x2000x128
  slices_S3x128_o1_0_S1x128 : S3x128.Slices ![1, 0] S1x128
  slices_S3x2000x128_o2_0_0_S1x2000x128 : S3x2000x128.Slices ![2, 0, 0] S1x2000x128
  slices_S3x128_o2_0_S1x128 : S3x128.Slices ![2, 0] S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S3x3x128x128_S1x3x128x128_1_0_0_0 : S3x3x128x128.Slices ![1, 0, 0, 0] S1x3x128x128
  shapeCasts_S2000x128_S2000x128 : S2000x128.ShapeCasts S2000x128
  slices_S3x3x128_S1x3x128_1_0_0 : S3x3x128.Slices ![1, 0, 0] S1x3x128
  slices_S3x128x128_S1x128x128_1_0_0 : S3x128x128.Slices ![1, 0, 0] S1x128x128
  slices_S3x128_S1x128_1_0 : S3x128.Slices ![1, 0] S1x128
  slices_S2x128_S1x128_1_0 : S2x128.Slices ![1, 0] S1x128
  slices_S3x3x128x128_S1x3x128x128_2_0_0_0 : S3x3x128x128.Slices ![2, 0, 0, 0] S1x3x128x128
  slices_S3x3x128_S1x3x128_2_0_0 : S3x3x128.Slices ![2, 0, 0] S1x3x128
  slices_S3x128x128_S1x128x128_2_0_0 : S3x128x128.Slices ![2, 0, 0] S1x128x128
  slices_S3x128_S1x128_2_0 : S3x128.Slices ![2, 0] S1x128
  scatter_S100000_S600000x1_S600000_n_0_0_1_wf : ScatterDims.WF S100000 S600000x1 S600000 [] [0] [0] 1
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128x128.size a ≤ S3x128x128.size a
  hwx0_1 : ∀ i : grid0.Coords, EltTy.bits .f32 = 32 ∨ (Rect.block (s := S3x128x128) S3x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x2000x1.size a ≤ S3x100000x1.size a
  hwx0_2 : ∀ i : grid0.Coords, EltTy.bits .f32 = 32 ∨ (Rect.block (s := S3x100000x1) S3x2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x2000x128.size a ≤ S3x100000x128.size a
  hwx0_3 : ∀ i : grid0.Coords, EltTy.bits .f32 = 32 ∨ (Rect.block (s := S3x100000x128) S3x2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x2000x128.size a ≤ S3x100000x128.size a
  hwx1_0 : ∀ i : grid1.Coords, EltTy.bits .f32 = 32 ∨ (Rect.block (s := S3x100000x128) S3x2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x2000x1.size a ≤ S3x100000x1.size a
  hwx1_1 : ∀ i : grid1.Coords, EltTy.bits .f32 = 32 ∨ (Rect.block (s := S3x100000x1) S3x2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x128.size a ≤ S3x128.size a
  hwx1_2 : ∀ i : grid1.Coords, EltTy.bits .f32 = 32 ∨ (Rect.block (s := S3x128) S3x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S100000x128.size a
  hwx1_9 : ∀ i : grid1.Coords, EltTy.bits .f32 = 32 ∨ (Rect.block (s := S100000x128) S2000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3x128x128.size a ≤ S3x128x128.size a
  hwx2_1 : ∀ i : grid2.Coords, EltTy.bits .f32 = 32 ∨ (Rect.block (s := S3x128x128) S3x128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3x2000x1.size a ≤ S3x100000x1.size a
  hwx2_2 : ∀ i : grid2.Coords, EltTy.bits .f32 = 32 ∨ (Rect.block (s := S3x100000x1) S3x2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3x2000x128.size a ≤ S3x100000x128.size a
  hwx2_3 : ∀ i : grid2.Coords, EltTy.bits .f32 = 32 ∨ (Rect.block (s := S3x100000x128) S3x2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3x2000x128.size a ≤ S3x100000x128.size a
  hwx3_0 : ∀ i : grid3.Coords, EltTy.bits .f32 = 32 ∨ (Rect.block (s := S3x100000x128) S3x2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3x2000x1.size a ≤ S3x100000x1.size a
  hwx3_1 : ∀ i : grid3.Coords, EltTy.bits .f32 = 32 ∨ (Rect.block (s := S3x100000x1) S3x2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S3x128.size a ≤ S3x128.size a
  hwx3_2 : ∀ i : grid3.Coords, EltTy.bits .f32 = 32 ∨ (Rect.block (s := S3x128) S3x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x128.size a ≤ S100000x128.size a
  hwx3_9 : ∀ i : grid3.Coords, EltTy.bits .f32 = 32 ∨ (Rect.block (s := S100000x128) S2000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S3x128x128.size a ≤ S3x128x128.size a
  hwx4_1 : ∀ i : grid4.Coords, EltTy.bits .f32 = 32 ∨ (Rect.block (s := S3x128x128) S3x128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S3x2000x1.size a ≤ S3x100000x1.size a
  hwx4_2 : ∀ i : grid4.Coords, EltTy.bits .f32 = 32 ∨ (Rect.block (s := S3x100000x1) S3x2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S3x2000x128.size a ≤ S3x100000x128.size a
  hwx4_3 : ∀ i : grid4.Coords, EltTy.bits .f32 = 32 ∨ (Rect.block (s := S3x100000x128) S3x2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S3x2000x128.size a ≤ S3x100000x128.size a
  hwx5_0 : ∀ i : grid5.Coords, EltTy.bits .f32 = 32 ∨ (Rect.block (s := S3x100000x128) S3x2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S3x2000x1.size a ≤ S3x100000x1.size a
  hwx5_1 : ∀ i : grid5.Coords, EltTy.bits .f32 = 32 ∨ (Rect.block (s := S3x100000x1) S3x2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S3x128.size a ≤ S3x128.size a
  hwx5_2 : ∀ i : grid5.Coords, EltTy.bits .f32 = 32 ∨ (Rect.block (s := S3x128) S3x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S100000x128.size a
  hwx5_5 : ∀ i : grid5.Coords, EltTy.bits .f32 = 32 ∨ (Rect.block (s := S100000x128) S2000x128.size (cc5_transform_5 i) (hinb5_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S3x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S3x2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v51) S3x2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v91) S3x2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S3x2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v93) S3x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v95) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v98) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v101) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v104) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v107) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v110) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v111) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v111) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v113) S3x128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S3x2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v114) S3x2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v154) S3x2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S3x2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v156) S3x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v158) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v161) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v164) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v167) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v170) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v173) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v174) S2000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v174) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v176) S3x128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v43) S3x2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v177) S3x2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v217) S3x2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v48) S3x2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v219) S3x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v221) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v224) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v225) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S600000 : Shape := ⟨1, ![600000]⟩
abbrev S3x3x128x128 : Shape := ⟨4, ![3, 3, 128, 128]⟩
abbrev S3x3x128 : Shape := ⟨3, ![3, 3, 128]⟩
abbrev S3x128x128 : Shape := ⟨3, ![3, 128, 128]⟩
abbrev S3x128 : Shape := ⟨2, ![3, 128]⟩
abbrev S2x128 : Shape := ⟨2, ![2, 128]⟩
abbrev S_ : Shape := ⟨0, ![]⟩
abbrev S100000 : Shape := ⟨1, ![100000]⟩
abbrev S600000x1 : Shape := ⟨2, ![600000, 1]⟩
abbrev S1x1x128x128 : Shape := ⟨4, ![1, 1, 128, 128]⟩
abbrev S128x128 : Shape := ⟨2, ![128, 128]⟩
abbrev S100000x1 : Shape := ⟨2, ![100000, 1]⟩
abbrev S600000x128 : Shape := ⟨2, ![600000, 128]⟩
abbrev S1x1x128 : Shape := ⟨3, ![1, 1, 128]⟩
abbrev S128 : Shape := ⟨1, ![128]⟩
abbrev S1x128 : Shape := ⟨2, ![1, 128]⟩
abbrev S1x128x128 : Shape := ⟨3, ![1, 128, 128]⟩

abbrev nBuf : Space → Nat
  | .hbm => 423
  | .vmem => 0
  | .smem => 0
  | _ => 0

abbrev hbmTy0_0 (i : Nat) : BufTy := match i % 128 with
  | 0 => ⟨S100000x128, .f32⟩
  | 1 => ⟨S600000, .i32⟩
  | 2 => ⟨S600000, .i32⟩
  | 3 => ⟨S600000, .i32⟩
  | 4 => ⟨S600000, .i32⟩
  | 5 => ⟨S600000, .i32⟩
  | 6 => ⟨S600000, .i32⟩
  | 7 => ⟨S3x3x128x128, .f32⟩
  | 8 => ⟨S3x3x128, .f32⟩
  | 9 => ⟨S3x128x128, .f32⟩
  | 10 => ⟨S3x128, .f32⟩
  | 11 => ⟨S2x128, .f32⟩
  | 12 => ⟨S2x128, .f32⟩
  | 13 => ⟨S2x128, .f32⟩
  | 14 => ⟨S2x128, .f32⟩
  | 15 => ⟨S_, .f32⟩
  | 16 => ⟨S600000, .f32⟩
  | 17 => ⟨S_, .f32⟩
  | 18 => ⟨S100000, .f32⟩
  | 19 => ⟨S600000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S_, .f32⟩
  | 26 => ⟨S100000, .f32⟩
  | 27 => ⟨S600000x1, .i32⟩
  | 28 => ⟨S100000, .f32⟩
  | 29 => ⟨S_, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .f32⟩
  | 39 => ⟨S_, .f32⟩
  | 40 => ⟨S600000, .f32⟩
  | 41 => ⟨S_, .f32⟩
  | 42 => ⟨S100000, .f32⟩
  | 43 => ⟨S600000x1, .i32⟩
  | 44 => ⟨S100000, .f32⟩
  | 45 => ⟨S_, .f32⟩
  | 46 => ⟨S_, .f32⟩
  | 47 => ⟨S100000, .f32⟩
  | 48 => ⟨S100000, .f32⟩
  | 49 => ⟨S_, .f32⟩
  | 50 => ⟨S100000, .f32⟩
  | 51 => ⟨S600000x1, .i32⟩
  | 52 => ⟨S100000, .f32⟩
  | 53 => ⟨S_, .f32⟩
  | 54 => ⟨S_, .f32⟩
  | 55 => ⟨S100000, .f32⟩
  | 56 => ⟨S100000, .f32⟩
  | 57 => ⟨S_, .f32⟩
  | 58 => ⟨S100000, .f32⟩
  | 59 => ⟨S100000, .f32⟩
  | 60 => ⟨S_, .f32⟩
  | 61 => ⟨S100000, .f32⟩
  | 62 => ⟨S100000, .f32⟩
  | 63 => ⟨S_, .f32⟩
  | 64 => ⟨S600000, .f32⟩
  | 65 => ⟨S_, .f32⟩
  | 66 => ⟨S100000, .f32⟩
  | 67 => ⟨S600000x1, .i32⟩
  | 68 => ⟨S100000, .f32⟩
  | 69 => ⟨S_, .f32⟩
  | 70 => ⟨S_, .f32⟩
  | 71 => ⟨S100000, .f32⟩
  | 72 => ⟨S100000, .f32⟩
  | 73 => ⟨S_, .f32⟩
  | 74 => ⟨S100000, .f32⟩
  | 75 => ⟨S600000x1, .i32⟩
  | 76 => ⟨S100000, .f32⟩
  | 77 => ⟨S_, .f32⟩
  | 78 => ⟨S_, .f32⟩
  | 79 => ⟨S100000, .f32⟩
  | 80 => ⟨S100000, .f32⟩
  | 81 => ⟨S_, .f32⟩
  | 82 => ⟨S100000, .f32⟩
  | 83 => ⟨S100000, .f32⟩
  | 84 => ⟨S_, .f32⟩
  | 85 => ⟨S100000, .f32⟩
  | 86 => ⟨S100000, .f32⟩
  | 87 => ⟨S_, .f32⟩
  | 88 => ⟨S100000x128, .f32⟩
  | 89 => ⟨S1x1x128x128, .f32⟩
  | 90 => ⟨S128x128, .f32⟩
  | 91 => ⟨S100000x128, .f32⟩
  | 92 => ⟨S100000x1, .f32⟩
  | 93 => ⟨S100000x128, .f32⟩
  | 94 => ⟨S100000x128, .f32⟩
  | 95 => ⟨S_, .i32⟩
  | 96 => ⟨S600000, .i32⟩
  | 97 => ⟨S600000, .i1⟩
  | 98 => ⟨S_, .i32⟩
  | 99 => ⟨S600000, .i32⟩
  | 100 => ⟨S600000, .i32⟩
  | 101 => ⟨S600000, .i32⟩
  | 102 => ⟨S600000x1, .i32⟩
  | 103 => ⟨S600000x128, .f32⟩
  | 104 => ⟨S_, .f32⟩
  | 105 => ⟨S100000x128, .f32⟩
  | 106 => ⟨S600000x1, .i32⟩
  | 107 => ⟨S100000x128, .f32⟩
  | 108 => ⟨S100000x1, .f32⟩
  | 109 => ⟨S100000x128, .f32⟩
  | 110 => ⟨S100000x128, .f32⟩
  | 111 => ⟨S100000x128, .f32⟩
  | 112 => ⟨S1x1x128, .f32⟩
  | 113 => ⟨S128, .f32⟩
  | 114 => ⟨S1x128, .f32⟩
  | 115 => ⟨S100000x128, .f32⟩
  | 116 => ⟨S100000x128, .f32⟩
  | 117 => ⟨S1x1x128x128, .f32⟩
  | 118 => ⟨S128x128, .f32⟩
  | 119 => ⟨S100000x128, .f32⟩
  | 120 => ⟨S100000x1, .f32⟩
  | 121 => ⟨S100000x128, .f32⟩
  | 122 => ⟨S100000x128, .f32⟩
  | 123 => ⟨S_, .i32⟩
  | 124 => ⟨S600000, .i32⟩
  | 125 => ⟨S600000, .i1⟩
  | 126 => ⟨S_, .i32⟩
  | 127 => ⟨S600000, .i32⟩
  | _ => ⟨S100000x128, .f32⟩

abbrev hbmTy0_1 (i : Nat) : BufTy := match i % 128 with
  | 0 => ⟨S600000, .i32⟩
  | 1 => ⟨S600000, .i32⟩
  | 2 => ⟨S600000x1, .i32⟩
  | 3 => ⟨S600000x128, .f32⟩
  | 4 => ⟨S_, .f32⟩
  | 5 => ⟨S100000x128, .f32⟩
  | 6 => ⟨S600000x1, .i32⟩
  | 7 => ⟨S100000x128, .f32⟩
  | 8 => ⟨S100000x1, .f32⟩
  | 9 => ⟨S100000x128, .f32⟩
  | 10 => ⟨S100000x128, .f32⟩
  | 11 => ⟨S100000x128, .f32⟩
  | 12 => ⟨S1x1x128, .f32⟩
  | 13 => ⟨S128, .f32⟩
  | 14 => ⟨S1x128, .f32⟩
  | 15 => ⟨S100000x128, .f32⟩
  | 16 => ⟨S100000x128, .f32⟩
  | 17 => ⟨S1x1x128x128, .f32⟩
  | 18 => ⟨S128x128, .f32⟩
  | 19 => ⟨S100000x128, .f32⟩
  | 20 => ⟨S100000x1, .f32⟩
  | 21 => ⟨S100000x128, .f32⟩
  | 22 => ⟨S100000x128, .f32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S_, .f32⟩
  | 33 => ⟨S100000x128, .f32⟩
  | 34 => ⟨S600000x1, .i32⟩
  | 35 => ⟨S100000x128, .f32⟩
  | 36 => ⟨S100000x1, .f32⟩
  | 37 => ⟨S100000x128, .f32⟩
  | 38 => ⟨S100000x128, .f32⟩
  | 39 => ⟨S100000x128, .f32⟩
  | 40 => ⟨S1x1x128, .f32⟩
  | 41 => ⟨S128, .f32⟩
  | 42 => ⟨S1x128, .f32⟩
  | 43 => ⟨S100000x128, .f32⟩
  | 44 => ⟨S100000x128, .f32⟩
  | 45 => ⟨S1x128x128, .f32⟩
  | 46 => ⟨S128x128, .f32⟩
  | 47 => ⟨S100000x128, .f32⟩
  | 48 => ⟨S1x128, .f32⟩
  | 49 => ⟨S128, .f32⟩
  | 50 => ⟨S1x128, .f32⟩
  | 51 => ⟨S100000x128, .f32⟩
  | 52 => ⟨S100000x128, .f32⟩
  | 53 => ⟨S1x128, .f32⟩
  | 54 => ⟨S128, .f32⟩
  | 55 => ⟨S1x128, .f32⟩
  | 56 => ⟨S100000x128, .f32⟩
  | 57 => ⟨S100000x128, .f32⟩
  | 58 => ⟨S1x128, .f32⟩
  | 59 => ⟨S128, .f32⟩
  | 60 => ⟨S_, .f32⟩
  | 61 => ⟨S128, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S128, .f32⟩
  | 69 => ⟨S1x128, .f32⟩
  | 70 => ⟨S100000x128, .f32⟩
  | 71 => ⟨S100000x128, .f32⟩
  | 72 => ⟨S1x128, .f32⟩
  | 73 => ⟨S128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S_, .f32⟩
  | 81 => ⟨S100000x128, .f32⟩
  | 82 => ⟨S1x1x128x128, .f32⟩
  | 83 => ⟨S128x128, .f32⟩
  | 84 => ⟨S100000x128, .f32⟩
  | 85 => ⟨S100000x1, .f32⟩
  | 86 => ⟨S100000x128, .f32⟩
  | 87 => ⟨S100000x128, .f32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000x128, .f32⟩
  | 97 => ⟨S_, .f32⟩
  | 98 => ⟨S100000x128, .f32⟩
  | 99 => ⟨S600000x1, .i32⟩
  | 100 => ⟨S100000x128, .f32⟩
  | 101 => ⟨S100000x1, .f32⟩
  | 102 => ⟨S100000x128, .f32⟩
  | 103 => ⟨S100000x128, .f32⟩
  | 104 => ⟨S100000x128, .f32⟩
  | 105 => ⟨S1x1x128, .f32⟩
  | 106 => ⟨S128, .f32⟩
  | 107 => ⟨S1x128, .f32⟩
  | 108 => ⟨S100000x128, .f32⟩
  | 109 => ⟨S100000x128, .f32⟩
  | 110 => ⟨S1x1x128x128, .f32⟩
  | 111 => ⟨S128x128, .f32⟩
  | 112 => ⟨S100000x128, .f32⟩
  | 113 => ⟨S100000x1, .f32⟩
  | 114 => ⟨S100000x128, .f32⟩
  | 115 => ⟨S100000x128, .f32⟩
  | 116 => ⟨S_, .i32⟩
  | 117 => ⟨S600000, .i32⟩
  | 118 => ⟨S600000, .i1⟩
  | 119 => ⟨S_, .i32⟩
  | 120 => ⟨S600000, .i32⟩
  | 121 => ⟨S600000, .i32⟩
  | 122 => ⟨S600000, .i32⟩
  | 123 => ⟨S600000x1, .i32⟩
  | 124 => ⟨S600000x128, .f32⟩
  | 125 => ⟨S_, .f32⟩
  | 126 => ⟨S100000x128, .f32⟩
  | 127 => ⟨S600000x1, .i32⟩
  | _ => ⟨S100000x128, .f32⟩

abbrev hbmTy0_2 (i : Nat) : BufTy := match i % 128 with
  | 0 => ⟨S100000x128, .f32⟩
  | 1 => ⟨S100000x1, .f32⟩
  | 2 => ⟨S100000x128, .f32⟩
  | 3 => ⟨S100000x128, .f32⟩
  | 4 => ⟨S100000x128, .f32⟩
  | 5 => ⟨S1x1x128, .f32⟩
  | 6 => ⟨S128, .f32⟩
  | 7 => ⟨S1x128, .f32⟩
  | 8 => ⟨S100000x128, .f32⟩
  | 9 => ⟨S100000x128, .f32⟩
  | 10 => ⟨S1x1x128x128, .f32⟩
  | 11 => ⟨S128x128, .f32⟩
  | 12 => ⟨S100000x128, .f32⟩
  | 13 => ⟨S100000x1, .f32⟩
  | 14 => ⟨S100000x128, .f32⟩
  | 15 => ⟨S100000x128, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x128, .f32⟩
  | 25 => ⟨S_, .f32⟩
  | 26 => ⟨S100000x128, .f32⟩
  | 27 => ⟨S600000x1, .i32⟩
  | 28 => ⟨S100000x128, .f32⟩
  | 29 => ⟨S100000x1, .f32⟩
  | 30 => ⟨S100000x128, .f32⟩
  | 31 => ⟨S100000x128, .f32⟩
  | 32 => ⟨S100000x128, .f32⟩
  | 33 => ⟨S1x1x128, .f32⟩
  | 34 => ⟨S128, .f32⟩
  | 35 => ⟨S1x128, .f32⟩
  | 36 => ⟨S100000x128, .f32⟩
  | 37 => ⟨S100000x128, .f32⟩
  | 38 => ⟨S1x128x128, .f32⟩
  | 39 => ⟨S128x128, .f32⟩
  | 40 => ⟨S100000x128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S128, .f32⟩
  | 48 => ⟨S1x128, .f32⟩
  | 49 => ⟨S100000x128, .f32⟩
  | 50 => ⟨S100000x128, .f32⟩
  | 51 => ⟨S1x128, .f32⟩
  | 52 => ⟨S128, .f32⟩
  | 53 => ⟨S_, .f32⟩
  | 54 => ⟨S128, .f32⟩
  | 55 => ⟨S128, .f32⟩
  | 56 => ⟨S128, .f32⟩
  | 57 => ⟨S1x128, .f32⟩
  | 58 => ⟨S100000x128, .f32⟩
  | 59 => ⟨S100000x128, .f32⟩
  | 60 => ⟨S1x128, .f32⟩
  | 61 => ⟨S128, .f32⟩
  | 62 => ⟨S1x128, .f32⟩
  | 63 => ⟨S100000x128, .f32⟩
  | 64 => ⟨S100000x128, .f32⟩
  | 65 => ⟨S1x128, .f32⟩
  | 66 => ⟨S128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S_, .f32⟩
  | 74 => ⟨S100000x128, .f32⟩
  | 75 => ⟨S1x1x128x128, .f32⟩
  | 76 => ⟨S128x128, .f32⟩
  | 77 => ⟨S100000x128, .f32⟩
  | 78 => ⟨S100000x1, .f32⟩
  | 79 => ⟨S100000x128, .f32⟩
  | 80 => ⟨S100000x128, .f32⟩
  | 81 => ⟨S_, .i32⟩
  | 82 => ⟨S600000, .i32⟩
  | 83 => ⟨S600000, .i1⟩
  | 84 => ⟨S_, .i32⟩
  | 85 => ⟨S600000, .i32⟩
  | 86 => ⟨S600000, .i32⟩
  | 87 => ⟨S600000, .i32⟩
  | 88 => ⟨S600000x1, .i32⟩
  | 89 => ⟨S600000x128, .f32⟩
  | 90 => ⟨S_, .f32⟩
  | 91 => ⟨S100000x128, .f32⟩
  | 92 => ⟨S600000x1, .i32⟩
  | 93 => ⟨S100000x128, .f32⟩
  | 94 => ⟨S100000x1, .f32⟩
  | 95 => ⟨S100000x128, .f32⟩
  | 96 => ⟨S100000x128, .f32⟩
  | 97 => ⟨S100000x128, .f32⟩
  | 98 => ⟨S1x1x128, .f32⟩
  | 99 => ⟨S128, .f32⟩
  | 100 => ⟨S1x128, .f32⟩
  | 101 => ⟨S100000x128, .f32⟩
  | 102 => ⟨S100000x128, .f32⟩
  | 103 => ⟨S1x1x128x128, .f32⟩
  | 104 => ⟨S128x128, .f32⟩
  | 105 => ⟨S100000x128, .f32⟩
  | 106 => ⟨S100000x1, .f32⟩
  | 107 => ⟨S100000x128, .f32⟩
  | 108 => ⟨S100000x128, .f32⟩
  | 109 => ⟨S_, .i32⟩
  | 110 => ⟨S600000, .i32⟩
  | 111 => ⟨S600000, .i1⟩
  | 112 => ⟨S_, .i32⟩
  | 113 => ⟨S600000, .i32⟩
  | 114 => ⟨S600000, .i32⟩
  | 115 => ⟨S600000, .i32⟩
  | 116 => ⟨S600000x1, .i32⟩
  | 117 => ⟨S600000x128, .f32⟩
  | 118 => ⟨S_, .f32⟩
  | 119 => ⟨S100000x128, .f32⟩
  | 120 => ⟨S600000x1, .i32⟩
  | 121 => ⟨S100000x128, .f32⟩
  | 122 => ⟨S100000x1, .f32⟩
  | 123 => ⟨S100000x128, .f32⟩
  | 124 => ⟨S100000x128, .f32⟩
  | 125 => ⟨S100000x128, .f32⟩
  | 126 => ⟨S1x1x128, .f32⟩
  | 127 => ⟨S128, .f32⟩
  | _ => ⟨S100000x128, .f32⟩

abbrev hbmTy0_3 (i : Nat) : BufTy := match i % 128 with
  | 0 => ⟨S1x128, .f32⟩
  | 1 => ⟨S100000x128, .f32⟩
  | 2 => ⟨S100000x128, .f32⟩
  | 3 => ⟨S1x1x128x128, .f32⟩
  | 4 => ⟨S128x128, .f32⟩
  | 5 => ⟨S100000x128, .f32⟩
  | 6 => ⟨S100000x1, .f32⟩
  | 7 => ⟨S100000x128, .f32⟩
  | 8 => ⟨S100000x128, .f32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000x128, .f32⟩
  | 18 => ⟨S_, .f32⟩
  | 19 => ⟨S100000x128, .f32⟩
  | 20 => ⟨S600000x1, .i32⟩
  | 21 => ⟨S100000x128, .f32⟩
  | 22 => ⟨S100000x1, .f32⟩
  | 23 => ⟨S100000x128, .f32⟩
  | 24 => ⟨S100000x128, .f32⟩
  | 25 => ⟨S100000x128, .f32⟩
  | 26 => ⟨S1x1x128, .f32⟩
  | 27 => ⟨S128, .f32⟩
  | 28 => ⟨S1x128, .f32⟩
  | 29 => ⟨S100000x128, .f32⟩
  | 30 => ⟨S100000x128, .f32⟩
  | 31 => ⟨S1x128x128, .f32⟩
  | 32 => ⟨S128x128, .f32⟩
  | 33 => ⟨S100000x128, .f32⟩
  | 34 => ⟨S1x128, .f32⟩
  | 35 => ⟨S128, .f32⟩
  | 36 => ⟨S1x128, .f32⟩
  | 37 => ⟨S100000x128, .f32⟩
  | 38 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v8 : Ref sig .tc := ⟨.hbm, 32, rfl⟩
abbrev main_cst_4 : Ref sig .tc := ⟨.hbm, 33, rfl⟩
abbrev main_v9 : Ref sig .tc := ⟨.hbm, 34, rfl⟩
abbrev main_v10 : Ref sig .tc := ⟨.hbm, 35, rfl⟩
abbrev main_cst_5 : Ref sig .tc := ⟨.hbm, 36, rfl⟩
abbrev main_v11 : Ref sig .tc := ⟨.hbm, 37, rfl⟩
abbrev main_v12 : Ref sig .tc := ⟨.hbm, 38, rfl⟩
abbrev main_cst_6 : Ref sig .tc := ⟨.hbm, 39, rfl⟩
abbrev main_v13 : Ref sig .tc := ⟨.hbm, 40, rfl⟩
abbrev main_cst_7 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_8 : Ref sig .tc := ⟨.hbm, 45, rfl⟩
abbrev main_call2_v0 : Ref sig .tc := ⟨.hbm, 46, rfl⟩
abbrev main_call2_v1 : Ref sig .tc := ⟨.hbm, 47, rfl⟩
abbrev main_v17 : Ref sig .tc := ⟨.hbm, 48, rfl⟩
abbrev main_cst_9 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_10 : Ref sig .tc := ⟨.hbm, 53, rfl⟩
abbrev main_call3_v0 : Ref sig .tc := ⟨.hbm, 54, rfl⟩
abbrev main_call3_v1 : Ref sig .tc := ⟨.hbm, 55, rfl⟩
abbrev main_v21 : Ref sig .tc := ⟨.hbm, 56, rfl⟩
abbrev main_cst_11 : Ref sig .tc := ⟨.hbm, 57, rfl⟩
abbrev main_v22 : Ref sig .tc := ⟨.hbm, 58, rfl⟩
abbrev main_v23 : Ref sig .tc := ⟨.hbm, 59, rfl⟩
abbrev main_cst_12 : Ref sig .tc := ⟨.hbm, 60, rfl⟩
abbrev main_v24 : Ref sig .tc := ⟨.hbm, 61, rfl⟩
abbrev main_v25 : Ref sig .tc := ⟨.hbm, 62, rfl⟩
abbrev main_cst_13 : Ref sig .tc := ⟨.hbm, 63, rfl⟩
abbrev main_v26 : Ref sig .tc := ⟨.hbm, 64, rfl⟩
abbrev main_cst_14 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_15 : Ref sig .tc := ⟨.hbm, 69, rfl⟩
abbrev main_call4_v0 : Ref sig .tc := ⟨.hbm, 70, rfl⟩
abbrev main_call4_v1 : Ref sig .tc := ⟨.hbm, 71, rfl⟩
abbrev main_v30 : Ref sig .tc := ⟨.hbm, 72, rfl⟩
abbrev main_cst_16 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_17 : Ref sig .tc := ⟨.hbm, 77, rfl⟩
abbrev main_call5_v0 : Ref sig .tc := ⟨.hbm, 78, rfl⟩
abbrev main_call5_v1 : Ref sig .tc := ⟨.hbm, 79, rfl⟩
abbrev main_v34 : Ref sig .tc := ⟨.hbm, 80, rfl⟩
abbrev main_cst_18 : Ref sig .tc := ⟨.hbm, 81, rfl⟩
abbrev main_v35 : Ref sig .tc := ⟨.hbm, 82, rfl⟩
abbrev main_v36 : Ref sig .tc := ⟨.hbm, 83, rfl⟩
abbrev main_cst_19 : Ref sig .tc := ⟨.hbm, 84, rfl⟩
abbrev main_v37 : Ref sig .tc := ⟨.hbm, 85, rfl⟩
abbrev main_v38 : Ref sig .tc := ⟨.hbm, 86, rfl⟩
abbrev main_cst_20 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_c : Ref sig .tc := ⟨.hbm, 95, rfl⟩
abbrev main_v46 : Ref sig .tc := ⟨.hbm, 96, rfl⟩
abbrev main_v47 : Ref sig .tc := ⟨.hbm, 97, rfl⟩
abbrev main_c_21 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_22 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_c_23 : Ref sig .tc := ⟨.hbm, 123, rfl⟩
abbrev main_v71 : Ref sig .tc := ⟨.hbm, 124, rfl⟩
abbrev main_v72 : Ref sig .tc := ⟨.hbm, 125, rfl⟩
abbrev main_c_24 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_25 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_c_26 : Ref sig .tc := ⟨.hbm, 151, rfl⟩
abbrev main_v96 : Ref sig .tc := ⟨.hbm, 152, rfl⟩
abbrev main_v97 : Ref sig .tc := ⟨.hbm, 153, rfl⟩
abbrev main_c_27 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_cst_28 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_cst_29 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_call6_cst : Ref sig .tc := ⟨.hbm, 205, rfl⟩
abbrev main_call6_v0 : Ref sig .tc := ⟨.hbm, 206, rfl⟩
abbrev main_v146 : Ref sig .tc := ⟨.hbm, 207, rfl⟩
abbrev main_cst_30 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_c_31 : Ref sig .tc := ⟨.hbm, 216, rfl⟩
abbrev main_v154 : Ref sig .tc := ⟨.hbm, 217, rfl⟩
abbrev main_v155 : Ref sig .tc := ⟨.hbm, 218, rfl⟩
abbrev main_c_32 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_cst_33 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_c_34 : Ref sig .tc := ⟨.hbm, 244, rfl⟩
abbrev main_v179 : Ref sig .tc := ⟨.hbm, 245, rfl⟩
abbrev main_v180 : Ref sig .tc := ⟨.hbm, 246, rfl⟩
abbrev main_c_35 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_cst_36 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_c_37 : Ref sig .tc := ⟨.hbm, 272, rfl⟩
abbrev main_v204 : Ref sig .tc := ⟨.hbm, 273, rfl⟩
abbrev main_v205 : Ref sig .tc := ⟨.hbm, 274, rfl⟩
abbrev main_c_38 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_cst_39 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_cst_40 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_v253 : Ref sig .tc := ⟨.hbm, 325, rfl⟩
abbrev main_call7_cst : Ref sig .tc := ⟨.hbm, 326, rfl⟩
abbrev main_call7_v0 : Ref sig .tc := ⟨.hbm, 327, rfl⟩
abbrev main_v254 : Ref sig .tc := ⟨.hbm, 328, rfl⟩
abbrev main_cst_41 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_v259 : Ref sig .tc := ⟨.hbm, 334, rfl⟩
abbrev main_v260 : Ref sig .tc := ⟨.hbm, 335, rfl⟩
abbrev main_v261 : Ref sig .tc := ⟨.hbm, 336, rfl⟩
abbrev main_c_42 : Ref sig .tc := ⟨.hbm, 337, rfl⟩
abbrev main_v262 : Ref sig .tc := ⟨.hbm, 338, rfl⟩
abbrev main_v263 : Ref sig .tc := ⟨.hbm, 339, rfl⟩
abbrev main_c_43 : Ref sig .tc := ⟨.hbm, 340, rfl⟩
abbrev main_v264 : Ref sig .tc := ⟨.hbm, 341, rfl⟩
abbrev main_v265 : Ref sig .tc := ⟨.hbm, 342, rfl⟩
abbrev main_v266 : Ref sig .tc := ⟨.hbm, 343, rfl⟩
abbrev main_v267 : Ref sig .tc := ⟨.hbm, 344, rfl⟩
abbrev main_v268 : Ref sig .tc := ⟨.hbm, 345, rfl⟩
abbrev main_cst_44 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_v274 : Ref sig .tc := ⟨.hbm, 352, rfl⟩
abbrev main_v275 : Ref sig .tc := ⟨.hbm, 353, rfl⟩
abbrev main_v276 : Ref sig .tc := ⟨.hbm, 354, rfl⟩
abbrev main_v277 : Ref sig .tc := ⟨.hbm, 355, rfl⟩
abbrev main_v278 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_v283 : Ref sig .tc := ⟨.hbm, 361, rfl⟩
abbrev main_v284 : Ref sig .tc := ⟨.hbm, 362, rfl⟩
abbrev main_v285 : Ref sig .tc := ⟨.hbm, 363, rfl⟩
abbrev main_v286 : Ref sig .tc := ⟨.hbm, 364, rfl⟩
abbrev main_c_45 : Ref sig .tc := ⟨.hbm, 365, rfl⟩
abbrev main_v287 : Ref sig .tc := ⟨.hbm, 366, rfl⟩
abbrev main_v288 : Ref sig .tc := ⟨.hbm, 367, rfl⟩
abbrev main_c_46 : Ref sig .tc := ⟨.hbm, 368, rfl⟩
abbrev main_v289 : Ref sig .tc := ⟨.hbm, 369, rfl⟩
abbrev main_v290 : Ref sig .tc := ⟨.hbm, 370, rfl⟩
abbrev main_v291 : Ref sig .tc := ⟨.hbm, 371, rfl⟩
abbrev main_v292 : Ref sig .tc := ⟨.hbm, 372, rfl⟩
abbrev main_v293 : Ref sig .tc := ⟨.hbm, 373, rfl⟩
abbrev main_cst_47 : Ref sig .tc := ⟨.hbm, 374, rfl⟩
abbrev main_v294 : Ref sig .tc := ⟨.hbm, 375, rfl⟩
abbrev main_v295 : Ref sig .tc := ⟨.hbm, 376, rfl⟩
abbrev main_v296 : Ref sig .tc := ⟨.hbm, 377, rfl⟩
abbrev main_v297 : Ref sig .tc := ⟨.hbm, 378, rfl⟩
abbrev main_v298 : Ref sig .tc := ⟨.hbm, 379, rfl⟩
abbrev main_v299 : Ref sig .tc := ⟨.hbm, 380, rfl⟩
abbrev main_v300 : Ref sig .tc := ⟨.hbm, 381, rfl⟩
abbrev main_v301 : Ref sig .tc := ⟨.hbm, 382, rfl⟩
abbrev main_v302 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_v309 : Ref sig .tc := ⟨.hbm, 390, rfl⟩
abbrev main_v310 : Ref sig .tc := ⟨.hbm, 391, rfl⟩
abbrev main_v311 : Ref sig .tc := ⟨.hbm, 392, rfl⟩
abbrev main_c_48 : Ref sig .tc := ⟨.hbm, 393, rfl⟩
abbrev main_v312 : Ref sig .tc := ⟨.hbm, 394, rfl⟩
abbrev main_v313 : Ref sig .tc := ⟨.hbm, 395, rfl⟩
abbrev main_c_49 : Ref sig .tc := ⟨.hbm, 396, rfl⟩
abbrev main_v314 : Ref sig .tc := ⟨.hbm, 397, rfl⟩
abbrev main_v315 : Ref sig .tc := ⟨.hbm, 398, rfl⟩
abbrev main_v316 : Ref sig .tc := ⟨.hbm, 399, rfl⟩
abbrev main_v317 : Ref sig .tc := ⟨.hbm, 400, rfl⟩
abbrev main_v318 : Ref sig .tc := ⟨.hbm, 401, rfl⟩
abbrev main_cst_50 : Ref sig .tc := ⟨.hbm, 402, rfl⟩
abbrev main_v319 : Ref sig .tc := ⟨.hbm, 403, rfl⟩
abbrev main_v320 : Ref sig .tc := ⟨.hbm, 404, rfl⟩
abbrev main_v321 : Ref sig .tc := ⟨.hbm, 405, rfl⟩
abbrev main_v322 : Ref sig .tc := ⟨.hbm, 406, rfl⟩
abbrev main_v323 : Ref sig .tc := ⟨.hbm, 407, rfl⟩
abbrev main_v324 : Ref sig .tc := ⟨.hbm, 408, rfl⟩
abbrev main_v325 : Ref sig .tc := ⟨.hbm, 409, rfl⟩
abbrev main_v326 : Ref sig .tc := ⟨.hbm, 410, rfl⟩
abbrev main_v327 : Ref sig .tc := ⟨.hbm, 411, rfl⟩
abbrev main_v328 : Ref sig .tc := ⟨.hbm, 412, rfl⟩
abbrev main_v329 : Ref sig .tc := ⟨.hbm, 413, rfl⟩
abbrev main_v330 : Ref sig .tc := ⟨.hbm, 414, rfl⟩
abbrev main_v331 : Ref sig .tc := ⟨.hbm, 415, rfl⟩
abbrev main_v332 : Ref sig .tc := ⟨.hbm, 416, rfl⟩
abbrev main_v333 : Ref sig .tc := ⟨.hbm, 417, rfl⟩
abbrev main_v334 : Ref sig .tc := ⟨.hbm, 418, rfl⟩
abbrev main_v335 : Ref sig .tc := ⟨.hbm, 419, rfl⟩
abbrev main_v336 : Ref sig .tc := ⟨.hbm, 420, rfl⟩
abbrev main_v337 : Ref sig .tc := ⟨.hbm, 421, rfl⟩
abbrev main_v338 : Ref sig .tc := ⟨.hbm, 422, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  slices_S3x3x128x128_S1x1x128x128_0_0_0_0 : S3x3x128x128.Slices ![0, 0, 0, 0] S1x1x128x128
  shapeCasts_S1x1x128x128_S128x128 : S1x1x128x128.ShapeCasts S128x128
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x3x128_S1x1x128_0_0_0 : S3x3x128.Slices ![0, 0, 0] S1x1x128
  shapeCasts_S1x1x128_S128 : S1x1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x3x128x128_S1x1x128x128_0_1_0_0 : S3x3x128x128.Slices ![0, 1, 0, 0] S1x1x128x128
  slices_S3x3x128_S1x1x128_0_1_0 : S3x3x128.Slices ![0, 1, 0] S1x1x128
  slices_S3x3x128x128_S1x1x128x128_0_2_0_0 : S3x3x128x128.Slices ![0, 2, 0, 0] S1x1x128x128
  slices_S3x3x128_S1x1x128_0_2_0 : S3x3x128.Slices ![0, 2, 0] S1x1x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S2x128_S1x128_0_0 : S2x128.Slices ![0, 0] S1x128
  bcast_S_S128 : S_.BroadcastsInDim S128 (![] : Fin 0 → Fin S128.rank)
  slices_S3x3x128x128_S1x1x128x128_1_0_0_0 : S3x3x128x128.Slices ![1, 0, 0, 0] S1x1x128x128
  slices_S3x3x128_S1x1x128_1_0_0 : S3x3x128.Slices ![1, 0, 0] S1x1x128
  slices_S3x3x128x128_S1x1x128x128_1_1_0_0 : S3x3x128x128.Slices ![1, 1, 0, 0] S1x1x128x128
  slices_S3x3x128_S1x1x128_1_1_0 : S3x3x128.Slices ![1, 1, 0] S1x1x128
  slices_S3x3x128x128_S1x1x128x128_1_2_0_0 : S3x3x128x128.Slices ![1, 2, 0, 0] S1x1x128x128
  slices_S3x3x128_S1x1x128_1_2_0 : S3x3x128.Slices ![1, 2, 0] S1x1x128
  slices_S3x128x128_S1x128x128_1_0_0 : S3x128x128.Slices ![1, 0, 0] S1x128x128
  slices_S3x128_S1x128_1_0 : S3x128.Slices ![1, 0] S1x128
  slices_S2x128_S1x128_1_0 : S2x128.Slices ![1, 0] S1x128
  slices_S3x3x128x128_S1x1x128x128_2_0_0_0 : S3x3x128x128.Slices ![2, 0, 0, 0] S1x1x128x128
  slices_S3x3x128_S1x1x128_2_0_0 : S3x3x128.Slices ![2, 0, 0] S1x1x128
  slices_S3x3x128x128_S1x1x128x128_2_1_0_0 : S3x3x128x128.Slices ![2, 1, 0, 0] S1x1x128x128
  slices_S3x3x128_S1x1x128_2_1_0 : S3x3x128.Slices ![2, 1, 0] S1x1x128
  slices_S3x3x128x128_S1x1x128x128_2_2_0_0 : S3x3x128x128.Slices ![2, 2, 0, 0] S1x1x128x128
  slices_S3x3x128_S1x1x128_2_2_0 : S3x3x128.Slices ![2, 2, 0] S1x1x128
  slices_S3x128x128_S1x128x128_2_0_0 : S3x128x128.Slices ![2, 0, 0] S1x128x128
  slices_S3x128_S1x128_2_0 : S3x128.Slices ![2, 0] S1x128
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.FrameBits.R0.lean ====
/-
  Region 0 of the word-level kernel program: the first layer's relation transform. At every grid point the body reads a
  block of 2000 rows of the node features, the layer's three 128×128 relation weights and the three columns of
  out-degree norms for those rows, and stores, relation by relation, (rows · weight) scaled row-wise by the norm
  into the three slabs of its 3×2000×128 output block. The three stores tile the block, so what the output buffer
  holds after the body is the canonical contents of those three pieces, whatever it held before (the body also
  reads each slab before overwriting it; nothing depends on what it read).
  Everything here is stated at a parameter `V`, the buffer contents when the region is entered.
-/
import proofs.«143860_j29738353557974_1_alg».proof.Proof.Gen.Kernel.Launch
import proofs.«143860_j29738353557974_1_alg».proof.Proof.Gen.Kernel.Skeleton
import proofs.«143860_j29738353557974_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not the block was fetched there
    (where it was not, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

/-- The whole feature block, the whole weight block, the whole norm block. -/
abbrev rl0_0 : Rect S2000x128 := Rect.unit (s := S2000x128) ![0, 0] S2000x128.size inb_S2000x128_S2000x128_0_0
abbrev rl0_1 : Rect S3x128x128 := Rect.unit (s := S3x128x128) ![0, 0, 0] S3x128x128.size inb_S3x128x128_S3x128x128_0_0_0
abbrev rl0_2 : Rect S3x2000x1 := Rect.unit (s := S3x2000x1) ![0, 0, 0] S3x2000x1.size inb_S3x2000x1_S3x2000x1_0_0_0
/-- Slab `r` of the output block: relation `r`'s 2000×128 messages. -/
abbrev rs0_0 : Rect S3x2000x128 := Rect.unit (s := S3x2000x128) ![0, 0, 0] S1x2000x128.size inb_S3x2000x128_S1x2000x128_0_0_0
abbrev rs0_1 : Rect S3x2000x128 := Rect.unit (s := S3x2000x128) ![1, 0, 0] S1x2000x128.size inb_S3x2000x128_S1x2000x128_1_0_0
abbrev rs0_2 : Rect S3x2000x128 := Rect.unit (s := S3x2000x128) ![2, 0, 0] S1x2000x128.size inb_S3x2000x128_S1x2000x128_2_0_0

/-- What the output buffer holds after the body, from the three input blocks: the three slab stores as pieces,
    last store first. -/
def out0_3 (x0 : Vec F S2000x128 .f32) (x1 : Vec F S3x128x128 .f32) (x2 : Vec F S3x2000x1 .f32) : Vec F S3x2000x128 .f32 :=
  View.canon [⟨rs0_2, k0_pay1 (k0_pay7 (View.ld x0 rl0_0) (View.ld x1 rl0_1) (View.ld x2 rl0_2))⟩,
    ⟨rs0_1, k0_pay6 (View.ld x0 rl0_0) (View.ld x1 rl0_1) (View.ld x2 rl0_2)⟩,
    ⟨rs0_0, k0_pay5 (View.ld x0 rl0_0) (View.ld x1 rl0_1) (View.ld x2 rl0_2)⟩]

/-- The three slabs tile the output block. -/
theorem cover0_3 (p0 p1 p2 : Vec F S1x2000x128 .f32) (y : S3x2000x128.Idx) :
    ∃ pc ∈ ([⟨rs0_2, p0⟩, ⟨rs0_1, p1⟩, ⟨rs0_0, p2⟩] : List (View.Piece (Elt F) S3x2000x128 .f32)), y ∈ pc.1.set :=
  View.cover_of_tiled [⟨rs0_2, p0⟩, ⟨rs0_1, p1⟩, ⟨rs0_0, p2⟩] S1x2000x128.size (by rfl) y

set_option maxHeartbeats 1000000 in
/-- The body on whole staging memrefs — the inputs' at read contents `x0 x1 x2`, the output's at anything — runs to a
    continuation holding the inputs as they were and the output at `out0_3` of the inputs. -/
theorem sound_kernel0 (c : Dev nD) (E : Set ℕ) (i : grid0.Coords)
    (arg1 : Memref sig .tc .vmem S2000x128 .f32) (harg1 : arg1.IsWhole) (arg2 : Memref sig .tc .vmem S3x128x128 .f32) (harg2 : arg2.IsWhole)
    (arg3 : Memref sig .tc .vmem S3x2000x1 .f32) (harg3 : arg3.IsWhole) (arg4 : Memref sig .tc .vmem S3x2000x128 .f32) (harg4 : arg4.IsWhole)
    (x0 : Vec F S2000x128 .f32) (x1 : Vec F S3x128x128 .f32) (x2 : Vec F S3x2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__relation_transform_kernel i arg1 harg1 arg2 harg2 arg3 harg3 arg4 harg4) K := by
  simp only [cc0__relation_transform_kernel_eq_skeleton]; unfold cc0__relation_transform_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _ _ _)

/-! ## The pipeline's proof data -/

/-- The arrays as the region finds them; after the body at point `t` each input's buffer at its block and the
    output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrameBits.R1.lean ====
import proofs.«143860_j29738353557974_1_alg».proof.Proof.Gen.Kernel.Launch
import proofs.«143860_j29738353557974_1_alg».proof.Proof.Gen.Kernel.Skeleton
import proofs.«143860_j29738353557974_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The body half of the frame argument for pipeline 1

The pipeline walks a grid of 50 points over ten windows: nine inputs and one output. Everything here is stated at a
parameter `V`, the contents of the core's buffers when the pipeline is entered.

* Each input window's staging buffer holds, at every point, the block of its array at that point. Two windows move
  with the point and are fetched at every point; seven have a constant block index, are fetched at the first point
  only, and keep their block from then on because the body never writes them.
* The body reads the nine input buffers whole, also reads the output buffer (a value it does not use), and then
  stores one vector over the whole output buffer. So the output buffer afterwards is a closed function of the nine
  input blocks, whatever it held before: the canonical contents of a single covering write.
-/

-- membership in a rectangle of long extents: the structural recursion goes once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is `V`'s
    and whose body leaves the block in place: at a point where it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same of input window 2, whose block index is constant: fetched once, kept since. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same of input window 3 (constant block index). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The same of input window 4 (constant block index). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- The same of input window 5 (constant block index). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- The same of input window 6 (constant block index). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- The same of input window 7 (constant block index). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- The same of input window 8 (constant block index). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole buffer -/

abbrev r1_a : Rect S3x2000x128 := Rect.unit (s := S3x2000x128) ![0, 0, 0] S3x2000x128.size inb_S3x2000x128_S3x2000x128_0_0_0
abbrev r1_b : Rect S3x2000x1 := Rect.unit (s := S3x2000x1) ![0, 0, 0] S3x2000x1.size inb_S3x2000x1_S3x2000x1_0_0_0
abbrev r1_c : Rect S3x128 := Rect.unit (s := S3x128) ![0, 0] S3x128.size inb_S3x128_S3x128_0_0
abbrev r1_d : Rect S128x128 := Rect.unit (s := S128x128) ![0, 0] S128x128.size inb_S128x128_S128x128_0_0
abbrev r1_e : Rect S1x128 := Rect.unit (s := S1x128) ![0, 0] S1x128.size inb_S1x128_S1x128_0_0
abbrev r1_o : Rect S2000x128 := Rect.unit (s := S2000x128) ![0, 0] S2000x128.size inb_S2000x128_S2000x128_0_0

/-! ## What the body leaves in the output window's buffer -/

/-- Window 9's staging buffer after the body, from the nine input blocks: its one store as a piece, the payload
    built from the loads of the inputs through the whole-buffer rectangles. -/
def out1_9 (x0 : Vec F S3x2000x128 .f32) (x1 : Vec F S3x2000x1 .f32) (x2 : Vec F S3x128 .f32) (x3 : Vec F S128x128 .f32)
    (x4 : Vec F S1x128 .f32) (x5 : Vec F S1x128 .f32) (x6 : Vec F S1x128 .f32) (x7 : Vec F S1x128 .f32) (x8 : Vec F S1x128 .f32) :
    Vec F S2000x128 .f32 :=
  View.canon [⟨r1_o, k1_pay1 (k1_pay2 (View.ld x3 r1_d)) (k1_pay3 (View.ld x4 r1_e)) (k1_pay4 (View.ld x0 r1_a) (View.ld x1 r1_b) (View.ld x2 r1_c))
    (View.ld x5 r1_e) (View.ld x6 r1_e) (View.ld x7 r1_e) (View.ld x8 r1_e)⟩]

/-- The one store is the whole buffer, so it covers it. -/
theorem cover1_9 (p0 : Vec F S2000x128 .f32) (y : S2000x128.Idx) :
    ∃ pc ∈ ([⟨r1_o, p0⟩] : List (View.Piece (Elt F) S2000x128 .f32)), y ∈ pc.1.set :=
  View.cover_of_tiled [⟨r1_o, p0⟩] S2000x128.size (by rfl) y

/-! ## The body's triple -/

set_option maxHeartbeats 1000000 in
/-- The kernel body on whole staging memrefs, the inputs' at read contents `x0 … x8` and the output's at anything,
    runs to the continuation holding the inputs' as they were and the output's at `out1_9` of the inputs': the printed
    function and its part are their skeletons, run one memory operation after another; the output buffer's last
    contents are the canonical contents of the store because the store covers the buffer. -/
theorem sound_kernel1 (c : Dev nD) (E : Set ℕ) (i : grid1.Coords)
    (arg0 : Memref sig .tc .vmem S3x2000x128 .f32) (harg0 : arg0.IsWhole) (arg1 : Memref sig .tc .vmem S3x2000x1 .f32) (harg1 : arg1.IsWhole)
    (arg2 : Memref sig .tc .vmem S3x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .vmem S2000x128 .f32) (harg9 : arg9.IsWhole)
    (x0 : Vec F S3x2000x128 .f32) (x1 : Vec F S3x2000x1 .f32) (x2 : Vec F S3x128 .f32) (x3 : Vec F S128x128 .f32)
    (x4 : Vec F S1x128 .f32) (x5 : Vec F S1x128 .f32) (x6 : Vec F S1x128 .f32) (x7 : Vec F S1x128 .f32) (x8 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ (∃ d, owns (c : Thread nD τ) arg9 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare (out1_9 x0 x1 x2 x3 x4 x5 x6 x7 x8)) -∗ K ⟨⟩))
      ⊢ wp frame (wpE (defs₀ (F := F)) Variants.none c none) E
          (cc1__combine_bn_kernel i arg0 harg0 arg1 harg1 arg2 harg2 arg3 harg3 arg4 harg4 arg5 harg5 arg6 harg6 arg7 harg7 arg8 harg8 arg9 harg9) K := by
  simp only [cc1__combine_bn_kernel_eq_skeleton]; unfold cc1__combine_bn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-! ## The pipeline's proof data -/

/-- The proof data of pipeline 1 on core `c`: the arrays as the pipeline finds them (`V`); after the body at point `t`
    each input's buffer at its block and the output's at `out1_9` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the entry contents (the definition projected). -/
theorem A_eq1 (c : Dev nD) (w : Fin cfg1.W) : (dat1 V c).A w = V c (Pipeline.arrRef spec1 w) := by
  dsimp only [dat1]

/-- What the body leaves, window by window (the definition's case split reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t =
    out1_9 (iblk1 V c 0 t) (iblk1 V c 1 t) (iblk1 V c 2 t) (iblk1 V c 3 t) (iblk1 V c 4 t) (iblk1 V c 5 t) (iblk1 V c 6 t) (iblk1 V c 7 t) (iblk1 V c 8 t) := by
  dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`: the invariant, the core's debts, and every window's current staging
    buffer at what it holds before the body, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.FrameBits.R2.lean ====
/-
  Region 2 of the word-level kernel program: the second layer's relation transform. At every grid point the body reads a
  block of 2000 rows of the node features, the layer's three 128×128 relation weights and the three columns of
  out-degree norms for those rows, and stores, relation by relation, (rows · weight) scaled row-wise by the norm
  into the three slabs of its 3×2000×128 output block. The three stores tile the block, so what the output buffer
  holds after the body is the canonical contents of those three pieces, whatever it held before (the body also
  reads each slab before overwriting it; nothing depends on what it read).
  Everything here is stated at a parameter `V`, the buffer contents when the region is entered.
-/
import proofs.«143860_j29738353557974_1_alg».proof.Proof.Gen.Kernel.Launch
import proofs.«143860_j29738353557974_1_alg».proof.Proof.Gen.Kernel.Skeleton
import proofs.«143860_j29738353557974_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether or not the block was fetched there
    (where it was not, the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes through -/

/-- The whole feature block, the whole weight block, the whole norm block. -/
abbrev rl2_0 : Rect S2000x128 := Rect.unit (s := S2000x128) ![0, 0] S2000x128.size inb_S2000x128_S2000x128_0_0
abbrev rl2_1 : Rect S3x128x128 := Rect.unit (s := S3x128x128) ![0, 0, 0] S3x128x128.size inb_S3x128x128_S3x128x128_0_0_0
abbrev rl2_2 : Rect S3x2000x1 := Rect.unit (s := S3x2000x1) ![0, 0, 0] S3x2000x1.size inb_S3x2000x1_S3x2000x1_0_0_0
/-- Slab `r` of the output block: relation `r`'s 2000×128 messages. -/
abbrev rs2_0 : Rect S3x2000x128 := Rect.unit (s := S3x2000x128) ![0, 0, 0] S1x2000x128.size inb_S3x2000x128_S1x2000x128_0_0_0
abbrev rs2_1 : Rect S3x2000x128 := Rect.unit (s := S3x2000x128) ![1, 0, 0] S1x2000x128.size inb_S3x2000x128_S1x2000x128_1_0_0
abbrev rs2_2 : Rect S3x2000x128 := Rect.unit (s := S3x2000x128) ![2, 0, 0] S1x2000x128.size inb_S3x2000x128_S1x2000x128_2_0_0

/-- What the output buffer holds after the body, from the three input blocks: the three slab stores as pieces,
    last store first. -/
def out2_3 (x0 : Vec F S2000x128 .f32) (x1 : Vec F S3x128x128 .f32) (x2 : Vec F S3x2000x1 .f32) : Vec F S3x2000x128 .f32 :=
  View.canon [⟨rs2_2, k2_pay1 (k2_pay7 (View.ld x0 rl2_0) (View.ld x1 rl2_1) (View.ld x2 rl2_2))⟩,
    ⟨rs2_1, k2_pay6 (View.ld x0 rl2_0) (View.ld x1 rl2_1) (View.ld x2 rl2_2)⟩,
    ⟨rs2_0, k2_pay5 (View.ld x0 rl2_0) (View.ld x1 rl2_1) (View.ld x2 rl2_2)⟩]

/-- The three slabs tile the output block. -/
theorem cover2_3 (p0 p1 p2 : Vec F S1x2000x128 .f32) (y : S3x2000x128.Idx) :
    ∃ pc ∈ ([⟨rs2_2, p0⟩, ⟨rs2_1, p1⟩, ⟨rs2_0, p2⟩] : List (View.Piece (Elt F) S3x2000x128 .f32)), y ∈ pc.1.set :=
  View.cover_of_tiled [⟨rs2_2, p0⟩, ⟨rs2_1, p1⟩, ⟨rs2_0, p2⟩] S1x2000x128.size (by rfl) y

set_option maxHeartbeats 1000000 in
/-- The body on whole staging memrefs — the inputs' at read contents `x0 x1 x2`, the output's at anything — runs to a
    continuation holding the inputs as they were and the output at `out2_3` of the inputs. -/
theorem sound_kernel2 (c : Dev nD) (E : Set ℕ) (i : grid2.Coords)
    (arg1 : Memref sig .tc .vmem S2000x128 .f32) (harg1 : arg1.IsWhole) (arg2 : Memref sig .tc .vmem S3x128x128 .f32) (harg2 : arg2.IsWhole)
    (arg3 : Memref sig .tc .vmem S3x2000x1 .f32) (harg3 : arg3.IsWhole) (arg4 : Memref sig .tc .vmem S3x2000x128 .f32) (harg4 : arg4.IsWhole)
    (x0 : Vec F S2000x128 .f32) (x1 : Vec F S3x128x128 .f32) (x2 : Vec F S3x2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__relation_transform_kernel i arg1 harg1 arg2 harg2 arg3 harg3 arg4 harg4) K := by
  simp only [cc2__relation_transform_kernel_eq_skeleton]; unfold cc2__relation_transform_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover2_3 _ _ _)

/-! ## The pipeline's proof data -/

/-- The arrays as the region finds them; after the body at point `t` each input's buffer at its block and the
    output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.FrameBits.R3.lean ====
import proofs.«143860_j29738353557974_1_alg».proof.Proof.Gen.Kernel.Launch
import proofs.«143860_j29738353557974_1_alg».proof.Proof.Gen.Kernel.Skeleton
import proofs.«143860_j29738353557974_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The body half of the frame argument for pipeline 3

The pipeline walks a grid of 50 points over ten windows: nine inputs and one output. Everything here is stated at a
parameter `V`, the contents of the core's buffers when the pipeline is entered.

* Each input window's staging buffer holds, at every point, the block of its array at that point. Two windows move
  with the point and are fetched at every point; seven have a constant block index, are fetched at the first point
  only, and keep their block from then on because the body never writes them.
* The body reads the nine input buffers whole, also reads the output buffer (a value it does not use), and then
  stores one vector over the whole output buffer. So the output buffer afterwards is a closed function of the nine
  input blocks, whatever it held before: the canonical contents of a single covering write.
-/

-- membership in a rectangle of long extents: the structural recursion goes once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is `V`'s
    and whose body leaves the block in place: at a point where it is not fetched the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same of input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The same of input window 2, whose block index is constant: fetched once, kept since. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- The same of input window 3 (constant block index). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- The same of input window 4 (constant block index). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- The same of input window 5 (constant block index). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- The same of input window 6 (constant block index). -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- The same of input window 7 (constant block index). -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- The same of input window 8 (constant block index). -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store go through the whole buffer -/

abbrev r3_a : Rect S3x2000x128 := Rect.unit (s := S3x2000x128) ![0, 0, 0] S3x2000x128.size inb_S3x2000x128_S3x2000x128_0_0_0
abbrev r3_b : Rect S3x2000x1 := Rect.unit (s := S3x2000x1) ![0, 0, 0] S3x2000x1.size inb_S3x2000x1_S3x2000x1_0_0_0
abbrev r3_c : Rect S3x128 := Rect.unit (s := S3x128) ![0, 0] S3x128.size inb_S3x128_S3x128_0_0
abbrev r3_d : Rect S128x128 := Rect.unit (s := S128x128) ![0, 0] S128x128.size inb_S128x128_S128x128_0_0
abbrev r3_e : Rect S1x128 := Rect.unit (s := S1x128) ![0, 0] S1x128.size inb_S1x128_S1x128_0_0
abbrev r3_o : Rect S2000x128 := Rect.unit (s := S2000x128) ![0, 0] S2000x128.size inb_S2000x128_S2000x128_0_0

/-! ## What the body leaves in the output window's buffer -/

/-- Window 9's staging buffer after the body, from the nine input blocks: its one store as a piece, the payload
    built from the loads of the inputs through the whole-buffer rectangles. -/
def out3_9 (x0 : Vec F S3x2000x128 .f32) (x1 : Vec F S3x2000x1 .f32) (x2 : Vec F S3x128 .f32) (x3 : Vec F S128x128 .f32)
    (x4 : Vec F S1x128 .f32) (x5 : Vec F S1x128 .f32) (x6 : Vec F S1x128 .f32) (x7 : Vec F S1x128 .f32) (x8 : Vec F S1x128 .f32) :
    Vec F S2000x128 .f32 :=
  View.canon [⟨r3_o, k3_pay1 (k3_pay2 (View.ld x3 r3_d)) (k3_pay3 (View.ld x4 r3_e)) (k3_pay4 (View.ld x0 r3_a) (View.ld x1 r3_b) (View.ld x2 r3_c))
    (View.ld x5 r3_e) (View.ld x6 r3_e) (View.ld x7 r3_e) (View.ld x8 r3_e)⟩]

/-- The one store is the whole buffer, so it covers it. -/
theorem cover3_9 (p0 : Vec F S2000x128 .f32) (y : S2000x128.Idx) :
    ∃ pc ∈ ([⟨r3_o, p0⟩] : List (View.Piece (Elt F) S2000x128 .f32)), y ∈ pc.1.set :=
  View.cover_of_tiled [⟨r3_o, p0⟩] S2000x128.size (by rfl) y

/-! ## The body's triple -/

set_option maxHeartbeats 1000000 in
/-- The kernel body on whole staging memrefs, the inputs' at read contents `x0 … x8` and the output's at anything,
    runs to the continuation holding the inputs' as they were and the output's at `out3_9` of the inputs': the printed
    function and its part are their skeletons, run one memory operation after another; the output buffer's last
    contents are the canonical contents of the store because the store covers the buffer. -/
theorem sound_kernel3 (c : Dev nD) (E : Set ℕ) (i : grid3.Coords)
    (arg0 : Memref sig .tc .vmem S3x2000x128 .f32) (harg0 : arg0.IsWhole) (arg1 : Memref sig .tc .vmem S3x2000x1 .f32) (harg1 : arg1.IsWhole)
    (arg2 : Memref sig .tc .vmem S3x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .vmem S2000x128 .f32) (harg9 : arg9.IsWhole)
    (x0 : Vec F S3x2000x128 .f32) (x1 : Vec F S3x2000x1 .f32) (x2 : Vec F S3x128 .f32) (x3 : Vec F S128x128 .f32)
    (x4 : Vec F S1x128 .f32) (x5 : Vec F S1x128 .f32) (x6 : Vec F S1x128 .f32) (x7 : Vec F S1x128 .f32) (x8 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ (∃ d, owns (c : Thread nD τ) arg9 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare (out3_9 x0 x1 x2 x3 x4 x5 x6 x7 x8)) -∗ K ⟨⟩))
      ⊢ wp frame (wpE (defs₀ (F := F)) Variants.none c none) E
          (cc3__combine_bn_kernel i arg0 harg0 arg1 harg1 arg2 harg2 arg3 harg3 arg4 harg4 arg5 harg5 arg6 harg6 arg7 harg7 arg8 harg8 arg9 harg9) K := by
  simp only [cc3__combine_bn_kernel_eq_skeleton]; unfold cc3__combine_bn_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover3_9 _)

/-! ## The pipeline's proof data -/

/-- The proof data of pipeline 3 on core `c`: the arrays as the pipeline finds them (`V`); after the body at point `t`
    each input's buffer at its block and the output's at `out3_9` of the input blocks; the invariant is the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

/-- The proof data's arrays are the entry contents (the definition projected). -/
theorem A_eq3 (c : Dev nD) (w : Fin cfg3.W) : (dat3 V c).A w = V c (Pipeline.arrRef spec3 w) := by
  dsimp only [dat3]

/-- What the body leaves, window by window (the definition's case split reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t =
    out3_9 (iblk3 V c 0 t) (iblk3 V c 1 t) (iblk3 V c 2 t) (iblk3 V c 3 t) (iblk3 V c 4 t) (iblk3 V c 5 t) (iblk3 V c 6 t) (iblk3 V c 7 t) (iblk3 V c 8 t) := by
  dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation, at a generic point -/

/-- What the body is called with at point `t`: the invariant, the core's debts, and every window's current staging
    buffer at what it holds before the body, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.FrameBits.R4.lean ====
/-
  Region 4 of the word-level kernel program: the third layer's relation transform. At every grid point the body reads a
  block of 2000 rows of the node features, the layer's three 128×128 relation weights and the three columns of
  out-degree norms for those rows, and stores, relation by relation, (rows · weight) scaled row-wise by the norm
  into the three slabs of its 3×2000×128 output block. The three stores tile the block, so what the output buffer
  holds after the body is the canonical contents of those three pieces, whatever it held before (the body also
  reads each slab before overwriting it; nothing depends on what it read).
  Everything here is stated at a parameter `V`, the buffer contents when the region is entered.
-/
import proofs.«143860_j29738353557974_1_alg».proof.Proof.Gen.Kernel.Launch
import proofs.«143860_j29738353557974_1_alg».proof.Proof.Gen.Kernel.Skeleton
import proofs.«143860_j29738353557974_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, whether or not the block was fetched there
    (where it was not, the block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes through -/

/-- The whole feature block, the whole weight block, the whole norm block. -/
abbrev rl4_0 : Rect S2000x128 := Rect.unit (s := S2000x128) ![0, 0] S2000x128.size inb_S2000x128_S2000x128_0_0
abbrev rl4_1 : Rect S3x128x128 := Rect.unit (s := S3x128x128) ![0, 0, 0] S3x128x128.size inb_S3x128x128_S3x128x128_0_0_0
abbrev rl4_2 : Rect S3x2000x1 := Rect.unit (s := S3x2000x1) ![0, 0, 0] S3x2000x1.size inb_S3x2000x1_S3x2000x1_0_0_0
/-- Slab `r` of the output block: relation `r`'s 2000×128 messages. -/
abbrev rs4_0 : Rect S3x2000x128 := Rect.unit (s := S3x2000x128) ![0, 0, 0] S1x2000x128.size inb_S3x2000x128_S1x2000x128_0_0_0
abbrev rs4_1 : Rect S3x2000x128 := Rect.unit (s := S3x2000x128) ![1, 0, 0] S1x2000x128.size inb_S3x2000x128_S1x2000x128_1_0_0
abbrev rs4_2 : Rect S3x2000x128 := Rect.unit (s := S3x2000x128) ![2, 0, 0] S1x2000x128.size inb_S3x2000x128_S1x2000x128_2_0_0

/-- What the output buffer holds after the body, from the three input blocks: the three slab stores as pieces,
    last store first. -/
def out4_3 (x0 : Vec F S2000x128 .f32) (x1 : Vec F S3x128x128 .f32) (x2 : Vec F S3x2000x1 .f32) : Vec F S3x2000x128 .f32 :=
  View.canon [⟨rs4_2, k4_pay1 (k4_pay7 (View.ld x0 rl4_0) (View.ld x1 rl4_1) (View.ld x2 rl4_2))⟩,
    ⟨rs4_1, k4_pay6 (View.ld x0 rl4_0) (View.ld x1 rl4_1) (View.ld x2 rl4_2)⟩,
    ⟨rs4_0, k4_pay5 (View.ld x0 rl4_0) (View.ld x1 rl4_1) (View.ld x2 rl4_2)⟩]

/-- The three slabs tile the output block. -/
theorem cover4_3 (p0 p1 p2 : Vec F S1x2000x128 .f32) (y : S3x2000x128.Idx) :
    ∃ pc ∈ ([⟨rs4_2, p0⟩, ⟨rs4_1, p1⟩, ⟨rs4_0, p2⟩] : List (View.Piece (Elt F) S3x2000x128 .f32)), y ∈ pc.1.set :=
  View.cover_of_tiled [⟨rs4_2, p0⟩, ⟨rs4_1, p1⟩, ⟨rs4_0, p2⟩] S1x2000x128.size (by rfl) y

set_option maxHeartbeats 1000000 in
/-- The body on whole staging memrefs — the inputs' at read contents `x0 x1 x2`, the output's at anything — runs to a
    continuation holding the inputs as they were and the output at `out4_3` of the inputs. -/
theorem sound_kernel4 (c : Dev nD) (E : Set ℕ) (i : grid4.Coords)
    (arg1 : Memref sig .tc .vmem S2000x128 .f32) (harg1 : arg1.IsWhole) (arg2 : Memref sig .tc .vmem S3x128x128 .f32) (harg2 : arg2.IsWhole)
    (arg3 : Memref sig .tc .vmem S3x2000x1 .f32) (harg3 : arg3.IsWhole) (arg4 : Memref sig .tc .vmem S3x2000x128 .f32) (harg4 : arg4.IsWhole)
    (x0 : Vec F S2000x128 .f32) (x1 : Vec F S3x128x128 .f32) (x2 : Vec F S3x2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__relation_transform_kernel i arg1 harg1 arg2 harg2 arg3 harg3 arg4 harg4) K := by
  simp only [cc4__relation_transform_kernel_eq_skeleton]; unfold cc4__relation_transform_kernel_skel
  simp only [k4_part1_eq_skeleton]; unfold k4_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover4_3 _ _ _)

/-! ## The pipeline's proof data -/

/-- The arrays as the region finds them; after the body at point `t` each input's buffer at its block and the
    output's at `out4_3` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.FrameBits.R5.lean ====
import proofs.«143860_j29738353557974_1_alg».proof.Proof.Gen.Kernel.Launch
import proofs.«143860_j29738353557974_1_alg».proof.Proof.Gen.Kernel.Skeleton
import proofs.«143860_j29738353557974_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The body half of the frame argument for pipeline 5

The pipeline walks a grid of 50 points over six windows: five inputs and one output. Everything here is stated at a
parameter `V`, the contents of the core's buffers when the pipeline is entered.

* Each input window's staging buffer holds, at every point, the block of its array at that point. Two windows move
  with the point and are fetched at every point; three have a constant block index, are fetched at the first point
  only, and keep their block from then on because the body never writes them.
* The body reads the five input buffers whole, also reads the output buffer (a value it does not use), and then
  stores one vector over the whole output buffer. So the output buffer afterwards is a closed function of the five
  input blocks, whatever it held before: the canonical contents of a single covering write.
-/

-- membership in a rectangle of long extents: the structural recursion goes once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, for any proof data whose array is `V`'s
    and whose body leaves the block in place: at a point where it is not fetched the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The same of input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The same of input window 2, whose block index is constant: fetched once, kept since. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- The same of input window 3 (constant block index). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- The same of input window 4 (constant block index). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store go through the whole buffer -/

abbrev r5_a : Rect S3x2000x128 := Rect.unit (s := S3x2000x128) ![0, 0, 0] S3x2000x128.size inb_S3x2000x128_S3x2000x128_0_0_0
abbrev r5_b : Rect S3x2000x1 := Rect.unit (s := S3x2000x1) ![0, 0, 0] S3x2000x1.size inb_S3x2000x1_S3x2000x1_0_0_0
abbrev r5_c : Rect S3x128 := Rect.unit (s := S3x128) ![0, 0] S3x128.size inb_S3x128_S3x128_0_0
abbrev r5_d : Rect S128x128 := Rect.unit (s := S128x128) ![0, 0] S128x128.size inb_S128x128_S128x128_0_0
abbrev r5_e : Rect S1x128 := Rect.unit (s := S1x128) ![0, 0] S1x128.size inb_S1x128_S1x128_0_0
abbrev r5_o : Rect S2000x128 := Rect.unit (s := S2000x128) ![0, 0] S2000x128.size inb_S2000x128_S2000x128_0_0

/-! ## What the body leaves in the output window's buffer -/

/-- Window 5's staging buffer after the body, from the five input blocks: its one store as a piece, the payload
    built from the loads of the inputs through the whole-buffer rectangles. -/
def out5_5 (x0 : Vec F S3x2000x128 .f32) (x1 : Vec F S3x2000x1 .f32) (x2 : Vec F S3x128 .f32) (x3 : Vec F S128x128 .f32)
    (x4 : Vec F S1x128 .f32) : Vec F S2000x128 .f32 :=
  View.canon [⟨r5_o, k5_pay1 (k5_pay2 (View.ld x3 r5_d)) (k5_pay3 (View.ld x4 r5_e)) (k5_pay4 (View.ld x0 r5_a) (View.ld x1 r5_b) (View.ld x2 r5_c))⟩]

/-- The one store is the whole buffer, so it covers it. -/
theorem cover5_5 (p0 : Vec F S2000x128 .f32) (y : S2000x128.Idx) :
    ∃ pc ∈ ([⟨r5_o, p0⟩] : List (View.Piece (Elt F) S2000x128 .f32)), y ∈ pc.1.set :=
  View.cover_of_tiled [⟨r5_o, p0⟩] S2000x128.size (by rfl) y

/-! ## The body's triple -/

set_option maxHeartbeats 1000000 in
/-- The kernel body on whole staging memrefs, the inputs' at read contents `x0 … x4` and the output's at anything,
    runs to the continuation holding the inputs' as they were and the output's at `out5_5` of the inputs': the printed
    function and its part are their skeletons, run one memory operation after another; the output buffer's last
    contents are the canonical contents of the store because the store covers the buffer. -/
theorem sound_kernel5 (c : Dev nD) (E : Set ℕ) (i : grid5.Coords)
    (arg0 : Memref sig .tc .vmem S3x2000x128 .f32) (harg0 : arg0.IsWhole) (arg1 : Memref sig .tc .vmem S3x2000x1 .f32) (harg1 : arg1.IsWhole)
    (arg2 : Memref sig .tc .vmem S3x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S2000x128 .f32) (harg5 : arg5.IsWhole)
    (x0 : Vec F S3x2000x128 .f32) (x1 : Vec F S3x2000x1 .f32) (x2 : Vec F S3x128 .f32) (x3 : Vec F S128x128 .f32)
    (x4 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out5_5 x0 x1 x2 x3 x4)) -∗ K ⟨⟩))
      ⊢ wp frame (wpE (defs₀ (F := F)) Variants.none c none) E
          (cc5__combine_nobn_kernel i arg0 harg0 arg1 harg1 arg2 harg2 arg3 harg3 arg4 harg4 arg5 harg5) K := by
  simp only [cc5__combine_nobn_kernel_eq_skeleton]; unfold cc5__combine_nobn_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover5_5 _)

/-! ## The pipeline's proof data -/

/-- The proof data of pipeline 5 on core `c`: the arrays as the pipeline finds them (`V`); after the body at point `t`
    each input's buffer at its block and the output's at `out5_5` of the input blocks; the invariant is the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the entry contents (the definition projected). -/
theorem A_eq5 (c : Dev nD) (w : Fin cfg5.W) : (dat5 V c).A w = V c (Pipeline.arrRef spec5 w) := by
  dsimp only [dat5]

/-- What the body leaves, window by window (the definition's case split reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t =
    out5_5 (iblk5 V c 0 t) (iblk5 V c 1 t) (iblk5 V c 2 t) (iblk5 V c 3 t) (iblk5 V c 4 t) := by
  dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`: the invariant, the core's debts, and every window's current staging
    buffer at what it holds before the body, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.FrameBits.Run.lean ====
/-
  The run of the word-level kernel program's @main: thirteen stretches of host operations (the three relations' degree
  norms, stacked), then three layers, each a relation-transform region, a host stretch that gathers the transformed rows
  along the edges and adds them up per destination node, and a combine region. The buffer contents at each of the 24
  segment boundaries are a fold from the launch memory: a host stretch's operations applied in order; a region's arrays
  at what its write-backs leave, every other buffer as the region found it. Every weakly fair execution terminates with
  every unscoped buffer at the last boundary's contents; no host operation and no region writes an argument array, so
  each argument ends as launched.
-/
import proofs.«143860_j29738353557974_1_alg».proof.Proof.FrameBits.R0
import proofs.«143860_j29738353557974_1_alg».proof.Proof.FrameBits.R1
import proofs.«143860_j29738353557974_1_alg».proof.Proof.FrameBits.R2
import proofs.«143860_j29738353557974_1_alg».proof.Proof.FrameBits.R3
import proofs.«143860_j29738353557974_1_alg».proof.Proof.FrameBits.R4
import proofs.«143860_j29738353557974_1_alg».proof.Proof.FrameBits.R5

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev A0 : Dev nD → Valuation τ sig (Elt F) := fun c b => (s₀ m ρ).mem ((c : Dev nD), b)
abbrev A1 : Dev nD → Valuation τ sig (Elt F) := fun c => StableHlo.after hostOps0 (A0 m ρ c)
abbrev A2 : Dev nD → Valuation τ sig (Elt F) := fun c => StableHlo.after hostOps0_1 (A1 m ρ c)
abbrev A3 : Dev nD → Valuation τ sig (Elt F) := fun c => StableHlo.after hostOps0_2 (A2 m ρ c)
abbrev A4 : Dev nD → Valuation τ sig (Elt F) := fun c => StableHlo.after hostOps0_3 (A3 m ρ c)
abbrev A5 : Dev nD → Valuation τ sig (Elt F) := fun c => StableHlo.after hostOps0_4 (A4 m ρ c)
abbrev A6 : Dev nD → Valuation τ sig (Elt F) := fun c => StableHlo.after hostOps0_5 (A5 m ρ c)
abbrev A7 : Dev nD → Valuation τ sig (Elt F) := fun c => StableHlo.after hostOps0_6 (A6 m ρ c)
abbrev A8 : Dev nD → Valuation τ sig (Elt F) := fun c => StableHlo.after hostOps0_7 (A7 m ρ c)
abbrev A9 : Dev nD → Valuation τ sig (Elt F) := fun c => StableHlo.after hostOps0_8 (A8 m ρ c)
abbrev A10 : Dev nD → Valuation τ sig (Elt F) := fun c => StableHlo.after hostOps0_9 (A9 m ρ c)
abbrev A11 : Dev nD → Valuation τ sig (Elt F) := fun c => StableHlo.after hostOps0_10 (A10 m ρ c)
abbrev A12 : Dev nD → Valuation τ sig (Elt F) := fun c => StableHlo.after hostOps0_11 (A11 m ρ c)
/-- After the thirteenth stretch: what the first region is entered from. -/
abbrev EW0 : Dev nD → Valuation τ sig (Elt F) := fun c => StableHlo.after hostOps0_12 (A12 m ρ c)
/-- The same read at the TensorCore's references (what region 0's proof data take). -/
abbrev E0 : (c : Dev nD) → (b : Ref sig .tc) → Buf (Elt F) ((c : Thread nD τ).loc b) := fun c b => EW0 m ρ c b
/-- At region 0's exit: its arrays at what the pipeline leaves (the inputs as entered, the output's write-backs
    folded), every other buffer as entered. -/
def X0 (c : Dev nD) : Valuation τ sig (Elt F) :=
  Pipeline.withArrays spec0 c (EW0 m ρ c) fun w => (dat0 (E0 m ρ) c).arrAt w cfg0.N
theorem X0_arr (c : Dev nD) (w : Fin cfg0.W) :
    X0 m ρ c (Proc.devRef .tc (Pipeline.arrRef spec0 w)) = (dat0 (E0 m ρ) c).arrAt w cfg0.N := by
  unfold X0; exact Pipeline.withArrays_arr spec0 launch0.win.arr_inj c _ _ w
theorem X0_of_ne (c : Dev nD) (b : Ref sig .tc) (hb : ∀ w, Pipeline.arrRef spec0 w ≠ b) :
    X0 m ρ c (Proc.devRef .tc b) = EW0 m ρ c (Proc.devRef .tc b) := by
  unfold X0; exact Pipeline.withArrays_of_ne spec0 c _ _ b hb
abbrev XV0 : (c : Dev nD) → (b : Ref sig .tc) → Buf (Elt F) ((c : Thread nD τ).loc b) := fun c b => X0 m ρ c b
theorem hF0 (c : Dev nD) (w : Fin cfg0.W) : (dat0 (E0 m ρ) c).arrAt w cfg0.N = XV0 m ρ c (Pipeline.arrRef spec0 w) :=
  (X0_arr m ρ c w).symm
theorem hrest0 (c : Dev nD) : ∀ b, b ∉ Finset.univ.image (Pipeline.arrRef spec0) → XV0 m ρ c b = E0 m ρ c b :=
  fun b hb => X0_of_ne m ρ c b fun w e => hb (Finset.mem_image.mpr ⟨w, Finset.mem_univ _, e⟩)
/-- After the host stretch between regions 0 and 1: what region 1 is entered from. -/
abbrev EW1 : Dev nD → Valuation τ sig (Elt F) := fun c => StableHlo.after hostOps1 (X0 m ρ c)
/-- The same read at the TensorCore's references (what region 1's proof data take). -/
abbrev E1 : (c : Dev nD) → (b : Ref sig .tc) → Buf (Elt F) ((c : Thread nD τ).loc b) := fun c b => EW1 m ρ c b
/-- At region 1's exit: its arrays at what the pipeline leaves (the inputs as entered, the output's write-backs
    folded), every other buffer as entered. -/
def X1 (c : Dev nD) : Valuation τ sig (Elt F) :=
  Pipeline.withArrays spec1 c (EW1 m ρ c) fun w => (dat1 (E1 m ρ) c).arrAt w cfg1.N
theorem X1_arr (c : Dev nD) (w : Fin cfg1.W) :
    X1 m ρ c (Proc.devRef .tc (Pipeline.arrRef spec1 w)) = (dat1 (E1 m ρ) c).arrAt w cfg1.N := by
  unfold X1; exact Pipeline.withArrays_arr spec1 launch1.win.arr_inj c _ _ w
theorem X1_of_ne (c : Dev nD) (b : Ref sig .tc) (hb : ∀ w, Pipeline.arrRef spec1 w ≠ b) :
    X1 m ρ c (Proc.devRef .tc b) = EW1 m ρ c (Proc.devRef .tc b) := by
  unfold X1; exact Pipeline.withArrays_of_ne spec1 c _ _ b hb
abbrev XV1 : (c : Dev nD) → (b : Ref sig .tc) → Buf (Elt F) ((c : Thread nD τ).loc b) := fun c b => X1 m ρ c b
theorem hF1 (c : Dev nD) (w : Fin cfg1.W) : (dat1 (E1 m ρ) c).arrAt w cfg1.N = XV1 m ρ c (Pipeline.arrRef spec1 w) :=
  (X1_arr m ρ c w).symm
theorem hrest1 (c : Dev nD) : ∀ b, b ∉ Finset.univ.image (Pipeline.arrRef spec1) → XV1 m ρ c b = E1 m ρ c b :=
  fun b hb => X1_of_ne m ρ c b fun w e => hb (Finset.mem_image.mpr ⟨w, Finset.mem_univ _, e⟩)
/-- After the host stretch between regions 1 and 2: what region 2 is entered from. -/
abbrev EW2 : Dev nD → Valuation τ sig (Elt F) := fun c => StableHlo.after hostOps2 (X1 m ρ c)
/-- The same read at the TensorCore's references (what region 2's proof data take). -/
abbrev E2 : (c : Dev nD) → (b : Ref sig .tc) → Buf (Elt F) ((c : Thread nD τ).loc b) := fun c b => EW2 m ρ c b
/-- At region 2's exit: its arrays at what the pipeline leaves (the inputs as entered, the output's write-backs
    folded), every other buffer as entered. -/
def X2 (c : Dev nD) : Valuation τ sig (Elt F) :=
  Pipeline.withArrays spec2 c (EW2 m ρ c) fun w => (dat2 (E2 m ρ) c).arrAt w cfg2.N
theorem X2_arr (c : Dev nD) (w : Fin cfg2.W) :
    X2 m ρ c (Proc.devRef .tc (Pipeline.arrRef spec2 w)) = (dat2 (E2 m ρ) c).arrAt w cfg2.N := by
  unfold X2; exact Pipeline.withArrays_arr spec2 launch2.win.arr_inj c _ _ w
theorem X2_of_ne (c : Dev nD) (b : Ref sig .tc) (hb : ∀ w, Pipeline.arrRef spec2 w ≠ b) :
    X2 m ρ c (Proc.devRef .tc b) = EW2 m ρ c (Proc.devRef .tc b) := by
  unfold X2; exact Pipeline.withArrays_of_ne spec2 c _ _ b hb
abbrev XV2 : (c : Dev nD) → (b : Ref sig .tc) → Buf (Elt F) ((c : Thread nD τ).loc b) := fun c b => X2 m ρ c b
theorem hF2 (c : Dev nD) (w : Fin cfg2.W) : (dat2 (E2 m ρ) c).arrAt w cfg2.N = XV2 m ρ c (Pipeline.arrRef spec2 w) :=
  (X2_arr m ρ c w).symm
theorem hrest2 (c : Dev nD) : ∀ b, b ∉ Finset.univ.image (Pipeline.arrRef spec2) → XV2 m ρ c b = E2 m ρ c b :=
  fun b hb => X2_of_ne m ρ c b fun w e => hb (Finset.mem_image.mpr ⟨w, Finset.mem_univ _, e⟩)
/-- After the host stretch between regions 2 and 3: what region 3 is entered from. -/
abbrev EW3 : Dev nD → Valuation τ sig (Elt F) := fun c => StableHlo.after hostOps3 (X2 m ρ c)
/-- The same read at the TensorCore's references (what region 3's proof data take). -/
abbrev E3 : (c : Dev nD) → (b : Ref sig .tc) → Buf (Elt F) ((c : Thread nD τ).loc b) := fun c b => EW3 m ρ c b
/-- At region 3's exit: its arrays at what the pipeline leaves (the inputs as entered, the output's write-backs
    folded), every other buffer as entered. -/
def X3 (c : Dev nD) : Valuation τ sig (Elt F) :=
  Pipeline.withArrays spec3 c (EW3 m ρ c) fun w => (dat3 (E3 m ρ) c).arrAt w cfg3.N
theorem X3_arr (c : Dev nD) (w : Fin cfg3.W) :
    X3 m ρ c (Proc.devRef .tc (Pipeline.arrRef spec3 w)) = (dat3 (E3 m ρ) c).arrAt w cfg3.N := by
  unfold X3; exact Pipeline.withArrays_arr spec3 launch3.win.arr_inj c _ _ w
theorem X3_of_ne (c : Dev nD) (b : Ref sig .tc) (hb : ∀ w, Pipeline.arrRef spec3 w ≠ b) :
    X3 m ρ c (Proc.devRef .tc b) = EW3 m ρ c (Proc.devRef .tc b) := by
  unfold X3; exact Pipeline.withArrays_of_ne spec3 c _ _ b hb
abbrev XV3 : (c : Dev nD) → (b : Ref sig .tc) → Buf (Elt F) ((c : Thread nD τ).loc b) := fun c b => X3 m ρ c b
theorem hF3 (c : Dev nD) (w : Fin cfg3.W) : (dat3 (E3 m ρ) c).arrAt w cfg3.N = XV3 m ρ c (Pipeline.arrRef spec3 w) :=
  (X3_arr m ρ c w).symm
theorem hrest3 (c : Dev nD) : ∀ b, b ∉ Finset.univ.image (Pipeline.arrRef spec3) → XV3 m ρ c b = E3 m ρ c b :=
  fun b hb => X3_of_ne m ρ c b fun w e => hb (Finset.mem_image.mpr ⟨w, Finset.mem_univ _, e⟩)
/-- After the host stretch between regions 3 and 4: what region 4 is entered from. -/
abbrev EW4 : Dev nD → Valuation τ sig (Elt F) := fun c => StableHlo.after hostOps4 (X3 m ρ c)
/-- The same read at the TensorCore's references (what region 4's proof data take). -/
abbrev E4 : (c : Dev nD) → (b : Ref sig .tc) → Buf (Elt F) ((c : Thread nD τ).loc b) := fun c b => EW4 m ρ c b
/-- At region 4's exit: its arrays at what the pipeline leaves (the inputs as entered, the output's write-backs
    folded), every other buffer as entered. -/
def X4 (c : Dev nD) : Valuation τ sig (Elt F) :=
  Pipeline.withArrays spec4 c (EW4 m ρ c) fun w => (dat4 (E4 m ρ) c).arrAt w cfg4.N
theorem X4_arr (c : Dev nD) (w : Fin cfg4.W) :
    X4 m ρ c (Proc.devRef .tc (Pipeline.arrRef spec4 w)) = (dat4 (E4 m ρ) c).arrAt w cfg4.N := by
  unfold X4; exact Pipeline.withArrays_arr spec4 launch4.win.arr_inj c _ _ w
theorem X4_of_ne (c : Dev nD) (b : Ref sig .tc) (hb : ∀ w, Pipeline.arrRef spec4 w ≠ b) :
    X4 m ρ c (Proc.devRef .tc b) = EW4 m ρ c (Proc.devRef .tc b) := by
  unfold X4; exact Pipeline.withArrays_of_ne spec4 c _ _ b hb
abbrev XV4 : (c : Dev nD) → (b : Ref sig .tc) → Buf (Elt F) ((c : Thread nD τ).loc b) := fun c b => X4 m ρ c b
theorem hF4 (c : Dev nD) (w : Fin cfg4.W) : (dat4 (E4 m ρ) c).arrAt w cfg4.N = XV4 m ρ c (Pipeline.arrRef spec4 w) :=
  (X4_arr m ρ c w).symm
theorem hrest4 (c : Dev nD) : ∀ b, b ∉ Finset.univ.image (Pipeline.arrRef spec4) → XV4 m ρ c b = E4 m ρ c b :=
  fun b hb => X4_of_ne m ρ c b fun w e => hb (Finset.mem_image.mpr ⟨w, Finset.mem_univ _, e⟩)
/-- After the host stretch between regions 4 and 5: what region 5 is entered from. -/
abbrev EW5 : Dev nD → Valuation τ sig (Elt F) := fun c => StableHlo.after hostOps5 (X4 m ρ c)
/-- The same read at the TensorCore's references (what region 5's proof data take). -/
abbrev E5 : (c : Dev nD) → (b : Ref sig .tc) → Buf (Elt F) ((c : Thread nD τ).loc b) := fun c b => EW5 m ρ c b
/-- At region 5's exit: its arrays at what the pipeline leaves (the inputs as entered, the output's write-backs
    folded), every other buffer as entered. -/
def X5 (c : Dev nD) : Valuation τ sig (Elt F) :=
  Pipeline.withArrays spec5 c (EW5 m ρ c) fun w => (dat5 (E5 m ρ) c).arrAt w cfg5.N
theorem X5_arr (c : Dev nD) (w : Fin cfg5.W) :
    X5 m ρ c (Proc.devRef .tc (Pipeline.arrRef spec5 w)) = (dat5 (E5 m ρ) c).arrAt w cfg5.N := by
  unfold X5; exact Pipeline.withArrays_arr spec5 launch5.win.arr_inj c _ _ w
theorem X5_of_ne (c : Dev nD) (b : Ref sig .tc) (hb : ∀ w, Pipeline.arrRef spec5 w ≠ b) :
    X5 m ρ c (Proc.devRef .tc b) = EW5 m ρ c (Proc.devRef .tc b) := by
  unfold X5; exact Pipeline.withArrays_of_ne spec5 c _ _ b hb
abbrev XV5 : (c : Dev nD) → (b : Ref sig .tc) → Buf (Elt F) ((c : Thread nD τ).loc b) := fun c b => X5 m ρ c b
theorem hF5 (c : Dev nD) (w : Fin cfg5.W) : (dat5 (E5 m ρ) c).arrAt w cfg5.N = XV5 m ρ c (Pipeline.arrRef spec5 w) :=
  (X5_arr m ρ c w).symm
theorem hrest5 (c : Dev nD) : ∀ b, b ∉ Finset.univ.image (Pipeline.arrRef spec5) → XV5 m ρ c b = E5 m ρ c b :=
  fun b hb => X5_of_ne m ρ c b fun w e => hb (Finset.mem_image.mpr ⟨w, Finset.mem_univ _, e⟩)

/-! ## The proof data family and the thread state -/

/-- No pipeline has a prefetched table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
  | ⟨3, _⟩ => fun c => dat3 (E3 m ρ) c
  | ⟨4, _⟩ => fun c => dat4 (E4 m ρ) c
  | ⟨5, _⟩ => fun c => dat5 (E5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state, and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps0_3` allocates a buffer. -/
theorem hostOps0_3_fresh : (hostOps0_3 : List (HloOp τ sig (Elt F))).Forall fun op => op.fresh = ∅ := by
  simp only [List.Forall]; repeat' constructor
/-- No operation of `hostOps0_4` allocates a buffer. -/
theorem hostOps0_4_fresh : (hostOps0_4 : List (HloOp τ sig (Elt F))).Forall fun op => op.fresh = ∅ := by
  simp only [List.Forall]; repeat' constructor
/-- No operation of `hostOps0_5` allocates a buffer. -/
theorem hostOps0_5_fresh : (hostOps0_5 : List (HloOp τ sig (Elt F))).Forall fun op => op.fresh = ∅ := by
  simp only [List.Forall]; repeat' constructor
/-- No operation of `hostOps0_6` allocates a buffer. -/
theorem hostOps0_6_fresh : (hostOps0_6 : List (HloOp τ sig (Elt F))).Forall fun op => op.fresh = ∅ := by
  simp only [List.Forall]; repeat' constructor
/-- No operation of `hostOps0_7` allocates a buffer. -/
theorem hostOps0_7_fresh : (hostOps0_7 : List (HloOp τ sig (Elt F))).Forall fun op => op.fresh = ∅ := by
  simp only [List.Forall]; repeat' constructor
/-- No operation of `hostOps0_8` allocates a buffer. -/
theorem hostOps0_8_fresh : (hostOps0_8 : List (HloOp τ sig (Elt F))).Forall fun op => op.fresh = ∅ := by
  simp only [List.Forall]; repeat' constructor
/-- No operation of `hostOps0_9` allocates a buffer. -/
theorem hostOps0_9_fresh : (hostOps0_9 : List (HloOp τ sig (Elt F))).Forall fun op => op.fresh = ∅ := by
  simp only [List.Forall]; repeat' constructor
/-- No operation of `hostOps0_10` allocates a buffer. -/
theorem hostOps0_10_fresh : (hostOps0_10 : List (HloOp τ sig (Elt F))).Forall fun op => op.fresh = ∅ := by
  simp only [List.Forall]; repeat' constructor
/-- No operation of `hostOps0_11` allocates a buffer. -/
theorem hostOps0_11_fresh : (hostOps0_11 : List (HloOp τ sig (Elt F))).Forall fun op => op.fresh = ∅ := by
  simp only [List.Forall]; repeat' constructor
/-- No operation of `hostOps0_12` allocates a buffer. -/
theorem hostOps0_12_fresh : (hostOps0_12 : List (HloOp τ sig (Elt F))).Forall fun op => op.fresh = ∅ := by
  simp only [List.Forall]; repeat' constructor
set_option maxHeartbeats 4000000 in
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
set_option maxHeartbeats 4000000 in
/-- No operation of `hostOps3` allocates a buffer. -/
theorem hostOps3_fresh : (hostOps3 : List (HloOp τ sig (Elt F))).Forall fun op => op.fresh = ∅ := by
  simp only [List.Forall]; repeat' constructor
/-- No operation of `hostOps4` allocates a buffer. -/
theorem hostOps4_fresh : (hostOps4 : List (HloOp τ sig (Elt F))).Forall fun op => op.fresh = ∅ := by
  simp only [List.Forall]; repeat' constructor
set_option maxHeartbeats 4000000 in
/-- No operation of `hostOps5` allocates a buffer. -/
theorem hostOps5_fresh : (hostOps5 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (X5 m ρ c) ∗ ∃ r, prngReg c r)

/-! ## The regions as segments -/

set_option backward.isDefEq.respectTransparency.types false in
/-- Region 0 over the thread state: entered from every unscoped buffer at `EW0`, left at `X0`. Its arrays are
    split out of the unscoped buffers and put back at the exit contents; the generator register goes into the body's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (EW0 m ρ c) ∗ R c)
  post c := iprop(StableHlo.held (c : Thread nD τ) (Pipeline.ucRefs τ sig) (X0 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (XV0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `EW1`, left at `X1`. Its arrays are
    split out of the unscoped buffers and put back at the exit contents; the generator register goes into the body's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (EW1 m ρ c) ∗ R c)
  post c := iprop(StableHlo.held (c : Thread nD τ) (Pipeline.ucRefs τ sig) (X1 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (XV1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `EW2`, left at `X2`. Its arrays are
    split out of the unscoped buffers and put back at the exit contents; the generator register goes into the body's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (EW2 m ρ c) ∗ R c)
  post c := iprop(StableHlo.held (c : Thread nD τ) (Pipeline.ucRefs τ sig) (X2 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (XV2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `EW3`, left at `X3`. Its arrays are
    split out of the unscoped buffers and put back at the exit contents; the generator register goes into the body's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m ρ) c).loose
  hwaits := Pipeline.hwaits_of_owed_zero _ _ _ _ L lv 3 fun _ _ => rfl
  pre c := iprop(StableHlo.held (c : Thread nD τ) (Pipeline.ucRefs τ sig) (EW3 m ρ c) ∗ R c)
  post c := iprop(StableHlo.held (c : Thread nD τ) (Pipeline.ucRefs τ sig) (X3 m ρ c) ∗ R c)
  X c := iprop(∃ r, prngReg c r)
  Y c := iprop(∃ r, prngReg c r)
  Z c := Pipeline.unscopedRest (Ix := Unit) (Name := ℕ) (U := UR sig nD τ) (Lvl := ℕ) spec3 c (E3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E3 m ρ c) (XV3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `EW4`, left at `X4`. Its arrays are
    split out of the unscoped buffers and put back at the exit contents; the generator register goes into the body's
    invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E4 m ρ) c).loose
  hwaits := Pipeline.hwaits_of_owed_zero _ _ _ _ L lv 4 fun _ _ => rfl
  pre c := iprop(StableHlo.held (c : Thread nD τ) (Pipeline.ucRefs τ sig) (EW4 m ρ c) ∗ R c)
  post c := iprop(StableHlo.held (c : Thread nD τ) (Pipeline.ucRefs τ sig) (X4 m ρ c) ∗ R c)
  X c := iprop(∃ r, prngReg c r)
  Y c := iprop(∃ r, prngReg c r)
  Z c := Pipeline.unscopedRest (Ix := Unit) (Name := ℕ) (U := UR sig nD τ) (Lvl := ℕ) spec4 c (E4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (E4 m ρ c) (XV4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `EW5`, left at `X5`. Its arrays are
    split out of the unscoped buffers and put back at the exit contents; the generator register goes into the body's
    invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E5 m ρ) c).loose
  hwaits := Pipeline.hwaits_of_owed_zero _ _ _ _ L lv 5 fun _ _ => rfl
  pre c := iprop(StableHlo.held (c : Thread nD τ) (Pipeline.ucRefs τ sig) (EW5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (E5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (E5 m ρ c) (XV5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 24 segments in order: a host segment per stretch from its boundary's contents, a region per pallas_call. -/
abbrev segs : List (Pipeline.Seg (pcfgs (F := F)) adm (pdats m ρ) () defs₀ 𝒱₀ L lv) :=
  [
    .host (hseg hostOps0 hostOps0_sub hostOps0_fresh (A0 m ρ)),
    .host (hseg hostOps0_1 hostOps0_1_sub hostOps0_1_fresh (A1 m ρ)),
    .host (hseg hostOps0_2 hostOps0_2_sub hostOps0_2_fresh (A2 m ρ)),
    .host (hseg hostOps0_3 hostOps0_3_sub hostOps0_3_fresh (A3 m ρ)),
    .host (hseg hostOps0_4 hostOps0_4_sub hostOps0_4_fresh (A4 m ρ)),
    .host (hseg hostOps0_5 hostOps0_5_sub hostOps0_5_fresh (A5 m ρ)),
    .host (hseg hostOps0_6 hostOps0_6_sub hostOps0_6_fresh (A6 m ρ)),
    .host (hseg hostOps0_7 hostOps0_7_sub hostOps0_7_fresh (A7 m ρ)),
    .host (hseg hostOps0_8 hostOps0_8_sub hostOps0_8_fresh (A8 m ρ)),
    .host (hseg hostOps0_9 hostOps0_9_sub hostOps0_9_fresh (A9 m ρ)),
    .host (hseg hostOps0_10 hostOps0_10_sub hostOps0_10_fresh (A10 m ρ)),
    .host (hseg hostOps0_11 hostOps0_11_sub hostOps0_11_fresh (A11 m ρ)),
    .host (hseg hostOps0_12 hostOps0_12_sub hostOps0_12_fresh (A12 m ρ)),
    .region (reg0 m ρ),
    .host (hseg hostOps1 hostOps1_sub hostOps1_fresh (X0 m ρ)),
    .region (reg1 m ρ),
    .host (hseg hostOps2 hostOps2_sub hostOps2_fresh (X1 m ρ)),
    .region (reg2 m ρ),
    .host (hseg hostOps3 hostOps3_sub hostOps3_fresh (X2 m ρ)),
    .region (reg3 m ρ),
    .host (hseg hostOps4 hostOps4_sub hostOps4_fresh (X3 m ρ)),
    .region (reg4 m ρ),
    .host (hseg hostOps5 hostOps5_sub hostOps5_fresh (X4 m ρ)),
    .region (reg5 m ρ) ]

set_option maxHeartbeats 4000000 in
/-- @main is the run of the segments. -/
theorem main_run (c : Dev nD) : main (F := F) c = Pipeline.Seg.run (segs m ρ) := (main_chain c).trans (by chain_rfl)

set_option maxHeartbeats 4000000 in
set_option backward.isDefEq.respectTransparency.types false in
/-- THE RUN: from any memory with zero counters, every weakly fair execution of @main on the TensorCores terminates,
    nothing faulting, and every final state has every unscoped buffer at the last boundary's contents `X5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = X5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (A0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (A0 m ρ c)
        from Pipeline.unscopedBufs_held c (A0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X5 m ρ c b)
    (hfin := fun c s' => by
      iintro ⟨⟨Hh, -⟩, HSI⟩
      unfold StableHlo.held
      imodintro
      iapply (pointsTo_read_all (Pipeline.ucRefs τ sig) (fun b => (((c : Thread nD τ)).1, b)) (X5 m ρ c) s')
      isplitl [Hh] <;> iassumption)
    (hQ := fun s h => h)

/-! ## The arguments end as launched -/

/-- The fifteen argument arrays. -/
abbrev argRefs : List (Ref sig .tc) :=
  [main_arg0, main_arg1, main_arg2, main_arg3, main_arg4, main_arg5, main_arg6, main_arg7, main_arg8, main_arg9, main_arg10,
    main_arg11, main_arg12, main_arg13, main_arg14]
theorem ne_of_mem_args {b b' : Ref sig .tc} (hb : b ∈ argRefs) (hb' : b' ∉ argRefs) : b ≠ b' := fun e => hb' (e ▸ hb)

/-- No operation of `hostOps0` writes an argument array. -/
theorem keep_hostOps0 (W : Valuation τ sig (Elt F)) {b : Ref sig .tc} (hb : b ∈ argRefs) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_1` writes an argument array. -/
theorem keep_hostOps0_1 (W : Valuation τ sig (Elt F)) {b : Ref sig .tc} (hb : b ∈ argRefs) :
    StableHlo.after (hostOps0_1 (F := F)) W (Proc.devRef .tc b) = W (Proc.devRef .tc b) :=
  StableHlo.after_of_forall_not_mem (b := Proc.devRef .tc b) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_2` writes an argument array. -/
theorem keep_hostOps0_2 (W : Valuation τ sig (Elt F)) {b : Ref sig .tc} (hb : b ∈ argRefs) :
    StableHlo.after (hostOps0_2 (F := F)) W (Proc.devRef .tc b) = W (Proc.devRef .tc b) :=
  StableHlo.after_of_forall_not_mem (b := Proc.devRef .tc b) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_3` writes an argument array. -/
theorem keep_hostOps0_3 (W : Valuation τ sig (Elt F)) {b : Ref sig .tc} (hb : b ∈ argRefs) :
    StableHlo.after (hostOps0_3 (F := F)) W (Proc.devRef .tc b) = W (Proc.devRef .tc b) :=
  StableHlo.after_of_forall_not_mem (b := Proc.devRef .tc b) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_4` writes an argument array. -/
theorem keep_hostOps0_4 (W : Valuation τ sig (Elt F)) {b : Ref sig .tc} (hb : b ∈ argRefs) :
    StableHlo.after (hostOps0_4 (F := F)) W (Proc.devRef .tc b) = W (Proc.devRef .tc b) :=
  StableHlo.after_of_forall_not_mem (b := Proc.devRef .tc b) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_5` writes an argument array. -/
theorem keep_hostOps0_5 (W : Valuation τ sig (Elt F)) {b : Ref sig .tc} (hb : b ∈ argRefs) :
    StableHlo.after (hostOps0_5 (F := F)) W (Proc.devRef .tc b) = W (Proc.devRef .tc b) :=
  StableHlo.after_of_forall_not_mem (b := Proc.devRef .tc b) _ _ (List.forall_iff_forall_mem.mp (by
    simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_6` writes an argument array. -/
theorem keep_hostOps0_6 (W : Valuation τ sig (Elt F)) {b : Ref sig .tc} (hb : b ∈ argRefs) :
    StableHlo.after (hostOps0_6 (F := F)) W (Proc.devRef .tc b) = W (Proc.devRef .tc b) :=
  StableHlo.after_of_forall_not_mem (b := Proc.devRef .tc b) _ _ (List.forall_iff_forall_mem.mp (by
    simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_7` writes an argument array. -/
theorem keep_hostOps0_7 (W : Valuation τ sig (Elt F)) {b : Ref sig .tc} (hb : b ∈ argRefs) :
    StableHlo.after (hostOps0_7 (F := F)) W (Proc.devRef .tc b) = W (Proc.devRef .tc b) :=
  StableHlo.after_of_forall_not_mem (b := Proc.devRef .tc b) _ _ (List.forall_iff_forall_mem.mp (by
    simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_8` writes an argument array. -/
theorem keep_hostOps0_8 (W : Valuation τ sig (Elt F)) {b : Ref sig .tc} (hb : b ∈ argRefs) :
    StableHlo.after (hostOps0_8 (F := F)) W (Proc.devRef .tc b) = W (Proc.devRef .tc b) :=
  StableHlo.after_of_forall_not_mem (b := Proc.devRef .tc b) _ _ (List.forall_iff_forall_mem.mp (by
    simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_9` writes an argument array. -/
theorem keep_hostOps0_9 (W : Valuation τ sig (Elt F)) {b : Ref sig .tc} (hb : b ∈ argRefs) :
    StableHlo.after (hostOps0_9 (F := F)) W (Proc.devRef .tc b) = W (Proc.devRef .tc b) :=
  StableHlo.after_of_forall_not_mem (b := Proc.devRef .tc b) _ _ (List.forall_iff_forall_mem.mp (by
    simp only [hostOps0_9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_10` writes an argument array. -/
theorem keep_hostOps0_10 (W : Valuation τ sig (Elt F)) {b : Ref sig .tc} (hb : b ∈ argRefs) :
    StableHlo.after (hostOps0_10 (F := F)) W (Proc.devRef .tc b) = W (Proc.devRef .tc b) :=
  StableHlo.after_of_forall_not_mem (b := Proc.devRef .tc b) _ _ (List.forall_iff_forall_mem.mp (by
    simp only [hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_11` writes an argument array. -/
theorem keep_hostOps0_11 (W : Valuation τ sig (Elt F)) {b : Ref sig .tc} (hb : b ∈ argRefs) :
    StableHlo.after (hostOps0_11 (F := F)) W (Proc.devRef .tc b) = W (Proc.devRef .tc b) :=
  StableHlo.after_of_forall_not_mem (b := Proc.devRef .tc b) _ _ (List.forall_iff_forall_mem.mp (by
    simp only [hostOps0_11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_12` writes an argument array. -/
theorem keep_hostOps0_12 (W : Valuation τ sig (Elt F)) {b : Ref sig .tc} (hb : b ∈ argRefs) :
    StableHlo.after (hostOps0_12 (F := F)) W (Proc.devRef .tc b) = W (Proc.devRef .tc b) :=
  StableHlo.after_of_forall_not_mem (b := Proc.devRef .tc b) _ _ (List.forall_iff_forall_mem.mp (by
    simp only [hostOps0_12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
set_option maxHeartbeats 4000000 in
/-- No operation of `hostOps1` writes an argument array. -/
theorem keep_hostOps1 (W : Valuation τ sig (Elt F)) {b : Ref sig .tc} (hb : b ∈ argRefs) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps2` writes an argument array. -/
theorem keep_hostOps2 (W : Valuation τ sig (Elt F)) {b : Ref sig .tc} (hb : b ∈ argRefs) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
set_option maxHeartbeats 4000000 in
/-- No operation of `hostOps3` writes an argument array. -/
theorem keep_hostOps3 (W : Valuation τ sig (Elt F)) {b : Ref sig .tc} (hb : b ∈ argRefs) :
    StableHlo.after (hostOps3 (F := F)) W (Proc.devRef .tc b) = W (Proc.devRef .tc b) :=
  StableHlo.after_of_forall_not_mem (b := Proc.devRef .tc b) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps4` writes an argument array. -/
theorem keep_hostOps4 (W : Valuation τ sig (Elt F)) {b : Ref sig .tc} (hb : b ∈ argRefs) :
    StableHlo.after (hostOps4 (F := F)) W (Proc.devRef .tc b) = W (Proc.devRef .tc b) :=
  StableHlo.after_of_forall_not_mem (b := Proc.devRef .tc b) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
set_option maxHeartbeats 4000000 in
/-- No operation of `hostOps5` writes an argument array. -/
theorem keep_hostOps5 (W : Valuation τ sig (Elt F)) {b : Ref sig .tc} (hb : b ∈ argRefs) :
    StableHlo.after (hostOps5 (F := F)) W (Proc.devRef .tc b) = W (Proc.devRef .tc b) :=
  StableHlo.after_of_forall_not_mem (b := Proc.devRef .tc b) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))

/-- Region 0 stages the first argument (the node features) through an input window and no other argument; an input
    array ends as entered. -/
theorem keep_reg0 (c : Dev nD) {b : Ref sig .tc} (hb : b ∈ argRefs) : X0 m ρ c (Proc.devRef .tc b) = EW0 m ρ c (Proc.devRef .tc b) := by
  by_cases h : ∀ w, Pipeline.arrRef spec0 w ≠ b
  · exact X0_of_ne m ρ c b h
  · obtain ⟨w, hw⟩ := not_forall.mp h
    have hw' : Pipeline.arrRef spec0 w = b := not_not.mp hw
    subst hw'
    have h0 : w = 0 := by revert hb; revert w; decide
    subst h0
    exact (X0_arr m ρ c 0).trans (((dat0 (E0 m ρ) c).arrAt_in 0 rfl _).trans (A_eq0 (E0 m ρ) c 0))
/-- Region 1 stages no argument array. -/
theorem keep_reg1 (c : Dev nD) {b : Ref sig .tc} (hb : b ∈ argRefs) : X1 m ρ c (Proc.devRef .tc b) = EW1 m ρ c (Proc.devRef .tc b) :=
  X1_of_ne m ρ c b fun w e => absurd (e ▸ hb) ((by decide : ∀ w, Pipeline.arrRef spec1 w ∉ argRefs) w)
/-- Region 2 stages no argument array. -/
theorem keep_reg2 (c : Dev nD) {b : Ref sig .tc} (hb : b ∈ argRefs) : X2 m ρ c (Proc.devRef .tc b) = EW2 m ρ c (Proc.devRef .tc b) :=
  X2_of_ne m ρ c b fun w e => absurd (e ▸ hb) ((by decide : ∀ w, Pipeline.arrRef spec2 w ∉ argRefs) w)
/-- Region 3 stages no argument array. -/
theorem keep_reg3 (c : Dev nD) {b : Ref sig .tc} (hb : b ∈ argRefs) : X3 m ρ c (Proc.devRef .tc b) = EW3 m ρ c (Proc.devRef .tc b) :=
  X3_of_ne m ρ c b fun w e => absurd (e ▸ hb) ((by decide : ∀ w, Pipeline.arrRef spec3 w ∉ argRefs) w)
/-- Region 4 stages no argument array. -/
theorem keep_reg4 (c : Dev nD) {b : Ref sig .tc} (hb : b ∈ argRefs) : X4 m ρ c (Proc.devRef .tc b) = EW4 m ρ c (Proc.devRef .tc b) :=
  X4_of_ne m ρ c b fun w e => absurd (e ▸ hb) ((by decide : ∀ w, Pipeline.arrRef spec4 w ∉ argRefs) w)
/-- Region 5 stages no argument array. -/
theorem keep_reg5 (c : Dev nD) {b : Ref sig .tc} (hb : b ∈ argRefs) : X5 m ρ c (Proc.devRef .tc b) = EW5 m ρ c (Proc.devRef .tc b) :=
  X5_of_ne m ρ c b fun w e => absurd (e ▸ hb) ((by decide : ∀ w, Pipeline.arrRef spec5 w ∉ argRefs) w)

/-- Each argument array reads, at the last boundary, what the launch memory held. -/
theorem X5_arg (c : Dev nD) {b : Ref sig .tc} (hb : b ∈ argRefs) : X5 m ρ c (Proc.devRef .tc b) = m ((c : Thread nD τ).loc b) :=
  calc X5 m ρ c (Proc.devRef .tc b)
    _ = EW5 m ρ c (Proc.devRef .tc b) := keep_reg5 m ρ c hb
    _ = X4 m ρ c (Proc.devRef .tc b) := keep_hostOps5 _ hb
    _ = EW4 m ρ c (Proc.devRef .tc b) := keep_reg4 m ρ c hb
    _ = X3 m ρ c (Proc.devRef .tc b) := keep_hostOps4 _ hb
    _ = EW3 m ρ c (Proc.devRef .tc b) := keep_reg3 m ρ c hb
    _ = X2 m ρ c (Proc.devRef .tc b) := keep_hostOps3 _ hb
    _ = EW2 m ρ c (Proc.devRef .tc b) := keep_reg2 m ρ c hb
    _ = X1 m ρ c (Proc.devRef .tc b) := keep_hostOps2 _ hb
    _ = EW1 m ρ c (Proc.devRef .tc b) := keep_reg1 m ρ c hb
    _ = X0 m ρ c (Proc.devRef .tc b) := keep_hostOps1 _ hb
    _ = EW0 m ρ c (Proc.devRef .tc b) := keep_reg0 m ρ c hb
    _ = A12 m ρ c (Proc.devRef .tc b) := keep_hostOps0_12 _ hb
    _ = A11 m ρ c (Proc.devRef .tc b) := keep_hostOps0_11 _ hb
    _ = A10 m ρ c (Proc.devRef .tc b) := keep_hostOps0_10 _ hb
    _ = A9 m ρ c (Proc.devRef .tc b) := keep_hostOps0_9 _ hb
    _ = A8 m ρ c (Proc.devRef .tc b) := keep_hostOps0_8 _ hb
    _ = A7 m ρ c (Proc.devRef .tc b) := keep_hostOps0_7 _ hb
    _ = A6 m ρ c (Proc.devRef .tc b) := keep_hostOps0_6 _ hb
    _ = A5 m ρ c (Proc.devRef .tc b) := keep_hostOps0_5 _ hb
    _ = A4 m ρ c (Proc.devRef .tc b) := keep_hostOps0_4 _ hb
    _ = A3 m ρ c (Proc.devRef .tc b) := keep_hostOps0_3 _ hb
    _ = A2 m ρ c (Proc.devRef .tc b) := keep_hostOps0_2 _ hb
    _ = A1 m ρ c (Proc.devRef .tc b) := keep_hostOps0_1 _ hb
    _ = A0 m ρ c (Proc.devRef .tc b) := keep_hostOps0 _ hb
    _ = m ((c : Thread nD τ).loc b) := rfl

/-- THE FRAME at any `F`: every weakly fair execution terminates, nothing faulting, and every argument array ends as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_arg0 (by decide))).trans (X5_arg m ρ c (by decide)),
      (h c _ (mem_uc main_arg1 (by decide))).trans (X5_arg m ρ c (by decide)),
      (h c _ (mem_uc main_arg2 (by decide))).trans (X5_arg m ρ c (by decide)),
      (h c _ (mem_uc main_arg3 (by decide))).trans (X5_arg m ρ c (by decide)),
      (h c _ (mem_uc main_arg4 (by decide))).trans (X5_arg m ρ c (by decide)),
      (h c _ (mem_uc main_arg5 (by decide))).trans (X5_arg m ρ c (by decide)),
      (h c _ (mem_uc main_arg6 (by decide))).trans (X5_arg m ρ c (by decide)),
      (h c _ (mem_uc main_arg7 (by decide))).trans (X5_arg m ρ c (by decide)),
      (h c _ (mem_uc main_arg8 (by decide))).trans (X5_arg m ρ c (by decide)),
      (h c _ (mem_uc main_arg9 (by decide))).trans (X5_arg m ρ c (by decide)),
      (h c _ (mem_uc main_arg10 (by decide))).trans (X5_arg m ρ c (by decide)),
      (h c _ (mem_uc main_arg11 (by decide))).trans (X5_arg m ρ c (by decide)),
      (h c _ (mem_uc main_arg12 (by decide))).trans (X5_arg m ρ c (by decide)),
      (h c _ (mem_uc main_arg13 (by decide))).trans (X5_arg m ρ c (by decide)),
      (h c _ (mem_uc main_arg14 (by decide))).trans (X5_arg m ρ c (by decide))⟩) (run_main m ρ)

end Cert.Kernel.Fr

end
-- ==== Proof.FrameIdeal.R0.lean ====
/-
  Region 0 of the idealized kernel program: the first layer's relation transform. At every grid point the body reads a
  block of 2000 rows of the node features, the layer's three 128×128 relation weights and the three columns of
  out-degree norms for those rows, and stores, relation by relation, (rows · weight) scaled row-wise by the norm
  into the three slabs of its 3×2000×128 output block. The three stores tile the block, so what the output buffer
  holds after the body is the canonical contents of those three pieces, whatever it held before (the body also
  reads each slab before overwriting it; nothing depends on what it read).
  Everything here is stated at a parameter `V`, the buffer contents when the region is entered.
-/
import proofs.«143860_j29738353557974_1_alg».proof.Proof.Gen.KernelIdeal.Launch
import proofs.«143860_j29738353557974_1_alg».proof.Proof.Gen.KernelIdeal.Skeleton
import proofs.«143860_j29738353557974_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not the block was fetched there
    (where it was not, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

/-- The whole feature block, the whole weight block, the whole norm block. -/
abbrev rl0_0 : Rect S2000x128 := Rect.unit (s := S2000x128) ![0, 0] S2000x128.size inb_S2000x128_S2000x128_0_0
abbrev rl0_1 : Rect S3x128x128 := Rect.unit (s := S3x128x128) ![0, 0, 0] S3x128x128.size inb_S3x128x128_S3x128x128_0_0_0
abbrev rl0_2 : Rect S3x2000x1 := Rect.unit (s := S3x2000x1) ![0, 0, 0] S3x2000x1.size inb_S3x2000x1_S3x2000x1_0_0_0
/-- Slab `r` of the output block: relation `r`'s 2000×128 messages. -/
abbrev rs0_0 : Rect S3x2000x128 := Rect.unit (s := S3x2000x128) ![0, 0, 0] S1x2000x128.size inb_S3x2000x128_S1x2000x128_0_0_0
abbrev rs0_1 : Rect S3x2000x128 := Rect.unit (s := S3x2000x128) ![1, 0, 0] S1x2000x128.size inb_S3x2000x128_S1x2000x128_1_0_0
abbrev rs0_2 : Rect S3x2000x128 := Rect.unit (s := S3x2000x128) ![2, 0, 0] S1x2000x128.size inb_S3x2000x128_S1x2000x128_2_0_0

/-- What the output buffer holds after the body, from the three input blocks: the three slab stores as pieces,
    last store first. -/
def out0_3 (x0 : Vec F S2000x128 .f32) (x1 : Vec F S3x128x128 .f32) (x2 : Vec F S3x2000x1 .f32) : Vec F S3x2000x128 .f32 :=
  View.canon [⟨rs0_2, k0_pay1 (k0_pay7 (View.ld x0 rl0_0) (View.ld x1 rl0_1) (View.ld x2 rl0_2))⟩,
    ⟨rs0_1, k0_pay6 (View.ld x0 rl0_0) (View.ld x1 rl0_1) (View.ld x2 rl0_2)⟩,
    ⟨rs0_0, k0_pay5 (View.ld x0 rl0_0) (View.ld x1 rl0_1) (View.ld x2 rl0_2)⟩]

/-- The three slabs tile the output block. -/
theorem cover0_3 (p0 p1 p2 : Vec F S1x2000x128 .f32) (y : S3x2000x128.Idx) :
    ∃ pc ∈ ([⟨rs0_2, p0⟩, ⟨rs0_1, p1⟩, ⟨rs0_0, p2⟩] : List (View.Piece (Elt F) S3x2000x128 .f32)), y ∈ pc.1.set :=
  View.cover_of_tiled [⟨rs0_2, p0⟩, ⟨rs0_1, p1⟩, ⟨rs0_0, p2⟩] S1x2000x128.size (by rfl) y

set_option maxHeartbeats 1000000 in
/-- The body on whole staging memrefs — the inputs' at read contents `x0 x1 x2`, the output's at anything — runs to a
    continuation holding the inputs as they were and the output at `out0_3` of the inputs. -/
theorem sound_kernel0 (c : Dev nD) (E : Set ℕ) (i : grid0.Coords)
    (arg1 : Memref sig .tc .vmem S2000x128 .f32) (harg1 : arg1.IsWhole) (arg2 : Memref sig .tc .vmem S3x128x128 .f32) (harg2 : arg2.IsWhole)
    (arg3 : Memref sig .tc .vmem S3x2000x1 .f32) (harg3 : arg3.IsWhole) (arg4 : Memref sig .tc .vmem S3x2000x128 .f32) (harg4 : arg4.IsWhole)
    (x0 : Vec F S2000x128 .f32) (x1 : Vec F S3x128x128 .f32) (x2 : Vec F S3x2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__relation_transform_kernel i arg1 harg1 arg2 harg2 arg3 harg3 arg4 harg4) K := by
  simp only [cc0__relation_transform_kernel_eq_skeleton]; unfold cc0__relation_transform_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _ _ _)

/-! ## The pipeline's proof data -/

/-- The arrays as the region finds them; after the body at point `t` each input's buffer at its block and the
    output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrameIdeal.R1.lean ====
import proofs.«143860_j29738353557974_1_alg».proof.Proof.Gen.KernelIdeal.Launch
import proofs.«143860_j29738353557974_1_alg».proof.Proof.Gen.KernelIdeal.Skeleton
import proofs.«143860_j29738353557974_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The body half of the frame argument for pipeline 1

The pipeline walks a grid of 50 points over ten windows: nine inputs and one output. Everything here is stated at a
parameter `V`, the contents of the core's buffers when the pipeline is entered.

* Each input window's staging buffer holds, at every point, the block of its array at that point. Two windows move
  with the point and are fetched at every point; seven have a constant block index, are fetched at the first point
  only, and keep their block from then on because the body never writes them.
* The body reads the nine input buffers whole, also reads the output buffer (a value it does not use), and then
  stores one vector over the whole output buffer. So the output buffer afterwards is a closed function of the nine
  input blocks, whatever it held before: the canonical contents of a single covering write.
-/

-- membership in a rectangle of long extents: the structural recursion goes once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is `V`'s
    and whose body leaves the block in place: at a point where it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same of input window 2, whose block index is constant: fetched once, kept since. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same of input window 3 (constant block index). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The same of input window 4 (constant block index). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- The same of input window 5 (constant block index). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- The same of input window 6 (constant block index). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- The same of input window 7 (constant block index). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- The same of input window 8 (constant block index). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole buffer -/

abbrev r1_a : Rect S3x2000x128 := Rect.unit (s := S3x2000x128) ![0, 0, 0] S3x2000x128.size inb_S3x2000x128_S3x2000x128_0_0_0
abbrev r1_b : Rect S3x2000x1 := Rect.unit (s := S3x2000x1) ![0, 0, 0] S3x2000x1.size inb_S3x2000x1_S3x2000x1_0_0_0
abbrev r1_c : Rect S3x128 := Rect.unit (s := S3x128) ![0, 0] S3x128.size inb_S3x128_S3x128_0_0
abbrev r1_d : Rect S128x128 := Rect.unit (s := S128x128) ![0, 0] S128x128.size inb_S128x128_S128x128_0_0
abbrev r1_e : Rect S1x128 := Rect.unit (s := S1x128) ![0, 0] S1x128.size inb_S1x128_S1x128_0_0
abbrev r1_o : Rect S2000x128 := Rect.unit (s := S2000x128) ![0, 0] S2000x128.size inb_S2000x128_S2000x128_0_0

/-! ## What the body leaves in the output window's buffer -/

/-- Window 9's staging buffer after the body, from the nine input blocks: its one store as a piece, the payload
    built from the loads of the inputs through the whole-buffer rectangles. -/
def out1_9 (x0 : Vec F S3x2000x128 .f32) (x1 : Vec F S3x2000x1 .f32) (x2 : Vec F S3x128 .f32) (x3 : Vec F S128x128 .f32)
    (x4 : Vec F S1x128 .f32) (x5 : Vec F S1x128 .f32) (x6 : Vec F S1x128 .f32) (x7 : Vec F S1x128 .f32) (x8 : Vec F S1x128 .f32) :
    Vec F S2000x128 .f32 :=
  View.canon [⟨r1_o, k1_pay1 (k1_pay2 (View.ld x3 r1_d)) (k1_pay3 (View.ld x4 r1_e)) (k1_pay4 (View.ld x0 r1_a) (View.ld x1 r1_b) (View.ld x2 r1_c))
    (View.ld x5 r1_e) (View.ld x6 r1_e) (View.ld x7 r1_e) (View.ld x8 r1_e)⟩]

/-- The one store is the whole buffer, so it covers it. -/
theorem cover1_9 (p0 : Vec F S2000x128 .f32) (y : S2000x128.Idx) :
    ∃ pc ∈ ([⟨r1_o, p0⟩] : List (View.Piece (Elt F) S2000x128 .f32)), y ∈ pc.1.set :=
  View.cover_of_tiled [⟨r1_o, p0⟩] S2000x128.size (by rfl) y

/-! ## The body's triple -/

set_option maxHeartbeats 1000000 in
/-- The kernel body on whole staging memrefs, the inputs' at read contents `x0 … x8` and the output's at anything,
    runs to the continuation holding the inputs' as they were and the output's at `out1_9` of the inputs': the printed
    function and its part are their skeletons, run one memory operation after another; the output buffer's last
    contents are the canonical contents of the store because the store covers the buffer. -/
theorem sound_kernel1 (c : Dev nD) (E : Set ℕ) (i : grid1.Coords)
    (arg0 : Memref sig .tc .vmem S3x2000x128 .f32) (harg0 : arg0.IsWhole) (arg1 : Memref sig .tc .vmem S3x2000x1 .f32) (harg1 : arg1.IsWhole)
    (arg2 : Memref sig .tc .vmem S3x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .vmem S2000x128 .f32) (harg9 : arg9.IsWhole)
    (x0 : Vec F S3x2000x128 .f32) (x1 : Vec F S3x2000x1 .f32) (x2 : Vec F S3x128 .f32) (x3 : Vec F S128x128 .f32)
    (x4 : Vec F S1x128 .f32) (x5 : Vec F S1x128 .f32) (x6 : Vec F S1x128 .f32) (x7 : Vec F S1x128 .f32) (x8 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ (∃ d, owns (c : Thread nD τ) arg9 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare (out1_9 x0 x1 x2 x3 x4 x5 x6 x7 x8)) -∗ K ⟨⟩))
      ⊢ wp frame (wpE (defs₀ (F := F)) Variants.none c none) E
          (cc1__combine_bn_kernel i arg0 harg0 arg1 harg1 arg2 harg2 arg3 harg3 arg4 harg4 arg5 harg5 arg6 harg6 arg7 harg7 arg8 harg8 arg9 harg9) K := by
  simp only [cc1__combine_bn_kernel_eq_skeleton]; unfold cc1__combine_bn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-! ## The pipeline's proof data -/

/-- The proof data of pipeline 1 on core `c`: the arrays as the pipeline finds them (`V`); after the body at point `t`
    each input's buffer at its block and the output's at `out1_9` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the entry contents (the definition projected). -/
theorem A_eq1 (c : Dev nD) (w : Fin cfg1.W) : (dat1 V c).A w = V c (Pipeline.arrRef spec1 w) := by
  dsimp only [dat1]

/-- What the body leaves, window by window (the definition's case split reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t =
    out1_9 (iblk1 V c 0 t) (iblk1 V c 1 t) (iblk1 V c 2 t) (iblk1 V c 3 t) (iblk1 V c 4 t) (iblk1 V c 5 t) (iblk1 V c 6 t) (iblk1 V c 7 t) (iblk1 V c 8 t) := by
  dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`: the invariant, the core's debts, and every window's current staging
    buffer at what it holds before the body, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrameIdeal.R2.lean ====
/-
  Region 2 of the idealized kernel program: the second layer's relation transform. At every grid point the body reads a
  block of 2000 rows of the node features, the layer's three 128×128 relation weights and the three columns of
  out-degree norms for those rows, and stores, relation by relation, (rows · weight) scaled row-wise by the norm
  into the three slabs of its 3×2000×128 output block. The three stores tile the block, so what the output buffer
  holds after the body is the canonical contents of those three pieces, whatever it held before (the body also
  reads each slab before overwriting it; nothing depends on what it read).
  Everything here is stated at a parameter `V`, the buffer contents when the region is entered.
-/
import proofs.«143860_j29738353557974_1_alg».proof.Proof.Gen.KernelIdeal.Launch
import proofs.«143860_j29738353557974_1_alg».proof.Proof.Gen.KernelIdeal.Skeleton
import proofs.«143860_j29738353557974_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether or not the block was fetched there
    (where it was not, the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes through -/

/-- The whole feature block, the whole weight block, the whole norm block. -/
abbrev rl2_0 : Rect S2000x128 := Rect.unit (s := S2000x128) ![0, 0] S2000x128.size inb_S2000x128_S2000x128_0_0
abbrev rl2_1 : Rect S3x128x128 := Rect.unit (s := S3x128x128) ![0, 0, 0] S3x128x128.size inb_S3x128x128_S3x128x128_0_0_0
abbrev rl2_2 : Rect S3x2000x1 := Rect.unit (s := S3x2000x1) ![0, 0, 0] S3x2000x1.size inb_S3x2000x1_S3x2000x1_0_0_0
/-- Slab `r` of the output block: relation `r`'s 2000×128 messages. -/
abbrev rs2_0 : Rect S3x2000x128 := Rect.unit (s := S3x2000x128) ![0, 0, 0] S1x2000x128.size inb_S3x2000x128_S1x2000x128_0_0_0
abbrev rs2_1 : Rect S3x2000x128 := Rect.unit (s := S3x2000x128) ![1, 0, 0] S1x2000x128.size inb_S3x2000x128_S1x2000x128_1_0_0
abbrev rs2_2 : Rect S3x2000x128 := Rect.unit (s := S3x2000x128) ![2, 0, 0] S1x2000x128.size inb_S3x2000x128_S1x2000x128_2_0_0

/-- What the output buffer holds after the body, from the three input blocks: the three slab stores as pieces,
    last store first. -/
def out2_3 (x0 : Vec F S2000x128 .f32) (x1 : Vec F S3x128x128 .f32) (x2 : Vec F S3x2000x1 .f32) : Vec F S3x2000x128 .f32 :=
  View.canon [⟨rs2_2, k2_pay1 (k2_pay7 (View.ld x0 rl2_0) (View.ld x1 rl2_1) (View.ld x2 rl2_2))⟩,
    ⟨rs2_1, k2_pay6 (View.ld x0 rl2_0) (View.ld x1 rl2_1) (View.ld x2 rl2_2)⟩,
    ⟨rs2_0, k2_pay5 (View.ld x0 rl2_0) (View.ld x1 rl2_1) (View.ld x2 rl2_2)⟩]

/-- The three slabs tile the output block. -/
theorem cover2_3 (p0 p1 p2 : Vec F S1x2000x128 .f32) (y : S3x2000x128.Idx) :
    ∃ pc ∈ ([⟨rs2_2, p0⟩, ⟨rs2_1, p1⟩, ⟨rs2_0, p2⟩] : List (View.Piece (Elt F) S3x2000x128 .f32)), y ∈ pc.1.set :=
  View.cover_of_tiled [⟨rs2_2, p0⟩, ⟨rs2_1, p1⟩, ⟨rs2_0, p2⟩] S1x2000x128.size (by rfl) y

set_option maxHeartbeats 1000000 in
/-- The body on whole staging memrefs — the inputs' at read contents `x0 x1 x2`, the output's at anything — runs to a
    continuation holding the inputs as they were and the output at `out2_3` of the inputs. -/
theorem sound_kernel2 (c : Dev nD) (E : Set ℕ) (i : grid2.Coords)
    (arg1 : Memref sig .tc .vmem S2000x128 .f32) (harg1 : arg1.IsWhole) (arg2 : Memref sig .tc .vmem S3x128x128 .f32) (harg2 : arg2.IsWhole)
    (arg3 : Memref sig .tc .vmem S3x2000x1 .f32) (harg3 : arg3.IsWhole) (arg4 : Memref sig .tc .vmem S3x2000x128 .f32) (harg4 : arg4.IsWhole)
    (x0 : Vec F S2000x128 .f32) (x1 : Vec F S3x128x128 .f32) (x2 : Vec F S3x2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__relation_transform_kernel i arg1 harg1 arg2 harg2 arg3 harg3 arg4 harg4) K := by
  simp only [cc2__relation_transform_kernel_eq_skeleton]; unfold cc2__relation_transform_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover2_3 _ _ _)

/-! ## The pipeline's proof data -/

/-- The arrays as the region finds them; after the body at point `t` each input's buffer at its block and the
    output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.FrameIdeal.R3.lean ====
import proofs.«143860_j29738353557974_1_alg».proof.Proof.Gen.KernelIdeal.Launch
import proofs.«143860_j29738353557974_1_alg».proof.Proof.Gen.KernelIdeal.Skeleton
import proofs.«143860_j29738353557974_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The body half of the frame argument for pipeline 3

The pipeline walks a grid of 50 points over ten windows: nine inputs and one output. Everything here is stated at a
parameter `V`, the contents of the core's buffers when the pipeline is entered.

* Each input window's staging buffer holds, at every point, the block of its array at that point. Two windows move
  with the point and are fetched at every point; seven have a constant block index, are fetched at the first point
  only, and keep their block from then on because the body never writes them.
* The body reads the nine input buffers whole, also reads the output buffer (a value it does not use), and then
  stores one vector over the whole output buffer. So the output buffer afterwards is a closed function of the nine
  input blocks, whatever it held before: the canonical contents of a single covering write.
-/

-- membership in a rectangle of long extents: the structural recursion goes once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is `V`'s
    and whose body leaves the block in place: at a point where it is not fetched the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same of input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The same of input window 2, whose block index is constant: fetched once, kept since. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- The same of input window 3 (constant block index). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- The same of input window 4 (constant block index). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- The same of input window 5 (constant block index). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- The same of input window 6 (constant block index). -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- The same of input window 7 (constant block index). -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- The same of input window 8 (constant block index). -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store go through the whole buffer -/

abbrev r3_a : Rect S3x2000x128 := Rect.unit (s := S3x2000x128) ![0, 0, 0] S3x2000x128.size inb_S3x2000x128_S3x2000x128_0_0_0
abbrev r3_b : Rect S3x2000x1 := Rect.unit (s := S3x2000x1) ![0, 0, 0] S3x2000x1.size inb_S3x2000x1_S3x2000x1_0_0_0
abbrev r3_c : Rect S3x128 := Rect.unit (s := S3x128) ![0, 0] S3x128.size inb_S3x128_S3x128_0_0
abbrev r3_d : Rect S128x128 := Rect.unit (s := S128x128) ![0, 0] S128x128.size inb_S128x128_S128x128_0_0
abbrev r3_e : Rect S1x128 := Rect.unit (s := S1x128) ![0, 0] S1x128.size inb_S1x128_S1x128_0_0
abbrev r3_o : Rect S2000x128 := Rect.unit (s := S2000x128) ![0, 0] S2000x128.size inb_S2000x128_S2000x128_0_0

/-! ## What the body leaves in the output window's buffer -/

/-- Window 9's staging buffer after the body, from the nine input blocks: its one store as a piece, the payload
    built from the loads of the inputs through the whole-buffer rectangles. -/
def out3_9 (x0 : Vec F S3x2000x128 .f32) (x1 : Vec F S3x2000x1 .f32) (x2 : Vec F S3x128 .f32) (x3 : Vec F S128x128 .f32)
    (x4 : Vec F S1x128 .f32) (x5 : Vec F S1x128 .f32) (x6 : Vec F S1x128 .f32) (x7 : Vec F S1x128 .f32) (x8 : Vec F S1x128 .f32) :
    Vec F S2000x128 .f32 :=
  View.canon [⟨r3_o, k3_pay1 (k3_pay2 (View.ld x3 r3_d)) (k3_pay3 (View.ld x4 r3_e)) (k3_pay4 (View.ld x0 r3_a) (View.ld x1 r3_b) (View.ld x2 r3_c))
    (View.ld x5 r3_e) (View.ld x6 r3_e) (View.ld x7 r3_e) (View.ld x8 r3_e)⟩]

/-- The one store is the whole buffer, so it covers it. -/
theorem cover3_9 (p0 : Vec F S2000x128 .f32) (y : S2000x128.Idx) :
    ∃ pc ∈ ([⟨r3_o, p0⟩] : List (View.Piece (Elt F) S2000x128 .f32)), y ∈ pc.1.set :=
  View.cover_of_tiled [⟨r3_o, p0⟩] S2000x128.size (by rfl) y

/-! ## The body's triple -/

set_option maxHeartbeats 1000000 in
/-- The kernel body on whole staging memrefs, the inputs' at read contents `x0 … x8` and the output's at anything,
    runs to the continuation holding the inputs' as they were and the output's at `out3_9` of the inputs': the printed
    function and its part are their skeletons, run one memory operation after another; the output buffer's last
    contents are the canonical contents of the store because the store covers the buffer. -/
theorem sound_kernel3 (c : Dev nD) (E : Set ℕ) (i : grid3.Coords)
    (arg0 : Memref sig .tc .vmem S3x2000x128 .f32) (harg0 : arg0.IsWhole) (arg1 : Memref sig .tc .vmem S3x2000x1 .f32) (harg1 : arg1.IsWhole)
    (arg2 : Memref sig .tc .vmem S3x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .vmem S2000x128 .f32) (harg9 : arg9.IsWhole)
    (x0 : Vec F S3x2000x128 .f32) (x1 : Vec F S3x2000x1 .f32) (x2 : Vec F S3x128 .f32) (x3 : Vec F S128x128 .f32)
    (x4 : Vec F S1x128 .f32) (x5 : Vec F S1x128 .f32) (x6 : Vec F S1x128 .f32) (x7 : Vec F S1x128 .f32) (x8 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ (∃ d, owns (c : Thread nD τ) arg9 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare (out3_9 x0 x1 x2 x3 x4 x5 x6 x7 x8)) -∗ K ⟨⟩))
      ⊢ wp frame (wpE (defs₀ (F := F)) Variants.none c none) E
          (cc3__combine_bn_kernel i arg0 harg0 arg1 harg1 arg2 harg2 arg3 harg3 arg4 harg4 arg5 harg5 arg6 harg6 arg7 harg7 arg8 harg8 arg9 harg9) K := by
  simp only [cc3__combine_bn_kernel_eq_skeleton]; unfold cc3__combine_bn_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover3_9 _)

/-! ## The pipeline's proof data -/

/-- The proof data of pipeline 3 on core `c`: the arrays as the pipeline finds them (`V`); after the body at point `t`
    each input's buffer at its block and the output's at `out3_9` of the input blocks; the invariant is the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

/-- The proof data's arrays are the entry contents (the definition projected). -/
theorem A_eq3 (c : Dev nD) (w : Fin cfg3.W) : (dat3 V c).A w = V c (Pipeline.arrRef spec3 w) := by
  dsimp only [dat3]

/-- What the body leaves, window by window (the definition's case split reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t =
    out3_9 (iblk3 V c 0 t) (iblk3 V c 1 t) (iblk3 V c 2 t) (iblk3 V c 3 t) (iblk3 V c 4 t) (iblk3 V c 5 t) (iblk3 V c 6 t) (iblk3 V c 7 t) (iblk3 V c 8 t) := by
  dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation, at a generic point -/

/-- What the body is called with at point `t`: the invariant, the core's debts, and every window's current staging
    buffer at what it holds before the body, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.FrameIdeal.R4.lean ====
/-
  Region 4 of the idealized kernel program: the third layer's relation transform. At every grid point the body reads a
  block of 2000 rows of the node features, the layer's three 128×128 relation weights and the three columns of
  out-degree norms for those rows, and stores, relation by relation, (rows · weight) scaled row-wise by the norm
  into the three slabs of its 3×2000×128 output block. The three stores tile the block, so what the output buffer
  holds after the body is the canonical contents of those three pieces, whatever it held before (the body also
  reads each slab before overwriting it; nothing depends on what it read).
  Everything here is stated at a parameter `V`, the buffer contents when the region is entered.
-/
import proofs.«143860_j29738353557974_1_alg».proof.Proof.Gen.KernelIdeal.Launch
import proofs.«143860_j29738353557974_1_alg».proof.Proof.Gen.KernelIdeal.Skeleton
import proofs.«143860_j29738353557974_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, whether or not the block was fetched there
    (where it was not, the block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes through -/

/-- The whole feature block, the whole weight block, the whole norm block. -/
abbrev rl4_0 : Rect S2000x128 := Rect.unit (s := S2000x128) ![0, 0] S2000x128.size inb_S2000x128_S2000x128_0_0
abbrev rl4_1 : Rect S3x128x128 := Rect.unit (s := S3x128x128) ![0, 0, 0] S3x128x128.size inb_S3x128x128_S3x128x128_0_0_0
abbrev rl4_2 : Rect S3x2000x1 := Rect.unit (s := S3x2000x1) ![0, 0, 0] S3x2000x1.size inb_S3x2000x1_S3x2000x1_0_0_0
/-- Slab `r` of the output block: relation `r`'s 2000×128 messages. -/
abbrev rs4_0 : Rect S3x2000x128 := Rect.unit (s := S3x2000x128) ![0, 0, 0] S1x2000x128.size inb_S3x2000x128_S1x2000x128_0_0_0
abbrev rs4_1 : Rect S3x2000x128 := Rect.unit (s := S3x2000x128) ![1, 0, 0] S1x2000x128.size inb_S3x2000x128_S1x2000x128_1_0_0
abbrev rs4_2 : Rect S3x2000x128 := Rect.unit (s := S3x2000x128) ![2, 0, 0] S1x2000x128.size inb_S3x2000x128_S1x2000x128_2_0_0

/-- What the output buffer holds after the body, from the three input blocks: the three slab stores as pieces,
    last store first. -/
def out4_3 (x0 : Vec F S2000x128 .f32) (x1 : Vec F S3x128x128 .f32) (x2 : Vec F S3x2000x1 .f32) : Vec F S3x2000x128 .f32 :=
  View.canon [⟨rs4_2, k4_pay1 (k4_pay7 (View.ld x0 rl4_0) (View.ld x1 rl4_1) (View.ld x2 rl4_2))⟩,
    ⟨rs4_1, k4_pay6 (View.ld x0 rl4_0) (View.ld x1 rl4_1) (View.ld x2 rl4_2)⟩,
    ⟨rs4_0, k4_pay5 (View.ld x0 rl4_0) (View.ld x1 rl4_1) (View.ld x2 rl4_2)⟩]

/-- The three slabs tile the output block. -/
theorem cover4_3 (p0 p1 p2 : Vec F S1x2000x128 .f32) (y : S3x2000x128.Idx) :
    ∃ pc ∈ ([⟨rs4_2, p0⟩, ⟨rs4_1, p1⟩, ⟨rs4_0, p2⟩] : List (View.Piece (Elt F) S3x2000x128 .f32)), y ∈ pc.1.set :=
  View.cover_of_tiled [⟨rs4_2, p0⟩, ⟨rs4_1, p1⟩, ⟨rs4_0, p2⟩] S1x2000x128.size (by rfl) y

set_option maxHeartbeats 1000000 in
/-- The body on whole staging memrefs — the inputs' at read contents `x0 x1 x2`, the output's at anything — runs to a
    continuation holding the inputs as they were and the output at `out4_3` of the inputs. -/
theorem sound_kernel4 (c : Dev nD) (E : Set ℕ) (i : grid4.Coords)
    (arg1 : Memref sig .tc .vmem S2000x128 .f32) (harg1 : arg1.IsWhole) (arg2 : Memref sig .tc .vmem S3x128x128 .f32) (harg2 : arg2.IsWhole)
    (arg3 : Memref sig .tc .vmem S3x2000x1 .f32) (harg3 : arg3.IsWhole) (arg4 : Memref sig .tc .vmem S3x2000x128 .f32) (harg4 : arg4.IsWhole)
    (x0 : Vec F S2000x128 .f32) (x1 : Vec F S3x128x128 .f32) (x2 : Vec F S3x2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__relation_transform_kernel i arg1 harg1 arg2 harg2 arg3 harg3 arg4 harg4) K := by
  simp only [cc4__relation_transform_kernel_eq_skeleton]; unfold cc4__relation_transform_kernel_skel
  simp only [k4_part1_eq_skeleton]; unfold k4_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover4_3 _ _ _)

/-! ## The pipeline's proof data -/

/-- The arrays as the region finds them; after the body at point `t` each input's buffer at its block and the
    output's at `out4_3` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.FrameIdeal.R5.lean ====
import proofs.«143860_j29738353557974_1_alg».proof.Proof.Gen.KernelIdeal.Launch
import proofs.«143860_j29738353557974_1_alg».proof.Proof.Gen.KernelIdeal.Skeleton
import proofs.«143860_j29738353557974_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The body half of the frame argument for pipeline 5

The pipeline walks a grid of 50 points over six windows: five inputs and one output. Everything here is stated at a
parameter `V`, the contents of the core's buffers when the pipeline is entered.

* Each input window's staging buffer holds, at every point, the block of its array at that point. Two windows move
  with the point and are fetched at every point; three have a constant block index, are fetched at the first point
  only, and keep their block from then on because the body never writes them.
* The body reads the five input buffers whole, also reads the output buffer (a value it does not use), and then
  stores one vector over the whole output buffer. So the output buffer afterwards is a closed function of the five
  input blocks, whatever it held before: the canonical contents of a single covering write.
-/

-- membership in a rectangle of long extents: the structural recursion goes once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, for any proof data whose array is `V`'s
    and whose body leaves the block in place: at a point where it is not fetched the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The same of input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The same of input window 2, whose block index is constant: fetched once, kept since. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- The same of input window 3 (constant block index). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- The same of input window 4 (constant block index). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store go through the whole buffer -/

abbrev r5_a : Rect S3x2000x128 := Rect.unit (s := S3x2000x128) ![0, 0, 0] S3x2000x128.size inb_S3x2000x128_S3x2000x128_0_0_0
abbrev r5_b : Rect S3x2000x1 := Rect.unit (s := S3x2000x1) ![0, 0, 0] S3x2000x1.size inb_S3x2000x1_S3x2000x1_0_0_0
abbrev r5_c : Rect S3x128 := Rect.unit (s := S3x128) ![0, 0] S3x128.size inb_S3x128_S3x128_0_0
abbrev r5_d : Rect S128x128 := Rect.unit (s := S128x128) ![0, 0] S128x128.size inb_S128x128_S128x128_0_0
abbrev r5_e : Rect S1x128 := Rect.unit (s := S1x128) ![0, 0] S1x128.size inb_S1x128_S1x128_0_0
abbrev r5_o : Rect S2000x128 := Rect.unit (s := S2000x128) ![0, 0] S2000x128.size inb_S2000x128_S2000x128_0_0

/-! ## What the body leaves in the output window's buffer -/

/-- Window 5's staging buffer after the body, from the five input blocks: its one store as a piece, the payload
    built from the loads of the inputs through the whole-buffer rectangles. -/
def out5_5 (x0 : Vec F S3x2000x128 .f32) (x1 : Vec F S3x2000x1 .f32) (x2 : Vec F S3x128 .f32) (x3 : Vec F S128x128 .f32)
    (x4 : Vec F S1x128 .f32) : Vec F S2000x128 .f32 :=
  View.canon [⟨r5_o, k5_pay1 (k5_pay2 (View.ld x3 r5_d)) (k5_pay3 (View.ld x4 r5_e)) (k5_pay4 (View.ld x0 r5_a) (View.ld x1 r5_b) (View.ld x2 r5_c))⟩]

/-- The one store is the whole buffer, so it covers it. -/
theorem cover5_5 (p0 : Vec F S2000x128 .f32) (y : S2000x128.Idx) :
    ∃ pc ∈ ([⟨r5_o, p0⟩] : List (View.Piece (Elt F) S2000x128 .f32)), y ∈ pc.1.set :=
  View.cover_of_tiled [⟨r5_o, p0⟩] S2000x128.size (by rfl) y

/-! ## The body's triple -/

set_option maxHeartbeats 1000000 in
/-- The kernel body on whole staging memrefs, the inputs' at read contents `x0 … x4` and the output's at anything,
    runs to the continuation holding the inputs' as they were and the output's at `out5_5` of the inputs': the printed
    function and its part are their skeletons, run one memory operation after another; the output buffer's last
    contents are the canonical contents of the store because the store covers the buffer. -/
theorem sound_kernel5 (c : Dev nD) (E : Set ℕ) (i : grid5.Coords)
    (arg0 : Memref sig .tc .vmem S3x2000x128 .f32) (harg0 : arg0.IsWhole) (arg1 : Memref sig .tc .vmem S3x2000x1 .f32) (harg1 : arg1.IsWhole)
    (arg2 : Memref sig .tc .vmem S3x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S2000x128 .f32) (harg5 : arg5.IsWhole)
    (x0 : Vec F S3x2000x128 .f32) (x1 : Vec F S3x2000x1 .f32) (x2 : Vec F S3x128 .f32) (x3 : Vec F S128x128 .f32)
    (x4 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out5_5 x0 x1 x2 x3 x4)) -∗ K ⟨⟩))
      ⊢ wp frame (wpE (defs₀ (F := F)) Variants.none c none) E
          (cc5__combine_nobn_kernel i arg0 harg0 arg1 harg1 arg2 harg2 arg3 harg3 arg4 harg4 arg5 harg5) K := by
  simp only [cc5__combine_nobn_kernel_eq_skeleton]; unfold cc5__combine_nobn_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover5_5 _)

/-! ## The pipeline's proof data -/

/-- The proof data of pipeline 5 on core `c`: the arrays as the pipeline finds them (`V`); after the body at point `t`
    each input's buffer at its block and the output's at `out5_5` of the input blocks; the invariant is the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the entry contents (the definition projected). -/
theorem A_eq5 (c : Dev nD) (w : Fin cfg5.W) : (dat5 V c).A w = V c (Pipeline.arrRef spec5 w) := by
  dsimp only [dat5]

/-- What the body leaves, window by window (the definition's case split reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t =
    out5_5 (iblk5 V c 0 t) (iblk5 V c 1 t) (iblk5 V c 2 t) (iblk5 V c 3 t) (iblk5 V c 4 t) := by
  dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`: the invariant, the core's debts, and every window's current staging
    buffer at what it holds before the body, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.FrameIdeal.Run.lean ====
/-
  The run of the idealized kernel program's @main: thirteen stretches of host operations (the three relations' degree
  norms, stacked), then three layers, each a relation-transform region, a host stretch that gathers the transformed rows
  along the edges and adds them up per destination node, and a combine region. The buffer contents at each of the 24
  segment boundaries are a fold from the launch memory: a host stretch's operations applied in order; a region's arrays
  at what its write-backs leave, every other buffer as the region found it. Every weakly fair execution terminates with
  every unscoped buffer at the last boundary's contents; no host operation and no region writes an argument array, so
  each argument ends as launched.
-/
import proofs.«143860_j29738353557974_1_alg».proof.Proof.FrameIdeal.R0
import proofs.«143860_j29738353557974_1_alg».proof.Proof.FrameIdeal.R1
import proofs.«143860_j29738353557974_1_alg».proof.Proof.FrameIdeal.R2
import proofs.«143860_j29738353557974_1_alg».proof.Proof.FrameIdeal.R3
import proofs.«143860_j29738353557974_1_alg».proof.Proof.FrameIdeal.R4
import proofs.«143860_j29738353557974_1_alg».proof.Proof.FrameIdeal.R5

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev A0 : Dev nD → Valuation τ sig (Elt F) := fun c b => (s₀ m ρ).mem ((c : Dev nD), b)
abbrev A1 : Dev nD → Valuation τ sig (Elt F) := fun c => StableHlo.after hostOps0 (A0 m ρ c)
abbrev A2 : Dev nD → Valuation τ sig (Elt F) := fun c => StableHlo.after hostOps0_1 (A1 m ρ c)
abbrev A3 : Dev nD → Valuation τ sig (Elt F) := fun c => StableHlo.after hostOps0_2 (A2 m ρ c)
abbrev A4 : Dev nD → Valuation τ sig (Elt F) := fun c => StableHlo.after hostOps0_3 (A3 m ρ c)
abbrev A5 : Dev nD → Valuation τ sig (Elt F) := fun c => StableHlo.after hostOps0_4 (A4 m ρ c)
abbrev A6 : Dev nD → Valuation τ sig (Elt F) := fun c => StableHlo.after hostOps0_5 (A5 m ρ c)
abbrev A7 : Dev nD → Valuation τ sig (Elt F) := fun c => StableHlo.after hostOps0_6 (A6 m ρ c)
abbrev A8 : Dev nD → Valuation τ sig (Elt F) := fun c => StableHlo.after hostOps0_7 (A7 m ρ c)
abbrev A9 : Dev nD → Valuation τ sig (Elt F) := fun c => StableHlo.after hostOps0_8 (A8 m ρ c)
abbrev A10 : Dev nD → Valuation τ sig (Elt F) := fun c => StableHlo.after hostOps0_9 (A9 m ρ c)
abbrev A11 : Dev nD → Valuation τ sig (Elt F) := fun c => StableHlo.after hostOps0_10 (A10 m ρ c)
abbrev A12 : Dev nD → Valuation τ sig (Elt F) := fun c => StableHlo.after hostOps0_11 (A11 m ρ c)
/-- After the thirteenth stretch: what the first region is entered from. -/
abbrev EW0 : Dev nD → Valuation τ sig (Elt F) := fun c => StableHlo.after hostOps0_12 (A12 m ρ c)
/-- The same read at the TensorCore's references (what region 0's proof data take). -/
abbrev E0 : (c : Dev nD) → (b : Ref sig .tc) → Buf (Elt F) ((c : Thread nD τ).loc b) := fun c b => EW0 m ρ c b
/-- At region 0's exit: its arrays at what the pipeline leaves (the inputs as entered, the output's write-backs
    folded), every other buffer as entered. -/
def X0 (c : Dev nD) : Valuation τ sig (Elt F) :=
  Pipeline.withArrays spec0 c (EW0 m ρ c) fun w => (dat0 (E0 m ρ) c).arrAt w cfg0.N
theorem X0_arr (c : Dev nD) (w : Fin cfg0.W) :
    X0 m ρ c (Proc.devRef .tc (Pipeline.arrRef spec0 w)) = (dat0 (E0 m ρ) c).arrAt w cfg0.N := by
  unfold X0; exact Pipeline.withArrays_arr spec0 launch0.win.arr_inj c _ _ w
theorem X0_of_ne (c : Dev nD) (b : Ref sig .tc) (hb : ∀ w, Pipeline.arrRef spec0 w ≠ b) :
    X0 m ρ c (Proc.devRef .tc b) = EW0 m ρ c (Proc.devRef .tc b) := by
  unfold X0; exact Pipeline.withArrays_of_ne spec0 c _ _ b hb
abbrev XV0 : (c : Dev nD) → (b : Ref sig .tc) → Buf (Elt F) ((c : Thread nD τ).loc b) := fun c b => X0 m ρ c b
theorem hF0 (c : Dev nD) (w : Fin cfg0.W) : (dat0 (E0 m ρ) c).arrAt w cfg0.N = XV0 m ρ c (Pipeline.arrRef spec0 w) :=
  (X0_arr m ρ c w).symm
theorem hrest0 (c : Dev nD) : ∀ b, b ∉ Finset.univ.image (Pipeline.arrRef spec0) → XV0 m ρ c b = E0 m ρ c b :=
  fun b hb => X0_of_ne m ρ c b fun w e => hb (Finset.mem_image.mpr ⟨w, Finset.mem_univ _, e⟩)
/-- After the host stretch between regions 0 and 1: what region 1 is entered from. -/
abbrev EW1 : Dev nD → Valuation τ sig (Elt F) := fun c => StableHlo.after hostOps1 (X0 m ρ c)
/-- The same read at the TensorCore's references (what region 1's proof data take). -/
abbrev E1 : (c : Dev nD) → (b : Ref sig .tc) → Buf (Elt F) ((c : Thread nD τ).loc b) := fun c b => EW1 m ρ c b
/-- At region 1's exit: its arrays at what the pipeline leaves (the inputs as entered, the output's write-backs
    folded), every other buffer as entered. -/
def X1 (c : Dev nD) : Valuation τ sig (Elt F) :=
  Pipeline.withArrays spec1 c (EW1 m ρ c) fun w => (dat1 (E1 m ρ) c).arrAt w cfg1.N
theorem X1_arr (c : Dev nD) (w : Fin cfg1.W) :
    X1 m ρ c (Proc.devRef .tc (Pipeline.arrRef spec1 w)) = (dat1 (E1 m ρ) c).arrAt w cfg1.N := by
  unfold X1; exact Pipeline.withArrays_arr spec1 launch1.win.arr_inj c _ _ w
theorem X1_of_ne (c : Dev nD) (b : Ref sig .tc) (hb : ∀ w, Pipeline.arrRef spec1 w ≠ b) :
    X1 m ρ c (Proc.devRef .tc b) = EW1 m ρ c (Proc.devRef .tc b) := by
  unfold X1; exact Pipeline.withArrays_of_ne spec1 c _ _ b hb
abbrev XV1 : (c : Dev nD) → (b : Ref sig .tc) → Buf (Elt F) ((c : Thread nD τ).loc b) := fun c b => X1 m ρ c b
theorem hF1 (c : Dev nD) (w : Fin cfg1.W) : (dat1 (E1 m ρ) c).arrAt w cfg1.N = XV1 m ρ c (Pipeline.arrRef spec1 w) :=
  (X1_arr m ρ c w).symm
theorem hrest1 (c : Dev nD) : ∀ b, b ∉ Finset.univ.image (Pipeline.arrRef spec1) → XV1 m ρ c b = E1 m ρ c b :=
  fun b hb => X1_of_ne m ρ c b fun w e => hb (Finset.mem_image.mpr ⟨w, Finset.mem_univ _, e⟩)
/-- After the host stretch between regions 1 and 2: what region 2 is entered from. -/
abbrev EW2 : Dev nD → Valuation τ sig (Elt F) := fun c => StableHlo.after hostOps2 (X1 m ρ c)
/-- The same read at the TensorCore's references (what region 2's proof data take). -/
abbrev E2 : (c : Dev nD) → (b : Ref sig .tc) → Buf (Elt F) ((c : Thread nD τ).loc b) := fun c b => EW2 m ρ c b
/-- At region 2's exit: its arrays at what the pipeline leaves (the inputs as entered, the output's write-backs
    folded), every other buffer as entered. -/
def X2 (c : Dev nD) : Valuation τ sig (Elt F) :=
  Pipeline.withArrays spec2 c (EW2 m ρ c) fun w => (dat2 (E2 m ρ) c).arrAt w cfg2.N
theorem X2_arr (c : Dev nD) (w : Fin cfg2.W) :
    X2 m ρ c (Proc.devRef .tc (Pipeline.arrRef spec2 w)) = (dat2 (E2 m ρ) c).arrAt w cfg2.N := by
  unfold X2; exact Pipeline.withArrays_arr spec2 launch2.win.arr_inj c _ _ w
theorem X2_of_ne (c : Dev nD) (b : Ref sig .tc) (hb : ∀ w, Pipeline.arrRef spec2 w ≠ b) :
    X2 m ρ c (Proc.devRef .tc b) = EW2 m ρ c (Proc.devRef .tc b) := by
  unfold X2; exact Pipeline.withArrays_of_ne spec2 c _ _ b hb
abbrev XV2 : (c : Dev nD) → (b : Ref sig .tc) → Buf (Elt F) ((c : Thread nD τ).loc b) := fun c b => X2 m ρ c b
theorem hF2 (c : Dev nD) (w : Fin cfg2.W) : (dat2 (E2 m ρ) c).arrAt w cfg2.N = XV2 m ρ c (Pipeline.arrRef spec2 w) :=
  (X2_arr m ρ c w).symm
theorem hrest2 (c : Dev nD) : ∀ b, b ∉ Finset.univ.image (Pipeline.arrRef spec2) → XV2 m ρ c b = E2 m ρ c b :=
  fun b hb => X2_of_ne m ρ c b fun w e => hb (Finset.mem_image.mpr ⟨w, Finset.mem_univ _, e⟩)
/-- After the host stretch between regions 2 and 3: what region 3 is entered from. -/
abbrev EW3 : Dev nD → Valuation τ sig (Elt F) := fun c => StableHlo.after hostOps3 (X2 m ρ c)
/-- The same read at the TensorCore's references (what region 3's proof data take). -/
abbrev E3 : (c : Dev nD) → (b : Ref sig .tc) → Buf (Elt F) ((c : Thread nD τ).loc b) := fun c b => EW3 m ρ c b
/-- At region 3's exit: its arrays at what the pipeline leaves (the inputs as entered, the output's write-backs
    folded), every other buffer as entered. -/
def X3 (c : Dev nD) : Valuation τ sig (Elt F) :=
  Pipeline.withArrays spec3 c (EW3 m ρ c) fun w => (dat3 (E3 m ρ) c).arrAt w cfg3.N
theorem X3_arr (c : Dev nD) (w : Fin cfg3.W) :
    X3 m ρ c (Proc.devRef .tc (Pipeline.arrRef spec3 w)) = (dat3 (E3 m ρ) c).arrAt w cfg3.N := by
  unfold X3; exact Pipeline.withArrays_arr spec3 launch3.win.arr_inj c _ _ w
theorem X3_of_ne (c : Dev nD) (b : Ref sig .tc) (hb : ∀ w, Pipeline.arrRef spec3 w ≠ b) :
    X3 m ρ c (Proc.devRef .tc b) = EW3 m ρ c (Proc.devRef .tc b) := by
  unfold X3; exact Pipeline.withArrays_of_ne spec3 c _ _ b hb
abbrev XV3 : (c : Dev nD) → (b : Ref sig .tc) → Buf (Elt F) ((c : Thread nD τ).loc b) := fun c b => X3 m ρ c b
theorem hF3 (c : Dev nD) (w : Fin cfg3.W) : (dat3 (E3 m ρ) c).arrAt w cfg3.N = XV3 m ρ c (Pipeline.arrRef spec3 w) :=
  (X3_arr m ρ c w).symm
theorem hrest3 (c : Dev nD) : ∀ b, b ∉ Finset.univ.image (Pipeline.arrRef spec3) → XV3 m ρ c b = E3 m ρ c b :=
  fun b hb => X3_of_ne m ρ c b fun w e => hb (Finset.mem_image.mpr ⟨w, Finset.mem_univ _, e⟩)
/-- After the host stretch between regions 3 and 4: what region 4 is entered from. -/
abbrev EW4 : Dev nD → Valuation τ sig (Elt F) := fun c => StableHlo.after hostOps4 (X3 m ρ c)
/-- The same read at the TensorCore's references (what region 4's proof data take). -/
abbrev E4 : (c : Dev nD) → (b : Ref sig .tc) → Buf (Elt F) ((c : Thread nD τ).loc b) := fun c b => EW4 m ρ c b
/-- At region 4's exit: its arrays at what the pipeline leaves (the inputs as entered, the output's write-backs
    folded), every other buffer as entered. -/
def X4 (c : Dev nD) : Valuation τ sig (Elt F) :=
  Pipeline.withArrays spec4 c (EW4 m ρ c) fun w => (dat4 (E4 m ρ) c).arrAt w cfg4.N
theorem X4_arr (c : Dev nD) (w : Fin cfg4.W) :
    X4 m ρ c (Proc.devRef .tc (Pipeline.arrRef spec4 w)) = (dat4 (E4 m ρ) c).arrAt w cfg4.N := by
  unfold X4; exact Pipeline.withArrays_arr spec4 launch4.win.arr_inj c _ _ w
theorem X4_of_ne (c : Dev nD) (b : Ref sig .tc) (hb : ∀ w, Pipeline.arrRef spec4 w ≠ b) :
    X4 m ρ c (Proc.devRef .tc b) = EW4 m ρ c (Proc.devRef .tc b) := by
  unfold X4; exact Pipeline.withArrays_of_ne spec4 c _ _ b hb
abbrev XV4 : (c : Dev nD) → (b : Ref sig .tc) → Buf (Elt F) ((c : Thread nD τ).loc b) := fun c b => X4 m ρ c b
theorem hF4 (c : Dev nD) (w : Fin cfg4.W) : (dat4 (E4 m ρ) c).arrAt w cfg4.N = XV4 m ρ c (Pipeline.arrRef spec4 w) :=
  (X4_arr m ρ c w).symm
theorem hrest4 (c : Dev nD) : ∀ b, b ∉ Finset.univ.image (Pipeline.arrRef spec4) → XV4 m ρ c b = E4 m ρ c b :=
  fun b hb => X4_of_ne m ρ c b fun w e => hb (Finset.mem_image.mpr ⟨w, Finset.mem_univ _, e⟩)
/-- After the host stretch between regions 4 and 5: what region 5 is entered from. -/
abbrev EW5 : Dev nD → Valuation τ sig (Elt F) := fun c => StableHlo.after hostOps5 (X4 m ρ c)
/-- The same read at the TensorCore's references (what region 5's proof data take). -/
abbrev E5 : (c : Dev nD) → (b : Ref sig .tc) → Buf (Elt F) ((c : Thread nD τ).loc b) := fun c b => EW5 m ρ c b
/-- At region 5's exit: its arrays at what the pipeline leaves (the inputs as entered, the output's write-backs
    folded), every other buffer as entered. -/
def X5 (c : Dev nD) : Valuation τ sig (Elt F) :=
  Pipeline.withArrays spec5 c (EW5 m ρ c) fun w => (dat5 (E5 m ρ) c).arrAt w cfg5.N
theorem X5_arr (c : Dev nD) (w : Fin cfg5.W) :
    X5 m ρ c (Proc.devRef .tc (Pipeline.arrRef spec5 w)) = (dat5 (E5 m ρ) c).arrAt w cfg5.N := by
  unfold X5; exact Pipeline.withArrays_arr spec5 launch5.win.arr_inj c _ _ w
theorem X5_of_ne (c : Dev nD) (b : Ref sig .tc) (hb : ∀ w, Pipeline.arrRef spec5 w ≠ b) :
    X5 m ρ c (Proc.devRef .tc b) = EW5 m ρ c (Proc.devRef .tc b) := by
  unfold X5; exact Pipeline.withArrays_of_ne spec5 c _ _ b hb
abbrev XV5 : (c : Dev nD) → (b : Ref sig .tc) → Buf (Elt F) ((c : Thread nD τ).loc b) := fun c b => X5 m ρ c b
theorem hF5 (c : Dev nD) (w : Fin cfg5.W) : (dat5 (E5 m ρ) c).arrAt w cfg5.N = XV5 m ρ c (Pipeline.arrRef spec5 w) :=
  (X5_arr m ρ c w).symm
theorem hrest5 (c : Dev nD) : ∀ b, b ∉ Finset.univ.image (Pipeline.arrRef spec5) → XV5 m ρ c b = E5 m ρ c b :=
  fun b hb => X5_of_ne m ρ c b fun w e => hb (Finset.mem_image.mpr ⟨w, Finset.mem_univ _, e⟩)

/-! ## The proof data family and the thread state -/

/-- No pipeline has a prefetched table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
  | ⟨3, _⟩ => fun c => dat3 (E3 m ρ) c
  | ⟨4, _⟩ => fun c => dat4 (E4 m ρ) c
  | ⟨5, _⟩ => fun c => dat5 (E5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state, and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps0_3` allocates a buffer. -/
theorem hostOps0_3_fresh : (hostOps0_3 : List (HloOp τ sig (Elt F))).Forall fun op => op.fresh = ∅ := by
  simp only [List.Forall]; repeat' constructor
/-- No operation of `hostOps0_4` allocates a buffer. -/
theorem hostOps0_4_fresh : (hostOps0_4 : List (HloOp τ sig (Elt F))).Forall fun op => op.fresh = ∅ := by
  simp only [List.Forall]; repeat' constructor
/-- No operation of `hostOps0_5` allocates a buffer. -/
theorem hostOps0_5_fresh : (hostOps0_5 : List (HloOp τ sig (Elt F))).Forall fun op => op.fresh = ∅ := by
  simp only [List.Forall]; repeat' constructor
/-- No operation of `hostOps0_6` allocates a buffer. -/
theorem hostOps0_6_fresh : (hostOps0_6 : List (HloOp τ sig (Elt F))).Forall fun op => op.fresh = ∅ := by
  simp only [List.Forall]; repeat' constructor
/-- No operation of `hostOps0_7` allocates a buffer. -/
theorem hostOps0_7_fresh : (hostOps0_7 : List (HloOp τ sig (Elt F))).Forall fun op => op.fresh = ∅ := by
  simp only [List.Forall]; repeat' constructor
/-- No operation of `hostOps0_8` allocates a buffer. -/
theorem hostOps0_8_fresh : (hostOps0_8 : List (HloOp τ sig (Elt F))).Forall fun op => op.fresh = ∅ := by
  simp only [List.Forall]; repeat' constructor
/-- No operation of `hostOps0_9` allocates a buffer. -/
theorem hostOps0_9_fresh : (hostOps0_9 : List (HloOp τ sig (Elt F))).Forall fun op => op.fresh = ∅ := by
  simp only [List.Forall]; repeat' constructor
/-- No operation of `hostOps0_10` allocates a buffer. -/
theorem hostOps0_10_fresh : (hostOps0_10 : List (HloOp τ sig (Elt F))).Forall fun op => op.fresh = ∅ := by
  simp only [List.Forall]; repeat' constructor
/-- No operation of `hostOps0_11` allocates a buffer. -/
theorem hostOps0_11_fresh : (hostOps0_11 : List (HloOp τ sig (Elt F))).Forall fun op => op.fresh = ∅ := by
  simp only [List.Forall]; repeat' constructor
/-- No operation of `hostOps0_12` allocates a buffer. -/
theorem hostOps0_12_fresh : (hostOps0_12 : List (HloOp τ sig (Elt F))).Forall fun op => op.fresh = ∅ := by
  simp only [List.Forall]; repeat' constructor
set_option maxHeartbeats 4000000 in
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
set_option maxHeartbeats 4000000 in
/-- No operation of `hostOps3` allocates a buffer. -/
theorem hostOps3_fresh : (hostOps3 : List (HloOp τ sig (Elt F))).Forall fun op => op.fresh = ∅ := by
  simp only [List.Forall]; repeat' constructor
/-- No operation of `hostOps4` allocates a buffer. -/
theorem hostOps4_fresh : (hostOps4 : List (HloOp τ sig (Elt F))).Forall fun op => op.fresh = ∅ := by
  simp only [List.Forall]; repeat' constructor
set_option maxHeartbeats 4000000 in
/-- No operation of `hostOps5` allocates a buffer. -/
theorem hostOps5_fresh : (hostOps5 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (X5 m ρ c) ∗ ∃ r, prngReg c r)

/-! ## The regions as segments -/

set_option backward.isDefEq.respectTransparency.types false in
/-- Region 0 over the thread state: entered from every unscoped buffer at `EW0`, left at `X0`. Its arrays are
    split out of the unscoped buffers and put back at the exit contents; the generator register goes into the body's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (EW0 m ρ c) ∗ R c)
  post c := iprop(StableHlo.held (c : Thread nD τ) (Pipeline.ucRefs τ sig) (X0 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (XV0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `EW1`, left at `X1`. Its arrays are
    split out of the unscoped buffers and put back at the exit contents; the generator register goes into the body's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (EW1 m ρ c) ∗ R c)
  post c := iprop(StableHlo.held (c : Thread nD τ) (Pipeline.ucRefs τ sig) (X1 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (XV1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `EW2`, left at `X2`. Its arrays are
    split out of the unscoped buffers and put back at the exit contents; the generator register goes into the body's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (EW2 m ρ c) ∗ R c)
  post c := iprop(StableHlo.held (c : Thread nD τ) (Pipeline.ucRefs τ sig) (X2 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (XV2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `EW3`, left at `X3`. Its arrays are
    split out of the unscoped buffers and put back at the exit contents; the generator register goes into the body's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m ρ) c).loose
  hwaits := Pipeline.hwaits_of_owed_zero _ _ _ _ L lv 3 fun _ _ => rfl
  pre c := iprop(StableHlo.held (c : Thread nD τ) (Pipeline.ucRefs τ sig) (EW3 m ρ c) ∗ R c)
  post c := iprop(StableHlo.held (c : Thread nD τ) (Pipeline.ucRefs τ sig) (X3 m ρ c) ∗ R c)
  X c := iprop(∃ r, prngReg c r)
  Y c := iprop(∃ r, prngReg c r)
  Z c := Pipeline.unscopedRest (Ix := Unit) (Name := ℕ) (U := UR sig nD τ) (Lvl := ℕ) spec3 c (E3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E3 m ρ c) (XV3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `EW4`, left at `X4`. Its arrays are
    split out of the unscoped buffers and put back at the exit contents; the generator register goes into the body's
    invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E4 m ρ) c).loose
  hwaits := Pipeline.hwaits_of_owed_zero _ _ _ _ L lv 4 fun _ _ => rfl
  pre c := iprop(StableHlo.held (c : Thread nD τ) (Pipeline.ucRefs τ sig) (EW4 m ρ c) ∗ R c)
  post c := iprop(StableHlo.held (c : Thread nD τ) (Pipeline.ucRefs τ sig) (X4 m ρ c) ∗ R c)
  X c := iprop(∃ r, prngReg c r)
  Y c := iprop(∃ r, prngReg c r)
  Z c := Pipeline.unscopedRest (Ix := Unit) (Name := ℕ) (U := UR sig nD τ) (Lvl := ℕ) spec4 c (E4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (E4 m ρ c) (XV4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `EW5`, left at `X5`. Its arrays are
    split out of the unscoped buffers and put back at the exit contents; the generator register goes into the body's
    invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E5 m ρ) c).loose
  hwaits := Pipeline.hwaits_of_owed_zero _ _ _ _ L lv 5 fun _ _ => rfl
  pre c := iprop(StableHlo.held (c : Thread nD τ) (Pipeline.ucRefs τ sig) (EW5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (E5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (E5 m ρ c) (XV5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 24 segments in order: a host segment per stretch from its boundary's contents, a region per pallas_call. -/
abbrev segs : List (Pipeline.Seg (pcfgs (F := F)) adm (pdats m ρ) () defs₀ 𝒱₀ L lv) :=
  [
    .host (hseg hostOps0 hostOps0_sub hostOps0_fresh (A0 m ρ)),
    .host (hseg hostOps0_1 hostOps0_1_sub hostOps0_1_fresh (A1 m ρ)),
    .host (hseg hostOps0_2 hostOps0_2_sub hostOps0_2_fresh (A2 m ρ)),
    .host (hseg hostOps0_3 hostOps0_3_sub hostOps0_3_fresh (A3 m ρ)),
    .host (hseg hostOps0_4 hostOps0_4_sub hostOps0_4_fresh (A4 m ρ)),
    .host (hseg hostOps0_5 hostOps0_5_sub hostOps0_5_fresh (A5 m ρ)),
    .host (hseg hostOps0_6 hostOps0_6_sub hostOps0_6_fresh (A6 m ρ)),
    .host (hseg hostOps0_7 hostOps0_7_sub hostOps0_7_fresh (A7 m ρ)),
    .host (hseg hostOps0_8 hostOps0_8_sub hostOps0_8_fresh (A8 m ρ)),
    .host (hseg hostOps0_9 hostOps0_9_sub hostOps0_9_fresh (A9 m ρ)),
    .host (hseg hostOps0_10 hostOps0_10_sub hostOps0_10_fresh (A10 m ρ)),
    .host (hseg hostOps0_11 hostOps0_11_sub hostOps0_11_fresh (A11 m ρ)),
    .host (hseg hostOps0_12 hostOps0_12_sub hostOps0_12_fresh (A12 m ρ)),
    .region (reg0 m ρ),
    .host (hseg hostOps1 hostOps1_sub hostOps1_fresh (X0 m ρ)),
    .region (reg1 m ρ),
    .host (hseg hostOps2 hostOps2_sub hostOps2_fresh (X1 m ρ)),
    .region (reg2 m ρ),
    .host (hseg hostOps3 hostOps3_sub hostOps3_fresh (X2 m ρ)),
    .region (reg3 m ρ),
    .host (hseg hostOps4 hostOps4_sub hostOps4_fresh (X3 m ρ)),
    .region (reg4 m ρ),
    .host (hseg hostOps5 hostOps5_sub hostOps5_fresh (X4 m ρ)),
    .region (reg5 m ρ) ]

set_option maxHeartbeats 4000000 in
/-- @main is the run of the segments. -/
theorem main_run (c : Dev nD) : main (F := F) c = Pipeline.Seg.run (segs m ρ) := (main_chain c).trans (by chain_rfl)

set_option maxHeartbeats 4000000 in
set_option backward.isDefEq.respectTransparency.types false in
/-- THE RUN: from any memory with zero counters, every weakly fair execution of @main on the TensorCores terminates,
    nothing faulting, and every final state has every unscoped buffer at the last boundary's contents `X5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = X5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (A0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (A0 m ρ c)
        from Pipeline.unscopedBufs_held c (A0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X5 m ρ c b)
    (hfin := fun c s' => by
      iintro ⟨⟨Hh, -⟩, HSI⟩
      unfold StableHlo.held
      imodintro
      iapply (pointsTo_read_all (Pipeline.ucRefs τ sig) (fun b => (((c : Thread nD τ)).1, b)) (X5 m ρ c) s')
      isplitl [Hh] <;> iassumption)
    (hQ := fun s h => h)

/-! ## The arguments end as launched -/

/-- The fifteen argument arrays. -/
abbrev argRefs : List (Ref sig .tc) :=
  [main_arg0, main_arg1, main_arg2, main_arg3, main_arg4, main_arg5, main_arg6, main_arg7, main_arg8, main_arg9, main_arg10,
    main_arg11, main_arg12, main_arg13, main_arg14]
theorem ne_of_mem_args {b b' : Ref sig .tc} (hb : b ∈ argRefs) (hb' : b' ∉ argRefs) : b ≠ b' := fun e => hb' (e ▸ hb)

/-- No operation of `hostOps0` writes an argument array. -/
theorem keep_hostOps0 (W : Valuation τ sig (Elt F)) {b : Ref sig .tc} (hb : b ∈ argRefs) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_1` writes an argument array. -/
theorem keep_hostOps0_1 (W : Valuation τ sig (Elt F)) {b : Ref sig .tc} (hb : b ∈ argRefs) :
    StableHlo.after (hostOps0_1 (F := F)) W (Proc.devRef .tc b) = W (Proc.devRef .tc b) :=
  StableHlo.after_of_forall_not_mem (b := Proc.devRef .tc b) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_2` writes an argument array. -/
theorem keep_hostOps0_2 (W : Valuation τ sig (Elt F)) {b : Ref sig .tc} (hb : b ∈ argRefs) :
    StableHlo.after (hostOps0_2 (F := F)) W (Proc.devRef .tc b) = W (Proc.devRef .tc b) :=
  StableHlo.after_of_forall_not_mem (b := Proc.devRef .tc b) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_3` writes an argument array. -/
theorem keep_hostOps0_3 (W : Valuation τ sig (Elt F)) {b : Ref sig .tc} (hb : b ∈ argRefs) :
    StableHlo.after (hostOps0_3 (F := F)) W (Proc.devRef .tc b) = W (Proc.devRef .tc b) :=
  StableHlo.after_of_forall_not_mem (b := Proc.devRef .tc b) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_4` writes an argument array. -/
theorem keep_hostOps0_4 (W : Valuation τ sig (Elt F)) {b : Ref sig .tc} (hb : b ∈ argRefs) :
    StableHlo.after (hostOps0_4 (F := F)) W (Proc.devRef .tc b) = W (Proc.devRef .tc b) :=
  StableHlo.after_of_forall_not_mem (b := Proc.devRef .tc b) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_5` writes an argument array. -/
theorem keep_hostOps0_5 (W : Valuation τ sig (Elt F)) {b : Ref sig .tc} (hb : b ∈ argRefs) :
    StableHlo.after (hostOps0_5 (F := F)) W (Proc.devRef .tc b) = W (Proc.devRef .tc b) :=
  StableHlo.after_of_forall_not_mem (b := Proc.devRef .tc b) _ _ (List.forall_iff_forall_mem.mp (by
    simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_6` writes an argument array. -/
theorem keep_hostOps0_6 (W : Valuation τ sig (Elt F)) {b : Ref sig .tc} (hb : b ∈ argRefs) :
    StableHlo.after (hostOps0_6 (F := F)) W (Proc.devRef .tc b) = W (Proc.devRef .tc b) :=
  StableHlo.after_of_forall_not_mem (b := Proc.devRef .tc b) _ _ (List.forall_iff_forall_mem.mp (by
    simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_7` writes an argument array. -/
theorem keep_hostOps0_7 (W : Valuation τ sig (Elt F)) {b : Ref sig .tc} (hb : b ∈ argRefs) :
    StableHlo.after (hostOps0_7 (F := F)) W (Proc.devRef .tc b) = W (Proc.devRef .tc b) :=
  StableHlo.after_of_forall_not_mem (b := Proc.devRef .tc b) _ _ (List.forall_iff_forall_mem.mp (by
    simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_8` writes an argument array. -/
theorem keep_hostOps0_8 (W : Valuation τ sig (Elt F)) {b : Ref sig .tc} (hb : b ∈ argRefs) :
    StableHlo.after (hostOps0_8 (F := F)) W (Proc.devRef .tc b) = W (Proc.devRef .tc b) :=
  StableHlo.after_of_forall_not_mem (b := Proc.devRef .tc b) _ _ (List.forall_iff_forall_mem.mp (by
    simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_9` writes an argument array. -/
theorem keep_hostOps0_9 (W : Valuation τ sig (Elt F)) {b : Ref sig .tc} (hb : b ∈ argRefs) :
    StableHlo.after (hostOps0_9 (F := F)) W (Proc.devRef .tc b) = W (Proc.devRef .tc b) :=
  StableHlo.after_of_forall_not_mem (b := Proc.devRef .tc b) _ _ (List.forall_iff_forall_mem.mp (by
    simp only [hostOps0_9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_10` writes an argument array. -/
theorem keep_hostOps0_10 (W : Valuation τ sig (Elt F)) {b : Ref sig .tc} (hb : b ∈ argRefs) :
    StableHlo.after (hostOps0_10 (F := F)) W (Proc.devRef .tc b) = W (Proc.devRef .tc b) :=
  StableHlo.after_of_forall_not_mem (b := Proc.devRef .tc b) _ _ (List.forall_iff_forall_mem.mp (by
    simp only [hostOps0_10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_11` writes an argument array. -/
theorem keep_hostOps0_11 (W : Valuation τ sig (Elt F)) {b : Ref sig .tc} (hb : b ∈ argRefs) :
    StableHlo.after (hostOps0_11 (F := F)) W (Proc.devRef .tc b) = W (Proc.devRef .tc b) :=
  StableHlo.after_of_forall_not_mem (b := Proc.devRef .tc b) _ _ (List.forall_iff_forall_mem.mp (by
    simp only [hostOps0_11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps0_12` writes an argument array. -/
theorem keep_hostOps0_12 (W : Valuation τ sig (Elt F)) {b : Ref sig .tc} (hb : b ∈ argRefs) :
    StableHlo.after (hostOps0_12 (F := F)) W (Proc.devRef .tc b) = W (Proc.devRef .tc b) :=
  StableHlo.after_of_forall_not_mem (b := Proc.devRef .tc b) _ _ (List.forall_iff_forall_mem.mp (by
    simp only [hostOps0_12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
set_option maxHeartbeats 4000000 in
/-- No operation of `hostOps1` writes an argument array. -/
theorem keep_hostOps1 (W : Valuation τ sig (Elt F)) {b : Ref sig .tc} (hb : b ∈ argRefs) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps2` writes an argument array. -/
theorem keep_hostOps2 (W : Valuation τ sig (Elt F)) {b : Ref sig .tc} (hb : b ∈ argRefs) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
set_option maxHeartbeats 4000000 in
/-- No operation of `hostOps3` writes an argument array. -/
theorem keep_hostOps3 (W : Valuation τ sig (Elt F)) {b : Ref sig .tc} (hb : b ∈ argRefs) :
    StableHlo.after (hostOps3 (F := F)) W (Proc.devRef .tc b) = W (Proc.devRef .tc b) :=
  StableHlo.after_of_forall_not_mem (b := Proc.devRef .tc b) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
/-- No operation of `hostOps4` writes an argument array. -/
theorem keep_hostOps4 (W : Valuation τ sig (Elt F)) {b : Ref sig .tc} (hb : b ∈ argRefs) :
    StableHlo.after (hostOps4 (F := F)) W (Proc.devRef .tc b) = W (Proc.devRef .tc b) :=
  StableHlo.after_of_forall_not_mem (b := Proc.devRef .tc b) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))
set_option maxHeartbeats 4000000 in
/-- No operation of `hostOps5` writes an argument array. -/
theorem keep_hostOps5 (W : Valuation τ sig (Elt F)) {b : Ref sig .tc} (hb : b ∈ argRefs) :
    StableHlo.after (hostOps5 (F := F)) W (Proc.devRef .tc b) = W (Proc.devRef .tc b) :=
  StableHlo.after_of_forall_not_mem (b := Proc.devRef .tc b) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_args hb (by decide))))

/-- Region 0 stages the first argument (the node features) through an input window and no other argument; an input
    array ends as entered. -/
theorem keep_reg0 (c : Dev nD) {b : Ref sig .tc} (hb : b ∈ argRefs) : X0 m ρ c (Proc.devRef .tc b) = EW0 m ρ c (Proc.devRef .tc b) := by
  by_cases h : ∀ w, Pipeline.arrRef spec0 w ≠ b
  · exact X0_of_ne m ρ c b h
  · obtain ⟨w, hw⟩ := not_forall.mp h
    have hw' : Pipeline.arrRef spec0 w = b := not_not.mp hw
    subst hw'
    have h0 : w = 0 := by revert hb; revert w; decide
    subst h0
    exact (X0_arr m ρ c 0).trans (((dat0 (E0 m ρ) c).arrAt_in 0 rfl _).trans (A_eq0 (E0 m ρ) c 0))
/-- Region 1 stages no argument array. -/
theorem keep_reg1 (c : Dev nD) {b : Ref sig .tc} (hb : b ∈ argRefs) : X1 m ρ c (Proc.devRef .tc b) = EW1 m ρ c (Proc.devRef .tc b) :=
  X1_of_ne m ρ c b fun w e => absurd (e ▸ hb) ((by decide : ∀ w, Pipeline.arrRef spec1 w ∉ argRefs) w)
/-- Region 2 stages no argument array. -/
theorem keep_reg2 (c : Dev nD) {b : Ref sig .tc} (hb : b ∈ argRefs) : X2 m ρ c (Proc.devRef .tc b) = EW2 m ρ c (Proc.devRef .tc b) :=
  X2_of_ne m ρ c b fun w e => absurd (e ▸ hb) ((by decide : ∀ w, Pipeline.arrRef spec2 w ∉ argRefs) w)
/-- Region 3 stages no argument array. -/
theorem keep_reg3 (c : Dev nD) {b : Ref sig .tc} (hb : b ∈ argRefs) : X3 m ρ c (Proc.devRef .tc b) = EW3 m ρ c (Proc.devRef .tc b) :=
  X3_of_ne m ρ c b fun w e => absurd (e ▸ hb) ((by decide : ∀ w, Pipeline.arrRef spec3 w ∉ argRefs) w)
/-- Region 4 stages no argument array. -/
theorem keep_reg4 (c : Dev nD) {b : Ref sig .tc} (hb : b ∈ argRefs) : X4 m ρ c (Proc.devRef .tc b) = EW4 m ρ c (Proc.devRef .tc b) :=
  X4_of_ne m ρ c b fun w e => absurd (e ▸ hb) ((by decide : ∀ w, Pipeline.arrRef spec4 w ∉ argRefs) w)
/-- Region 5 stages no argument array. -/
theorem keep_reg5 (c : Dev nD) {b : Ref sig .tc} (hb : b ∈ argRefs) : X5 m ρ c (Proc.devRef .tc b) = EW5 m ρ c (Proc.devRef .tc b) :=
  X5_of_ne m ρ c b fun w e => absurd (e ▸ hb) ((by decide : ∀ w, Pipeline.arrRef spec5 w ∉ argRefs) w)

/-- Each argument array reads, at the last boundary, what the launch memory held. -/
theorem X5_arg (c : Dev nD) {b : Ref sig .tc} (hb : b ∈ argRefs) : X5 m ρ c (Proc.devRef .tc b) = m ((c : Thread nD τ).loc b) :=
  calc X5 m ρ c (Proc.devRef .tc b)
    _ = EW5 m ρ c (Proc.devRef .tc b) := keep_reg5 m ρ c hb
    _ = X4 m ρ c (Proc.devRef .tc b) := keep_hostOps5 _ hb
    _ = EW4 m ρ c (Proc.devRef .tc b) := keep_reg4 m ρ c hb
    _ = X3 m ρ c (Proc.devRef .tc b) := keep_hostOps4 _ hb
    _ = EW3 m ρ c (Proc.devRef .tc b) := keep_reg3 m ρ c hb
    _ = X2 m ρ c (Proc.devRef .tc b) := keep_hostOps3 _ hb
    _ = EW2 m ρ c (Proc.devRef .tc b) := keep_reg2 m ρ c hb
    _ = X1 m ρ c (Proc.devRef .tc b) := keep_hostOps2 _ hb
    _ = EW1 m ρ c (Proc.devRef .tc b) := keep_reg1 m ρ c hb
    _ = X0 m ρ c (Proc.devRef .tc b) := keep_hostOps1 _ hb
    _ = EW0 m ρ c (Proc.devRef .tc b) := keep_reg0 m ρ c hb
    _ = A12 m ρ c (Proc.devRef .tc b) := keep_hostOps0_12 _ hb
    _ = A11 m ρ c (Proc.devRef .tc b) := keep_hostOps0_11 _ hb
    _ = A10 m ρ c (Proc.devRef .tc b) := keep_hostOps0_10 _ hb
    _ = A9 m ρ c (Proc.devRef .tc b) := keep_hostOps0_9 _ hb
    _ = A8 m ρ c (Proc.devRef .tc b) := keep_hostOps0_8 _ hb
    _ = A7 m ρ c (Proc.devRef .tc b) := keep_hostOps0_7 _ hb
    _ = A6 m ρ c (Proc.devRef .tc b) := keep_hostOps0_6 _ hb
    _ = A5 m ρ c (Proc.devRef .tc b) := keep_hostOps0_5 _ hb
    _ = A4 m ρ c (Proc.devRef .tc b) := keep_hostOps0_4 _ hb
    _ = A3 m ρ c (Proc.devRef .tc b) := keep_hostOps0_3 _ hb
    _ = A2 m ρ c (Proc.devRef .tc b) := keep_hostOps0_2 _ hb
    _ = A1 m ρ c (Proc.devRef .tc b) := keep_hostOps0_1 _ hb
    _ = A0 m ρ c (Proc.devRef .tc b) := keep_hostOps0 _ hb
    _ = m ((c : Thread nD τ).loc b) := rfl

/-- THE FRAME at any `F`: every weakly fair execution terminates, nothing faulting, and every argument array ends as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_arg0 (by decide))).trans (X5_arg m ρ c (by decide)),
      (h c _ (mem_uc main_arg1 (by decide))).trans (X5_arg m ρ c (by decide)),
      (h c _ (mem_uc main_arg2 (by decide))).trans (X5_arg m ρ c (by decide)),
      (h c _ (mem_uc main_arg3 (by decide))).trans (X5_arg m ρ c (by decide)),
      (h c _ (mem_uc main_arg4 (by decide))).trans (X5_arg m ρ c (by decide)),
      (h c _ (mem_uc main_arg5 (by decide))).trans (X5_arg m ρ c (by decide)),
      (h c _ (mem_uc main_arg6 (by decide))).trans (X5_arg m ρ c (by decide)),
      (h c _ (mem_uc main_arg7 (by decide))).trans (X5_arg m ρ c (by decide)),
      (h c _ (mem_uc main_arg8 (by decide))).trans (X5_arg m ρ c (by decide)),
      (h c _ (mem_uc main_arg9 (by decide))).trans (X5_arg m ρ c (by decide)),
      (h c _ (mem_uc main_arg10 (by decide))).trans (X5_arg m ρ c (by decide)),
      (h c _ (mem_uc main_arg11 (by decide))).trans (X5_arg m ρ c (by decide)),
      (h c _ (mem_uc main_arg12 (by decide))).trans (X5_arg m ρ c (by decide)),
      (h c _ (mem_uc main_arg13 (by decide))).trans (X5_arg m ρ c (by decide)),
      (h c _ (mem_uc main_arg14 (by decide))).trans (X5_arg m ρ c (by decide))⟩) (run_main m ρ)

end Cert.KernelIdeal.Fr

end
-- ==== Proof.Spec.lean ====
/-
  What the three layers compute, index by index, on the extended reals.

  One layer takes the node features h (100000 × 128) and, for each of the three relations r, forms the
  messages  (h · W_r) scaled row-wise by the out-degree norm  (the "relation transform"); these are gathered
  along the relation's edges and summed per destination node (a host gather and scatter-add, shared verbatim
  by both programs and so never opened here); then the three summed messages are scaled row-wise by the
  in-degree norms, the relation biases added, in the order
      ((((m₀·n₀ + b₀) + m₁·n₁) + b₁) + m₂·n₂) + b₂,
  the result multiplied by the layer's fully connected weight, its bias added, and — except in the last
  layer — normalised by the stored batch statistics and clamped below at zero.
-/
import Idealize.ShloMosaic.PureOps.Ideal
import Idealize.ShloMosaic.Lib.ValueIdx

noncomputable section

namespace Cert.Spec

open Idealize.ShloMosaic Idealize.ShloMosaic.ValueIdx
open scoped BigOperators

/-- Extended-real arrays of rank two and three over literal extents. -/
abbrev Arr2 (a b : Nat) := (⟨2, ![a, b]⟩ : Shape).Idx → EReal
abbrev Arr3 (a b c : Nat) := (⟨3, ![a, b, c]⟩ : Shape).Idx → EReal

/-- Relation `r`'s messages before propagation: row `i` of the features times the relation's weight, scaled by the
    row's out-degree norm. -/
def relT (h : Arr2 100000 128) (W : Arr3 3 128 128) (ns : Arr3 3 100000 1) (r : Fin 3) (i : Fin 100000) (j : Fin 128) : EReal :=
  (∑ k : Fin 128, h (ix2 i k) * W (ix3 r k j)) * ns (ix3 r i 0)

/-- The three propagated messages of node `i`, each scaled by its in-degree norm, with the relation biases, summed
    in the order the programs sum them. -/
def agg (msg : Arr3 3 100000 128) (nd : Arr3 3 100000 1) (b : Arr2 3 128) (i : Fin 100000) (k : Fin 128) : EReal :=
  ((((msg (ix3 0 i k) * nd (ix3 0 i 0) + b (ix2 0 k)) + msg (ix3 1 i k) * nd (ix3 1 i 0)) + b (ix2 1 k))
    + msg (ix3 2 i k) * nd (ix3 2 i 0)) + b (ix2 2 k)

/-- The fully connected layer on the aggregate. -/
def fc (msg : Arr3 3 100000 128) (nd : Arr3 3 100000 1) (b : Arr2 3 128) (wfc : Arr2 128 128) (bfc : Arr2 1 128)
    (i : Fin 100000) (j : Fin 128) : EReal :=
  (∑ k : Fin 128, agg msg nd b i k * wfc (ix2 k j)) + bfc (ix2 0 j)

/-- Batch normalisation with stored statistics, then the clamp at zero: ((p − μ) · (σ² + ε)^(−1/2)) · γ + β, then max with 0. -/
def bnRelu (eps p g be mu va : EReal) : EReal :=
  max ((((p - mu) * Ideal.rsqrt (va + eps)) * g) + be) 0

/-- A combine layer with normalisation, at node `i`, feature `j`. -/
def combineBn (eps : EReal) (msg : Arr3 3 100000 128) (nd : Arr3 3 100000 1) (b : Arr2 3 128) (wfc : Arr2 128 128) (bfc : Arr2 1 128)
    (g be mu va : Arr2 1 128) (i : Fin 100000) (j : Fin 128) : EReal :=
  bnRelu eps (fc msg nd b wfc bfc i j) (g (ix2 0 j)) (be (ix2 0 j)) (mu (ix2 0 j)) (va (ix2 0 j))

end Cert.Spec

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.RefLayer.lean ====
/-
  One layer of the reference, as a function of the layer's input array, read index by index at the ideal values.

  The reference repeats, layer after layer, the same host operations on different slices of its parameters: per
  relation the input times the relation's weight, each row scaled by the relation's out-degree norm (`scaled`); the rows
  gathered along the relation's edges and summed per destination (`prop`: an index normalisation, a gather, a
  scatter-add into zeros — never opened here, both programs apply it verbatim); the three results scaled by the
  in-degree norms and the relation biases added, starting from zeros (`agg3`); the fully connected layer (`fcl`); and the
  stored-statistics normalisation with the clamp at zero (`bnRelu`). Read at (i, j) these are the specification's
  formulas; the leading zero of the aggregate disappears (0 + a = a holds of every extended real).
-/
import proofs.«143860_j29738353557974_1_alg».proof.ReferenceIdeal
import proofs.«143860_j29738353557974_1_alg».proof.Proof.Gen.ReferenceIdeal
import proofs.«143860_j29738353557974_1_alg».proof.Proof.Spec
import proofs.«143860_j29738353557974_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx
open scoped BigOperators

variable {F : FTy → Type} [FloatOps F]

/-- Node × feature arrays, per-node vectors, per-feature vectors, index arrays. -/
abbrev ND (F : FTy → Type) := (⟨S100000x128, .f32⟩ : BufTy).Contents (Elt F)
abbrev NV (F : FTy → Type) := (⟨S100000, .f32⟩ : BufTy).Contents (Elt F)
abbrev FV (F : FTy → Type) := (⟨S128, .f32⟩ : BufTy).Contents (Elt F)
abbrev EI (F : FTy → Type) := (⟨S600000, .i32⟩ : BufTy).Contents (Elt F)

/-- A per-node vector spread over the features. -/
def perNode (v : NV F) : ND F :=
  broadcastInDim S100000x128 ![0, 1] bcast_S100000x1_S100000x128_0_1 (broadcastInDim S100000x1 ![0] bcast_S100000_S100000x1_0 v)
/-- A per-feature vector spread over the nodes. -/
def perFeat (v : FV F) : ND F :=
  broadcastInDim S100000x128 ![0, 1] bcast_S1x128_S100000x128_0_1 (broadcastInDim S1x128 ![1] bcast_S128_S1x128_1 v)
/-- The zero array. -/
def zerosND : ND F := broadcastInDim S100000x128 ![] bcast_S_S100000x128 (constant S_ .f32 0x00000000#32)
/-- An edge index array normalised (a negative index counts from the end) and made a column. -/
def normIdx (a : EI F) : (⟨S600000x1, .i32⟩ : BufTy).Contents (Elt F) :=
  broadcastInDim S600000x1 ![0] bcast_S600000_S600000x1_0
    (select (cmpi .slt a (broadcastInDim S600000 ![] bcast_S_S600000 (constantI S_ 32 0#32)))
      (addi a (broadcastInDim S600000 ![] bcast_S_S600000 (constantI S_ 32 100000#32))) a)
/-- Propagation along a relation's edges: the rows gathered at the sources, summed per destination. -/
def prop (feat : ND F) (src dst : EI F) : ND F :=
  Host.scatterAdd scatter_S100000x128_S600000x1_S600000x128_1_0_0_1 zerosND
    (broadcastInDim S600000x1 ![0] bcast_S600000_S600000x1_0 dst)
    (Host.gather gather_S100000x128_S600000x1_S600000x128_1_0_n_n_0_1_1128 feat (normIdx src))
/-- The input times a relation's weight, each row scaled by the relation's out-degree norm. -/
def scaled (H : ND F) (Wr : (⟨S128x128, .f32⟩ : BufTy).Contents (Elt F)) (ns : NV F) : ND F :=
  mulf (Host.dotGeneral dot_S100000x128_S128x128_S100000x128_1_0_0_1_n_n none H Wr) (perNode ns)
/-- The three propagated messages scaled by the in-degree norms, the relation biases added, from zeros. -/
def agg3 (m0 m1 m2 : ND F) (nd0 nd1 nd2 : NV F) (b0 b1 b2 : FV F) : ND F :=
  addf (addf (addf (addf (addf (addf zerosND (mulf m0 (perNode nd0))) (perFeat b0)) (mulf m1 (perNode nd1))) (perFeat b1))
    (mulf m2 (perNode nd2))) (perFeat b2)
/-- The fully connected layer. -/
def fcl (a : ND F) (Wfc : (⟨S128x128, .f32⟩ : BufTy).Contents (Elt F)) (bfc : FV F) : ND F :=
  addf (Host.dotGeneral dot_S100000x128_S128x128_S100000x128_1_0_0_1_n_n none a Wfc) (perFeat bfc)
/-- Normalisation by the stored statistics, then the clamp at zero. -/
def bnRelu (p : ND F) (g be mu va : FV F) : ND F :=
  maximumf
    (addf (mulf (mulf (subf p (perFeat mu))
        (perFeat (Host.rsqrt (addf va (broadcastInDim S128 ![] bcast_S_S128 (constant S_ .f32 0x3727C5AC#32)))))) (perFeat g)) (perFeat be))
    zerosND

/-! ## Read at an index, at the ideal values -/

theorem perNode_apply (v : NV Ideal) (i : Fin 100000) (j : Fin 128) : perNode v (ix2 i j) = v (ix1 i) := by
  unfold perNode
  rw [broadcastInDim_apply ![0, 1] bcast_S100000x1_S100000x128_0_1 _ (ix2 i j) (ix2 i (0 : Fin 1))
    (fun a => by match a with | ⟨0, _⟩ => rfl | ⟨1, _⟩ => rfl)]
  exact broadcastInDim_apply ![0] bcast_S100000_S100000x1_0 v (ix2 i (0 : Fin 1)) (ix1 i) (fun a => by match a with | ⟨0, _⟩ => rfl)

theorem perFeat_apply (v : FV Ideal) (i : Fin 100000) (j : Fin 128) : perFeat v (ix2 i j) = v (ix1 j) := by
  unfold perFeat
  rw [broadcastInDim_apply ![0, 1] bcast_S1x128_S100000x128_0_1 _ (ix2 i j) (ix2 (0 : Fin 1) j)
    (fun a => by match a with | ⟨0, _⟩ => rfl | ⟨1, _⟩ => rfl)]
  exact broadcastInDim_apply ![1] bcast_S128_S1x128_1 v (ix2 (0 : Fin 1) j) (ix1 j) (fun a => by match a with | ⟨0, _⟩ => rfl)

theorem zerosND_apply (y : S100000x128.Idx) : (zerosND (F := Ideal)) y = 0 := by
  unfold zerosND
  rw [broadcastInDim_apply ![] bcast_S_S100000x128 _ y ix0 (fun a => a.elim0), constant_apply, Ideal.ofBits_zero_f32]

theorem dot_plain : dot_S100000x128_S128x128_S100000x128_1_0_0_1_n_n = DotDims.plain 100000 128 128 := rfl

theorem scaled_apply (H : ND Ideal) (Wr : (⟨S128x128, .f32⟩ : BufTy).Contents (Elt Ideal)) (ns : NV Ideal) (i : Fin 100000) (j : Fin 128) :
    scaled H Wr ns (ix2 i j) = (∑ k : Fin 128, H (ix2 i k) * Wr (ix2 k j)) * ns (ix1 i) := by
  unfold scaled
  rw [mulf_apply, perNode_apply, dot_plain, Cert.Lib.plain_dotGeneral_apply]

theorem agg3_apply (m0 m1 m2 : ND Ideal) (nd0 nd1 nd2 : NV Ideal) (b0 b1 b2 : FV Ideal) (i : Fin 100000) (k : Fin 128) :
    agg3 m0 m1 m2 nd0 nd1 nd2 b0 b1 b2 (ix2 i k)
      = ((((m0 (ix2 i k) * nd0 (ix1 i) + b0 (ix1 k)) + m1 (ix2 i k) * nd1 (ix1 i)) + b1 (ix1 k)) + m2 (ix2 i k) * nd2 (ix1 i)) + b2 (ix1 k) := by
  unfold agg3
  simp only [addf_apply, mulf_apply, perNode_apply, perFeat_apply, zerosND_apply, zero_add]

theorem fcl_apply (a : ND Ideal) (Wfc : (⟨S128x128, .f32⟩ : BufTy).Contents (Elt Ideal)) (bfc : FV Ideal) (i : Fin 100000) (j : Fin 128) :
    fcl a Wfc bfc (ix2 i j) = (∑ k : Fin 128, a (ix2 i k) * Wfc (ix2 k j)) + bfc (ix1 j) := by
  unfold fcl
  rw [addf_apply, perFeat_apply, dot_plain, Cert.Lib.plain_dotGeneral_apply]

theorem bnRelu_apply (p : ND Ideal) (g be mu va : FV Ideal) (i : Fin 100000) (j : Fin 128) :
    bnRelu p g be mu va (ix2 i j)
      = Cert.Spec.bnRelu (Ideal.ofBits .f32 0x3727C5AC#32) (p (ix2 i j)) (g (ix1 j)) (be (ix1 j)) (mu (ix1 j)) (va (ix1 j)) := by
  unfold bnRelu Cert.Spec.bnRelu
  simp only [maximumf_apply, addf_apply, mulf_apply, subf_apply, perFeat_apply, zerosND_apply]
  have hr : (Host.rsqrt (addf va (broadcastInDim S128 ![] bcast_S_S128 (constant (F := Ideal) S_ .f32 0x3727C5AC#32)))) (ix1 j)
      = Ideal.rsqrt (va (ix1 j) + Ideal.ofBits .f32 0x3727C5AC#32) := by
    show FloatOps.hostUnary .rsqrt ((addf va (broadcastInDim S128 ![] bcast_S_S128 (constant (F := Ideal) S_ .f32 0x3727C5AC#32))) (ix1 j)) = _
    rw [Ideal.hostUnary_rsqrt_def, addf_apply, broadcastInDim_apply ![] bcast_S_S128 _ (ix1 j) ix0 (fun a => a.elim0), constant_apply]
  rw [hr]

end Cert.ReferenceIdeal.RefValue

end
-- ==== Proof.Step.lean ====
/-
  The two steps that join a layer of the kernel program to a layer of the reference, and the slices of the parameters.

  * The transform step: the specification's relation transform at (r, i, j), of arrays that agree index by index with a
    layer input, relation r's weight and relation r's out-degree norm, is the reference's scaled product at (i, j).
  * The combine step: the specification's combine formula at (i, j), of arrays that agree index by index with three
    propagated messages, the in-degree norms, the biases, the fully connected weight and bias and the stored
    statistics, is the reference's normalised (or, in the last layer, plain) fully connected aggregate at (i, j).
  * A slice of a stacked parameter, reshaped, read at an index.
-/
import proofs.«143860_j29738353557974_1_alg».proof.Proof.RefLayer

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx
open scoped BigOperators

variable {F : FTy → Type} [FloatOps F]

abbrev M128 (F : FTy → Type) := (⟨S128x128, .f32⟩ : BufTy).Contents (Elt F)

/-- A layer with normalisation, as a function of its input and its parameters' slices. -/
def layerBn (H : ND F) (W0 W1 W2 : M128 F) (ns0 ns1 ns2 nd0 nd1 nd2 : NV F) (s0 d0 s1 d1 s2 d2 : EI F) (b0 b1 b2 : FV F)
    (Wfc : M128 F) (bfc g be mu va : FV F) : ND F :=
  bnRelu (fcl (agg3 (prop (scaled H W0 ns0) s0 d0) (prop (scaled H W1 ns1) s1 d1) (prop (scaled H W2 ns2) s2 d2)
    nd0 nd1 nd2 b0 b1 b2) Wfc bfc) g be mu va

/-- The last layer: no normalisation. -/
def layerLast (H : ND F) (W0 W1 W2 : M128 F) (ns0 ns1 ns2 nd0 nd1 nd2 : NV F) (s0 d0 s1 d1 s2 d2 : EI F) (b0 b1 b2 : FV F)
    (Wfc : M128 F) (bfc : FV F) : ND F :=
  fcl (agg3 (prop (scaled H W0 ns0) s0 d0) (prop (scaled H W1 ns1) s1 d1) (prop (scaled H W2 ns2) s2 d2)
    nd0 nd1 nd2 b0 b1 b2) Wfc bfc

/-- THE TRANSFORM STEP. -/
theorem transform_step (h : Cert.Spec.Arr2 100000 128) (W : Cert.Spec.Arr3 3 128 128) (ns : Cert.Spec.Arr3 3 100000 1)
    (H : ND Ideal) (Wr : M128 Ideal) (nsr : NV Ideal) (r : Fin 3)
    (hh : ∀ i k, h (ix2 i k) = H (ix2 i k)) (hW : ∀ k j, W (ix3 r k j) = Wr (ix2 k j)) (hn : ∀ i, ns (ix3 r i (0 : Fin 1)) = nsr (ix1 i))
    (i : Fin 100000) (j : Fin 128) : Cert.Spec.relT h W ns r i j = scaled H Wr nsr (ix2 i j) := by
  rw [scaled_apply]
  unfold Cert.Spec.relT
  simp only [hh, hW, hn]

/-- The aggregate part of the combine step. -/
theorem agg_step (a0 : Cert.Spec.Arr3 3 100000 128) (a1 : Cert.Spec.Arr3 3 100000 1) (a2 : Cert.Spec.Arr2 3 128)
    (M0 M1 M2 : ND Ideal) (nd0 nd1 nd2 : NV Ideal) (b0 b1 b2 : FV Ideal)
    (hm0 : ∀ i k, a0 (ix3 (0 : Fin 3) i k) = M0 (ix2 i k)) (hm1 : ∀ i k, a0 (ix3 (1 : Fin 3) i k) = M1 (ix2 i k))
    (hm2 : ∀ i k, a0 (ix3 (2 : Fin 3) i k) = M2 (ix2 i k))
    (hn0 : ∀ i, a1 (ix3 (0 : Fin 3) i (0 : Fin 1)) = nd0 (ix1 i)) (hn1 : ∀ i, a1 (ix3 (1 : Fin 3) i (0 : Fin 1)) = nd1 (ix1 i))
    (hn2 : ∀ i, a1 (ix3 (2 : Fin 3) i (0 : Fin 1)) = nd2 (ix1 i))
    (hb0 : ∀ k, a2 (ix2 (0 : Fin 3) k) = b0 (ix1 k)) (hb1 : ∀ k, a2 (ix2 (1 : Fin 3) k) = b1 (ix1 k)) (hb2 : ∀ k, a2 (ix2 (2 : Fin 3) k) = b2 (ix1 k))
    (i : Fin 100000) (k : Fin 128) :
    Cert.Spec.agg a0 a1 a2 i k = agg3 M0 M1 M2 nd0 nd1 nd2 b0 b1 b2 (ix2 i k) := by
  rw [agg3_apply]
  unfold Cert.Spec.agg
  simp only [hm0, hm1, hm2, hn0, hn1, hn2, hb0, hb1, hb2]

/-- The fully connected part. -/
theorem fc_step (a0 : Cert.Spec.Arr3 3 100000 128) (a1 : Cert.Spec.Arr3 3 100000 1) (a2 : Cert.Spec.Arr2 3 128)
    (a3 : Cert.Spec.Arr2 128 128) (a4 : Cert.Spec.Arr2 1 128) (A : ND Ideal) (Wfc : M128 Ideal) (bfc : FV Ideal)
    (hA : ∀ i k, Cert.Spec.agg a0 a1 a2 i k = A (ix2 i k)) (hW : ∀ k j, a3 (ix2 k j) = Wfc (ix2 k j))
    (hb : ∀ j, a4 (ix2 (0 : Fin 1) j) = bfc (ix1 j)) (i : Fin 100000) (j : Fin 128) :
    Cert.Spec.fc a0 a1 a2 a3 a4 i j = fcl A Wfc bfc (ix2 i j) := by
  rw [fcl_apply]
  unfold Cert.Spec.fc
  simp only [hA, hW, hb]

/-- THE COMBINE STEP, with normalisation. -/
theorem combine_step (a0 : Cert.Spec.Arr3 3 100000 128) (a1 : Cert.Spec.Arr3 3 100000 1) (a2 : Cert.Spec.Arr2 3 128)
    (a3 : Cert.Spec.Arr2 128 128) (a4 a5 a6 a7 a8 : Cert.Spec.Arr2 1 128) (P : ND Ideal) (g be mu va : FV Ideal)
    (hP : ∀ i j, Cert.Spec.fc a0 a1 a2 a3 a4 i j = P (ix2 i j))
    (hg : ∀ j, a5 (ix2 (0 : Fin 1) j) = g (ix1 j)) (hbe : ∀ j, a6 (ix2 (0 : Fin 1) j) = be (ix1 j))
    (hmu : ∀ j, a7 (ix2 (0 : Fin 1) j) = mu (ix1 j)) (hva : ∀ j, a8 (ix2 (0 : Fin 1) j) = va (ix1 j))
    (i : Fin 100000) (j : Fin 128) :
    Cert.Spec.combineBn (Ideal.ofBits .f32 0x3727C5AC#32) a0 a1 a2 a3 a4 a5 a6 a7 a8 i j = bnRelu P g be mu va (ix2 i j) := by
  rw [bnRelu_apply]
  unfold Cert.Spec.combineBn
  rw [hP, hg, hbe, hmu, hva]

/-! ## Slices of the stacked parameters -/

/-- Relation r's weight of layer l. -/
def wSlice (l r : Nat) (hs : S3x3x128x128.Slices ![l, r, 0, 0] S1x1x128x128) (x : (⟨S3x3x128x128, .f32⟩ : BufTy).Contents (Elt F)) : M128 F :=
  shapeCast S128x128 (extractStridedSlice S1x1x128x128 ![l, r, 0, 0] x hs) shapeCasts_S1x1x128x128_S128x128
theorem wSlice_apply (l r : Nat) (hl : l < 3) (hr : r < 3) (hs) (x : (⟨S3x3x128x128, .f32⟩ : BufTy).Contents (Elt F)) (k j : Fin 128) :
    wSlice l r hs x (ix2 k j) = x (ix4 (⟨l, hl⟩ : Fin 3) (⟨r, hr⟩ : Fin 3) k j) := by
  unfold wSlice
  rw [shapeCast_apply _ shapeCasts_S1x1x128x128_S128x128 (ix2 k j) (ix4 (0 : Fin 1) (0 : Fin 1) k j) (by
    rw [Shape.rowMajor_val_four, Shape.rowMajor_val_two]
    show ((0 * 1 + 0) * 128 + k.val) * 128 + j.val = k.val * 128 + j.val
    omega)]
  exact extractStridedSlice_apply ![l, r, 0, 0] x hs (ix4 (0 : Fin 1) (0 : Fin 1) k j) (ix4 (⟨l, hl⟩ : Fin 3) (⟨r, hr⟩ : Fin 3) k j)
    (fun a => by
      match a with
      | ⟨0, _⟩ => rfl
      | ⟨1, _⟩ => rfl
      | ⟨2, _⟩ => show k.val = 0 + k.val; omega
      | ⟨3, _⟩ => show j.val = 0 + j.val; omega)

/-- Relation r's bias of layer l. -/
def bSlice (l r : Nat) (hs : S3x3x128.Slices ![l, r, 0] S1x1x128) (x : (⟨S3x3x128, .f32⟩ : BufTy).Contents (Elt F)) : FV F :=
  shapeCast S128 (extractStridedSlice S1x1x128 ![l, r, 0] x hs) shapeCasts_S1x1x128_S128
theorem bSlice_apply (l r : Nat) (hl : l < 3) (hr : r < 3) (hs) (x : (⟨S3x3x128, .f32⟩ : BufTy).Contents (Elt F)) (k : Fin 128) :
    bSlice l r hs x (ix1 k) = x (ix3 (⟨l, hl⟩ : Fin 3) (⟨r, hr⟩ : Fin 3) k) := by
  unfold bSlice
  rw [shapeCast_apply _ shapeCasts_S1x1x128_S128 (ix1 k) (ix3 (0 : Fin 1) (0 : Fin 1) k) (by
    rw [Shape.rowMajor_val_three, Shape.rowMajor_val_one]
    show (0 * 1 + 0) * 128 + k.val = k.val
    omega)]
  exact extractStridedSlice_apply ![l, r, 0] x hs (ix3 (0 : Fin 1) (0 : Fin 1) k) (ix3 (⟨l, hl⟩ : Fin 3) (⟨r, hr⟩ : Fin 3) k)
    (fun a => by
      match a with
      | ⟨0, _⟩ => rfl
      | ⟨1, _⟩ => rfl
      | ⟨2, _⟩ => show k.val = 0 + k.val; omega)

/-- Layer l's fully connected weight. -/
def fcSlice (l : Nat) (hs : S3x128x128.Slices ![l, 0, 0] S1x128x128) (x : (⟨S3x128x128, .f32⟩ : BufTy).Contents (Elt F)) : M128 F :=
  shapeCast S128x128 (extractStridedSlice S1x128x128 ![l, 0, 0] x hs) shapeCasts_S1x128x128_S128x128
theorem fcSlice_apply (l : Nat) (hl : l < 3) (hs) (x : (⟨S3x128x128, .f32⟩ : BufTy).Contents (Elt F)) (k j : Fin 128) :
    fcSlice l hs x (ix2 k j) = x (ix3 (⟨l, hl⟩ : Fin 3) k j) := by
  unfold fcSlice
  rw [shapeCast_1ab_ab_apply]
  exact extractStridedSlice_apply ![l, 0, 0] x hs (ix3 (0 : Fin 1) k j) (ix3 (⟨l, hl⟩ : Fin 3) k j)
    (fun a => by
      match a with
      | ⟨0, _⟩ => rfl
      | ⟨1, _⟩ => show k.val = 0 + k.val; omega
      | ⟨2, _⟩ => show j.val = 0 + j.val; omega)

/-- Row l of a 3×128 parameter (the fully connected bias). -/
def v3Slice (l : Nat) (hs : S3x128.Slices ![l, 0] S1x128) (x : (⟨S3x128, .f32⟩ : BufTy).Contents (Elt F)) : FV F :=
  shapeCast S128 (extractStridedSlice S1x128 ![l, 0] x hs) shapeCasts_S1x128_S128
theorem v3Slice_apply (l : Nat) (hl : l < 3) (hs) (x : (⟨S3x128, .f32⟩ : BufTy).Contents (Elt F)) (j : Fin 128) :
    v3Slice l hs x (ix1 j) = x (ix2 (⟨l, hl⟩ : Fin 3) j) := by
  unfold v3Slice
  rw [shapeCast_1a_a_apply]
  exact extractStridedSlice_apply ![l, 0] x hs (ix2 (0 : Fin 1) j) (ix2 (⟨l, hl⟩ : Fin 3) j)
    (fun a => by
      match a with
      | ⟨0, _⟩ => rfl
      | ⟨1, _⟩ => show j.val = 0 + j.val; omega)

/-- Row l of a 2×128 parameter (the stored statistics, the scale and the shift). -/
def v2Slice (l : Nat) (hs : S2x128.Slices ![l, 0] S1x128) (x : (⟨S2x128, .f32⟩ : BufTy).Contents (Elt F)) : FV F :=
  shapeCast S128 (extractStridedSlice S1x128 ![l, 0] x hs) shapeCasts_S1x128_S128
theorem v2Slice_apply (l : Nat) (hl : l < 2) (hs) (x : (⟨S2x128, .f32⟩ : BufTy).Contents (Elt F)) (j : Fin 128) :
    v2Slice l hs x (ix1 j) = x (ix2 (⟨l, hl⟩ : Fin 2) j) := by
  unfold v2Slice
  rw [shapeCast_1a_a_apply]
  exact extractStridedSlice_apply ![l, 0] x hs (ix2 (0 : Fin 1) j) (ix2 (⟨l, hl⟩ : Fin 2) j)
    (fun a => by
      match a with
      | ⟨0, _⟩ => rfl
      | ⟨1, _⟩ => show j.val = 0 + j.val; omega)

/-- A relation's degree norm from one of its index arrays: the index's count (ones scattered into zeros), clamped
    below at one, to the power −1/2. -/
def degNormR (idx : EI F) : NV F :=
  Host.powf
    (maximumf (broadcastInDim S100000 ![] bcast_S_S100000 (id (constant S_ .f32 0x3F800000#32)))
      (Host.scatterAdd scatter_S100000_S600000x1_S600000_n_0_0_1
        (broadcastInDim S100000 ![] bcast_S_S100000 (constant S_ .f32 0x00000000#32))
        (broadcastInDim S600000x1 ![0] bcast_S600000_S600000x1_0 idx)
        (broadcastInDim S600000 ![] bcast_S_S600000 (constant S_ .f32 0x3F800000#32))))
    (broadcastInDim S100000 ![] bcast_S_S100000 (constant S_ .f32 0xBF000000#32))

end Cert.ReferenceIdeal.RefValue

end
-- ==== Proof.RefNetDirect.lean ====
/-
  The reference's result, as its run states it, is its three layers composed.

  The run names the result's composed term of the arguments; unfolded, it is the three layer functions of
  Proof/Step.lean applied one after the other to the launch features and the layers' parameter slices.
-/
import proofs.«143860_j29738353557974_1_alg».proof.Proof.RefRun
import proofs.«143860_j29738353557974_1_alg».proof.Proof.Step

set_option maxRecDepth 65536

noncomputable section

namespace Cert.ReferenceIdeal.RefValue

open Cert.ReferenceIdeal Cert.ReferenceIdeal.Gen
open Idealize.ShloMosaic Idealize.ShloMosaic.TcCoe Idealize.SL.Sem

variable {F : FTy → Type} [FloatOps F]

set_option maxHeartbeats 40000000 in
/-- The run's result term is the last layer of the second layer of the first layer of the launch features. -/
theorem res_eq (m : (ℓ : Loc nD τ sig) → Buf (Elt F) ℓ) (c : Dev nD) :
    Cert.ReferenceIdeal.Value.res_main_v338 (F := F) m c
      = layerLast (layerBn (layerBn (m ((c.tc : Thread nD τ).loc main_arg0))
      (wSlice 0 0 slices_S3x3x128x128_S1x1x128x128_0_0_0_0 (m ((c.tc : Thread nD τ).loc main_arg7))) (wSlice 0 1 slices_S3x3x128x128_S1x1x128x128_0_1_0_0 (m ((c.tc : Thread nD τ).loc main_arg7))) (wSlice 0 2 slices_S3x3x128x128_S1x1x128x128_0_2_0_0 (m ((c.tc : Thread nD τ).loc main_arg7)))
      (degNormR (m ((c.tc : Thread nD τ).loc main_arg1))) (degNormR (m ((c.tc : Thread nD τ).loc main_arg3))) (degNormR (m ((c.tc : Thread nD τ).loc main_arg5))) (degNormR (m ((c.tc : Thread nD τ).loc main_arg2))) (degNormR (m ((c.tc : Thread nD τ).loc main_arg4))) (degNormR (m ((c.tc : Thread nD τ).loc main_arg6)))
      (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      (bSlice 0 0 slices_S3x3x128_S1x1x128_0_0_0 (m ((c.tc : Thread nD τ).loc main_arg8))) (bSlice 0 1 slices_S3x3x128_S1x1x128_0_1_0 (m ((c.tc : Thread nD τ).loc main_arg8))) (bSlice 0 2 slices_S3x3x128_S1x1x128_0_2_0 (m ((c.tc : Thread nD τ).loc main_arg8)))
      (fcSlice 0 slices_S3x128x128_S1x128x128_0_0_0 (m ((c.tc : Thread nD τ).loc main_arg9))) (v3Slice 0 slices_S3x128_S1x128_0_0 (m ((c.tc : Thread nD τ).loc main_arg10)))
      (v2Slice 0 slices_S2x128_S1x128_0_0 (m ((c.tc : Thread nD τ).loc main_arg11))) (v2Slice 0 slices_S2x128_S1x128_0_0 (m ((c.tc : Thread nD τ).loc main_arg12))) (v2Slice 0 slices_S2x128_S1x128_0_0 (m ((c.tc : Thread nD τ).loc main_arg13))) (v2Slice 0 slices_S2x128_S1x128_0_0 (m ((c.tc : Thread nD τ).loc main_arg14))))
      (wSlice 1 0 slices_S3x3x128x128_S1x1x128x128_1_0_0_0 (m ((c.tc : Thread nD τ).loc main_arg7))) (wSlice 1 1 slices_S3x3x128x128_S1x1x128x128_1_1_0_0 (m ((c.tc : Thread nD τ).loc main_arg7))) (wSlice 1 2 slices_S3x3x128x128_S1x1x128x128_1_2_0_0 (m ((c.tc : Thread nD τ).loc main_arg7)))
      (degNormR (m ((c.tc : Thread nD τ).loc main_arg1))) (degNormR (m ((c.tc : Thread nD τ).loc main_arg3))) (degNormR (m ((c.tc : Thread nD τ).loc main_arg5))) (degNormR (m ((c.tc : Thread nD τ).loc main_arg2))) (degNormR (m ((c.tc : Thread nD τ).loc main_arg4))) (degNormR (m ((c.tc : Thread nD τ).loc main_arg6)))
      (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      (bSlice 1 0 slices_S3x3x128_S1x1x128_1_0_0 (m ((c.tc : Thread nD τ).loc main_arg8))) (bSlice 1 1 slices_S3x3x128_S1x1x128_1_1_0 (m ((c.tc : Thread nD τ).loc main_arg8))) (bSlice 1 2 slices_S3x3x128_S1x1x128_1_2_0 (m ((c.tc : Thread nD τ).loc main_arg8)))
      (fcSlice 1 slices_S3x128x128_S1x128x128_1_0_0 (m ((c.tc : Thread nD τ).loc main_arg9))) (v3Slice 1 slices_S3x128_S1x128_1_0 (m ((c.tc : Thread nD τ).loc main_arg10)))
      (v2Slice 1 slices_S2x128_S1x128_1_0 (m ((c.tc : Thread nD τ).loc main_arg11))) (v2Slice 1 slices_S2x128_S1x128_1_0 (m ((c.tc : Thread nD τ).loc main_arg12))) (v2Slice 1 slices_S2x128_S1x128_1_0 (m ((c.tc : Thread nD τ).loc main_arg13))) (v2Slice 1 slices_S2x128_S1x128_1_0 (m ((c.tc : Thread nD τ).loc main_arg14))))
      (wSlice 2 0 slices_S3x3x128x128_S1x1x128x128_2_0_0_0 (m ((c.tc : Thread nD τ).loc main_arg7))) (wSlice 2 1 slices_S3x3x128x128_S1x1x128x128_2_1_0_0 (m ((c.tc : Thread nD τ).loc main_arg7))) (wSlice 2 2 slices_S3x3x128x128_S1x1x128x128_2_2_0_0 (m ((c.tc : Thread nD τ).loc main_arg7)))
      (degNormR (m ((c.tc : Thread nD τ).loc main_arg1))) (degNormR (m ((c.tc : Thread nD τ).loc main_arg3))) (degNormR (m ((c.tc : Thread nD τ).loc main_arg5))) (degNormR (m ((c.tc : Thread nD τ).loc main_arg2))) (degNormR (m ((c.tc : Thread nD τ).loc main_arg4))) (degNormR (m ((c.tc : Thread nD τ).loc main_arg6)))
      (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      (bSlice 2 0 slices_S3x3x128_S1x1x128_2_0_0 (m ((c.tc : Thread nD τ).loc main_arg8))) (bSlice 2 1 slices_S3x3x128_S1x1x128_2_1_0 (m ((c.tc : Thread nD τ).loc main_arg8))) (bSlice 2 2 slices_S3x3x128_S1x1x128_2_2_0 (m ((c.tc : Thread nD τ).loc main_arg8)))
      (fcSlice 2 slices_S3x128x128_S1x128x128_2_0_0 (m ((c.tc : Thread nD τ).loc main_arg9))) (v3Slice 2 slices_S3x128_S1x128_2_0 (m ((c.tc : Thread nD τ).loc main_arg10))) := by
  unfold Cert.ReferenceIdeal.Value.res_main_v338
  rfl

end Cert.ReferenceIdeal.RefValue

end
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.ValueIdeal.A0.lean ====
/-
  What the relation-transform region leaves in its output array, index by index, at the ideal values.

  At a grid point the body's three stores write, into slab r of the 3×2000×128 output block, the block's 2000 feature
  rows times relation r's 128×128 weight (a matrix product into a zero accumulator: a plain sum over the 128 inner
  positions; the change of format before it is the identity on extended reals), each row scaled by the row's entry of
  relation r's norm column. So the block is ONE function of its index (r, p, q):
      (Σ_k x0[p,k] · x1[r,k,q]) · x2[r,p,0].
-/
import proofs.«143860_j29738353557974_1_alg».proof.Proof.FrameIdeal.R0
import proofs.«143860_j29738353557974_1_alg».proof.Proof.Spec
import proofs.«143860_j29738353557974_1_alg».proof.Proof.LibPlainDot
import proofs.«143860_j29738353557974_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open scoped BigOperators

/-- One block of the relation transform at block index (r, p, q). -/
def blockRelT (x0 : Vec Ideal S2000x128 .f32) (x1 : Vec Ideal S3x128x128 .f32) (x2 : Vec Ideal S3x2000x1 .f32)
    (r : Fin 3) (p : Fin 2000) (q : Fin 128) : EReal :=
  (∑ k : Fin 128, x0 (ix2 p k) * x1 (ix3 r k q)) * x2 (ix3 r p 0)

/-- The printed dimension numbers of the body's products are the plain ones. -/
theorem dot_plain : dot_S2000x128_S128x128_S2000x128_1_0_0_1_n_n = DotDims.plain 2000 128 128 := rfl

/-- Relation r's slab before the final cast: the product with relation r's weight slice, scaled by relation r's norm
    column, read at (p, q). -/
theorem slab_apply (r : Fin 3) (x0 : Vec Ideal S2000x128 .f32) (x1 : Vec Ideal S3x128x128 .f32) (x2 : Vec Ideal S3x2000x1 .f32)
    (hW : S3x128x128.Slices ![r.val, 0, 0] S1x128x128) (hN : S3x2000x1.Slices ![r.val, 0, 0] S1x2000x1)
    (p : Fin 2000) (q : Fin 128) :
    mulf (matmul dot_S2000x128_S128x128_S2000x128_1_0_0_1_n_n none (truncf .bf16 x0 bitsLt_bf16_f32)
          (truncf .bf16 (shapeCast S128x128 (extractStridedSlice S1x128x128 ![r.val, 0, 0] x1 hW) shapeCasts_S1x128x128_S128x128) bitsLt_bf16_f32)
          (constant (F := Ideal) S2000x128 .f32 0x00000000#32))
        (broadcastTo S2000x128 (shapeCast S2000x1 (extractStridedSlice S1x2000x1 ![r.val, 0, 0] x2 hN) shapeCasts_S1x2000x1_S2000x1)
          broadcasts_S2000x1_S2000x128) (ix2 p q)
      = blockRelT x0 x1 x2 r p q := by
  unfold blockRelT
  rw [mulf_apply, Cert.Lib.broadcastTo_a1_ab_apply, shapeCast_1ab_ab_apply]
  rw [extractStridedSlice_apply ![r.val, 0, 0] x2 hN (ix3 (0 : Fin 1) p (0 : Fin 1)) (ix3 r p (0 : Fin 1)) (fun a => by
    match a with
    | ⟨0, _⟩ => rfl
    | ⟨1, _⟩ => show p.val = 0 + p.val; omega
    | ⟨2, _⟩ => rfl)]
  refine congrArg (· * x2 (ix3 r p (0 : Fin 1))) ?_
  rw [dot_plain]
  refine (Cert.Lib.plain_matmul_zero_apply 2000 128 128 none _ _ p q).trans ?_
  refine Finset.sum_congr rfl fun k _ => ?_
  rw [truncf_apply, truncf_apply, shapeCast_1ab_ab_apply]
  rw [extractStridedSlice_apply ![r.val, 0, 0] x1 hW (ix3 (0 : Fin 1) k q) (ix3 r k q) (fun a => by
    match a with
    | ⟨0, _⟩ => rfl
    | ⟨1, _⟩ => show k.val = 0 + k.val; omega
    | ⟨2, _⟩ => show q.val = 0 + q.val; omega)]

/-- The first slab's payload at (u, p, q): relation 0's product, scaled. -/
theorem pay5_apply (x0 : Vec Ideal S2000x128 .f32) (x1 : Vec Ideal S3x128x128 .f32) (x2 : Vec Ideal S3x2000x1 .f32)
    (u : Fin 1) (p : Fin 2000) (q : Fin 128) : k0_pay5 x0 x1 x2 (ix3 u p q) = blockRelT x0 x1 x2 0 p q := by
  unfold k0_pay5 k0_pay2 k0_pay3 k0_pay4
  dsimp only
  rw [shapeCast_ab_1ab_apply]
  simp only [shapeCast_self]
  exact slab_apply 0 x0 x1 x2 _ _ p q

/-- The second slab's payload at (u, p, q): relation 1's. -/
theorem pay6_apply (x0 : Vec Ideal S2000x128 .f32) (x1 : Vec Ideal S3x128x128 .f32) (x2 : Vec Ideal S3x2000x1 .f32)
    (u : Fin 1) (p : Fin 2000) (q : Fin 128) : k0_pay6 x0 x1 x2 (ix3 u p q) = blockRelT x0 x1 x2 1 p q := by
  unfold k0_pay6 k0_pay2 k0_pay3 k0_pay4
  dsimp only
  rw [shapeCast_ab_1ab_apply]
  simp only [shapeCast_self]
  exact slab_apply 1 x0 x1 x2 _ _ p q

/-- The third slab's payload at (u, p, q): relation 2's. -/
theorem pay7_apply (x0 : Vec Ideal S2000x128 .f32) (x1 : Vec Ideal S3x128x128 .f32) (x2 : Vec Ideal S3x2000x1 .f32)
    (u : Fin 1) (p : Fin 2000) (q : Fin 128) : k0_pay1 (k0_pay7 x0 x1 x2) (ix3 u p q) = blockRelT x0 x1 x2 2 p q := by
  unfold k0_pay1 k0_pay7 k0_pay2 k0_pay3 k0_pay4
  dsimp only
  rw [shapeCast_ab_1ab_apply]
  simp only [shapeCast_self]
  exact slab_apply 2 x0 x1 x2 _ _ p q

/-- The output block as ONE function of its index. -/
def blockG (x0 : Vec Ideal S2000x128 .f32) (x1 : Vec Ideal S3x128x128 .f32) (x2 : Vec Ideal S3x2000x1 .f32) :
    S3x2000x128.Idx → EReal := fun y =>
  blockRelT x0 x1 x2 ⟨(y 0).val, (y 0).isLt⟩ ⟨(y 1).val, (y 1).isLt⟩ ⟨(y 2).val, (y 2).isLt⟩

/-- Slab r's rectangle places the local index (u, p, q) at (r, p, q). -/
theorem blockG_slab (x0 : Vec Ideal S2000x128 .f32) (x1 : Vec Ideal S3x128x128 .f32) (x2 : Vec Ideal S3x2000x1 .f32)
    (r : Fin 3) (inb : ∀ a, (![r.val, 0, 0] : Fin 3 → Nat) a + S1x2000x128.size a ≤ S3x2000x128.size a)
    (u : Fin 1) (p : Fin 2000) (q : Fin 128) :
    blockG x0 x1 x2 ((Rect.unit (s := S3x2000x128) ![r.val, 0, 0] S1x2000x128.size inb).emb (ix3 u p q)) = blockRelT x0 x1 x2 r p q := by
  unfold blockG
  have e0 : (⟨(((Rect.unit (s := S3x2000x128) ![r.val, 0, 0] S1x2000x128.size inb).emb (ix3 u p q)) 0).val,
      (((Rect.unit (s := S3x2000x128) ![r.val, 0, 0] S1x2000x128.size inb).emb (ix3 u p q)) 0).isLt⟩ : Fin 3) = r :=
    Fin.ext (by show r.val + 1 * u.val = r.val; omega)
  have e1 : (⟨(((Rect.unit (s := S3x2000x128) ![r.val, 0, 0] S1x2000x128.size inb).emb (ix3 u p q)) 1).val,
      (((Rect.unit (s := S3x2000x128) ![r.val, 0, 0] S1x2000x128.size inb).emb (ix3 u p q)) 1).isLt⟩ : Fin 2000) = p :=
    Fin.ext (by show 0 + 1 * p.val = p.val; omega)
  have e2 : (⟨(((Rect.unit (s := S3x2000x128) ![r.val, 0, 0] S1x2000x128.size inb).emb (ix3 u p q)) 2).val,
      (((Rect.unit (s := S3x2000x128) ![r.val, 0, 0] S1x2000x128.size inb).emb (ix3 u p q)) 2).isLt⟩ : Fin 128) = q :=
    Fin.ext (by show 0 + 1 * q.val = q.val; omega)
  rw [e0, e1, e2]

/-- What the output buffer holds after the body, at any index: the block function. -/
theorem out0_3_apply (x0 : Vec Ideal S2000x128 .f32) (x1 : Vec Ideal S3x128x128 .f32) (x2 : Vec Ideal S3x2000x1 .f32)
    (y : S3x2000x128.Idx) : out0_3 x0 x1 x2 y = blockG x0 x1 x2 y := by
  unfold out0_3
  rw [View.ld_unit_zero (S := S2000x128) (funext fun a => by fin_cases a <;> rfl),
    View.ld_unit_zero (S := S3x128x128) (funext fun a => by fin_cases a <;> rfl),
    View.ld_unit_zero (S := S3x2000x1) (funext fun a => by fin_cases a <;> rfl)]
  refine View.canon_apply_of_pieces (Val := Elt Ideal) (blockG x0 x1 x2 : S3x2000x128.Idx → Elt Ideal .f32) _ (fun pc hpc x => ?_) y (cover0_3 _ _ _ y)
  simp only [List.mem_cons, List.not_mem_nil, or_false] at hpc
  rcases hpc with rfl | rfl | rfl
  · obtain ⟨u, p, q, rfl⟩ : ∃ (u : Fin 1) (p : Fin 2000) (q : Fin 128), x = ix3 u p q := ⟨x 0, x 1, x 2, eq_ix3 x⟩
    exact (pay7_apply x0 x1 x2 u p q).trans (blockG_slab x0 x1 x2 2 inb_S3x2000x128_S1x2000x128_2_0_0 u p q).symm
  · obtain ⟨u, p, q, rfl⟩ : ∃ (u : Fin 1) (p : Fin 2000) (q : Fin 128), x = ix3 u p q := ⟨x 0, x 1, x 2, eq_ix3 x⟩
    exact (pay6_apply x0 x1 x2 u p q).trans (blockG_slab x0 x1 x2 1 inb_S3x2000x128_S1x2000x128_1_0_0 u p q).symm
  · obtain ⟨u, p, q, rfl⟩ : ∃ (u : Fin 1) (p : Fin 2000) (q : Fin 128), x = ix3 u p q := ⟨x 0, x 1, x 2, eq_ix3 x⟩
    exact (pay5_apply x0 x1 x2 u p q).trans (blockG_slab x0 x1 x2 0 inb_S3x2000x128_S1x2000x128_0_0_0 u p q).symm

/-! ## From the blocks to the array -/

/-- The region's whole output array as ONE function of its three input arrays: at (r, i, j),
    (Σ_k h[i,k] · W[r,k,j]) · ns[r,i,0]. -/
def G0 (h : S100000x128.Idx → EReal) (W : S3x128x128.Idx → EReal) (ns : S3x100000x1.Idx → EReal) : S3x100000x128.Idx → EReal :=
  fun y => Cert.Spec.relT h W ns ⟨(y 0).val, (y 0).isLt⟩ ⟨(y 1).val, (y 1).isLt⟩ ⟨(y 2).val, (y 2).isLt⟩

/-- The printed index maps, decided over the grid: at point t the feature block is row block t, the weight block is the
    whole array, the norm block and the output block are row block t of every relation. -/
theorem idx_facts0 : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = t.val ∧ win0_3.index t (2 : Fin 3) = 0 :=
  (by decide +kernel : ∀ t : Fin grid0.N, _)

variable (V : (c : Dev nD) → (b : Ref sig .tc) → Buf (Elt Ideal) ((c : Thread nD τ).loc b))

/-- WHAT POINT t WRITES BACK is block t of `G0` of the arrays as the region finds them. -/
theorem flushed0_eq (c : Dev nD) (t : Fin cfg0.N) :
    (dat0 V c).flushed 3 t = ((cfg0.win 3).blk t).view.read (Elt Ideal)
      (G0 (V c (Pipeline.arrRef spec0 0)) (V c (Pipeline.arrRef spec0 1)) (V c (Pipeline.arrRef spec0 2))) := by
  show (cfg0.win 3).cut (grid0.coords t) ((dat0 V c).after 3 t) = _
  rw [after0_3]
  obtain ⟨a0, a1, b0, b1, b2, c0, c1, c2, d0, d1, d2⟩ := idx_facts0 t
  funext j
  show out0_3 (iblk0 V c 0 t) (iblk0 V c 1 t) (iblk0 V c 2 t) j
    = G0 (V c (Pipeline.arrRef spec0 0)) (V c (Pipeline.arrRef spec0 1)) (V c (Pipeline.arrRef spec0 2)) (((cfg0.win 3).blk t).view.emb j)
  rw [out0_3_apply]
  unfold blockG blockRelT G0 Cert.Spec.relT
  have hj0 : (j 0).val < 3 := (j 0).isLt
  have hj1 : (j 1).val < 2000 := (j 1).isLt
  have hj2 : (j 2).val < 128 := (j 2).isLt
  refine congrArg₂ (· * ·) (Finset.sum_congr rfl fun k _ => congrArg₂ (· * ·) ?_ ?_) ?_
  · show V c (Pipeline.arrRef spec0 0) (((cfg0.win 0).blk t).view.emb (ix2 (⟨(j 1).val, (j 1).isLt⟩ : Fin 2000) k)) = _
    refine congrArg _ (funext fun a => Fin.ext ?_)
    match a with
    | ⟨0, _⟩ => show win0_0.index t (0 : Fin 2) * 2000 + 1 * (j 1).val = win0_3.index t (1 : Fin 3) * 2000 + 1 * (j 1).val; omega
    | ⟨1, _⟩ => show win0_0.index t (1 : Fin 2) * 128 + 1 * k.val = k.val; omega
  · show V c (Pipeline.arrRef spec0 1) (((cfg0.win 1).blk t).view.emb (ix3 (⟨(j 0).val, (j 0).isLt⟩ : Fin 3) k (⟨(j 2).val, (j 2).isLt⟩ : Fin 128))) = _
    refine congrArg _ (funext fun a => Fin.ext ?_)
    match a with
    | ⟨0, _⟩ => show win0_1.index t (0 : Fin 3) * 3 + 1 * (j 0).val = win0_3.index t (0 : Fin 3) * 3 + 1 * (j 0).val; omega
    | ⟨1, _⟩ => show win0_1.index t (1 : Fin 3) * 128 + 1 * k.val = k.val; omega
    | ⟨2, _⟩ => show win0_1.index t (2 : Fin 3) * 128 + 1 * (j 2).val = win0_3.index t (2 : Fin 3) * 128 + 1 * (j 2).val; omega
  · show V c (Pipeline.arrRef spec0 2) (((cfg0.win 2).blk t).view.emb (ix3 (⟨(j 0).val, (j 0).isLt⟩ : Fin 3) (⟨(j 1).val, (j 1).isLt⟩ : Fin 2000) (0 : Fin 1))) = _
    refine congrArg _ (funext fun a => Fin.ext ?_)
    match a with
    | ⟨0, _⟩ => show win0_2.index t (0 : Fin 3) * 3 + 1 * (j 0).val = win0_3.index t (0 : Fin 3) * 3 + 1 * (j 0).val; omega
    | ⟨1, _⟩ => show win0_2.index t (1 : Fin 3) * 2000 + 1 * (j 1).val = win0_3.index t (1 : Fin 3) * 2000 + 1 * (j 1).val; omega
    | ⟨2, _⟩ => show win0_2.index t (2 : Fin 3) * 1 + 1 * 0 = 0; omega

/-- An index of the output array is in point t's block iff each coordinate is in the block's range on its axis. -/
theorem mem_blk0 (t : Fin cfg0.N) (i : S3x100000x128.Idx) :
    i ∈ ((cfg0.win 3).blk t).view.set ↔ ∀ a : Fin 3, win0_3.index t a * S3x2000x128.size a ≤ (i a).val
      ∧ (i a).val < win0_3.index t a * S3x2000x128.size a + S3x2000x128.size a := by
  show i ∈ ((View.whole main_v51).slice (win0_3.rect t)).set ↔ _
  rw [View.set_slice_whole, Rect.mem_set_unit]
  exact Iff.rfl

/-- Every index of the output array is in some point's block: row i of any relation is in row block i / 2000. -/
theorem cover0 (i : S3x100000x128.Idx) : ∃ t : Fin cfg0.N, (cfg0.win 3).flush t = true ∧ i ∈ ((cfg0.win 3).blk t).view.set := by
  have hi0 : (i 0).val < 3 := (i 0).isLt
  have hi1 : (i 1).val < 100000 := (i 1).isLt
  have hi2 : (i 2).val < 128 := (i 2).isLt
  have hN : cfg0.N = 50 := N_0
  have ht : (i 1).val / 2000 < cfg0.N := by rw [hN]; omega
  refine ⟨⟨(i 1).val / 2000, ht⟩, flush0_3 _, ?_⟩
  rw [mem_blk0]
  obtain ⟨-, -, -, -, -, -, -, -, d0, d1, d2⟩ := idx_facts0 ⟨(i 1).val / 2000, ht⟩
  intro a
  match a with
  | ⟨0, _⟩ =>
    show win0_3.index ⟨(i 1).val / 2000, ht⟩ (0 : Fin 3) * 3 ≤ (i 0).val ∧ (i 0).val < win0_3.index ⟨(i 1).val / 2000, ht⟩ (0 : Fin 3) * 3 + 3
    rw [d0]; omega
  | ⟨1, _⟩ =>
    show win0_3.index ⟨(i 1).val / 2000, ht⟩ (1 : Fin 3) * 2000 ≤ (i 1).val ∧ (i 1).val < win0_3.index ⟨(i 1).val / 2000, ht⟩ (1 : Fin 3) * 2000 + 2000
    rw [d1]; show (i 1).val / 2000 * 2000 ≤ (i 1).val ∧ (i 1).val < (i 1).val / 2000 * 2000 + 2000; omega
  | ⟨2, _⟩ =>
    show win0_3.index ⟨(i 1).val / 2000, ht⟩ (2 : Fin 3) * 128 ≤ (i 2).val ∧ (i 2).val < win0_3.index ⟨(i 1).val / 2000, ht⟩ (2 : Fin 3) * 128 + 128
    rw [d2]; omega

/-- THE ARRAY after the region: `G0` of the arrays the region found. -/
theorem final0 (c : Dev nD) : (dat0 V c).arrAt 3 cfg0.N
    = G0 (V c (Pipeline.arrRef spec0 0)) (V c (Pipeline.arrRef spec0 1)) (V c (Pipeline.arrRef spec0 2)) :=
  (dat0 V c).arrAt_eq_of_cover 3 _ (fun t _ => flushed0_eq V c t) cover0

end Cert.KernelIdeal.Val

end
-- ==== Proof.ValueIdeal.B1.lean ====
import proofs.«143860_j29738353557974_1_alg».proof.Proof.FrameIdeal.R1
import proofs.«143860_j29738353557974_1_alg».proof.Proof.Spec
import proofs.«143860_j29738353557974_1_alg».proof.Proof.LibPlainDot
import proofs.«143860_j29738353557974_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

/-!
# What pipeline 1 leaves in its output array, on the extended reals

The body's one store, read at row `p` and column `q` of the block, is the normalised and clamped fully connected
layer of the three scaled messages of that row (the specification's `bnRelu` of `fc`); the block of point `t` sits at
rows `2000·t … 2000·t + 1999` of the array, the message and norm blocks at the same rows of theirs, and the seven
small operands are read whole. The fifty blocks fill the 100000 rows, so the array ends as the specification's
`combineBn` of the arrays the pipeline found, at every index.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open Cert.Spec (Arr2 Arr3)
open scoped BigOperators

/-! ## Layout chains of the body, read at an index -/

/-- Row `r` of a stack of three matrices, taken as a slice of one matrix and cast to a matrix, reads at `(i, j)` the
    stack at `(r, i, j)`. -/
theorem stackRow1_apply {α : Type} {n1 n2 : Nat} (o : Nat) (X : (⟨3, ![3, n1, n2]⟩ : Shape).Idx → α)
    (h1 : (⟨3, ![3, n1, n2]⟩ : Shape).Slices ![o, 0, 0] ⟨3, ![1, n1, n2]⟩)
    (h2 : (⟨3, ![1, n1, n2]⟩ : Shape).ShapeCasts ⟨2, ![n1, n2]⟩)
    (r : Fin 3) (hr : r.val = o) (i : Fin n1) (j : Fin n2) :
    shapeCast ⟨2, ![n1, n2]⟩ (extractStridedSlice ⟨3, ![1, n1, n2]⟩ ![o, 0, 0] X h1) h2 (ix2 i j) = X (ix3 r i j) := by
  rw [shapeCast_1ab_ab_apply]
  exact extractStridedSlice_apply _ _ _ _ _ (fun ax => by
    match ax with
    | ⟨0, _⟩ => show r.val = o + 0; omega
    | ⟨1, _⟩ => exact (Nat.zero_add _).symm
    | ⟨2, _⟩ => exact (Nat.zero_add _).symm)

/-- Row `r` of a stack of three one-column matrices, spread over the columns, reads at `(p, k)` the stack at `(r, p, 0)`. -/
theorem normRow1_apply {α : Type} {n1 b : Nat} (o : Nat) (X : (⟨3, ![3, n1, 1]⟩ : Shape).Idx → α)
    (h1 : (⟨3, ![3, n1, 1]⟩ : Shape).Slices ![o, 0, 0] ⟨3, ![1, n1, 1]⟩)
    (h2 : (⟨3, ![1, n1, 1]⟩ : Shape).ShapeCasts ⟨2, ![n1, 1]⟩)
    (h3 : (⟨2, ![n1, 1]⟩ : Shape).Broadcasts ⟨2, ![n1, b]⟩)
    (r : Fin 3) (hr : r.val = o) (p : Fin n1) (k : Fin b) :
    broadcastTo ⟨2, ![n1, b]⟩ (shapeCast ⟨2, ![n1, 1]⟩ (extractStridedSlice ⟨3, ![1, n1, 1]⟩ ![o, 0, 0] X h1) h2) h3 (ix2 p k)
      = X (ix3 r p (0 : Fin 1)) := by
  rw [Cert.Lib.broadcastTo_a1_ab_apply]
  exact stackRow1_apply o X h1 h2 r hr p 0

/-- Row `r` of a three-row matrix, taken as a one-row slice, flattened, made a row again and spread over the rows,
    reads at `(p, k)` the matrix at `(r, k)`. -/
theorem biasRow1_apply {α : Type} {a b : Nat} (o : Nat) (X : (⟨2, ![3, b]⟩ : Shape).Idx → α)
    (h1 : (⟨2, ![3, b]⟩ : Shape).Slices ![o, 0] ⟨2, ![1, b]⟩)
    (h2 : (⟨2, ![1, b]⟩ : Shape).ShapeCasts ⟨1, ![b]⟩)
    (h3 : (⟨1, ![b]⟩ : Shape).ShapeCasts ⟨2, ![1, b]⟩)
    (h4 : (⟨2, ![1, b]⟩ : Shape).Broadcasts ⟨2, ![a, b]⟩)
    (r : Fin 3) (hr : r.val = o) (p : Fin a) (k : Fin b) :
    broadcastTo ⟨2, ![a, b]⟩ (shapeCast ⟨2, ![1, b]⟩ (shapeCast ⟨1, ![b]⟩ (extractStridedSlice ⟨2, ![1, b]⟩ ![o, 0] X h1) h2) h3) h4 (ix2 p k)
      = X (ix2 r k) := by
  rw [broadcastTo_1b_ab_apply, shapeCast_a_1a_apply, shapeCast_1a_a_apply]
  exact slice2_axis0_apply o X h1 (0 : Fin 1) k r (by show r.val = o + 0; omega)

/-- The reciprocal square root of a vector, at an index. -/
theorem rsqrt1_apply {s : Shape} {φ : FTy} (a : FVec Ideal s φ) (i : s.Idx) : rsqrt a i = Ideal.rsqrt (a i) := rfl

/-! ## The body's payloads at an index -/

/-- The weight block passes through its change of format unchanged. -/
theorem pay2_1_eq (v41 : Arr2 128 128) : k1_pay2 (F := Ideal) v41 = v41 := by
  funext i; unfold k1_pay2; simp only [truncf_apply, shapeCast_self]

/-- The bias row passes through unchanged. -/
theorem pay3_1_eq (v44 : Arr2 1 128) : k1_pay3 (F := Ideal) v44 = v44 := by
  funext i; unfold k1_pay3; simp only [shapeCast_self]

/-- The aggregate of the three scaled messages with the relation biases, at row `p`, feature `k` of the block. -/
theorem pay4_1_apply (v0 : Arr3 3 2000 128) (v2 : Arr3 3 2000 1) (v4 : Arr2 3 128) (p : Fin 2000) (k : Fin 128) :
    k1_pay4 (F := Ideal) v0 v2 v4 (ix2 p k) =
      ((((v0 (ix3 0 p k) * v2 (ix3 0 p 0) + v4 (ix2 0 k)) + v0 (ix3 1 p k) * v2 (ix3 1 p 0)) + v4 (ix2 1 k))
        + v0 (ix3 2 p k) * v2 (ix3 2 p 0)) + v4 (ix2 2 k) := by
  unfold k1_pay4
  simp only [truncf_apply, addf_apply, mulf_apply, shapeCast_self]
  rw [stackRow1_apply 0 v0 _ _ 0 rfl p k, stackRow1_apply 1 v0 _ _ 1 rfl p k, stackRow1_apply 2 v0 _ _ 2 rfl p k,
    normRow1_apply 0 v2 _ _ _ 0 rfl p k, normRow1_apply 1 v2 _ _ _ 1 rfl p k, normRow1_apply 2 v2 _ _ _ 2 rfl p k,
    biasRow1_apply 0 v4 _ _ _ _ 0 rfl p k, biasRow1_apply 1 v4 _ _ _ _ 1 rfl p k, biasRow1_apply 2 v4 _ _ _ _ 2 rfl p k]

/-- The printed dimension numbers are those of a plain matrix product. -/
theorem dot1_plain : dot_S2000x128_S128x128_S2000x128_1_0_0_1_n_n = DotDims.plain 2000 128 128 := rfl

/-- The stored vector at row `p`, column `q`: the product with the weight, the bias, the normalisation, the clamp. -/
theorem pay1_1_apply (v43 : Arr2 128 128) (v45 : Arr2 1 128) (v46 : Arr2 2000 128) (v50 v52 v54 v56 : Arr2 1 128)
    (p : Fin 2000) (q : Fin 128) :
    k1_pay1 (F := Ideal) v43 v45 v46 v50 v52 v54 v56 (ix2 p q) =
      Cert.Spec.bnRelu (Ideal.ofBits .f32 0x3727C5AC#32) ((∑ k : Fin 128, v46 (ix2 p k) * v43 (ix2 k q)) + v45 (ix2 0 q))
        (v50 (ix2 0 q)) (v52 (ix2 0 q)) (v54 (ix2 0 q)) (v56 (ix2 0 q)) := by
  unfold k1_pay1
  simp only [maximumf_apply, addf_apply, mulf_apply, subf_apply, broadcast_apply, shapeCast_self, broadcastTo_1b_ab_apply,
    rsqrt1_apply, dot1_plain]
  rw [Cert.Lib.plain_matmul_zero_apply]
  unfold Cert.Spec.bnRelu
  show max _ (Ideal.ofBits .f32 0x00000000#32) = _
  rw [Ideal.ofBits_zero_f32]
  rfl

/-! ## The output block at an index, over any input blocks -/

theorem hz2_1 : (![0, 0] : Fin 2 → Nat) = fun _ => 0 := funext fun a => by fin_cases a <;> rfl
theorem hz3_1 : (![0, 0, 0] : Fin 3 → Nat) = fun _ => 0 := funext fun a => by fin_cases a <;> rfl

/-- What the body leaves at row `p`, column `q` of the output block, from the nine input blocks. -/
theorem out1_apply (x0 : Arr3 3 2000 128) (x1 : Arr3 3 2000 1) (x2 : Arr2 3 128) (x3 : Arr2 128 128)
    (x4 x5 x6 x7 x8 : Arr2 1 128) (p : Fin 2000) (q : Fin 128) :
    out1_9 (F := Ideal) x0 x1 x2 x3 x4 x5 x6 x7 x8 (ix2 p q) =
      Cert.Spec.bnRelu (Ideal.ofBits .f32 0x3727C5AC#32)
        ((∑ k : Fin 128, (((((x0 (ix3 0 p k) * x1 (ix3 0 p 0) + x2 (ix2 0 k)) + x0 (ix3 1 p k) * x1 (ix3 1 p 0)) + x2 (ix2 1 k))
            + x0 (ix3 2 p k) * x1 (ix3 2 p 0)) + x2 (ix2 2 k)) * x3 (ix2 k q)) + x4 (ix2 0 q))
        (x5 (ix2 0 q)) (x6 (ix2 0 q)) (x7 (ix2 0 q)) (x8 (ix2 0 q)) := by
  unfold out1_9
  rw [View.canon_unit_zero hz2_1]
  simp only [View.ld_unit_zero (S := S3x2000x128) hz3_1, View.ld_unit_zero (S := S3x2000x1) hz3_1, View.ld_unit_zero (S := S3x128) hz2_1,
    View.ld_unit_zero (S := S128x128) hz2_1, View.ld_unit_zero (S := S1x128) hz2_1]
  rw [pay1_1_apply, pay2_1_eq, pay3_1_eq]
  simp only [pay4_1_apply]

/-- The output block at `(p, q)` is the specification at row `i`, column `q` of the arrays, when the two moving
    blocks are rows `i - p … ` of their arrays at row `p` and the seven small operands are read whole. -/
theorem block1_eq (A0 : Arr3 3 100000 128) (A1 : Arr3 3 100000 1) (A2 : Arr2 3 128) (A3 : Arr2 128 128)
    (A4 A5 A6 A7 A8 : Arr2 1 128)
    (x0 : Arr3 3 2000 128) (x1 : Arr3 3 2000 1) (x2 : Arr2 3 128) (x3 : Arr2 128 128) (x4 x5 x6 x7 x8 : Arr2 1 128)
    (i : Fin 100000) (p : Fin 2000) (q : Fin 128)
    (h0 : ∀ (r : Fin 3) (k : Fin 128), x0 (ix3 r p k) = A0 (ix3 r i k))
    (h1 : ∀ r : Fin 3, x1 (ix3 r p (0 : Fin 1)) = A1 (ix3 r i (0 : Fin 1)))
    (h2 : x2 = A2) (h3 : x3 = A3) (h4 : x4 = A4) (h5 : x5 = A5) (h6 : x6 = A6) (h7 : x7 = A7) (h8 : x8 = A8) :
    out1_9 (F := Ideal) x0 x1 x2 x3 x4 x5 x6 x7 x8 (ix2 p q) =
      Cert.Spec.combineBn (Ideal.ofBits .f32 0x3727C5AC#32) A0 A1 A2 A3 A4 A5 A6 A7 A8 i q := by
  subst h2 h3 h4 h5 h6 h7 h8
  rw [out1_apply]
  unfold Cert.Spec.combineBn Cert.Spec.fc Cert.Spec.agg
  simp only [h0, h1]

/-! ## From the blocks to the array -/

variable (V : (c : Dev nD) → (b : Ref sig .tc) → Buf (Elt Ideal) ((c : Thread nD τ).loc b))

/-- The array the pipeline leaves, as one function of the arrays it found. -/
def G1 (c : Dev nD) : S100000x128.Idx → EReal := fun y =>
  Cert.Spec.combineBn (Ideal.ofBits .f32 0x3727C5AC#32) (V c (Pipeline.arrRef spec1 0)) (V c (Pipeline.arrRef spec1 1))
    (V c (Pipeline.arrRef spec1 2)) (V c (Pipeline.arrRef spec1 3)) (V c (Pipeline.arrRef spec1 4)) (V c (Pipeline.arrRef spec1 5))
    (V c (Pipeline.arrRef spec1 6)) (V c (Pipeline.arrRef spec1 7)) (V c (Pipeline.arrRef spec1 8)) (y 0) (y 1)

/-- The index maps over the grid: the two moving inputs sit at the output's row block, every other block index is
    zero, and the output's row block is the point's number. -/
theorem idx_facts1 : ∀ t : Fin cfg1.N,
    win1_0.index t (0 : Fin 3) = 0 ∧ win1_0.index t (1 : Fin 3) = win1_9.index t (0 : Fin 2) ∧ win1_0.index t (2 : Fin 3) = 0
    ∧ win1_1.index t (0 : Fin 3) = 0 ∧ win1_1.index t (1 : Fin 3) = win1_9.index t (0 : Fin 2) ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (1 : Fin 2) = 0 ∧ win1_9.index t (0 : Fin 2) ≤ 49 :=
  (by decide +kernel : ∀ t : Fin grid1.N, _)

/-- Every row block of the output is some point's. -/
theorem idx_onto1 : ∀ q0 : Fin 50, ∃ t : Fin cfg1.N, win1_9.index t (0 : Fin 2) = q0.val ∧ win1_9.index t (1 : Fin 2) = 0 :=
  (by decide +kernel : ∀ q0 : Fin 50, ∃ t : Fin grid1.N, win1_9.index t (0 : Fin 2) = q0.val ∧ win1_9.index t (1 : Fin 2) = 0)

/-- The block of the messages at point `t` is rows `2000·t …` of their array. -/
theorem blk1_0 (c : Dev nD) (t : Fin cfg1.N) (r : Fin 3) (p : Fin 2000) (k : Fin 128) (i : Fin 100000)
    (hi : i.val = win1_9.index t (0 : Fin 2) * 2000 + 1 * p.val) :
    iblk1 (F := Ideal) V c 0 t (ix3 r p k) = V c (Pipeline.arrRef spec1 0) (ix3 r i k) := by
  obtain ⟨a00, a01, a02, -⟩ := idx_facts1 t
  show V c (Pipeline.arrRef spec1 0) (((cfg1.win 0).blk t).view.emb (ix3 r p k)) = V c (Pipeline.arrRef spec1 0) _
  refine congrArg _ (funext fun a => Fin.ext ?_)
  match a with
  | ⟨0, _⟩ => show win1_0.index t (0 : Fin 3) * 3 + 1 * r.val = r.val; omega
  | ⟨1, _⟩ => show win1_0.index t (1 : Fin 3) * 2000 + 1 * p.val = i.val; omega
  | ⟨2, _⟩ => show win1_0.index t (2 : Fin 3) * 128 + 1 * k.val = k.val; omega

/-- The block of the norms at point `t` is the same rows of their array. -/
theorem blk1_1 (c : Dev nD) (t : Fin cfg1.N) (r : Fin 3) (p : Fin 2000) (i : Fin 100000)
    (hi : i.val = win1_9.index t (0 : Fin 2) * 2000 + 1 * p.val) :
    iblk1 (F := Ideal) V c 1 t (ix3 r p (0 : Fin 1)) = V c (Pipeline.arrRef spec1 1) (ix3 r i (0 : Fin 1)) := by
  obtain ⟨-, -, -, a10, a11, a12, -⟩ := idx_facts1 t
  show V c (Pipeline.arrRef spec1 1) (((cfg1.win 1).blk t).view.emb (ix3 r p (0 : Fin 1))) = V c (Pipeline.arrRef spec1 1) _
  refine congrArg _ (funext fun a => Fin.ext ?_)
  match a with
  | ⟨0, _⟩ => show win1_1.index t (0 : Fin 3) * 3 + 1 * r.val = r.val; omega
  | ⟨1, _⟩ => show win1_1.index t (1 : Fin 3) * 2000 + 1 * p.val = i.val; omega
  | ⟨2, _⟩ => show win1_1.index t (2 : Fin 3) * 1 + 1 * 0 = 0; omega

/-- Each of the seven small operands is read whole at every point. -/
theorem blk1_2 (c : Dev nD) (t : Fin cfg1.N) : (iblk1 (F := Ideal) V c 2 t : Arr2 3 128) = V c (Pipeline.arrRef spec1 2) := by
  obtain ⟨-, -, -, -, -, -, a20, a21, -⟩ := idx_facts1 t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 3 + 1 * (y 0).val = (y 0).val; omega
  | ⟨1, _⟩ => show win1_2.index t (1 : Fin 2) * 128 + 1 * (y 1).val = (y 1).val; omega
theorem blk1_3 (c : Dev nD) (t : Fin cfg1.N) : (iblk1 (F := Ideal) V c 3 t : Arr2 128 128) = V c (Pipeline.arrRef spec1 3) := by
  obtain ⟨-, -, -, -, -, -, -, -, a30, a31, -⟩ := idx_facts1 t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega
theorem blk1_4 (c : Dev nD) (t : Fin cfg1.N) : (iblk1 (F := Ideal) V c 4 t : Arr2 1 128) = V c (Pipeline.arrRef spec1 4) := by
  obtain ⟨-, -, -, -, -, -, -, -, -, -, a40, a41, -⟩ := idx_facts1 t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega
theorem blk1_5 (c : Dev nD) (t : Fin cfg1.N) : (iblk1 (F := Ideal) V c 5 t : Arr2 1 128) = V c (Pipeline.arrRef spec1 5) := by
  obtain ⟨-, -, -, -, -, -, -, -, -, -, -, -, a50, a51, -⟩ := idx_facts1 t
  funext y
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega
theorem blk1_6 (c : Dev nD) (t : Fin cfg1.N) : (iblk1 (F := Ideal) V c 6 t : Arr2 1 128) = V c (Pipeline.arrRef spec1 6) := by
  obtain ⟨-, -, -, -, -, -, -, -, -, -, -, -, -, -, a60, a61, -⟩ := idx_facts1 t
  funext y
  show V c (Pipeline.arrRef spec1 6) (((cfg1.win 6).blk t).view.emb y) = V c (Pipeline.arrRef spec1 6) y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega
theorem blk1_7 (c : Dev nD) (t : Fin cfg1.N) : (iblk1 (F := Ideal) V c 7 t : Arr2 1 128) = V c (Pipeline.arrRef spec1 7) := by
  obtain ⟨-, -, -, -, -, -, -, -, -, -, -, -, -, -, -, -, a70, a71, -⟩ := idx_facts1 t
  funext y
  show V c (Pipeline.arrRef spec1 7) (((cfg1.win 7).blk t).view.emb y) = V c (Pipeline.arrRef spec1 7) y
  refine congrArg _ (funext fun a => Fin.ext ?_)
  match a with
  | ⟨0, _⟩ => show win1_7.index t (0 : Fin 2) * 1 + 1 * (y 0).val = (y 0).val; omega
  | ⟨1, _⟩ => show win1_7.index t (1 : Fin 2) * 128 + 1 * (y 1).val = (y 1).val; omega
theorem blk1_8 (c : Dev nD) (t : Fin cfg1.N) : (iblk1 (F := Ideal) V c 8 t : Arr2 1 128) = V c (Pipeline.arrRef spec1 8) := by
  obtain ⟨-, -, -, -, -, -, -, -, -, -, -, -, -, -, -, -, -, -, a80, a81, -⟩ := idx_facts1 t
  funext y
  show V c (Pipeline.arrRef spec1 8) (((cfg1.win 8).blk t).view.emb y) = V c (Pipeline.arrRef spec1 8) y
  refine congrArg _ (funext fun a => Fin.ext ?_)
  match a with
  | ⟨0, _⟩ => show win1_8.index t (0 : Fin 2) * 1 + 1 * (y 0).val = (y 0).val; omega
  | ⟨1, _⟩ => show win1_8.index t (1 : Fin 2) * 128 + 1 * (y 1).val = (y 1).val; omega

/-- What point `t` writes back is block `t` of `G1`. -/
theorem flushed1_eq (c : Dev nD) (t : Fin cfg1.N) :
    (dat1 (F := Ideal) V c).flushed 9 t = ((cfg1.win 9).blk t).view.read (Elt Ideal) (G1 V c) := by
  show (cfg1.win 9).cut (grid1.coords t) ((dat1 V c).after 9 t) = _
  rw [after1_9]
  have a91 : win1_9.index t (1 : Fin 2) = 0 := (idx_facts1 t).2.2.2.2.2.2.2.2.2.2.2.2.2.2.2.2.2.2.2.2.1
  funext j
  obtain ⟨p, q, rfl⟩ : ∃ (p : Fin 2000) (q : Fin 128), j = ix2 p q := ⟨j 0, j 1, eq_ix2 j⟩
  show out1_9 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) (ix2 p q)
    = G1 V c (((cfg1.win 9).blk t).view.emb (ix2 p q))
  have hq : (((cfg1.win 9).blk t).view.emb (ix2 p q)) 1 = q := by
    apply Fin.ext
    show win1_9.index t (1 : Fin 2) * 128 + 1 * q.val = q.val
    omega
  have hp : ((((cfg1.win 9).blk t).view.emb (ix2 p q)) 0).val = win1_9.index t (0 : Fin 2) * 2000 + 1 * p.val := rfl
  unfold G1
  rw [hq]
  exact block1_eq _ _ _ _ _ _ _ _ _ _ _ _ _ _ _ _ _ _ _ p q (fun r k => blk1_0 V c t r p k _ hp) (fun r => blk1_1 V c t r p _ hp)
    (blk1_2 V c t) (blk1_3 V c t) (blk1_4 V c t) (blk1_5 V c t) (blk1_6 V c t) (blk1_7 V c t) (blk1_8 V c t)

/-- An index of the array is in point `t`'s block iff each coordinate is in the block's range on its axis. -/
theorem mem_blk1 (t : Fin cfg1.N) (i : S100000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v111).slice (win1_9.rect t)).set ↔ _
  rw [View.set_slice_whole, Rect.mem_set_unit]
  exact Iff.rfl

/-- The fifty blocks of 2000 rows fill the array: row `r` is in the block of point `r / 2000`. -/
theorem cover1 (i : S100000x128.Idx) : ∃ t : Fin cfg1.N, (cfg1.win 9).flush t = true ∧ i ∈ ((cfg1.win 9).blk t).view.set := by
  have hi0 : (i 0).val < 100000 := (i 0).isLt
  have hi1 : (i 1).val < 128 := (i 1).isLt
  obtain ⟨t, ht0, ht1⟩ := idx_onto1 ⟨(i 0).val / 2000, by omega⟩
  have q0 : win1_9.index t (0 : Fin 2) = (i 0).val / 2000 := ht0
  refine ⟨t, flush1_9 t, ?_⟩
  rw [mem_blk1]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 128 ≤ (i 1).val ∧ (i 1).val < win1_9.index t (1 : Fin 2) * 128 + 128; omega

/-- THE ARRAY after the pipeline: the specification's normalised layer of the arrays it found, at every index. -/
theorem final1 (c : Dev nD) : ((dat1 (F := Ideal) V c).arrAt 9 cfg1.N : S100000x128.Idx → EReal) =
    fun y => Cert.Spec.combineBn (Ideal.ofBits .f32 0x3727C5AC#32) (V c (Pipeline.arrRef spec1 0)) (V c (Pipeline.arrRef spec1 1))
      (V c (Pipeline.arrRef spec1 2)) (V c (Pipeline.arrRef spec1 3)) (V c (Pipeline.arrRef spec1 4)) (V c (Pipeline.arrRef spec1 5))
      (V c (Pipeline.arrRef spec1 6)) (V c (Pipeline.arrRef spec1 7)) (V c (Pipeline.arrRef spec1 8)) (y 0) (y 1) :=
  (dat1 (F := Ideal) V c).arrAt_eq_of_cover 9 (G1 V c) (fun t _ => flushed1_eq V c t) (cover1)

end Cert.KernelIdeal.Val

end
-- ==== Proof.ValueIdeal.H1.lean ====
import proofs.«143860_j29738353557974_1_alg».proof.Proof.FrameIdeal.Run
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

/-!
# What pipeline 1 is entered from: the host stretch between pipelines 0 and 1

Between the first two pipelines the host, three times over — once per relation —, takes that relation's messages out
of the stacked message array, gathers the rows named by the (normalised) source indices and adds them up per
destination index into a zero array; it stacks the three sums again; and it takes the first layer's parameters out
of the stacked parameter arrays. This module reads each of the nine arrays pipeline 1 stages, index by index, in
terms of the message array pipeline 0 left, the norms computed before it, and the launch memory.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.StableHlo
open scoped BigOperators

/-! ## The stretch's results over any entry contents -/

/-- An operation of three literal operands: its result with each operand's contents at its own reference. -/
theorem h1_nary3_result' {τ' : Topo} {sig' : RefSig} {Val : EltTy → Type} {x a b y : Ref sig' .tc}
    (f : ((k : Fin 3) → ((![x, a, b] : Fin 3 → Ref sig' .tc) k).ty.Contents Val) → y.ty.Contents Val) (hxs hy)
    (F : Valuation τ' sig' Val) :
    (StableHlo.nary (τ := τ') ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- The source indices as the gather takes them: a negative index counted from the end, then as a column. -/
abbrev normIdx1 (a : IVec S600000 32) : IVec S600000x1 32 :=
  broadcastInDim S600000x1 ![0] bcast_S600000_S600000x1_0
    (select (cmpi .slt a (broadcastInDim S600000 ![] bcast_S_S600000 (constantI S_ 32 0#32)))
      (addi a (broadcastInDim S600000 ![] bcast_S_S600000 (constantI S_ 32 100000#32))) a)

/-- One relation's propagation: the rows of `feat` named by the source indices, summed per destination index into zeros. -/
abbrev prop1 (feat : FVec Ideal S100000x128 .f32) (src dst : IVec S600000 32) : FVec Ideal S100000x128 .f32 :=
  Host.scatterAdd (F := Ideal) scatter_S100000x128_S600000x1_S600000x128_1_0_0_1
    (broadcastInDim S100000x128 ![] bcast_S_S100000x128 (constant (F := Ideal) S_ .f32 0x00000000#32))
    (broadcastInDim S600000x1 ![0] bcast_S600000_S600000x1_0 dst)
    (Host.gather gather_S100000x128_S600000x1_S600000x128_1_0_n_n_0_1_1128 feat (normIdx1 src))

set_option maxHeartbeats 4000000 in
/-- The stacked propagated messages, as the operations compute them. -/
theorem h1_v91 (W : Valuation τ sig (Elt Ideal)) :
    StableHlo.after (hostOps1 (F := Ideal)) W (Proc.devRef .tc main_v91) =
      concatenate S3x100000x128 0
        [⟨S1x100000x128, broadcastInDim S1x100000x128 ![1, 2] bcast_S100000x128_S1x100000x128_1_2
            (prop1 (shapeCast S100000x128 (extractStridedSlice S1x100000x128 ![0, 0, 0] (W (Proc.devRef .tc main_v51)) slices_S3x100000x128_S1x100000x128_0_0_0) shapeCasts_S1x100000x128_S100000x128)
              (W (Proc.devRef .tc main_arg1)) (W (Proc.devRef .tc main_arg2)))⟩,
         ⟨S1x100000x128, broadcastInDim S1x100000x128 ![1, 2] bcast_S100000x128_S1x100000x128_1_2
            (prop1 (shapeCast S100000x128 (extractStridedSlice S1x100000x128 ![1, 0, 0] (W (Proc.devRef .tc main_v51)) slices_S3x100000x128_S1x100000x128_1_0_0) shapeCasts_S1x100000x128_S100000x128)
              (W (Proc.devRef .tc main_arg3)) (W (Proc.devRef .tc main_arg4)))⟩,
         ⟨S1x100000x128, broadcastInDim S1x100000x128 ![1, 2] bcast_S100000x128_S1x100000x128_1_2
            (prop1 (shapeCast S100000x128 (extractStridedSlice S1x100000x128 ![2, 0, 0] (W (Proc.devRef .tc main_v51)) slices_S3x100000x128_S1x100000x128_2_0_0) shapeCasts_S1x100000x128_S100000x128)
              (W (Proc.devRef .tc main_arg5)) (W (Proc.devRef .tc main_arg6)))⟩]
        concatenates_S1x100000x128_S1x100000x128_S1x100000x128_S3x100000x128_d0 := by
  simp (disch := decide) only [after_cons, after_nil, nullary_result', unary_result', binary_result', ternary_result', reshape_result',
    h1_nary3_result', nullary_result_ne', unary_result_ne', binary_result_ne', ternary_result_ne', reshape_result_ne', nary_result_ne']
  rfl

set_option maxHeartbeats 4000000 in
/-- The stretch writes no array of the norms. -/
theorem h1_v48 (W : Valuation τ sig (Elt Ideal)) :
    StableHlo.after (hostOps1 (F := Ideal)) W (Proc.devRef .tc main_v48) = W (Proc.devRef .tc main_v48) := by
  after_results_simp

set_option maxHeartbeats 4000000 in
/-- The first layer's relation biases. -/
theorem h1_v93 (W : Valuation τ sig (Elt Ideal)) :
    StableHlo.after (hostOps1 (F := Ideal)) W (Proc.devRef .tc main_v93) =
      shapeCast S3x128 (extractStridedSlice S1x3x128 ![0, 0, 0] (W (Proc.devRef .tc main_arg8)) slices_S3x3x128_S1x3x128_0_0_0) shapeCasts_S1x3x128_S3x128 := by
  after_results_simp
  rfl

set_option maxHeartbeats 4000000 in
/-- The first layer's fully connected weight. -/
theorem h1_v95 (W : Valuation τ sig (Elt Ideal)) :
    StableHlo.after (hostOps1 (F := Ideal)) W (Proc.devRef .tc main_v95) =
      shapeCast S128x128 (extractStridedSlice S1x128x128 ![0, 0, 0] (W (Proc.devRef .tc main_arg9)) slices_S3x128x128_S1x128x128_0_0_0) shapeCasts_S1x128x128_S128x128 := by
  after_results_simp
  rfl

set_option maxHeartbeats 4000000 in
/-- The first layer's fully connected bias, as a row. -/
theorem h1_v98 (W : Valuation τ sig (Elt Ideal)) :
    StableHlo.after (hostOps1 (F := Ideal)) W (Proc.devRef .tc main_v98) =
      shapeCast S1x128 (shapeCast S128 (extractStridedSlice S1x128 ![0, 0] (W (Proc.devRef .tc main_arg10)) slices_S3x128_S1x128_0_0) shapeCasts_S1x128_S128) shapeCasts_S128_S1x128 := by
  after_results_simp
  rfl

set_option maxHeartbeats 4000000 in
/-- The first layer's four normalisation parameters, each as a row. -/
theorem h1_v101 (W : Valuation τ sig (Elt Ideal)) :
    StableHlo.after (hostOps1 (F := Ideal)) W (Proc.devRef .tc main_v101) =
      shapeCast S1x128 (shapeCast S128 (extractStridedSlice S1x128 ![0, 0] (W (Proc.devRef .tc main_arg11)) slices_S2x128_S1x128_0_0) shapeCasts_S1x128_S128) shapeCasts_S128_S1x128 := by
  after_results_simp
  rfl
set_option maxHeartbeats 4000000 in
theorem h1_v104 (W : Valuation τ sig (Elt Ideal)) :
    StableHlo.after (hostOps1 (F := Ideal)) W (Proc.devRef .tc main_v104) =
      shapeCast S1x128 (shapeCast S128 (extractStridedSlice S1x128 ![0, 0] (W (Proc.devRef .tc main_arg12)) slices_S2x128_S1x128_0_0) shapeCasts_S1x128_S128) shapeCasts_S128_S1x128 := by
  after_results_simp
  rfl
set_option maxHeartbeats 4000000 in
theorem h1_v107 (W : Valuation τ sig (Elt Ideal)) :
    StableHlo.after (hostOps1 (F := Ideal)) W (Proc.devRef .tc main_v107) =
      shapeCast S1x128 (shapeCast S128 (extractStridedSlice S1x128 ![0, 0] (W (Proc.devRef .tc main_arg13)) slices_S2x128_S1x128_0_0) shapeCasts_S1x128_S128) shapeCasts_S128_S1x128 := by
  after_results_simp
  rfl
set_option maxHeartbeats 4000000 in
theorem h1_v110 (W : Valuation τ sig (Elt Ideal)) :
    StableHlo.after (hostOps1 (F := Ideal)) W (Proc.devRef .tc main_v110) =
      shapeCast S1x128 (shapeCast S128 (extractStridedSlice S1x128 ![0, 0] (W (Proc.devRef .tc main_arg14)) slices_S2x128_S1x128_0_0) shapeCasts_S1x128_S128) shapeCasts_S128_S1x128 := by
  after_results_simp
  rfl

/-! ## Layout chains read at an index -/

/-- Row `r` of a stack of matrices, taken as a slice of one matrix and cast to a matrix, reads at `(i, j)` the stack
    at `(r, i, j)`. -/
theorem hrow1_apply {α : Type} {n0 n1 n2 : Nat} (o : Nat) (X : (⟨3, ![n0, n1, n2]⟩ : Shape).Idx → α)
    (h1 : (⟨3, ![n0, n1, n2]⟩ : Shape).Slices ![o, 0, 0] ⟨3, ![1, n1, n2]⟩)
    (h2 : (⟨3, ![1, n1, n2]⟩ : Shape).ShapeCasts ⟨2, ![n1, n2]⟩)
    (r : Fin n0) (hr : r.val = o) (i : Fin n1) (j : Fin n2) :
    shapeCast ⟨2, ![n1, n2]⟩ (extractStridedSlice ⟨3, ![1, n1, n2]⟩ ![o, 0, 0] X h1) h2 (ix2 i j) = X (ix3 r i j) := by
  rw [shapeCast_1ab_ab_apply]
  exact extractStridedSlice_apply _ _ _ _ _ (fun ax => by
    match ax with
    | ⟨0, _⟩ => show r.val = o + 0; omega
    | ⟨1, _⟩ => exact (Nat.zero_add _).symm
    | ⟨2, _⟩ => exact (Nat.zero_add _).symm)

/-- The same as a function of the matrix index. -/
theorem hmat1_eq {α : Type} {n0 n1 n2 : Nat} (o : Nat) (X : (⟨3, ![n0, n1, n2]⟩ : Shape).Idx → α)
    (h1 : (⟨3, ![n0, n1, n2]⟩ : Shape).Slices ![o, 0, 0] ⟨3, ![1, n1, n2]⟩)
    (h2 : (⟨3, ![1, n1, n2]⟩ : Shape).ShapeCasts ⟨2, ![n1, n2]⟩)
    (r : Fin n0) (hr : r.val = o) :
    shapeCast ⟨2, ![n1, n2]⟩ (extractStridedSlice ⟨3, ![1, n1, n2]⟩ ![o, 0, 0] X h1) h2
      = fun y : (⟨2, ![n1, n2]⟩ : Shape).Idx => X (ix3 r (y 0) (y 1)) := by
  funext y
  obtain ⟨a, b, rfl⟩ : ∃ (a : Fin n1) (b : Fin n2), y = ix2 a b := ⟨y 0, y 1, eq_ix2 y⟩
  exact hrow1_apply o X h1 h2 r hr a b

/-- Row `r` of a matrix, taken as a one-row slice, flattened and made a row again, reads at `(u, j)` the matrix at `(r, j)`. -/
theorem hvec1_apply {α : Type} {n0 b : Nat} (o : Nat) (X : (⟨2, ![n0, b]⟩ : Shape).Idx → α)
    (h1 : (⟨2, ![n0, b]⟩ : Shape).Slices ![o, 0] ⟨2, ![1, b]⟩)
    (h2 : (⟨2, ![1, b]⟩ : Shape).ShapeCasts ⟨1, ![b]⟩)
    (h3 : (⟨1, ![b]⟩ : Shape).ShapeCasts ⟨2, ![1, b]⟩)
    (r : Fin n0) (hr : r.val = o) (u : Fin 1) (j : Fin b) :
    shapeCast ⟨2, ![1, b]⟩ (shapeCast ⟨1, ![b]⟩ (extractStridedSlice ⟨2, ![1, b]⟩ ![o, 0] X h1) h2) h3 (ix2 u j) = X (ix2 r j) := by
  rw [shapeCast_a_1a_apply, shapeCast_1a_a_apply]
  exact slice2_axis0_apply o X h1 (0 : Fin 1) j r (by show r.val = o + 0; omega)

/-- A matrix given a leading unit axis reads at `(0, i, k)` the matrix at `(i, k)`. -/
theorem hlift1_apply {α : Type} (T : S100000x128.Idx → α) (hb : S100000x128.BroadcastsInDim S1x100000x128 (![1, 2] : Fin 2 → Fin S1x100000x128.rank))
    (u : Fin 1) (i : Fin 100000) (k : Fin 128) :
    broadcastInDim S1x100000x128 ![1, 2] hb T (ix3 u i k) = T (ix2 i k) :=
  broadcastInDim_apply _ hb T _ _ (fun a => by
    match a with
    | ⟨0, _⟩ => show i.val = if (100000 : ℕ) = 1 then 0 else i.val; rw [if_neg (by decide)]
    | ⟨1, _⟩ => show k.val = if (128 : ℕ) = 1 then 0 else k.val; rw [if_neg (by decide)])

/-- Three matrices stacked along a new leading axis read at `(r, i, k)` the `r`-th at `(i, k)`. -/
theorem hstack1_apply {α : Type} (T0 T1 T2 : S100000x128.Idx → α)
    (hb : S100000x128.BroadcastsInDim S1x100000x128 (![1, 2] : Fin 2 → Fin S1x100000x128.rank))
    (hc : Shape.Concatenates [S1x100000x128, S1x100000x128, S1x100000x128] S3x100000x128 0) (i : Fin 100000) (k : Fin 128) :
    concatenate S3x100000x128 0 [⟨S1x100000x128, broadcastInDim S1x100000x128 ![1, 2] hb T0⟩,
        ⟨S1x100000x128, broadcastInDim S1x100000x128 ![1, 2] hb T1⟩, ⟨S1x100000x128, broadcastInDim S1x100000x128 ![1, 2] hb T2⟩] hc (ix3 (0 : Fin 3) i k) = T0 (ix2 i k)
    ∧ concatenate S3x100000x128 0 [⟨S1x100000x128, broadcastInDim S1x100000x128 ![1, 2] hb T0⟩,
        ⟨S1x100000x128, broadcastInDim S1x100000x128 ![1, 2] hb T1⟩, ⟨S1x100000x128, broadcastInDim S1x100000x128 ![1, 2] hb T2⟩] hc (ix3 (1 : Fin 3) i k) = T1 (ix2 i k)
    ∧ concatenate S3x100000x128 0 [⟨S1x100000x128, broadcastInDim S1x100000x128 ![1, 2] hb T0⟩,
        ⟨S1x100000x128, broadcastInDim S1x100000x128 ![1, 2] hb T1⟩, ⟨S1x100000x128, broadcastInDim S1x100000x128 ![1, 2] hb T2⟩] hc (ix3 (2 : Fin 3) i k) = T2 (ix2 i k) := by
  refine ⟨?_, ?_, ?_⟩
  · refine (concatenate_apply_piece (0 : Fin S3x100000x128.rank)
      [⟨S1x100000x128, broadcastInDim S1x100000x128 ![1, 2] hb T0⟩, ⟨S1x100000x128, broadcastInDim S1x100000x128 ![1, 2] hb T1⟩, ⟨S1x100000x128, broadcastInDim S1x100000x128 ![1, 2] hb T2⟩]
      hc (ix3 (0 : Fin 3) i k) 0 (by show (0 : ℕ) < 3; omega) S1x100000x128 _ rfl rfl 0 rfl
      (ix3 (0 : Fin 1) i k) (fun b hb' => ?_) rfl).trans (hlift1_apply T0 hb 0 i k)
    match b with
    | ⟨0, _⟩ => exact absurd (Fin.ext rfl) hb'
    | ⟨1, _⟩ => rfl
    | ⟨2, _⟩ => rfl
  · refine (concatenate_apply_piece (0 : Fin S3x100000x128.rank)
      [⟨S1x100000x128, broadcastInDim S1x100000x128 ![1, 2] hb T0⟩, ⟨S1x100000x128, broadcastInDim S1x100000x128 ![1, 2] hb T1⟩, ⟨S1x100000x128, broadcastInDim S1x100000x128 ![1, 2] hb T2⟩]
      hc (ix3 (1 : Fin 3) i k) 1 (by show (1 : ℕ) < 3; omega) S1x100000x128 _ rfl rfl 1 rfl
      (ix3 (0 : Fin 1) i k) (fun b hb' => ?_) rfl).trans (hlift1_apply T1 hb 0 i k)
    match b with
    | ⟨0, _⟩ => exact absurd (Fin.ext rfl) hb'
    | ⟨1, _⟩ => rfl
    | ⟨2, _⟩ => rfl
  · refine (concatenate_apply_piece (0 : Fin S3x100000x128.rank)
      [⟨S1x100000x128, broadcastInDim S1x100000x128 ![1, 2] hb T0⟩, ⟨S1x100000x128, broadcastInDim S1x100000x128 ![1, 2] hb T1⟩, ⟨S1x100000x128, broadcastInDim S1x100000x128 ![1, 2] hb T2⟩]
      hc (ix3 (2 : Fin 3) i k) 2 (by show (2 : ℕ) < 3; omega) S1x100000x128 _ rfl rfl 2 rfl
      (ix3 (0 : Fin 1) i k) (fun b hb' => ?_) rfl).trans (hlift1_apply T2 hb 0 i k)
    match b with
    | ⟨0, _⟩ => exact absurd (Fin.ext rfl) hb'
    | ⟨1, _⟩ => rfl
    | ⟨2, _⟩ => rfl

/-! ## At the contents pipeline 0 leaves -/

variable (m : (ℓ : Loc nD τ sig) → Buf (Elt Ideal) ℓ) (ρ : Dev nD → PrngReg)

/-- Each argument array, as pipeline 0 leaves it, is as launched: no host operation before it writes one, and the
    pipeline only reads the one it stages. -/
theorem X0_arg (c : Dev nD) {b : Ref sig .tc} (hb : b ∈ argRefs) : X0 m ρ c (Proc.devRef .tc b) = m ((c : Thread nD τ).loc b) :=
  calc X0 m ρ c (Proc.devRef .tc b)
    _ = EW0 m ρ c (Proc.devRef .tc b) := keep_reg0 m ρ c hb
    _ = A12 m ρ c (Proc.devRef .tc b) := keep_hostOps0_12 _ hb
    _ = A11 m ρ c (Proc.devRef .tc b) := keep_hostOps0_11 _ hb
    _ = A10 m ρ c (Proc.devRef .tc b) := keep_hostOps0_10 _ hb
    _ = A9 m ρ c (Proc.devRef .tc b) := keep_hostOps0_9 _ hb
    _ = A8 m ρ c (Proc.devRef .tc b) := keep_hostOps0_8 _ hb
    _ = A7 m ρ c (Proc.devRef .tc b) := keep_hostOps0_7 _ hb
    _ = A6 m ρ c (Proc.devRef .tc b) := keep_hostOps0_6 _ hb
    _ = A5 m ρ c (Proc.devRef .tc b) := keep_hostOps0_5 _ hb
    _ = A4 m ρ c (Proc.devRef .tc b) := keep_hostOps0_4 _ hb
    _ = A3 m ρ c (Proc.devRef .tc b) := keep_hostOps0_3 _ hb
    _ = A2 m ρ c (Proc.devRef .tc b) := keep_hostOps0_2 _ hb
    _ = A1 m ρ c (Proc.devRef .tc b) := keep_hostOps0_1 _ hb
    _ = A0 m ρ c (Proc.devRef .tc b) := keep_hostOps0 _ hb
    _ = m ((c : Thread nD τ).loc b) := rfl

/-- Relation `r`'s messages as pipeline 1 is handed them: the rows of pipeline 0's messages of that relation named by
    the relation's (normalised) source indices, summed per destination index into zeros. -/
def msg1 (c : Dev nD) : Fin 3 → (S100000x128.Idx → EReal)
  | ⟨0, _⟩ => prop1 (fun y => (X0 m ρ c (Proc.devRef .tc main_v51) : S3x100000x128.Idx → EReal) (ix3 (0 : Fin 3) (y 0) (y 1)))
      (m ((c : Thread nD τ).loc main_arg1)) (m ((c : Thread nD τ).loc main_arg2))
  | ⟨1, _⟩ => prop1 (fun y => (X0 m ρ c (Proc.devRef .tc main_v51) : S3x100000x128.Idx → EReal) (ix3 (1 : Fin 3) (y 0) (y 1)))
      (m ((c : Thread nD τ).loc main_arg3)) (m ((c : Thread nD τ).loc main_arg4))
  | ⟨2, _⟩ => prop1 (fun y => (X0 m ρ c (Proc.devRef .tc main_v51) : S3x100000x128.Idx → EReal) (ix3 (2 : Fin 3) (y 0) (y 1)))
      (m ((c : Thread nD τ).loc main_arg5)) (m ((c : Thread nD τ).loc main_arg6))

/-- Window 0 of pipeline 1, the stacked propagated messages, at `(r, i, k)`. -/
theorem E1_w0 (c : Dev nD) (r : Fin 3) (i : Fin 100000) (k : Fin 128) :
    (E1 (F := Ideal) m ρ c (Pipeline.arrRef spec1 0) : S3x100000x128.Idx → EReal) (ix3 r i k) = msg1 m ρ c r (ix2 i k) := by
  show StableHlo.after (hostOps1 (F := Ideal)) (X0 m ρ c) (Proc.devRef .tc main_v91) (ix3 r i k) = _
  rw [h1_v91, X0_arg m ρ c (b := main_arg1) (by decide), X0_arg m ρ c (b := main_arg2) (by decide),
    X0_arg m ρ c (b := main_arg3) (by decide), X0_arg m ρ c (b := main_arg4) (by decide),
    X0_arg m ρ c (b := main_arg5) (by decide), X0_arg m ρ c (b := main_arg6) (by decide),
    hmat1_eq 0 _ _ _ (0 : Fin 3) rfl, hmat1_eq 1 _ _ _ (1 : Fin 3) rfl, hmat1_eq 2 _ _ _ (2 : Fin 3) rfl]
  match r with
  | ⟨0, _⟩ => exact (hstack1_apply _ _ _ _ _ i k).1
  | ⟨1, _⟩ => exact (hstack1_apply _ _ _ _ _ i k).2.1
  | ⟨2, _⟩ => exact (hstack1_apply _ _ _ _ _ i k).2.2

/-- Window 1 of pipeline 1, the stacked in-degree norms: as computed before pipeline 0, untouched since. -/
theorem E1_w1 (c : Dev nD) : E1 (F := Ideal) m ρ c (Pipeline.arrRef spec1 1) = EW0 m ρ c (Proc.devRef .tc main_v48) := by
  show StableHlo.after (hostOps1 (F := Ideal)) (X0 m ρ c) (Proc.devRef .tc main_v48) = _
  rw [h1_v48]
  exact X0_of_ne m ρ c main_v48 (by decide)

/-- Window 2, the relation biases of the first layer. -/
theorem E1_w2 (c : Dev nD) (r : Fin 3) (k : Fin 128) :
    (E1 (F := Ideal) m ρ c (Pipeline.arrRef spec1 2) : S3x128.Idx → EReal) (ix2 r k)
      = (m ((c : Thread nD τ).loc main_arg8) : S3x3x128.Idx → EReal) (ix3 (0 : Fin 3) r k) := by
  show StableHlo.after (hostOps1 (F := Ideal)) (X0 m ρ c) (Proc.devRef .tc main_v93) (ix2 r k) = _
  rw [h1_v93, X0_arg m ρ c (b := main_arg8) (by decide)]
  exact hrow1_apply 0 _ _ _ (0 : Fin 3) rfl r k

/-- Window 3, the fully connected weight of the first layer. -/
theorem E1_w3 (c : Dev nD) (k j : Fin 128) :
    (E1 (F := Ideal) m ρ c (Pipeline.arrRef spec1 3) : S128x128.Idx → EReal) (ix2 k j)
      = (m ((c : Thread nD τ).loc main_arg9) : S3x128x128.Idx → EReal) (ix3 (0 : Fin 3) k j) := by
  show StableHlo.after (hostOps1 (F := Ideal)) (X0 m ρ c) (Proc.devRef .tc main_v95) (ix2 k j) = _
  rw [h1_v95, X0_arg m ρ c (b := main_arg9) (by decide)]
  exact hrow1_apply 0 _ _ _ (0 : Fin 3) rfl k j

/-- Window 4, the fully connected bias of the first layer. -/
theorem E1_w4 (c : Dev nD) (j : Fin 128) :
    (E1 (F := Ideal) m ρ c (Pipeline.arrRef spec1 4) : S1x128.Idx → EReal) (ix2 (0 : Fin 1) j)
      = (m ((c : Thread nD τ).loc main_arg10) : S3x128.Idx → EReal) (ix2 (0 : Fin 3) j) := by
  show StableHlo.after (hostOps1 (F := Ideal)) (X0 m ρ c) (Proc.devRef .tc main_v98) (ix2 (0 : Fin 1) j) = _
  rw [h1_v98, X0_arg m ρ c (b := main_arg10) (by decide)]
  exact hvec1_apply 0 _ _ _ _ (0 : Fin 3) rfl 0 j

/-- Windows 5 to 8, the first layer's scale, shift, mean and variance. -/
theorem E1_w5 (c : Dev nD) (j : Fin 128) :
    (E1 (F := Ideal) m ρ c (Pipeline.arrRef spec1 5) : S1x128.Idx → EReal) (ix2 (0 : Fin 1) j)
      = (m ((c : Thread nD τ).loc main_arg11) : S2x128.Idx → EReal) (ix2 (0 : Fin 2) j) := by
  show StableHlo.after (hostOps1 (F := Ideal)) (X0 m ρ c) (Proc.devRef .tc main_v101) (ix2 (0 : Fin 1) j) = _
  rw [h1_v101, X0_arg m ρ c (b := main_arg11) (by decide)]
  exact hvec1_apply 0 _ _ _ _ (0 : Fin 2) rfl 0 j
theorem E1_w6 (c : Dev nD) (j : Fin 128) :
    (E1 (F := Ideal) m ρ c (Pipeline.arrRef spec1 6) : S1x128.Idx → EReal) (ix2 (0 : Fin 1) j)
      = (m ((c : Thread nD τ).loc main_arg12) : S2x128.Idx → EReal) (ix2 (0 : Fin 2) j) := by
  show StableHlo.after (hostOps1 (F := Ideal)) (X0 m ρ c) (Proc.devRef .tc main_v104) (ix2 (0 : Fin 1) j) = _
  rw [h1_v104, X0_arg m ρ c (b := main_arg12) (by decide)]
  exact hvec1_apply 0 _ _ _ _ (0 : Fin 2) rfl 0 j
theorem E1_w7 (c : Dev nD) (j : Fin 128) :
    (E1 (F := Ideal) m ρ c (Pipeline.arrRef spec1 7) : S1x128.Idx → EReal) (ix2 (0 : Fin 1) j)
      = (m ((c : Thread nD τ).loc main_arg13) : S2x128.Idx → EReal) (ix2 (0 : Fin 2) j) := by
  show StableHlo.after (hostOps1 (F := Ideal)) (X0 m ρ c) (Proc.devRef .tc main_v107) (ix2 (0 : Fin 1) j) = _
  rw [h1_v107, X0_arg m ρ c (b := main_arg13) (by decide)]
  exact hvec1_apply 0 _ _ _ _ (0 : Fin 2) rfl 0 j
theorem E1_w8 (c : Dev nD) (j : Fin 128) :
    (E1 (F := Ideal) m ρ c (Pipeline.arrRef spec1 8) : S1x128.Idx → EReal) (ix2 (0 : Fin 1) j)
      = (m ((c : Thread nD τ).loc main_arg14) : S2x128.Idx → EReal) (ix2 (0 : Fin 2) j) := by
  show StableHlo.after (hostOps1 (F := Ideal)) (X0 m ρ c) (Proc.devRef .tc main_v110) (ix2 (0 : Fin 1) j) = _
  rw [h1_v110, X0_arg m ρ c (b := main_arg14) (by decide)]
  exact hvec1_apply 0 _ _ _ _ (0 : Fin 2) rfl 0 j

end Cert.KernelIdeal.Val

end
-- ==== Proof.LibTRefCast.lean ====
/-
  A typed reference's two transports cancel.

  A reference that carries the type `T` of the tensor value it holds moves contents at `T` to contents at the buffer's
  own type and back along the equation between the two types. Going there and back is the identity, whatever the
  reference: the equation can be taken to be `rfl`. General in the signature, the value type and the contents.
-/
import Idealize.ShloMosaic.Lib.StableHlo

namespace Cert.Lib

open Idealize.ShloMosaic Idealize.ShloMosaic.StableHlo

/-- Contents moved to the buffer's type and back are the contents. -/
theorem ofBuf_toBuf {sig : RefSig} {Val : EltTy → Type} {T : BufTy} (x : TRef sig T) (v : T.Contents Val) :
    x.ofBuf (x.toBuf v) = v := by
  obtain ⟨r, rfl, _, _⟩ := x
  rfl

/-- Contents moved from the buffer's type and back are the contents. -/
theorem toBuf_ofBuf {sig : RefSig} {Val : EltTy → Type} {T : BufTy} (x : TRef sig T) (v : x.ref.ty.Contents Val) :
    x.toBuf (x.ofBuf v) = v := by
  obtain ⟨r, rfl, _, _⟩ := x
  rfl

end Cert.Lib
-- ==== Proof.ValueIdeal.Pre.lean ====
/-
  What the first region is entered from: the thirteen host stretches before it, read.

  The stretches compute, for each of the three relations, the out-degree and the in-degree norm of every node — one
  function (`degNorm`) of the relation's source (resp. destination) index array: count the index's occurrences by a
  scatter-add of ones into zeros, clamp below at one, raise to the power −1/2 —, stack the three out-degree norms and
  the three in-degree norms into two 3×100000×1 arrays, and slice the first layer's three relation weights out of the
  weight argument. No stretch writes an argument array.
-/
import proofs.«143860_j29738353557974_1_alg».proof.Proof.FrameIdeal.Run
import proofs.«143860_j29738353557974_1_alg».proof.Proof.LibTRefCast
import Idealize.ShloMosaic.Lib.StableHlo.Run
import Idealize.ShloMosaic.Lib.Pipeline.Frame
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.StableHlo Idealize.ShloMosaic.ValueIdx

variable {F : FTy → Type} [FloatOps F]

/-- A relation's degree norm from one of its index arrays: the index's count (ones scattered into zeros), clamped
    below at one, to the power −1/2. -/
def degNorm (idx : (⟨S600000, .i32⟩ : BufTy).Contents (Elt F)) : (⟨S100000, .f32⟩ : BufTy).Contents (Elt F) :=
  Host.powf
    (maximumf (broadcastInDim S100000 ![] bcast_S_S100000 (id (constant S_ .f32 0x3F800000#32)))
      (Host.scatterAdd scatter_S100000_S600000x1_S600000_n_0_0_1
        (broadcastInDim S100000 ![] bcast_S_S100000 (constant S_ .f32 0x00000000#32))
        (broadcastInDim S600000x1 ![0] bcast_S600000_S600000x1_0 idx)
        (broadcastInDim S600000 ![] bcast_S_S600000 (constant S_ .f32 0x3F800000#32))))
    (broadcastInDim S100000 ![] bcast_S_S100000 (constant S_ .f32 0xBF000000#32))

/-! ## The thirteenth stretch, cut before each of its two stackings -/

/-- Its first nine operations (the third relation's two norms, the three out-degree norms as rows). -/
abbrev headOps : List (HloOp τ sig (Elt F)) := (hostOps0_12 (F := F)).take 9
/-- The first stacking, the stacked out-degree norms as a column block, and the three in-degree norms as rows. -/
abbrev tailA : List (HloOp τ sig (Elt F)) := ((hostOps0_12 (F := F)).drop 9).take 5
/-- The second stacking, the stacked in-degree norms as a column block, and the first layer's weight slice. -/
abbrev tailB : List (HloOp τ sig (Elt F)) := (hostOps0_12 (F := F)).drop 14

theorem h12_split : (hostOps0_12 (F := F)) = headOps ++ (tailA ++ tailB) := rfl

set_option maxHeartbeats 4000000 in
/-- After the first stacking and its cast: the stacked out-degree norms. -/
theorem tailA_v43 (V : Valuation τ sig (Elt F)) : StableHlo.after (tailA (F := F)) V (Proc.devRef .tc main_v43)
    = broadcastInDim S3x100000x1 ![0, 1] bcast_S3x100000_S3x100000x1_0_1
        (concatenate S3x100000 0 [⟨S1x100000, V (Proc.devRef .tc main_v39)⟩, ⟨S1x100000, V (Proc.devRef .tc main_v40)⟩, ⟨S1x100000, V (Proc.devRef .tc main_v41)⟩]
          concatenates_S1x100000_S1x100000_S1x100000_S3x100000_d0) := by
  simp only [tailA, hostOps0_12, List.drop, List.take]
  after_results
  rfl

set_option maxHeartbeats 4000000 in
/-- The three in-degree norms as rows. -/
theorem tailA_rows (V : Valuation τ sig (Elt F)) :
    StableHlo.after (tailA (F := F)) V (Proc.devRef .tc main_v44) = broadcastInDim S1x100000 ![1] bcast_S100000_S1x100000_1 (V (Proc.devRef .tc main_v12))
    ∧ StableHlo.after (tailA (F := F)) V (Proc.devRef .tc main_v45) = broadcastInDim S1x100000 ![1] bcast_S100000_S1x100000_1 (V (Proc.devRef .tc main_v25))
    ∧ StableHlo.after (tailA (F := F)) V (Proc.devRef .tc main_v46) = broadcastInDim S1x100000 ![1] bcast_S100000_S1x100000_1 (V (Proc.devRef .tc main_v38))
    ∧ StableHlo.after (tailA (F := F)) V (Proc.devRef .tc main_arg7) = V (Proc.devRef .tc main_arg7) := by
  simp only [tailA, hostOps0_12, List.drop, List.take]
  refine ⟨?_, ?_, ?_, ?_⟩ <;> (after_results; try rfl)

set_option maxHeartbeats 4000000 in
/-- After the second stacking: the stacked in-degree norms, the stacked out-degree norms untouched, the first layer's
    relation weights sliced out of the weight argument. -/
theorem tailB_res (V : Valuation τ sig (Elt F)) :
    StableHlo.after (tailB (F := F)) V (Proc.devRef .tc main_v48)
      = broadcastInDim S3x100000x1 ![0, 1] bcast_S3x100000_S3x100000x1_0_1
        (concatenate S3x100000 0 [⟨S1x100000, V (Proc.devRef .tc main_v44)⟩, ⟨S1x100000, V (Proc.devRef .tc main_v45)⟩, ⟨S1x100000, V (Proc.devRef .tc main_v46)⟩]
          concatenates_S1x100000_S1x100000_S1x100000_S3x100000_d0)
    ∧ StableHlo.after (tailB (F := F)) V (Proc.devRef .tc main_v43) = V (Proc.devRef .tc main_v43)
    ∧ StableHlo.after (tailB (F := F)) V (Proc.devRef .tc main_v50)
      = (fun i => shapeCast S3x128x128 (extractStridedSlice S1x3x128x128 ![0, 0, 0, 0] (V (Proc.devRef .tc main_arg7)) slices_S3x3x128x128_S1x3x128x128_0_0_0_0) shapeCasts_S1x3x128x128_S3x128x128 i) := by
  simp only [tailB, hostOps0_12, List.drop]
  refine ⟨?_, ?_, ?_⟩ <;> (after_results; try rfl)

variable (m : (ℓ : Loc nD τ sig) → Buf (Elt F) ℓ) (ρ : Dev nD → PrngReg)

/-- The buffers after the thirteenth stretch's first nine operations. -/
abbrev P9 (c : Dev nD) : Valuation τ sig (Elt F) := StableHlo.after (headOps (F := F)) (A12 m ρ c)

/-- The first region's entry contents, through the two cuts. -/
theorem EW0_eq (c : Dev nD) : EW0 m ρ c = StableHlo.after tailB (StableHlo.after tailA (P9 m ρ c)) := by
  show StableHlo.after hostOps0_12 (A12 m ρ c) = _
  rw [congrArg (fun l => StableHlo.after l (A12 m ρ c)) (h12_split (F := F)), StableHlo.after_append, StableHlo.after_append]

set_option maxHeartbeats 16000000 in
/-- The six degree norms, and the out-degree norms as rows, where the first nine operations of the thirteenth stretch
    leave them: `degNorm` of the relations' index arguments. -/
theorem P9_norms (c : Dev nD) :
    P9 m ρ c (Proc.devRef .tc main_v39) = broadcastInDim S1x100000 ![1] bcast_S100000_S1x100000_1 (degNorm (m ((c : Thread nD τ).loc main_arg1)))
    ∧ P9 m ρ c (Proc.devRef .tc main_v40) = broadcastInDim S1x100000 ![1] bcast_S100000_S1x100000_1 (degNorm (m ((c : Thread nD τ).loc main_arg3)))
    ∧ P9 m ρ c (Proc.devRef .tc main_v41) = broadcastInDim S1x100000 ![1] bcast_S100000_S1x100000_1 (degNorm (m ((c : Thread nD τ).loc main_arg5)))
    ∧ P9 m ρ c (Proc.devRef .tc main_v12) = degNorm (m ((c : Thread nD τ).loc main_arg2))
    ∧ P9 m ρ c (Proc.devRef .tc main_v25) = degNorm (m ((c : Thread nD τ).loc main_arg4))
    ∧ P9 m ρ c (Proc.devRef .tc main_v38) = degNorm (m ((c : Thread nD τ).loc main_arg6))
    ∧ P9 m ρ c (Proc.devRef .tc main_arg7) = m ((c : Thread nD τ).loc main_arg7) := by
  dsimp only [P9, headOps, A12, A11, A10, A9, A8, A7, A6, A5, A4, A3, A2, A1, A0]
  simp only [hostOps0_12, hostOps0_11, hostOps0_10, hostOps0_9, hostOps0_8, hostOps0_7, hostOps0_6, hostOps0_5, hostOps0_4, hostOps0_3, hostOps0_2, hostOps0_1, hostOps0, List.take]
  refine ⟨?_, ?_, ?_, ?_, ?_, ?_, ?_⟩ <;>
    (after_results_simp <;> (try simp only [Cert.Lib.ofBuf_toBuf, Cert.Lib.toBuf_ofBuf, degNorm]) <;> (try rfl))

/-! ## Read at an index -/

section Stack
variable {α : Type}

/-- A three-way stack of single rows along axis 0, read at (r, i): row i of piece r. -/
theorem stack3_rows_apply (x0 x1 x2 : S1x100000.Idx → α) (i : Fin 100000) :
    concatenate S3x100000 (0 : Fin S3x100000.rank) [⟨S1x100000, x0⟩, ⟨S1x100000, x1⟩, ⟨S1x100000, x2⟩]
        concatenates_S1x100000_S1x100000_S1x100000_S3x100000_d0 (ix2 (0 : Fin 3) i) = x0 (ix2 (0 : Fin 1) i)
    ∧ concatenate S3x100000 (0 : Fin S3x100000.rank) [⟨S1x100000, x0⟩, ⟨S1x100000, x1⟩, ⟨S1x100000, x2⟩]
        concatenates_S1x100000_S1x100000_S1x100000_S3x100000_d0 (ix2 (1 : Fin 3) i) = x1 (ix2 (0 : Fin 1) i)
    ∧ concatenate S3x100000 (0 : Fin S3x100000.rank) [⟨S1x100000, x0⟩, ⟨S1x100000, x1⟩, ⟨S1x100000, x2⟩]
        concatenates_S1x100000_S1x100000_S1x100000_S3x100000_d0 (ix2 (2 : Fin 3) i) = x2 (ix2 (0 : Fin 1) i) := by
  refine ⟨?_, ?_, ?_⟩
  · exact concatenate_apply_piece (0 : Fin S3x100000.rank) _ _ (ix2 (0 : Fin 3) i) 0 (by show (0 : ℕ) < 3; omega) S1x100000 x0 rfl rfl 0 rfl (ix2 (0 : Fin 1) i)
      (fun b hb => by match b with | ⟨0, _⟩ => exact absurd rfl hb | ⟨1, _⟩ => rfl) rfl
  · exact concatenate_apply_piece (0 : Fin S3x100000.rank) _ _ (ix2 (1 : Fin 3) i) 1 (by show (1 : ℕ) < 3; omega) S1x100000 x1 rfl rfl 1 rfl (ix2 (0 : Fin 1) i)
      (fun b hb => by match b with | ⟨0, _⟩ => exact absurd rfl hb | ⟨1, _⟩ => rfl) rfl
  · exact concatenate_apply_piece (0 : Fin S3x100000.rank) _ _ (ix2 (2 : Fin 3) i) 2 (by show (2 : ℕ) < 3; omega) S1x100000 x2 rfl rfl 2 rfl (ix2 (0 : Fin 1) i)
      (fun b hb => by match b with | ⟨0, _⟩ => exact absurd rfl hb | ⟨1, _⟩ => rfl) rfl

/-- A vector as a single row, read at (0, i). -/
theorem row_apply (x : S100000.Idx → α) (i : Fin 100000) :
    broadcastInDim S1x100000 ![1] bcast_S100000_S1x100000_1 x (ix2 (0 : Fin 1) i) = x (ix1 i) :=
  broadcastInDim_apply ![1] bcast_S100000_S1x100000_1 x (ix2 (0 : Fin 1) i) (ix1 i) (fun a => by match a with | ⟨0, _⟩ => rfl)

/-- A 3×100000 array as a column block, read at (r, i, 0). -/
theorem colblock_apply (x : S3x100000.Idx → α) (r : Fin 3) (i : Fin 100000) :
    broadcastInDim S3x100000x1 ![0, 1] bcast_S3x100000_S3x100000x1_0_1 x (ix3 r i (0 : Fin 1)) = x (ix2 r i) :=
  broadcastInDim_apply ![0, 1] bcast_S3x100000_S3x100000x1_0_1 x (ix3 r i (0 : Fin 1)) (ix2 r i)
    (fun a => by match a with | ⟨0, _⟩ => rfl | ⟨1, _⟩ => rfl)

end Stack

/-- THE STACKED OUT-DEGREE NORMS the relation-transform regions read: at (r, i, 0), relation r's out-degree norm of node i. -/
theorem ns_stack_apply (c : Dev nD) (i : Fin 100000) :
    (EW0 m ρ c (Proc.devRef .tc main_v43) : S3x100000x1.Idx → Elt F .f32) (ix3 (0 : Fin 3) i (0 : Fin 1)) = degNorm (m ((c : Thread nD τ).loc main_arg1)) (ix1 i)
    ∧ (EW0 m ρ c (Proc.devRef .tc main_v43) : S3x100000x1.Idx → Elt F .f32) (ix3 (1 : Fin 3) i (0 : Fin 1)) = degNorm (m ((c : Thread nD τ).loc main_arg3)) (ix1 i)
    ∧ (EW0 m ρ c (Proc.devRef .tc main_v43) : S3x100000x1.Idx → Elt F .f32) (ix3 (2 : Fin 3) i (0 : Fin 1)) = degNorm (m ((c : Thread nD τ).loc main_arg5)) (ix1 i) := by
  obtain ⟨h39, h40, h41, -, -, -, -⟩ := P9_norms m ρ c
  rw [EW0_eq, (tailB_res _).2.1, tailA_v43, h39, h40, h41]
  obtain ⟨s0, s1, s2⟩ := stack3_rows_apply (α := Elt F .f32)
    (broadcastInDim S1x100000 ![1] bcast_S100000_S1x100000_1 (degNorm (m ((c : Thread nD τ).loc main_arg1))))
    (broadcastInDim S1x100000 ![1] bcast_S100000_S1x100000_1 (degNorm (m ((c : Thread nD τ).loc main_arg3))))
    (broadcastInDim S1x100000 ![1] bcast_S100000_S1x100000_1 (degNorm (m ((c : Thread nD τ).loc main_arg5)))) i
  refine ⟨?_, ?_, ?_⟩
  · rw [colblock_apply]; exact s0.trans (row_apply _ i)
  · rw [colblock_apply]; exact s1.trans (row_apply _ i)
  · rw [colblock_apply]; exact s2.trans (row_apply _ i)

/-- THE STACKED IN-DEGREE NORMS the combine regions read: at (r, i, 0), relation r's in-degree norm of node i. -/
theorem nd_stack_apply (c : Dev nD) (i : Fin 100000) :
    (EW0 m ρ c (Proc.devRef .tc main_v48) : S3x100000x1.Idx → Elt F .f32) (ix3 (0 : Fin 3) i (0 : Fin 1)) = degNorm (m ((c : Thread nD τ).loc main_arg2)) (ix1 i)
    ∧ (EW0 m ρ c (Proc.devRef .tc main_v48) : S3x100000x1.Idx → Elt F .f32) (ix3 (1 : Fin 3) i (0 : Fin 1)) = degNorm (m ((c : Thread nD τ).loc main_arg4)) (ix1 i)
    ∧ (EW0 m ρ c (Proc.devRef .tc main_v48) : S3x100000x1.Idx → Elt F .f32) (ix3 (2 : Fin 3) i (0 : Fin 1)) = degNorm (m ((c : Thread nD τ).loc main_arg6)) (ix1 i) := by
  obtain ⟨-, -, -, h12, h25, h38, -⟩ := P9_norms m ρ c
  obtain ⟨r44, r45, r46, -⟩ := tailA_rows (P9 m ρ c)
  rw [EW0_eq, (tailB_res _).1, r44, r45, r46, h12, h25, h38]
  obtain ⟨s0, s1, s2⟩ := stack3_rows_apply (α := Elt F .f32)
    (broadcastInDim S1x100000 ![1] bcast_S100000_S1x100000_1 (degNorm (m ((c : Thread nD τ).loc main_arg2))))
    (broadcastInDim S1x100000 ![1] bcast_S100000_S1x100000_1 (degNorm (m ((c : Thread nD τ).loc main_arg4))))
    (broadcastInDim S1x100000 ![1] bcast_S100000_S1x100000_1 (degNorm (m ((c : Thread nD τ).loc main_arg6)))) i
  refine ⟨?_, ?_, ?_⟩
  · rw [colblock_apply]; exact s0.trans (row_apply _ i)
  · rw [colblock_apply]; exact s1.trans (row_apply _ i)
  · rw [colblock_apply]; exact s2.trans (row_apply _ i)

/-- THE FIRST LAYER'S RELATION WEIGHTS: at (r, k, j), the weight argument at (0, r, k, j). -/
theorem w0_apply (c : Dev nD) (r : Fin 3) (k j : Fin 128) :
    (EW0 m ρ c (Proc.devRef .tc main_v50) : S3x128x128.Idx → Elt F .f32) (ix3 r k j)
      = (m ((c : Thread nD τ).loc main_arg7) : S3x3x128x128.Idx → Elt F .f32) (ix4 (0 : Fin 3) r k j) := by
  obtain ⟨-, -, -, a7⟩ := tailA_rows (P9 m ρ c)
  obtain ⟨-, -, -, -, -, -, p7⟩ := P9_norms m ρ c
  rw [EW0_eq, (tailB_res _).2.2, a7, p7]
  show shapeCast S3x128x128 _ shapeCasts_S1x3x128x128_S3x128x128 (ix3 r k j) = _
  rw [shapeCast_1abc_abc_apply]
  exact extractStridedSlice_apply ![0, 0, 0, 0] _ slices_S3x3x128x128_S1x3x128x128_0_0_0_0 (ix4 (0 : Fin 1) r k j) (ix4 (0 : Fin 3) r k j)
    (fun a => by
      match a with
      | ⟨0, _⟩ => rfl
      | ⟨1, _⟩ => show r.val = 0 + r.val; omega
      | ⟨2, _⟩ => show k.val = 0 + k.val; omega
      | ⟨3, _⟩ => show j.val = 0 + j.val; omega)

end Cert.KernelIdeal.Val

end
-- ==== Proof.ValueIdeal.Bridge0.lean ====
/-
  The first layer of the kernel program is the first layer of the reference.

  The relation-transform region leaves, in slab r of its output, the features times relation r's first-layer weight,
  each row scaled by relation r's out-degree norm: the reference's scaled product. The host stretch after it propagates
  each slab along its relation's edges exactly as the reference does. The combine region then computes, index by
  index, the reference's normalised fully connected aggregate of the three propagated messages; the reference's
  leading zero of the aggregate adds nothing.
-/
import proofs.«143860_j29738353557974_1_alg».proof.Proof.FrameIdeal.Run
import proofs.«143860_j29738353557974_1_alg».proof.Proof.ValueIdeal.A0
import proofs.«143860_j29738353557974_1_alg».proof.Proof.ValueIdeal.B1
import proofs.«143860_j29738353557974_1_alg».proof.Proof.ValueIdeal.H1
import proofs.«143860_j29738353557974_1_alg».proof.Proof.ValueIdeal.Pre
import proofs.«143860_j29738353557974_1_alg».proof.Proof.Step

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Cert.ReferenceIdeal.RefValue (ND NV FV EI M128 scaled prop agg3 fcl bnRelu layerBn layerLast wSlice bSlice fcSlice v3Slice v2Slice degNormR transform_step agg_step fc_step combine_step wSlice_apply bSlice_apply fcSlice_apply v3Slice_apply v2Slice_apply)

variable (m : (ℓ : Loc nD τ sig) → Buf (Elt Ideal) ℓ) (ρ : Dev nD → PrngReg)

/-- Every argument array is as launched when the first region is entered. -/
theorem EW0_arg (c : Dev nD) {b : Ref sig .tc} (hb : b ∈ argRefs) : EW0 m ρ c (Proc.devRef .tc b) = m ((c : Thread nD τ).loc b) :=
  (keep_reg0 m ρ c hb).symm.trans (X0_arg m ρ c hb)

/-- The degree norm is one function in both programs. -/
theorem degNorm_eq (idx : EI Ideal) : degNorm (F := Ideal) idx = degNormR idx := rfl

/-- Region 0's output array is the relation transform of the features, the first layer's weights and the stacked norms. -/
theorem X0_v51 (c : Dev nD) : X0 m ρ c (Proc.devRef .tc main_v51)
    = G0 (E0 m ρ c (Pipeline.arrRef spec0 0)) (E0 m ρ c (Pipeline.arrRef spec0 1)) (E0 m ρ c (Pipeline.arrRef spec0 2)) :=
  (X0_arr m ρ c 3).trans (final0 (E0 m ρ) c)

/-- Slab 0 of region 0's output is the reference's scaled product for relation 0. -/
theorem T0_0 (c : Dev nD) :
    (fun y : S100000x128.Idx => (X0 m ρ c (Proc.devRef .tc main_v51) : S3x100000x128.Idx → EReal) (ix3 (0 : Fin 3) (y 0) (y 1)))
      = scaled (m ((c : Thread nD τ).loc main_arg0)) (wSlice 0 0 Cert.ReferenceIdeal.Gen.slices_S3x3x128x128_S1x1x128x128_0_0_0_0 (m ((c : Thread nD τ).loc main_arg7))) (degNormR (m ((c : Thread nD τ).loc main_arg1))) := by
  funext y
  obtain ⟨i, j, rfl⟩ : ∃ (i : Fin 100000) (j : Fin 128), y = ix2 i j := ⟨y 0, y 1, eq_ix2 y⟩
  rw [X0_v51]
  show Cert.Spec.relT _ _ _ (0 : Fin 3) i j = _
  exact transform_step _ _ _ _ _ _ (0 : Fin 3)
    (fun i k => congrFun (EW0_arg m ρ c (b := main_arg0) (by decide)) (ix2 i k))
    (fun k j => (w0_apply m ρ c (0 : Fin 3) k j).trans (wSlice_apply 0 0 (by omega) (by omega) _ _ k j).symm)
    (fun i => ((ns_stack_apply m ρ c i).1).trans (congrFun (degNorm_eq _) _)) i j

/-- Slab 1 of region 0's output is the reference's scaled product for relation 1. -/
theorem T0_1 (c : Dev nD) :
    (fun y : S100000x128.Idx => (X0 m ρ c (Proc.devRef .tc main_v51) : S3x100000x128.Idx → EReal) (ix3 (1 : Fin 3) (y 0) (y 1)))
      = scaled (m ((c : Thread nD τ).loc main_arg0)) (wSlice 0 1 Cert.ReferenceIdeal.Gen.slices_S3x3x128x128_S1x1x128x128_0_1_0_0 (m ((c : Thread nD τ).loc main_arg7))) (degNormR (m ((c : Thread nD τ).loc main_arg3))) := by
  funext y
  obtain ⟨i, j, rfl⟩ : ∃ (i : Fin 100000) (j : Fin 128), y = ix2 i j := ⟨y 0, y 1, eq_ix2 y⟩
  rw [X0_v51]
  show Cert.Spec.relT _ _ _ (1 : Fin 3) i j = _
  exact transform_step _ _ _ _ _ _ (1 : Fin 3)
    (fun i k => congrFun (EW0_arg m ρ c (b := main_arg0) (by decide)) (ix2 i k))
    (fun k j => (w0_apply m ρ c (1 : Fin 3) k j).trans (wSlice_apply 0 1 (by omega) (by omega) _ _ k j).symm)
    (fun i => ((ns_stack_apply m ρ c i).2.1).trans (congrFun (degNorm_eq _) _)) i j

/-- Slab 2 of region 0's output is the reference's scaled product for relation 2. -/
theorem T0_2 (c : Dev nD) :
    (fun y : S100000x128.Idx => (X0 m ρ c (Proc.devRef .tc main_v51) : S3x100000x128.Idx → EReal) (ix3 (2 : Fin 3) (y 0) (y 1)))
      = scaled (m ((c : Thread nD τ).loc main_arg0)) (wSlice 0 2 Cert.ReferenceIdeal.Gen.slices_S3x3x128x128_S1x1x128x128_0_2_0_0 (m ((c : Thread nD τ).loc main_arg7))) (degNormR (m ((c : Thread nD τ).loc main_arg5))) := by
  funext y
  obtain ⟨i, j, rfl⟩ : ∃ (i : Fin 100000) (j : Fin 128), y = ix2 i j := ⟨y 0, y 1, eq_ix2 y⟩
  rw [X0_v51]
  show Cert.Spec.relT _ _ _ (2 : Fin 3) i j = _
  exact transform_step _ _ _ _ _ _ (2 : Fin 3)
    (fun i k => congrFun (EW0_arg m ρ c (b := main_arg0) (by decide)) (ix2 i k))
    (fun k j => (w0_apply m ρ c (2 : Fin 3) k j).trans (wSlice_apply 0 2 (by omega) (by omega) _ _ k j).symm)
    (fun i => ((ns_stack_apply m ρ c i).2.2).trans (congrFun (degNorm_eq _) _)) i j

/-- THE FIRST LAYER: region 1's output array is the reference's first layer of the launch features. -/
theorem L0 (c : Dev nD) : (X1 m ρ c (Proc.devRef .tc main_v111) : S100000x128.Idx → EReal)
    = layerBn (m ((c : Thread nD τ).loc main_arg0))
      (wSlice 0 0 Cert.ReferenceIdeal.Gen.slices_S3x3x128x128_S1x1x128x128_0_0_0_0 (m ((c : Thread nD τ).loc main_arg7))) (wSlice 0 1 Cert.ReferenceIdeal.Gen.slices_S3x3x128x128_S1x1x128x128_0_1_0_0 (m ((c : Thread nD τ).loc main_arg7))) (wSlice 0 2 Cert.ReferenceIdeal.Gen.slices_S3x3x128x128_S1x1x128x128_0_2_0_0 (m ((c : Thread nD τ).loc main_arg7)))
      (degNormR (m ((c : Thread nD τ).loc main_arg1))) (degNormR (m ((c : Thread nD τ).loc main_arg3))) (degNormR (m ((c : Thread nD τ).loc main_arg5))) (degNormR (m ((c : Thread nD τ).loc main_arg2))) (degNormR (m ((c : Thread nD τ).loc main_arg4))) (degNormR (m ((c : Thread nD τ).loc main_arg6)))
      (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (bSlice 0 0 Cert.ReferenceIdeal.Gen.slices_S3x3x128_S1x1x128_0_0_0 (m ((c : Thread nD τ).loc main_arg8))) (bSlice 0 1 Cert.ReferenceIdeal.Gen.slices_S3x3x128_S1x1x128_0_1_0 (m ((c : Thread nD τ).loc main_arg8))) (bSlice 0 2 Cert.ReferenceIdeal.Gen.slices_S3x3x128_S1x1x128_0_2_0 (m ((c : Thread nD τ).loc main_arg8)))
      (fcSlice 0 Cert.ReferenceIdeal.Gen.slices_S3x128x128_S1x128x128_0_0_0 (m ((c : Thread nD τ).loc main_arg9))) (v3Slice 0 Cert.ReferenceIdeal.Gen.slices_S3x128_S1x128_0_0 (m ((c : Thread nD τ).loc main_arg10)))
      (v2Slice 0 Cert.ReferenceIdeal.Gen.slices_S2x128_S1x128_0_0 (m ((c : Thread nD τ).loc main_arg11))) (v2Slice 0 Cert.ReferenceIdeal.Gen.slices_S2x128_S1x128_0_0 (m ((c : Thread nD τ).loc main_arg12))) (v2Slice 0 Cert.ReferenceIdeal.Gen.slices_S2x128_S1x128_0_0 (m ((c : Thread nD τ).loc main_arg13))) (v2Slice 0 Cert.ReferenceIdeal.Gen.slices_S2x128_S1x128_0_0 (m ((c : Thread nD τ).loc main_arg14))) := by
  funext y
  obtain ⟨i, j, rfl⟩ : ∃ (i : Fin 100000) (j : Fin 128), y = ix2 i j := ⟨y 0, y 1, eq_ix2 y⟩
  rw [(X1_arr m ρ c 9).trans (final1 (E1 m ρ) c)]
  show Cert.Spec.combineBn _ _ _ _ _ _ _ _ _ _ i j = _
  unfold layerBn
  refine combine_step _ _ _ _ _ _ _ _ _ _ _ _ _ _
    (fun i j => fc_step _ _ _ _ _ _ _ _
      (fun i k => agg_step _ _ _ _ _ _ _ _ _ _ _ _
        (fun i k => (E1_w0 m ρ c (0 : Fin 3) i k).trans (congrFun (congrArg (fun f => prop f (m ((c : Thread nD τ).loc main_arg1)) (m ((c : Thread nD τ).loc main_arg2))) (T0_0 m ρ c)) (ix2 i k)))
        (fun i k => (E1_w0 m ρ c (1 : Fin 3) i k).trans (congrFun (congrArg (fun f => prop f (m ((c : Thread nD τ).loc main_arg3)) (m ((c : Thread nD τ).loc main_arg4))) (T0_1 m ρ c)) (ix2 i k)))
        (fun i k => (E1_w0 m ρ c (2 : Fin 3) i k).trans (congrFun (congrArg (fun f => prop f (m ((c : Thread nD τ).loc main_arg5)) (m ((c : Thread nD τ).loc main_arg6))) (T0_2 m ρ c)) (ix2 i k)))
        (fun i => (congrFun (E1_w1 m ρ c) (ix3 (0 : Fin 3) i (0 : Fin 1))).trans (((nd_stack_apply m ρ c i).1).trans (congrFun (degNorm_eq _) _)))
        (fun i => (congrFun (E1_w1 m ρ c) (ix3 (1 : Fin 3) i (0 : Fin 1))).trans (((nd_stack_apply m ρ c i).2.1).trans (congrFun (degNorm_eq _) _)))
        (fun i => (congrFun (E1_w1 m ρ c) (ix3 (2 : Fin 3) i (0 : Fin 1))).trans (((nd_stack_apply m ρ c i).2.2).trans (congrFun (degNorm_eq _) _)))
        (fun k => (E1_w2 m ρ c (0 : Fin 3) k).trans (bSlice_apply 0 0 (by omega) (by omega) _ _ k).symm)
        (fun k => (E1_w2 m ρ c (1 : Fin 3) k).trans (bSlice_apply 0 1 (by omega) (by omega) _ _ k).symm)
        (fun k => (E1_w2 m ρ c (2 : Fin 3) k).trans (bSlice_apply 0 2 (by omega) (by omega) _ _ k).symm)
        i k)
      (fun k j => (E1_w3 m ρ c k j).trans (fcSlice_apply 0 (by omega) _ _ k j).symm)
      (fun j => (E1_w4 m ρ c j).trans (v3Slice_apply 0 (by omega) _ _ j).symm) i j)
    (fun j => (E1_w5 m ρ c j).trans (v2Slice_apply 0 (by omega) _ _ j).symm)
    (fun j => (E1_w6 m ρ c j).trans (v2Slice_apply 0 (by omega) _ _ j).symm)
    (fun j => (E1_w7 m ρ c j).trans (v2Slice_apply 0 (by omega) _ _ j).symm)
    (fun j => (E1_w8 m ρ c j).trans (v2Slice_apply 0 (by omega) _ _ j).symm) i j

end Cert.KernelIdeal.Val

end
-- ==== Proof.ValueIdeal.A2.lean ====
/-
  What the second layer's relation-transform region leaves in its output array, index by index, at the ideal values.

  At a grid point the body's three stores write, into slab r of the 3×2000×128 output block, the block's 2000 feature
  rows times relation r's 128×128 weight (a matrix product into a zero accumulator: a plain sum over the 128 inner
  positions; the change of format before it is the identity on extended reals), each row scaled by the row's entry of
  relation r's norm column. So the block is ONE function of its index (r, p, q):
      (Σ_k x0[p,k] · x1[r,k,q]) · x2[r,p,0].
-/
import proofs.«143860_j29738353557974_1_alg».proof.Proof.FrameIdeal.R2
import proofs.«143860_j29738353557974_1_alg».proof.Proof.Spec
import proofs.«143860_j29738353557974_1_alg».proof.Proof.LibPlainDot
import proofs.«143860_j29738353557974_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val2

open Cert.KernelIdeal Cert.KernelIdeal.Gen Cert.KernelIdeal.Fr
open Idealize.ShloMosaic Idealize.ShloMosaic.TcCoe Idealize.ShloMosaic.ValueIdx
open scoped BigOperators

/-- One block of the relation transform at block index (r, p, q). -/
def blockRelT (x0 : Vec Ideal S2000x128 .f32) (x1 : Vec Ideal S3x128x128 .f32) (x2 : Vec Ideal S3x2000x1 .f32)
    (r : Fin 3) (p : Fin 2000) (q : Fin 128) : EReal :=
  (∑ k : Fin 128, x0 (ix2 p k) * x1 (ix3 r k q)) * x2 (ix3 r p 0)

/-- The printed dimension numbers of the body's products are the plain ones. -/
theorem dot_plain : dot_S2000x128_S128x128_S2000x128_1_0_0_1_n_n = DotDims.plain 2000 128 128 := rfl

/-- Relation r's slab before the final cast: the product with relation r's weight slice, scaled by relation r's norm
    column, read at (p, q). -/
theorem slab_apply (r : Fin 3) (x0 : Vec Ideal S2000x128 .f32) (x1 : Vec Ideal S3x128x128 .f32) (x2 : Vec Ideal S3x2000x1 .f32)
    (hW : S3x128x128.Slices ![r.val, 0, 0] S1x128x128) (hN : S3x2000x1.Slices ![r.val, 0, 0] S1x2000x1)
    (p : Fin 2000) (q : Fin 128) :
    mulf (matmul dot_S2000x128_S128x128_S2000x128_1_0_0_1_n_n none (truncf .bf16 x0 bitsLt_bf16_f32)
          (truncf .bf16 (shapeCast S128x128 (extractStridedSlice S1x128x128 ![r.val, 0, 0] x1 hW) shapeCasts_S1x128x128_S128x128) bitsLt_bf16_f32)
          (constant (F := Ideal) S2000x128 .f32 0x00000000#32))
        (broadcastTo S2000x128 (shapeCast S2000x1 (extractStridedSlice S1x2000x1 ![r.val, 0, 0] x2 hN) shapeCasts_S1x2000x1_S2000x1)
          broadcasts_S2000x1_S2000x128) (ix2 p q)
      = blockRelT x0 x1 x2 r p q := by
  unfold blockRelT
  rw [mulf_apply, Cert.Lib.broadcastTo_a1_ab_apply, shapeCast_1ab_ab_apply]
  rw [extractStridedSlice_apply ![r.val, 0, 0] x2 hN (ix3 (0 : Fin 1) p (0 : Fin 1)) (ix3 r p (0 : Fin 1)) (fun a => by
    match a with
    | ⟨0, _⟩ => rfl
    | ⟨1, _⟩ => show p.val = 0 + p.val; omega
    | ⟨2, _⟩ => rfl)]
  refine congrArg (· * x2 (ix3 r p (0 : Fin 1))) ?_
  rw [dot_plain]
  refine (Cert.Lib.plain_matmul_zero_apply 2000 128 128 none _ _ p q).trans ?_
  refine Finset.sum_congr rfl fun k _ => ?_
  rw [truncf_apply, truncf_apply, shapeCast_1ab_ab_apply]
  rw [extractStridedSlice_apply ![r.val, 0, 0] x1 hW (ix3 (0 : Fin 1) k q) (ix3 r k q) (fun a => by
    match a with
    | ⟨0, _⟩ => rfl
    | ⟨1, _⟩ => show k.val = 0 + k.val; omega
    | ⟨2, _⟩ => show q.val = 0 + q.val; omega)]

/-- The first slab's payload at (u, p, q): relation 0's product, scaled. -/
theorem pay5_apply (x0 : Vec Ideal S2000x128 .f32) (x1 : Vec Ideal S3x128x128 .f32) (x2 : Vec Ideal S3x2000x1 .f32)
    (u : Fin 1) (p : Fin 2000) (q : Fin 128) : k2_pay5 x0 x1 x2 (ix3 u p q) = blockRelT x0 x1 x2 0 p q := by
  unfold k2_pay5 k2_pay2 k2_pay3 k2_pay4
  dsimp only
  rw [shapeCast_ab_1ab_apply]
  simp only [shapeCast_self]
  exact slab_apply 0 x0 x1 x2 _ _ p q

/-- The second slab's payload at (u, p, q): relation 1's. -/
theorem pay6_apply (x0 : Vec Ideal S2000x128 .f32) (x1 : Vec Ideal S3x128x128 .f32) (x2 : Vec Ideal S3x2000x1 .f32)
    (u : Fin 1) (p : Fin 2000) (q : Fin 128) : k2_pay6 x0 x1 x2 (ix3 u p q) = blockRelT x0 x1 x2 1 p q := by
  unfold k2_pay6 k2_pay2 k2_pay3 k2_pay4
  dsimp only
  rw [shapeCast_ab_1ab_apply]
  simp only [shapeCast_self]
  exact slab_apply 1 x0 x1 x2 _ _ p q

/-- The third slab's payload at (u, p, q): relation 2's. -/
theorem pay7_apply (x0 : Vec Ideal S2000x128 .f32) (x1 : Vec Ideal S3x128x128 .f32) (x2 : Vec Ideal S3x2000x1 .f32)
    (u : Fin 1) (p : Fin 2000) (q : Fin 128) : k2_pay1 (k2_pay7 x0 x1 x2) (ix3 u p q) = blockRelT x0 x1 x2 2 p q := by
  unfold k2_pay1 k2_pay7 k2_pay2 k2_pay3 k2_pay4
  dsimp only
  rw [shapeCast_ab_1ab_apply]
  simp only [shapeCast_self]
  exact slab_apply 2 x0 x1 x2 _ _ p q

/-- The output block as ONE function of its index. -/
def blockG (x0 : Vec Ideal S2000x128 .f32) (x1 : Vec Ideal S3x128x128 .f32) (x2 : Vec Ideal S3x2000x1 .f32) :
    S3x2000x128.Idx → EReal := fun y =>
  blockRelT x0 x1 x2 ⟨(y 0).val, (y 0).isLt⟩ ⟨(y 1).val, (y 1).isLt⟩ ⟨(y 2).val, (y 2).isLt⟩

/-- Slab r's rectangle places the local index (u, p, q) at (r, p, q). -/
theorem blockG_slab (x0 : Vec Ideal S2000x128 .f32) (x1 : Vec Ideal S3x128x128 .f32) (x2 : Vec Ideal S3x2000x1 .f32)
    (r : Fin 3) (inb : ∀ a, (![r.val, 0, 0] : Fin 3 → Nat) a + S1x2000x128.size a ≤ S3x2000x128.size a)
    (u : Fin 1) (p : Fin 2000) (q : Fin 128) :
    blockG x0 x1 x2 ((Rect.unit (s := S3x2000x128) ![r.val, 0, 0] S1x2000x128.size inb).emb (ix3 u p q)) = blockRelT x0 x1 x2 r p q := by
  unfold blockG
  have e0 : (⟨(((Rect.unit (s := S3x2000x128) ![r.val, 0, 0] S1x2000x128.size inb).emb (ix3 u p q)) 0).val,
      (((Rect.unit (s := S3x2000x128) ![r.val, 0, 0] S1x2000x128.size inb).emb (ix3 u p q)) 0).isLt⟩ : Fin 3) = r :=
    Fin.ext (by show r.val + 1 * u.val = r.val; omega)
  have e1 : (⟨(((Rect.unit (s := S3x2000x128) ![r.val, 0, 0] S1x2000x128.size inb).emb (ix3 u p q)) 1).val,
      (((Rect.unit (s := S3x2000x128) ![r.val, 0, 0] S1x2000x128.size inb).emb (ix3 u p q)) 1).isLt⟩ : Fin 2000) = p :=
    Fin.ext (by show 0 + 1 * p.val = p.val; omega)
  have e2 : (⟨(((Rect.unit (s := S3x2000x128) ![r.val, 0, 0] S1x2000x128.size inb).emb (ix3 u p q)) 2).val,
      (((Rect.unit (s := S3x2000x128) ![r.val, 0, 0] S1x2000x128.size inb).emb (ix3 u p q)) 2).isLt⟩ : Fin 128) = q :=
    Fin.ext (by show 0 + 1 * q.val = q.val; omega)
  rw [e0, e1, e2]

/-- What the output buffer holds after the body, at any index: the block function. -/
theorem out2_3_apply (x0 : Vec Ideal S2000x128 .f32) (x1 : Vec Ideal S3x128x128 .f32) (x2 : Vec Ideal S3x2000x1 .f32)
    (y : S3x2000x128.Idx) : out2_3 x0 x1 x2 y = blockG x0 x1 x2 y := by
  unfold out2_3
  rw [View.ld_unit_zero (S := S2000x128) (funext fun a => by fin_cases a <;> rfl),
    View.ld_unit_zero (S := S3x128x128) (funext fun a => by fin_cases a <;> rfl),
    View.ld_unit_zero (S := S3x2000x1) (funext fun a => by fin_cases a <;> rfl)]
  refine View.canon_apply_of_pieces (Val := Elt Ideal) (blockG x0 x1 x2 : S3x2000x128.Idx → Elt Ideal .f32) _ (fun pc hpc x => ?_) y (cover2_3 _ _ _ y)
  simp only [List.mem_cons, List.not_mem_nil, or_false] at hpc
  rcases hpc with rfl | rfl | rfl
  · obtain ⟨u, p, q, rfl⟩ : ∃ (u : Fin 1) (p : Fin 2000) (q : Fin 128), x = ix3 u p q := ⟨x 0, x 1, x 2, eq_ix3 x⟩
    exact (pay7_apply x0 x1 x2 u p q).trans (blockG_slab x0 x1 x2 2 inb_S3x2000x128_S1x2000x128_2_0_0 u p q).symm
  · obtain ⟨u, p, q, rfl⟩ : ∃ (u : Fin 1) (p : Fin 2000) (q : Fin 128), x = ix3 u p q := ⟨x 0, x 1, x 2, eq_ix3 x⟩
    exact (pay6_apply x0 x1 x2 u p q).trans (blockG_slab x0 x1 x2 1 inb_S3x2000x128_S1x2000x128_1_0_0 u p q).symm
  · obtain ⟨u, p, q, rfl⟩ : ∃ (u : Fin 1) (p : Fin 2000) (q : Fin 128), x = ix3 u p q := ⟨x 0, x 1, x 2, eq_ix3 x⟩
    exact (pay5_apply x0 x1 x2 u p q).trans (blockG_slab x0 x1 x2 0 inb_S3x2000x128_S1x2000x128_0_0_0 u p q).symm

/-! ## From the blocks to the array -/

/-- The region's whole output array as ONE function of its three input arrays: at (r, i, j),
    (Σ_k h[i,k] · W[r,k,j]) · ns[r,i,0]. -/
def G2 (h : S100000x128.Idx → EReal) (W : S3x128x128.Idx → EReal) (ns : S3x100000x1.Idx → EReal) : S3x100000x128.Idx → EReal :=
  fun y => Cert.Spec.relT h W ns ⟨(y 0).val, (y 0).isLt⟩ ⟨(y 1).val, (y 1).isLt⟩ ⟨(y 2).val, (y 2).isLt⟩

/-- The printed index maps, decided over the grid: at point t the feature block is row block t, the weight block is the
    whole array, the norm block and the output block are row block t of every relation. -/
theorem idx_facts2 : ∀ t : Fin cfg2.N,
    win2_0.index t (0 : Fin 2) = t.val ∧ win2_0.index t (1 : Fin 2) = 0
    ∧ win2_1.index t (0 : Fin 3) = 0 ∧ win2_1.index t (1 : Fin 3) = 0 ∧ win2_1.index t (2 : Fin 3) = 0
    ∧ win2_2.index t (0 : Fin 3) = 0 ∧ win2_2.index t (1 : Fin 3) = t.val ∧ win2_2.index t (2 : Fin 3) = 0
    ∧ win2_3.index t (0 : Fin 3) = 0 ∧ win2_3.index t (1 : Fin 3) = t.val ∧ win2_3.index t (2 : Fin 3) = 0 :=
  (by decide +kernel : ∀ t : Fin grid2.N, _)

variable (V : (c : Dev nD) → (b : Ref sig .tc) → Buf (Elt Ideal) ((c : Thread nD τ).loc b))

/-- WHAT POINT t WRITES BACK is block t of `G2` of the arrays as the region finds them. -/
theorem flushed2_eq (c : Dev nD) (t : Fin cfg2.N) :
    (dat2 V c).flushed 3 t = ((cfg2.win 3).blk t).view.read (Elt Ideal)
      (G2 (V c (Pipeline.arrRef spec2 0)) (V c (Pipeline.arrRef spec2 1)) (V c (Pipeline.arrRef spec2 2))) := by
  show (cfg2.win 3).cut (grid2.coords t) ((dat2 V c).after 3 t) = _
  rw [after2_3]
  obtain ⟨a0, a1, b0, b1, b2, c0, c1, c2, d0, d1, d2⟩ := idx_facts2 t
  funext j
  show out2_3 (iblk2 V c 0 t) (iblk2 V c 1 t) (iblk2 V c 2 t) j
    = G2 (V c (Pipeline.arrRef spec2 0)) (V c (Pipeline.arrRef spec2 1)) (V c (Pipeline.arrRef spec2 2)) (((cfg2.win 3).blk t).view.emb j)
  rw [out2_3_apply]
  unfold blockG blockRelT G2 Cert.Spec.relT
  have hj0 : (j 0).val < 3 := (j 0).isLt
  have hj1 : (j 1).val < 2000 := (j 1).isLt
  have hj2 : (j 2).val < 128 := (j 2).isLt
  refine congrArg₂ (· * ·) (Finset.sum_congr rfl fun k _ => congrArg₂ (· * ·) ?_ ?_) ?_
  · show V c (Pipeline.arrRef spec2 0) (((cfg2.win 0).blk t).view.emb (ix2 (⟨(j 1).val, (j 1).isLt⟩ : Fin 2000) k)) = _
    refine congrArg _ (funext fun a => Fin.ext ?_)
    match a with
    | ⟨0, _⟩ => show win2_0.index t (0 : Fin 2) * 2000 + 1 * (j 1).val = win2_3.index t (1 : Fin 3) * 2000 + 1 * (j 1).val; omega
    | ⟨1, _⟩ => show win2_0.index t (1 : Fin 2) * 128 + 1 * k.val = k.val; omega
  · show V c (Pipeline.arrRef spec2 1) (((cfg2.win 1).blk t).view.emb (ix3 (⟨(j 0).val, (j 0).isLt⟩ : Fin 3) k (⟨(j 2).val, (j 2).isLt⟩ : Fin 128))) = _
    refine congrArg _ (funext fun a => Fin.ext ?_)
    match a with
    | ⟨0, _⟩ => show win2_1.index t (0 : Fin 3) * 3 + 1 * (j 0).val = win2_3.index t (0 : Fin 3) * 3 + 1 * (j 0).val; omega
    | ⟨1, _⟩ => show win2_1.index t (1 : Fin 3) * 128 + 1 * k.val = k.val; omega
    | ⟨2, _⟩ => show win2_1.index t (2 : Fin 3) * 128 + 1 * (j 2).val = win2_3.index t (2 : Fin 3) * 128 + 1 * (j 2).val; omega
  · show V c (Pipeline.arrRef spec2 2) (((cfg2.win 2).blk t).view.emb (ix3 (⟨(j 0).val, (j 0).isLt⟩ : Fin 3) (⟨(j 1).val, (j 1).isLt⟩ : Fin 2000) (0 : Fin 1))) = _
    refine congrArg _ (funext fun a => Fin.ext ?_)
    match a with
    | ⟨0, _⟩ => show win2_2.index t (0 : Fin 3) * 3 + 1 * (j 0).val = win2_3.index t (0 : Fin 3) * 3 + 1 * (j 0).val; omega
    | ⟨1, _⟩ => show win2_2.index t (1 : Fin 3) * 2000 + 1 * (j 1).val = win2_3.index t (1 : Fin 3) * 2000 + 1 * (j 1).val; omega
    | ⟨2, _⟩ => show win2_2.index t (2 : Fin 3) * 1 + 1 * 0 = 0; omega

/-- An index of the output array is in point t's block iff each coordinate is in the block's range on its axis. -/
theorem mem_blk2 (t : Fin cfg2.N) (i : S3x100000x128.Idx) :
    i ∈ ((cfg2.win 3).blk t).view.set ↔ ∀ a : Fin 3, win2_3.index t a * S3x2000x128.size a ≤ (i a).val
      ∧ (i a).val < win2_3.index t a * S3x2000x128.size a + S3x2000x128.size a := by
  show i ∈ ((View.whole main_v114).slice (win2_3.rect t)).set ↔ _
  rw [View.set_slice_whole, Rect.mem_set_unit]
  exact Iff.rfl

/-- Every index of the output array is in some point's block: row i of any relation is in row block i / 2000. -/
theorem cover2 (i : S3x100000x128.Idx) : ∃ t : Fin cfg2.N, (cfg2.win 3).flush t = true ∧ i ∈ ((cfg2.win 3).blk t).view.set := by
  have hi0 : (i 0).val < 3 := (i 0).isLt
  have hi1 : (i 1).val < 100000 := (i 1).isLt
  have hi2 : (i 2).val < 128 := (i 2).isLt
  have hN : cfg2.N = 50 := N_2
  have ht : (i 1).val / 2000 < cfg2.N := by rw [hN]; omega
  refine ⟨⟨(i 1).val / 2000, ht⟩, flush2_3 _, ?_⟩
  rw [mem_blk2]
  obtain ⟨-, -, -, -, -, -, -, -, d0, d1, d2⟩ := idx_facts2 ⟨(i 1).val / 2000, ht⟩
  intro a
  match a with
  | ⟨0, _⟩ =>
    show win2_3.index ⟨(i 1).val / 2000, ht⟩ (0 : Fin 3) * 3 ≤ (i 0).val ∧ (i 0).val < win2_3.index ⟨(i 1).val / 2000, ht⟩ (0 : Fin 3) * 3 + 3
    rw [d0]; omega
  | ⟨1, _⟩ =>
    show win2_3.index ⟨(i 1).val / 2000, ht⟩ (1 : Fin 3) * 2000 ≤ (i 1).val ∧ (i 1).val < win2_3.index ⟨(i 1).val / 2000, ht⟩ (1 : Fin 3) * 2000 + 2000
    rw [d1]; show (i 1).val / 2000 * 2000 ≤ (i 1).val ∧ (i 1).val < (i 1).val / 2000 * 2000 + 2000; omega
  | ⟨2, _⟩ =>
    show win2_3.index ⟨(i 1).val / 2000, ht⟩ (2 : Fin 3) * 128 ≤ (i 2).val ∧ (i 2).val < win2_3.index ⟨(i 1).val / 2000, ht⟩ (2 : Fin 3) * 128 + 128
    rw [d2]; omega

/-- THE ARRAY after the region: `G2` of the arrays the region found. -/
theorem final2 (c : Dev nD) : (dat2 V c).arrAt 3 cfg2.N
    = G2 (V c (Pipeline.arrRef spec2 0)) (V c (Pipeline.arrRef spec2 1)) (V c (Pipeline.arrRef spec2 2)) :=
  (dat2 V c).arrAt_eq_of_cover 3 _ (fun t _ => flushed2_eq V c t) cover2

end Cert.KernelIdeal.Val2

end
-- ==== Proof.ValueIdeal.B3.lean ====
import proofs.«143860_j29738353557974_1_alg».proof.Proof.FrameIdeal.R3
import proofs.«143860_j29738353557974_1_alg».proof.Proof.Spec
import proofs.«143860_j29738353557974_1_alg».proof.Proof.LibPlainDot
import proofs.«143860_j29738353557974_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

/-!
# What pipeline 3 leaves in its output array, on the extended reals

The body's one store, read at row `p` and column `q` of the block, is the normalised and clamped fully connected
layer of the three scaled messages of that row (the specification's `bnRelu` of `fc`); the block of point `t` sits at
rows `2000·t … 2000·t + 1999` of the array, the message and norm blocks at the same rows of theirs, and the seven
small operands are read whole. The fifty blocks fill the 100000 rows, so the array ends as the specification's
`combineBn` of the arrays the pipeline found, at every index.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open Cert.Spec (Arr2 Arr3)
open scoped BigOperators

/-! ## Layout chains of the body, read at an index -/

/-- Row `r` of a stack of three matrices, taken as a slice of one matrix and cast to a matrix, reads at `(i, j)` the
    stack at `(r, i, j)`. -/
theorem stackRow3_apply {α : Type} {n1 n2 : Nat} (o : Nat) (X : (⟨3, ![3, n1, n2]⟩ : Shape).Idx → α)
    (h1 : (⟨3, ![3, n1, n2]⟩ : Shape).Slices ![o, 0, 0] ⟨3, ![1, n1, n2]⟩)
    (h2 : (⟨3, ![1, n1, n2]⟩ : Shape).ShapeCasts ⟨2, ![n1, n2]⟩)
    (r : Fin 3) (hr : r.val = o) (i : Fin n1) (j : Fin n2) :
    shapeCast ⟨2, ![n1, n2]⟩ (extractStridedSlice ⟨3, ![1, n1, n2]⟩ ![o, 0, 0] X h1) h2 (ix2 i j) = X (ix3 r i j) := by
  rw [shapeCast_1ab_ab_apply]
  exact extractStridedSlice_apply _ _ _ _ _ (fun ax => by
    match ax with
    | ⟨0, _⟩ => show r.val = o + 0; omega
    | ⟨1, _⟩ => exact (Nat.zero_add _).symm
    | ⟨2, _⟩ => exact (Nat.zero_add _).symm)

/-- Row `r` of a stack of three one-column matrices, spread over the columns, reads at `(p, k)` the stack at `(r, p, 0)`. -/
theorem normRow3_apply {α : Type} {n1 b : Nat} (o : Nat) (X : (⟨3, ![3, n1, 1]⟩ : Shape).Idx → α)
    (h1 : (⟨3, ![3, n1, 1]⟩ : Shape).Slices ![o, 0, 0] ⟨3, ![1, n1, 1]⟩)
    (h2 : (⟨3, ![1, n1, 1]⟩ : Shape).ShapeCasts ⟨2, ![n1, 1]⟩)
    (h3 : (⟨2, ![n1, 1]⟩ : Shape).Broadcasts ⟨2, ![n1, b]⟩)
    (r : Fin 3) (hr : r.val = o) (p : Fin n1) (k : Fin b) :
    broadcastTo ⟨2, ![n1, b]⟩ (shapeCast ⟨2, ![n1, 1]⟩ (extractStridedSlice ⟨3, ![1, n1, 1]⟩ ![o, 0, 0] X h1) h2) h3 (ix2 p k)
      = X (ix3 r p (0 : Fin 1)) := by
  rw [Cert.Lib.broadcastTo_a1_ab_apply]
  exact stackRow3_apply o X h1 h2 r hr p 0

/-- Row `r` of a three-row matrix, taken as a one-row slice, flattened, made a row again and spread over the rows,
    reads at `(p, k)` the matrix at `(r, k)`. -/
theorem biasRow3_apply {α : Type} {a b : Nat} (o : Nat) (X : (⟨2, ![3, b]⟩ : Shape).Idx → α)
    (h1 : (⟨2, ![3, b]⟩ : Shape).Slices ![o, 0] ⟨2, ![1, b]⟩)
    (h2 : (⟨2, ![1, b]⟩ : Shape).ShapeCasts ⟨1, ![b]⟩)
    (h3 : (⟨1, ![b]⟩ : Shape).ShapeCasts ⟨2, ![1, b]⟩)
    (h4 : (⟨2, ![1, b]⟩ : Shape).Broadcasts ⟨2, ![a, b]⟩)
    (r : Fin 3) (hr : r.val = o) (p : Fin a) (k : Fin b) :
    broadcastTo ⟨2, ![a, b]⟩ (shapeCast ⟨2, ![1, b]⟩ (shapeCast ⟨1, ![b]⟩ (extractStridedSlice ⟨2, ![1, b]⟩ ![o, 0] X h1) h2) h3) h4 (ix2 p k)
      = X (ix2 r k) := by
  rw [broadcastTo_1b_ab_apply, shapeCast_a_1a_apply, shapeCast_1a_a_apply]
  exact slice2_axis0_apply o X h1 (0 : Fin 1) k r (by show r.val = o + 0; omega)

/-- The reciprocal square root of a vector, at an index. -/
theorem rsqrt3_apply {s : Shape} {φ : FTy} (a : FVec Ideal s φ) (i : s.Idx) : rsqrt a i = Ideal.rsqrt (a i) := rfl

/-! ## The body's payloads at an index -/

/-- The weight block passes through its change of format unchanged. -/
theorem pay2_3_eq (v41 : Arr2 128 128) : k3_pay2 (F := Ideal) v41 = v41 := by
  funext i; unfold k3_pay2; simp only [truncf_apply, shapeCast_self]

/-- The bias row passes through unchanged. -/
theorem pay3_3_eq (v44 : Arr2 1 128) : k3_pay3 (F := Ideal) v44 = v44 := by
  funext i; unfold k3_pay3; simp only [shapeCast_self]

/-- The aggregate of the three scaled messages with the relation biases, at row `p`, feature `k` of the block. -/
theorem pay4_3_apply (v0 : Arr3 3 2000 128) (v2 : Arr3 3 2000 1) (v4 : Arr2 3 128) (p : Fin 2000) (k : Fin 128) :
    k3_pay4 (F := Ideal) v0 v2 v4 (ix2 p k) =
      ((((v0 (ix3 0 p k) * v2 (ix3 0 p 0) + v4 (ix2 0 k)) + v0 (ix3 1 p k) * v2 (ix3 1 p 0)) + v4 (ix2 1 k))
        + v0 (ix3 2 p k) * v2 (ix3 2 p 0)) + v4 (ix2 2 k) := by
  unfold k3_pay4
  simp only [truncf_apply, addf_apply, mulf_apply, shapeCast_self]
  rw [stackRow3_apply 0 v0 _ _ 0 rfl p k, stackRow3_apply 1 v0 _ _ 1 rfl p k, stackRow3_apply 2 v0 _ _ 2 rfl p k,
    normRow3_apply 0 v2 _ _ _ 0 rfl p k, normRow3_apply 1 v2 _ _ _ 1 rfl p k, normRow3_apply 2 v2 _ _ _ 2 rfl p k,
    biasRow3_apply 0 v4 _ _ _ _ 0 rfl p k, biasRow3_apply 1 v4 _ _ _ _ 1 rfl p k, biasRow3_apply 2 v4 _ _ _ _ 2 rfl p k]

/-- The printed dimension numbers are those of a plain matrix product. -/
theorem dot3_plain : dot_S2000x128_S128x128_S2000x128_1_0_0_1_n_n = DotDims.plain 2000 128 128 := rfl

/-- The stored vector at row `p`, column `q`: the product with the weight, the bias, the normalisation, the clamp. -/
theorem pay1_3_apply (v43 : Arr2 128 128) (v45 : Arr2 1 128) (v46 : Arr2 2000 128) (v50 v52 v54 v56 : Arr2 1 128)
    (p : Fin 2000) (q : Fin 128) :
    k3_pay1 (F := Ideal) v43 v45 v46 v50 v52 v54 v56 (ix2 p q) =
      Cert.Spec.bnRelu (Ideal.ofBits .f32 0x3727C5AC#32) ((∑ k : Fin 128, v46 (ix2 p k) * v43 (ix2 k q)) + v45 (ix2 0 q))
        (v50 (ix2 0 q)) (v52 (ix2 0 q)) (v54 (ix2 0 q)) (v56 (ix2 0 q)) := by
  unfold k3_pay1
  simp only [maximumf_apply, addf_apply, mulf_apply, subf_apply, broadcast_apply, shapeCast_self, broadcastTo_1b_ab_apply,
    rsqrt3_apply, dot3_plain]
  rw [Cert.Lib.plain_matmul_zero_apply]
  unfold Cert.Spec.bnRelu
  show max _ (Ideal.ofBits .f32 0x00000000#32) = _
  rw [Ideal.ofBits_zero_f32]
  rfl

/-! ## The output block at an index, over any input blocks -/

theorem hz2_3 : (![0, 0] : Fin 2 → Nat) = fun _ => 0 := funext fun a => by fin_cases a <;> rfl
theorem hz3_3 : (![0, 0, 0] : Fin 3 → Nat) = fun _ => 0 := funext fun a => by fin_cases a <;> rfl

/-- What the body leaves at row `p`, column `q` of the output block, from the nine input blocks. -/
theorem out3_apply (x0 : Arr3 3 2000 128) (x1 : Arr3 3 2000 1) (x2 : Arr2 3 128) (x3 : Arr2 128 128)
    (x4 x5 x6 x7 x8 : Arr2 1 128) (p : Fin 2000) (q : Fin 128) :
    out3_9 (F := Ideal) x0 x1 x2 x3 x4 x5 x6 x7 x8 (ix2 p q) =
      Cert.Spec.bnRelu (Ideal.ofBits .f32 0x3727C5AC#32)
        ((∑ k : Fin 128, (((((x0 (ix3 0 p k) * x1 (ix3 0 p 0) + x2 (ix2 0 k)) + x0 (ix3 1 p k) * x1 (ix3 1 p 0)) + x2 (ix2 1 k))
            + x0 (ix3 2 p k) * x1 (ix3 2 p 0)) + x2 (ix2 2 k)) * x3 (ix2 k q)) + x4 (ix2 0 q))
        (x5 (ix2 0 q)) (x6 (ix2 0 q)) (x7 (ix2 0 q)) (x8 (ix2 0 q)) := by
  unfold out3_9
  rw [View.canon_unit_zero hz2_3]
  simp only [View.ld_unit_zero (S := S3x2000x128) hz3_3, View.ld_unit_zero (S := S3x2000x1) hz3_3, View.ld_unit_zero (S := S3x128) hz2_3,
    View.ld_unit_zero (S := S128x128) hz2_3, View.ld_unit_zero (S := S1x128) hz2_3]
  rw [pay1_3_apply, pay2_3_eq, pay3_3_eq]
  simp only [pay4_3_apply]

/-- The output block at `(p, q)` is the specification at row `i`, column `q` of the arrays, when the two moving
    blocks are rows `i - p … ` of their arrays at row `p` and the seven small operands are read whole. -/
theorem block3_eq (A0 : Arr3 3 100000 128) (A1 : Arr3 3 100000 1) (A2 : Arr2 3 128) (A3 : Arr2 128 128)
    (A4 A5 A6 A7 A8 : Arr2 1 128)
    (x0 : Arr3 3 2000 128) (x1 : Arr3 3 2000 1) (x2 : Arr2 3 128) (x3 : Arr2 128 128) (x4 x5 x6 x7 x8 : Arr2 1 128)
    (i : Fin 100000) (p : Fin 2000) (q : Fin 128)
    (h0 : ∀ (r : Fin 3) (k : Fin 128), x0 (ix3 r p k) = A0 (ix3 r i k))
    (h1 : ∀ r : Fin 3, x1 (ix3 r p (0 : Fin 1)) = A1 (ix3 r i (0 : Fin 1)))
    (h2 : x2 = A2) (h3 : x3 = A3) (h4 : x4 = A4) (h5 : x5 = A5) (h6 : x6 = A6) (h7 : x7 = A7) (h8 : x8 = A8) :
    out3_9 (F := Ideal) x0 x1 x2 x3 x4 x5 x6 x7 x8 (ix2 p q) =
      Cert.Spec.combineBn (Ideal.ofBits .f32 0x3727C5AC#32) A0 A1 A2 A3 A4 A5 A6 A7 A8 i q := by
  subst h2 h3 h4 h5 h6 h7 h8
  rw [out3_apply]
  unfold Cert.Spec.combineBn Cert.Spec.fc Cert.Spec.agg
  simp only [h0, h1]

/-! ## From the blocks to the array -/

variable (V : (c : Dev nD) → (b : Ref sig .tc) → Buf (Elt Ideal) ((c : Thread nD τ).loc b))

/-- The array the pipeline leaves, as one function of the arrays it found. -/
def G3 (c : Dev nD) : S100000x128.Idx → EReal := fun y =>
  Cert.Spec.combineBn (Ideal.ofBits .f32 0x3727C5AC#32) (V c (Pipeline.arrRef spec3 0)) (V c (Pipeline.arrRef spec3 1))
    (V c (Pipeline.arrRef spec3 2)) (V c (Pipeline.arrRef spec3 3)) (V c (Pipeline.arrRef spec3 4)) (V c (Pipeline.arrRef spec3 5))
    (V c (Pipeline.arrRef spec3 6)) (V c (Pipeline.arrRef spec3 7)) (V c (Pipeline.arrRef spec3 8)) (y 0) (y 1)

/-- The index maps over the grid: the two moving inputs sit at the output's row block, every other block index is
    zero, and the output's row block is the point's number. -/
theorem idx_facts3 : ∀ t : Fin cfg3.N,
    win3_0.index t (0 : Fin 3) = 0 ∧ win3_0.index t (1 : Fin 3) = win3_9.index t (0 : Fin 2) ∧ win3_0.index t (2 : Fin 3) = 0
    ∧ win3_1.index t (0 : Fin 3) = 0 ∧ win3_1.index t (1 : Fin 3) = win3_9.index t (0 : Fin 2) ∧ win3_1.index t (2 : Fin 3) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (1 : Fin 2) = 0 ∧ win3_9.index t (0 : Fin 2) ≤ 49 :=
  (by decide +kernel : ∀ t : Fin grid3.N, _)

/-- Every row block of the output is some point's. -/
theorem idx_onto3 : ∀ q0 : Fin 50, ∃ t : Fin cfg3.N, win3_9.index t (0 : Fin 2) = q0.val ∧ win3_9.index t (1 : Fin 2) = 0 :=
  (by decide +kernel : ∀ q0 : Fin 50, ∃ t : Fin grid3.N, win3_9.index t (0 : Fin 2) = q0.val ∧ win3_9.index t (1 : Fin 2) = 0)

/-- The block of the messages at point `t` is rows `2000·t …` of their array. -/
theorem blk3_0 (c : Dev nD) (t : Fin cfg3.N) (r : Fin 3) (p : Fin 2000) (k : Fin 128) (i : Fin 100000)
    (hi : i.val = win3_9.index t (0 : Fin 2) * 2000 + 1 * p.val) :
    iblk3 (F := Ideal) V c 0 t (ix3 r p k) = V c (Pipeline.arrRef spec3 0) (ix3 r i k) := by
  obtain ⟨a00, a01, a02, -⟩ := idx_facts3 t
  show V c (Pipeline.arrRef spec3 0) (((cfg3.win 0).blk t).view.emb (ix3 r p k)) = V c (Pipeline.arrRef spec3 0) _
  refine congrArg _ (funext fun a => Fin.ext ?_)
  match a with
  | ⟨0, _⟩ => show win3_0.index t (0 : Fin 3) * 3 + 1 * r.val = r.val; omega
  | ⟨1, _⟩ => show win3_0.index t (1 : Fin 3) * 2000 + 1 * p.val = i.val; omega
  | ⟨2, _⟩ => show win3_0.index t (2 : Fin 3) * 128 + 1 * k.val = k.val; omega

/-- The block of the norms at point `t` is the same rows of their array. -/
theorem blk3_1 (c : Dev nD) (t : Fin cfg3.N) (r : Fin 3) (p : Fin 2000) (i : Fin 100000)
    (hi : i.val = win3_9.index t (0 : Fin 2) * 2000 + 1 * p.val) :
    iblk3 (F := Ideal) V c 1 t (ix3 r p (0 : Fin 1)) = V c (Pipeline.arrRef spec3 1) (ix3 r i (0 : Fin 1)) := by
  obtain ⟨-, -, -, a10, a11, a12, -⟩ := idx_facts3 t
  show V c (Pipeline.arrRef spec3 1) (((cfg3.win 1).blk t).view.emb (ix3 r p (0 : Fin 1))) = V c (Pipeline.arrRef spec3 1) _
  refine congrArg _ (funext fun a => Fin.ext ?_)
  match a with
  | ⟨0, _⟩ => show win3_1.index t (0 : Fin 3) * 3 + 1 * r.val = r.val; omega
  | ⟨1, _⟩ => show win3_1.index t (1 : Fin 3) * 2000 + 1 * p.val = i.val; omega
  | ⟨2, _⟩ => show win3_1.index t (2 : Fin 3) * 1 + 1 * 0 = 0; omega

/-- Each of the seven small operands is read whole at every point. -/
theorem blk3_2 (c : Dev nD) (t : Fin cfg3.N) : (iblk3 (F := Ideal) V c 2 t : Arr2 3 128) = V c (Pipeline.arrRef spec3 2) := by
  obtain ⟨-, -, -, -, -, -, a20, a21, -⟩ := idx_facts3 t
  funext y
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 3 + 1 * (y 0).val = (y 0).val; omega
  | ⟨1, _⟩ => show win3_2.index t (1 : Fin 2) * 128 + 1 * (y 1).val = (y 1).val; omega
theorem blk3_3 (c : Dev nD) (t : Fin cfg3.N) : (iblk3 (F := Ideal) V c 3 t : Arr2 128 128) = V c (Pipeline.arrRef spec3 3) := by
  obtain ⟨-, -, -, -, -, -, -, -, a30, a31, -⟩ := idx_facts3 t
  funext y
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 128 + 1 * (y 0).val = (y 0).val; omega
  | ⟨1, _⟩ => show win3_3.index t (1 : Fin 2) * 128 + 1 * (y 1).val = (y 1).val; omega
theorem blk3_4 (c : Dev nD) (t : Fin cfg3.N) : (iblk3 (F := Ideal) V c 4 t : Arr2 1 128) = V c (Pipeline.arrRef spec3 4) := by
  obtain ⟨-, -, -, -, -, -, -, -, -, -, a40, a41, -⟩ := idx_facts3 t
  funext y
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega
theorem blk3_5 (c : Dev nD) (t : Fin cfg3.N) : (iblk3 (F := Ideal) V c 5 t : Arr2 1 128) = V c (Pipeline.arrRef spec3 5) := by
  obtain ⟨-, -, -, -, -, -, -, -, -, -, -, -, a50, a51, -⟩ := idx_facts3 t
  funext y
  show V c (Pipeline.arrRef spec3 5) (((cfg3.win 5).blk t).view.emb y) = V c (Pipeline.arrRef spec3 5) y
  refine congrArg _ (funext fun a => Fin.ext ?_)
  match a with
  | ⟨0, _⟩ => show win3_5.index t (0 : Fin 2) * 1 + 1 * (y 0).val = (y 0).val; omega
  | ⟨1, _⟩ => show win3_5.index t (1 : Fin 2) * 128 + 1 * (y 1).val = (y 1).val; omega
theorem blk3_6 (c : Dev nD) (t : Fin cfg3.N) : (iblk3 (F := Ideal) V c 6 t : Arr2 1 128) = V c (Pipeline.arrRef spec3 6) := by
  obtain ⟨-, -, -, -, -, -, -, -, -, -, -, -, -, -, a60, a61, -⟩ := idx_facts3 t
  funext y
  show V c (Pipeline.arrRef spec3 6) (((cfg3.win 6).blk t).view.emb y) = V c (Pipeline.arrRef spec3 6) y
  refine congrArg _ (funext fun a => Fin.ext ?_)
  match a with
  | ⟨0, _⟩ => show win3_6.index t (0 : Fin 2) * 1 + 1 * (y 0).val = (y 0).val; omega
  | ⟨1, _⟩ => show win3_6.index t (1 : Fin 2) * 128 + 1 * (y 1).val = (y 1).val; omega
theorem blk3_7 (c : Dev nD) (t : Fin cfg3.N) : (iblk3 (F := Ideal) V c 7 t : Arr2 1 128) = V c (Pipeline.arrRef spec3 7) := by
  obtain ⟨-, -, -, -, -, -, -, -, -, -, -, -, -, -, -, -, a70, a71, -⟩ := idx_facts3 t
  funext y
  show V c (Pipeline.arrRef spec3 7) (((cfg3.win 7).blk t).view.emb y) = V c (Pipeline.arrRef spec3 7) y
  refine congrArg _ (funext fun a => Fin.ext ?_)
  match a with
  | ⟨0, _⟩ => show win3_7.index t (0 : Fin 2) * 1 + 1 * (y 0).val = (y 0).val; omega
  | ⟨1, _⟩ => show win3_7.index t (1 : Fin 2) * 128 + 1 * (y 1).val = (y 1).val; omega
theorem blk3_8 (c : Dev nD) (t : Fin cfg3.N) : (iblk3 (F := Ideal) V c 8 t : Arr2 1 128) = V c (Pipeline.arrRef spec3 8) := by
  obtain ⟨-, -, -, -, -, -, -, -, -, -, -, -, -, -, -, -, -, -, a80, a81, -⟩ := idx_facts3 t
  funext y
  show V c (Pipeline.arrRef spec3 8) (((cfg3.win 8).blk t).view.emb y) = V c (Pipeline.arrRef spec3 8) y
  refine congrArg _ (funext fun a => Fin.ext ?_)
  match a with
  | ⟨0, _⟩ => show win3_8.index t (0 : Fin 2) * 1 + 1 * (y 0).val = (y 0).val; omega
  | ⟨1, _⟩ => show win3_8.index t (1 : Fin 2) * 128 + 1 * (y 1).val = (y 1).val; omega

/-- What point `t` writes back is block `t` of `G3`. -/
theorem flushed3_eq (c : Dev nD) (t : Fin cfg3.N) :
    (dat3 (F := Ideal) V c).flushed 9 t = ((cfg3.win 9).blk t).view.read (Elt Ideal) (G3 V c) := by
  show (cfg3.win 9).cut (grid3.coords t) ((dat3 V c).after 9 t) = _
  rw [after3_9]
  have a91 : win3_9.index t (1 : Fin 2) = 0 := (idx_facts3 t).2.2.2.2.2.2.2.2.2.2.2.2.2.2.2.2.2.2.2.2.1
  funext j
  obtain ⟨p, q, rfl⟩ : ∃ (p : Fin 2000) (q : Fin 128), j = ix2 p q := ⟨j 0, j 1, eq_ix2 j⟩
  show out3_9 (F := Ideal) (iblk3 V c 0 t) (iblk3 V c 1 t) (iblk3 V c 2 t) (iblk3 V c 3 t) (iblk3 V c 4 t) (iblk3 V c 5 t)
      (iblk3 V c 6 t) (iblk3 V c 7 t) (iblk3 V c 8 t) (ix2 p q)
    = G3 V c (((cfg3.win 9).blk t).view.emb (ix2 p q))
  have hq : (((cfg3.win 9).blk t).view.emb (ix2 p q)) 1 = q := by
    apply Fin.ext
    show win3_9.index t (1 : Fin 2) * 128 + 1 * q.val = q.val
    omega
  have hp : ((((cfg3.win 9).blk t).view.emb (ix2 p q)) 0).val = win3_9.index t (0 : Fin 2) * 2000 + 1 * p.val := rfl
  unfold G3
  rw [hq]
  exact block3_eq _ _ _ _ _ _ _ _ _ _ _ _ _ _ _ _ _ _ _ p q (fun r k => blk3_0 V c t r p k _ hp) (fun r => blk3_1 V c t r p _ hp)
    (blk3_2 V c t) (blk3_3 V c t) (blk3_4 V c t) (blk3_5 V c t) (blk3_6 V c t) (blk3_7 V c t) (blk3_8 V c t)

/-- An index of the array is in point `t`'s block iff each coordinate is in the block's range on its axis. -/
theorem mem_blk3 (t : Fin cfg3.N) (i : S100000x128.Idx) :
    i ∈ ((cfg3.win 9).blk t).view.set ↔ ∀ a : Fin 2, win3_9.index t a * S2000x128.size a ≤ (i a).val ∧ (i a).val < win3_9.index t a * S2000x128.size a + S2000x128.size a := by
  show i ∈ ((View.whole main_v174).slice (win3_9.rect t)).set ↔ _
  rw [View.set_slice_whole, Rect.mem_set_unit]
  exact Iff.rfl

/-- The fifty blocks of 2000 rows fill the array: row `r` is in the block of point `r / 2000`. -/
theorem cover3 (i : S100000x128.Idx) : ∃ t : Fin cfg3.N, (cfg3.win 9).flush t = true ∧ i ∈ ((cfg3.win 9).blk t).view.set := by
  have hi0 : (i 0).val < 100000 := (i 0).isLt
  have hi1 : (i 1).val < 128 := (i 1).isLt
  obtain ⟨t, ht0, ht1⟩ := idx_onto3 ⟨(i 0).val / 2000, by omega⟩
  have q0 : win3_9.index t (0 : Fin 2) = (i 0).val / 2000 := ht0
  refine ⟨t, flush3_9 t, ?_⟩
  rw [mem_blk3]
  intro a
  match a with
  | ⟨0, _⟩ => show win3_9.index t (0 : Fin 2) * 2000 ≤ (i 0).val ∧ (i 0).val < win3_9.index t (0 : Fin 2) * 2000 + 2000; omega
  | ⟨1, _⟩ => show win3_9.index t (1 : Fin 2) * 128 ≤ (i 1).val ∧ (i 1).val < win3_9.index t (1 : Fin 2) * 128 + 128; omega

/-- THE ARRAY after the pipeline: the specification's normalised layer of the arrays it found, at every index. -/
theorem final3 (c : Dev nD) : ((dat3 (F := Ideal) V c).arrAt 9 cfg3.N : S100000x128.Idx → EReal) =
    fun y => Cert.Spec.combineBn (Ideal.ofBits .f32 0x3727C5AC#32) (V c (Pipeline.arrRef spec3 0)) (V c (Pipeline.arrRef spec3 1))
      (V c (Pipeline.arrRef spec3 2)) (V c (Pipeline.arrRef spec3 3)) (V c (Pipeline.arrRef spec3 4)) (V c (Pipeline.arrRef spec3 5))
      (V c (Pipeline.arrRef spec3 6)) (V c (Pipeline.arrRef spec3 7)) (V c (Pipeline.arrRef spec3 8)) (y 0) (y 1) :=
  (dat3 (F := Ideal) V c).arrAt_eq_of_cover 9 (G3 V c) (fun t _ => flushed3_eq V c t) (cover3)

end Cert.KernelIdeal.Val

end
-- ==== Proof.ValueIdeal.H2.lean ====
import proofs.«143860_j29738353557974_1_alg».proof.Proof.FrameIdeal.Run
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

/-!
# What pipeline 2 is entered from: the host stretch between pipelines 1 and 2

Between the second and third pipelines the host takes the second layer's three relation weights out of the stacked
weight array. This module reads the three arrays pipeline 2 stages: the features are what pipeline 1 left, the weights
are the launch memory's at the second layer, and the out-degree norms are as computed before the first pipeline.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.StableHlo
open scoped BigOperators

/-! ## The stretch's results over any entry contents -/

/-- The second layer's relation weights. -/
theorem h2_v113 (W : Valuation τ sig (Elt Ideal)) :
    StableHlo.after (hostOps2 (F := Ideal)) W (Proc.devRef .tc main_v113) =
      shapeCast S3x128x128 (extractStridedSlice S1x3x128x128 ![1, 0, 0, 0] (W (Proc.devRef .tc main_arg7)) slices_S3x3x128x128_S1x3x128x128_1_0_0_0) shapeCasts_S1x3x128x128_S3x128x128 := by
  after_results_simp
  rfl

/-- The stretch writes neither the features nor the norms. -/
theorem h2_v111 (W : Valuation τ sig (Elt Ideal)) :
    StableHlo.after (hostOps2 (F := Ideal)) W (Proc.devRef .tc main_v111) = W (Proc.devRef .tc main_v111) := by
  after_results_simp
theorem h2_v43 (W : Valuation τ sig (Elt Ideal)) :
    StableHlo.after (hostOps2 (F := Ideal)) W (Proc.devRef .tc main_v43) = W (Proc.devRef .tc main_v43) := by
  after_results_simp
set_option maxHeartbeats 4000000 in
/-- Nor does the stretch before pipeline 1 write the norms. -/
theorem h2_pre1_v43 (W : Valuation τ sig (Elt Ideal)) :
    StableHlo.after (hostOps1 (F := Ideal)) W (Proc.devRef .tc main_v43) = W (Proc.devRef .tc main_v43) := by
  after_results_simp

/-! ## A layer of a stack of stacks, read at an index -/

/-- Layer `l` of a stack of stacks of matrices, taken as a slice of one stack and cast to a stack, reads at `(r, k, j)`
    the whole at `(l, r, k, j)`. -/
theorem hlayer2_apply {α : Type} {n0 n1 n2 n3 : Nat} (o : Nat) (X : (⟨4, ![n0, n1, n2, n3]⟩ : Shape).Idx → α)
    (h1 : (⟨4, ![n0, n1, n2, n3]⟩ : Shape).Slices ![o, 0, 0, 0] ⟨4, ![1, n1, n2, n3]⟩)
    (h2 : (⟨4, ![1, n1, n2, n3]⟩ : Shape).ShapeCasts ⟨3, ![n1, n2, n3]⟩)
    (l : Fin n0) (hl : l.val = o) (r : Fin n1) (k : Fin n2) (j : Fin n3) :
    shapeCast ⟨3, ![n1, n2, n3]⟩ (extractStridedSlice ⟨4, ![1, n1, n2, n3]⟩ ![o, 0, 0, 0] X h1) h2 (ix3 r k j) = X (ix4 l r k j) := by
  rw [shapeCast_1abc_abc_apply]
  exact extractStridedSlice_apply _ _ _ _ _ (fun ax => by
    match ax with
    | ⟨0, _⟩ => show l.val = o + 0; omega
    | ⟨1, _⟩ => exact (Nat.zero_add _).symm
    | ⟨2, _⟩ => exact (Nat.zero_add _).symm
    | ⟨3, _⟩ => exact (Nat.zero_add _).symm)

/-! ## At the contents pipeline 1 leaves -/

variable (m : (ℓ : Loc nD τ sig) → Buf (Elt Ideal) ℓ) (ρ : Dev nD → PrngReg)

/-- Each argument array, as pipeline 1 leaves it, is as launched. -/
theorem X1_arg (c : Dev nD) {b : Ref sig .tc} (hb : b ∈ argRefs) : X1 m ρ c (Proc.devRef .tc b) = m ((c : Thread nD τ).loc b) :=
  calc X1 m ρ c (Proc.devRef .tc b)
    _ = EW1 m ρ c (Proc.devRef .tc b) := keep_reg1 m ρ c hb
    _ = X0 m ρ c (Proc.devRef .tc b) := keep_hostOps1 _ hb
    _ = EW0 m ρ c (Proc.devRef .tc b) := keep_reg0 m ρ c hb
    _ = A12 m ρ c (Proc.devRef .tc b) := keep_hostOps0_12 _ hb
    _ = A11 m ρ c (Proc.devRef .tc b) := keep_hostOps0_11 _ hb
    _ = A10 m ρ c (Proc.devRef .tc b) := keep_hostOps0_10 _ hb
    _ = A9 m ρ c (Proc.devRef .tc b) := keep_hostOps0_9 _ hb
    _ = A8 m ρ c (Proc.devRef .tc b) := keep_hostOps0_8 _ hb
    _ = A7 m ρ c (Proc.devRef .tc b) := keep_hostOps0_7 _ hb
    _ = A6 m ρ c (Proc.devRef .tc b) := keep_hostOps0_6 _ hb
    _ = A5 m ρ c (Proc.devRef .tc b) := keep_hostOps0_5 _ hb
    _ = A4 m ρ c (Proc.devRef .tc b) := keep_hostOps0_4 _ hb
    _ = A3 m ρ c (Proc.devRef .tc b) := keep_hostOps0_3 _ hb
    _ = A2 m ρ c (Proc.devRef .tc b) := keep_hostOps0_2 _ hb
    _ = A1 m ρ c (Proc.devRef .tc b) := keep_hostOps0_1 _ hb
    _ = A0 m ρ c (Proc.devRef .tc b) := keep_hostOps0 _ hb
    _ = m ((c : Thread nD τ).loc b) := rfl

/-- The out-degree norms, as pipeline 1 leaves them, are as computed before the first pipeline: pipeline 0 stages them
    as an input and leaves them, nothing else touches them. -/
theorem X1_v43 (c : Dev nD) : X1 m ρ c (Proc.devRef .tc main_v43) = EW0 m ρ c (Proc.devRef .tc main_v43) :=
  calc X1 m ρ c (Proc.devRef .tc main_v43)
    _ = EW1 m ρ c (Proc.devRef .tc main_v43) := X1_of_ne m ρ c main_v43 (by decide)
    _ = X0 m ρ c (Proc.devRef .tc main_v43) := h2_pre1_v43 _
    _ = EW0 m ρ c (Proc.devRef .tc main_v43) := (X0_arr m ρ c 2).trans (((dat0 (E0 m ρ) c).arrAt_in 2 rfl _).trans (A_eq0 (E0 m ρ) c 2))

/-- Window 0 of pipeline 2, the features: what pipeline 1 left in its output array. -/
theorem E2_w0 (c : Dev nD) : E2 (F := Ideal) m ρ c (Pipeline.arrRef spec2 0) = X1 m ρ c (Proc.devRef .tc main_v111) := by
  show StableHlo.after (hostOps2 (F := Ideal)) (X1 m ρ c) (Proc.devRef .tc main_v111) = _
  rw [h2_v111]

/-- Window 1, the second layer's relation weights. -/
theorem E2_w1 (c : Dev nD) (r : Fin 3) (k j : Fin 128) :
    (E2 (F := Ideal) m ρ c (Pipeline.arrRef spec2 1) : S3x128x128.Idx → EReal) (ix3 r k j)
      = (m ((c : Thread nD τ).loc main_arg7) : S3x3x128x128.Idx → EReal) (ix4 (1 : Fin 3) r k j) := by
  show StableHlo.after (hostOps2 (F := Ideal)) (X1 m ρ c) (Proc.devRef .tc main_v113) (ix3 r k j) = _
  rw [h2_v113, X1_arg m ρ c (b := main_arg7) (by decide)]
  exact hlayer2_apply 1 _ _ _ (1 : Fin 3) rfl r k j

/-- Window 2, the stacked out-degree norms: as computed before the first pipeline. -/
theorem E2_w2 (c : Dev nD) : E2 (F := Ideal) m ρ c (Pipeline.arrRef spec2 2) = EW0 m ρ c (Proc.devRef .tc main_v43) := by
  show StableHlo.after (hostOps2 (F := Ideal)) (X1 m ρ c) (Proc.devRef .tc main_v43) = _
  rw [h2_v43]
  exact X1_v43 m ρ c

end Cert.KernelIdeal.Val

end
-- ==== Proof.ValueIdeal.H3.lean ====
import proofs.«143860_j29738353557974_1_alg».proof.Proof.FrameIdeal.Run
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

/-!
# What pipeline 3 is entered from: the host stretch between pipelines 2 and 3

Between the third and fourth pipelines the host, three times over — once per relation —, takes that relation's messages out
of the stacked message array, gathers the rows named by the (normalised) source indices and adds them up per
destination index into a zero array; it stacks the three sums again; and it takes the second layer's parameters out
of the stacked parameter arrays. This module reads each of the nine arrays pipeline 3 stages, index by index, in
terms of the message array pipeline 2 left, the norms computed before the first pipeline, and the launch memory.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.StableHlo
open scoped BigOperators

/-! ## The stretch's results over any entry contents -/

/-- An operation of three literal operands: its result with each operand's contents at its own reference. -/
theorem h3_nary3_result' {τ' : Topo} {sig' : RefSig} {Val : EltTy → Type} {x a b y : Ref sig' .tc}
    (f : ((k : Fin 3) → ((![x, a, b] : Fin 3 → Ref sig' .tc) k).ty.Contents Val) → y.ty.Contents Val) (hxs hy)
    (F : Valuation τ' sig' Val) :
    (StableHlo.nary (τ := τ') ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- The source indices as the gather takes them: a negative index counted from the end, then as a column. -/
abbrev normIdx3 (a : IVec S600000 32) : IVec S600000x1 32 :=
  broadcastInDim S600000x1 ![0] bcast_S600000_S600000x1_0
    (select (cmpi .slt a (broadcastInDim S600000 ![] bcast_S_S600000 (constantI S_ 32 0#32)))
      (addi a (broadcastInDim S600000 ![] bcast_S_S600000 (constantI S_ 32 100000#32))) a)

/-- One relation's propagation: the rows of `feat` named by the source indices, summed per destination index into zeros. -/
abbrev prop3 (feat : FVec Ideal S100000x128 .f32) (src dst : IVec S600000 32) : FVec Ideal S100000x128 .f32 :=
  Host.scatterAdd (F := Ideal) scatter_S100000x128_S600000x1_S600000x128_1_0_0_1
    (broadcastInDim S100000x128 ![] bcast_S_S100000x128 (constant (F := Ideal) S_ .f32 0x00000000#32))
    (broadcastInDim S600000x1 ![0] bcast_S600000_S600000x1_0 dst)
    (Host.gather gather_S100000x128_S600000x1_S600000x128_1_0_n_n_0_1_1128 feat (normIdx3 src))

set_option maxHeartbeats 4000000 in
/-- The stacked propagated messages, as the operations compute them. -/
theorem h3_v154 (W : Valuation τ sig (Elt Ideal)) :
    StableHlo.after (hostOps3 (F := Ideal)) W (Proc.devRef .tc main_v154) =
      concatenate S3x100000x128 0
        [⟨S1x100000x128, broadcastInDim S1x100000x128 ![1, 2] bcast_S100000x128_S1x100000x128_1_2
            (prop3 (shapeCast S100000x128 (extractStridedSlice S1x100000x128 ![0, 0, 0] (W (Proc.devRef .tc main_v114)) slices_S3x100000x128_S1x100000x128_0_0_0) shapeCasts_S1x100000x128_S100000x128)
              (W (Proc.devRef .tc main_arg1)) (W (Proc.devRef .tc main_arg2)))⟩,
         ⟨S1x100000x128, broadcastInDim S1x100000x128 ![1, 2] bcast_S100000x128_S1x100000x128_1_2
            (prop3 (shapeCast S100000x128 (extractStridedSlice S1x100000x128 ![1, 0, 0] (W (Proc.devRef .tc main_v114)) slices_S3x100000x128_S1x100000x128_1_0_0) shapeCasts_S1x100000x128_S100000x128)
              (W (Proc.devRef .tc main_arg3)) (W (Proc.devRef .tc main_arg4)))⟩,
         ⟨S1x100000x128, broadcastInDim S1x100000x128 ![1, 2] bcast_S100000x128_S1x100000x128_1_2
            (prop3 (shapeCast S100000x128 (extractStridedSlice S1x100000x128 ![2, 0, 0] (W (Proc.devRef .tc main_v114)) slices_S3x100000x128_S1x100000x128_2_0_0) shapeCasts_S1x100000x128_S100000x128)
              (W (Proc.devRef .tc main_arg5)) (W (Proc.devRef .tc main_arg6)))⟩]
        concatenates_S1x100000x128_S1x100000x128_S1x100000x128_S3x100000x128_d0 := by
  simp (disch := decide) only [after_cons, after_nil, nullary_result', unary_result', binary_result', ternary_result', reshape_result',
    h3_nary3_result', nullary_result_ne', unary_result_ne', binary_result_ne', ternary_result_ne', reshape_result_ne', nary_result_ne']
  rfl

set_option maxHeartbeats 4000000 in
/-- The stretch writes no array of the norms. -/
theorem h3_v48 (W : Valuation τ sig (Elt Ideal)) :
    StableHlo.after (hostOps3 (F := Ideal)) W (Proc.devRef .tc main_v48) = W (Proc.devRef .tc main_v48) := by
  after_results_simp

set_option maxHeartbeats 4000000 in
/-- The second layer's relation biases. -/
theorem h3_v156 (W : Valuation τ sig (Elt Ideal)) :
    StableHlo.after (hostOps3 (F := Ideal)) W (Proc.devRef .tc main_v156) =
      shapeCast S3x128 (extractStridedSlice S1x3x128 ![1, 0, 0] (W (Proc.devRef .tc main_arg8)) slices_S3x3x128_S1x3x128_1_0_0) shapeCasts_S1x3x128_S3x128 := by
  after_results_simp
  rfl

set_option maxHeartbeats 4000000 in
/-- The second layer's fully connected weight. -/
theorem h3_v158 (W : Valuation τ sig (Elt Ideal)) :
    StableHlo.after (hostOps3 (F := Ideal)) W (Proc.devRef .tc main_v158) =
      shapeCast S128x128 (extractStridedSlice S1x128x128 ![1, 0, 0] (W (Proc.devRef .tc main_arg9)) slices_S3x128x128_S1x128x128_1_0_0) shapeCasts_S1x128x128_S128x128 := by
  after_results_simp
  rfl

set_option maxHeartbeats 4000000 in
/-- The second layer's fully connected bias, as a row. -/
theorem h3_v161 (W : Valuation τ sig (Elt Ideal)) :
    StableHlo.after (hostOps3 (F := Ideal)) W (Proc.devRef .tc main_v161) =
      shapeCast S1x128 (shapeCast S128 (extractStridedSlice S1x128 ![1, 0] (W (Proc.devRef .tc main_arg10)) slices_S3x128_S1x128_1_0) shapeCasts_S1x128_S128) shapeCasts_S128_S1x128 := by
  after_results_simp
  rfl

set_option maxHeartbeats 4000000 in
/-- The second layer's four normalisation parameters, each as a row. -/
theorem h3_v164 (W : Valuation τ sig (Elt Ideal)) :
    StableHlo.after (hostOps3 (F := Ideal)) W (Proc.devRef .tc main_v164) =
      shapeCast S1x128 (shapeCast S128 (extractStridedSlice S1x128 ![1, 0] (W (Proc.devRef .tc main_arg11)) slices_S2x128_S1x128_1_0) shapeCasts_S1x128_S128) shapeCasts_S128_S1x128 := by
  after_results_simp
  rfl
set_option maxHeartbeats 4000000 in
theorem h3_v167 (W : Valuation τ sig (Elt Ideal)) :
    StableHlo.after (hostOps3 (F := Ideal)) W (Proc.devRef .tc main_v167) =
      shapeCast S1x128 (shapeCast S128 (extractStridedSlice S1x128 ![1, 0] (W (Proc.devRef .tc main_arg12)) slices_S2x128_S1x128_1_0) shapeCasts_S1x128_S128) shapeCasts_S128_S1x128 := by
  after_results_simp
  rfl
set_option maxHeartbeats 4000000 in
theorem h3_v170 (W : Valuation τ sig (Elt Ideal)) :
    StableHlo.after (hostOps3 (F := Ideal)) W (Proc.devRef .tc main_v170) =
      shapeCast S1x128 (shapeCast S128 (extractStridedSlice S1x128 ![1, 0] (W (Proc.devRef .tc main_arg13)) slices_S2x128_S1x128_1_0) shapeCasts_S1x128_S128) shapeCasts_S128_S1x128 := by
  after_results_simp
  rfl
set_option maxHeartbeats 4000000 in
theorem h3_v173 (W : Valuation τ sig (Elt Ideal)) :
    StableHlo.after (hostOps3 (F := Ideal)) W (Proc.devRef .tc main_v173) =
      shapeCast S1x128 (shapeCast S128 (extractStridedSlice S1x128 ![1, 0] (W (Proc.devRef .tc main_arg14)) slices_S2x128_S1x128_1_0) shapeCasts_S1x128_S128) shapeCasts_S128_S1x128 := by
  after_results_simp
  rfl

/-! ## Layout chains read at an index -/

/-- Row `r` of a stack of matrices, taken as a slice of one matrix and cast to a matrix, reads at `(i, j)` the stack
    at `(r, i, j)`. -/
theorem hrow3_apply {α : Type} {n0 n1 n2 : Nat} (o : Nat) (X : (⟨3, ![n0, n1, n2]⟩ : Shape).Idx → α)
    (h1 : (⟨3, ![n0, n1, n2]⟩ : Shape).Slices ![o, 0, 0] ⟨3, ![1, n1, n2]⟩)
    (h2 : (⟨3, ![1, n1, n2]⟩ : Shape).ShapeCasts ⟨2, ![n1, n2]⟩)
    (r : Fin n0) (hr : r.val = o) (i : Fin n1) (j : Fin n2) :
    shapeCast ⟨2, ![n1, n2]⟩ (extractStridedSlice ⟨3, ![1, n1, n2]⟩ ![o, 0, 0] X h1) h2 (ix2 i j) = X (ix3 r i j) := by
  rw [shapeCast_1ab_ab_apply]
  exact extractStridedSlice_apply _ _ _ _ _ (fun ax => by
    match ax with
    | ⟨0, _⟩ => show r.val = o + 0; omega
    | ⟨1, _⟩ => exact (Nat.zero_add _).symm
    | ⟨2, _⟩ => exact (Nat.zero_add _).symm)

/-- The same as a function of the matrix index. -/
theorem hmat3_eq {α : Type} {n0 n1 n2 : Nat} (o : Nat) (X : (⟨3, ![n0, n1, n2]⟩ : Shape).Idx → α)
    (h1 : (⟨3, ![n0, n1, n2]⟩ : Shape).Slices ![o, 0, 0] ⟨3, ![1, n1, n2]⟩)
    (h2 : (⟨3, ![1, n1, n2]⟩ : Shape).ShapeCasts ⟨2, ![n1, n2]⟩)
    (r : Fin n0) (hr : r.val = o) :
    shapeCast ⟨2, ![n1, n2]⟩ (extractStridedSlice ⟨3, ![1, n1, n2]⟩ ![o, 0, 0] X h1) h2
      = fun y : (⟨2, ![n1, n2]⟩ : Shape).Idx => X (ix3 r (y 0) (y 1)) := by
  funext y
  obtain ⟨a, b, rfl⟩ : ∃ (a : Fin n1) (b : Fin n2), y = ix2 a b := ⟨y 0, y 1, eq_ix2 y⟩
  exact hrow3_apply o X h1 h2 r hr a b

/-- Row `r` of a matrix, taken as a one-row slice, flattened and made a row again, reads at `(u, j)` the matrix at `(r, j)`. -/
theorem hvec3_apply {α : Type} {n0 b : Nat} (o : Nat) (X : (⟨2, ![n0, b]⟩ : Shape).Idx → α)
    (h1 : (⟨2, ![n0, b]⟩ : Shape).Slices ![o, 0] ⟨2, ![1, b]⟩)
    (h2 : (⟨2, ![1, b]⟩ : Shape).ShapeCasts ⟨1, ![b]⟩)
    (h3 : (⟨1, ![b]⟩ : Shape).ShapeCasts ⟨2, ![1, b]⟩)
    (r : Fin n0) (hr : r.val = o) (u : Fin 1) (j : Fin b) :
    shapeCast ⟨2, ![1, b]⟩ (shapeCast ⟨1, ![b]⟩ (extractStridedSlice ⟨2, ![1, b]⟩ ![o, 0] X h1) h2) h3 (ix2 u j) = X (ix2 r j) := by
  rw [shapeCast_a_1a_apply, shapeCast_1a_a_apply]
  exact slice2_axis0_apply o X h1 (0 : Fin 1) j r (by show r.val = o + 0; omega)

/-- A matrix given a leading unit axis reads at `(0, i, k)` the matrix at `(i, k)`. -/
theorem hlift3_apply {α : Type} (T : S100000x128.Idx → α) (hb : S100000x128.BroadcastsInDim S1x100000x128 (![1, 2] : Fin 2 → Fin S1x100000x128.rank))
    (u : Fin 1) (i : Fin 100000) (k : Fin 128) :
    broadcastInDim S1x100000x128 ![1, 2] hb T (ix3 u i k) = T (ix2 i k) :=
  broadcastInDim_apply _ hb T _ _ (fun a => by
    match a with
    | ⟨0, _⟩ => show i.val = if (100000 : ℕ) = 1 then 0 else i.val; rw [if_neg (by decide)]
    | ⟨1, _⟩ => show k.val = if (128 : ℕ) = 1 then 0 else k.val; rw [if_neg (by decide)])

/-- Three matrices stacked along a new leading axis read at `(r, i, k)` the `r`-th at `(i, k)`. -/
theorem hstack3_apply {α : Type} (T0 T1 T2 : S100000x128.Idx → α)
    (hb : S100000x128.BroadcastsInDim S1x100000x128 (![1, 2] : Fin 2 → Fin S1x100000x128.rank))
    (hc : Shape.Concatenates [S1x100000x128, S1x100000x128, S1x100000x128] S3x100000x128 0) (i : Fin 100000) (k : Fin 128) :
    concatenate S3x100000x128 0 [⟨S1x100000x128, broadcastInDim S1x100000x128 ![1, 2] hb T0⟩,
        ⟨S1x100000x128, broadcastInDim S1x100000x128 ![1, 2] hb T1⟩, ⟨S1x100000x128, broadcastInDim S1x100000x128 ![1, 2] hb T2⟩] hc (ix3 (0 : Fin 3) i k) = T0 (ix2 i k)
    ∧ concatenate S3x100000x128 0 [⟨S1x100000x128, broadcastInDim S1x100000x128 ![1, 2] hb T0⟩,
        ⟨S1x100000x128, broadcastInDim S1x100000x128 ![1, 2] hb T1⟩, ⟨S1x100000x128, broadcastInDim S1x100000x128 ![1, 2] hb T2⟩] hc (ix3 (1 : Fin 3) i k) = T1 (ix2 i k)
    ∧ concatenate S3x100000x128 0 [⟨S1x100000x128, broadcastInDim S1x100000x128 ![1, 2] hb T0⟩,
        ⟨S1x100000x128, broadcastInDim S1x100000x128 ![1, 2] hb T1⟩, ⟨S1x100000x128, broadcastInDim S1x100000x128 ![1, 2] hb T2⟩] hc (ix3 (2 : Fin 3) i k) = T2 (ix2 i k) := by
  refine ⟨?_, ?_, ?_⟩
  · refine (concatenate_apply_piece (0 : Fin S3x100000x128.rank)
      [⟨S1x100000x128, broadcastInDim S1x100000x128 ![1, 2] hb T0⟩, ⟨S1x100000x128, broadcastInDim S1x100000x128 ![1, 2] hb T1⟩, ⟨S1x100000x128, broadcastInDim S1x100000x128 ![1, 2] hb T2⟩]
      hc (ix3 (0 : Fin 3) i k) 0 (by show (0 : ℕ) < 3; omega) S1x100000x128 _ rfl rfl 0 rfl
      (ix3 (0 : Fin 1) i k) (fun b hb' => ?_) rfl).trans (hlift3_apply T0 hb 0 i k)
    match b with
    | ⟨0, _⟩ => exact absurd (Fin.ext rfl) hb'
    | ⟨1, _⟩ => rfl
    | ⟨2, _⟩ => rfl
  · refine (concatenate_apply_piece (0 : Fin S3x100000x128.rank)
      [⟨S1x100000x128, broadcastInDim S1x100000x128 ![1, 2] hb T0⟩, ⟨S1x100000x128, broadcastInDim S1x100000x128 ![1, 2] hb T1⟩, ⟨S1x100000x128, broadcastInDim S1x100000x128 ![1, 2] hb T2⟩]
      hc (ix3 (1 : Fin 3) i k) 1 (by show (1 : ℕ) < 3; omega) S1x100000x128 _ rfl rfl 1 rfl
      (ix3 (0 : Fin 1) i k) (fun b hb' => ?_) rfl).trans (hlift3_apply T1 hb 0 i k)
    match b with
    | ⟨0, _⟩ => exact absurd (Fin.ext rfl) hb'
    | ⟨1, _⟩ => rfl
    | ⟨2, _⟩ => rfl
  · refine (concatenate_apply_piece (0 : Fin S3x100000x128.rank)
      [⟨S1x100000x128, broadcastInDim S1x100000x128 ![1, 2] hb T0⟩, ⟨S1x100000x128, broadcastInDim S1x100000x128 ![1, 2] hb T1⟩, ⟨S1x100000x128, broadcastInDim S1x100000x128 ![1, 2] hb T2⟩]
      hc (ix3 (2 : Fin 3) i k) 2 (by show (2 : ℕ) < 3; omega) S1x100000x128 _ rfl rfl 2 rfl
      (ix3 (0 : Fin 1) i k) (fun b hb' => ?_) rfl).trans (hlift3_apply T2 hb 0 i k)
    match b with
    | ⟨0, _⟩ => exact absurd (Fin.ext rfl) hb'
    | ⟨1, _⟩ => rfl
    | ⟨2, _⟩ => rfl

/-! ## At the contents pipeline 0 leaves -/

variable (m : (ℓ : Loc nD τ sig) → Buf (Elt Ideal) ℓ) (ρ : Dev nD → PrngReg)

/-- Each argument array, as pipeline 2 leaves it, is as launched: no host operation before it writes one, and the
    pipelines only read what they stage. -/
theorem X2_arg (c : Dev nD) {b : Ref sig .tc} (hb : b ∈ argRefs) : X2 m ρ c (Proc.devRef .tc b) = m ((c : Thread nD τ).loc b) :=
  calc X2 m ρ c (Proc.devRef .tc b)
    _ = EW2 m ρ c (Proc.devRef .tc b) := keep_reg2 m ρ c hb
    _ = X1 m ρ c (Proc.devRef .tc b) := keep_hostOps2 _ hb
    _ = EW1 m ρ c (Proc.devRef .tc b) := keep_reg1 m ρ c hb
    _ = X0 m ρ c (Proc.devRef .tc b) := keep_hostOps1 _ hb
    _ = EW0 m ρ c (Proc.devRef .tc b) := keep_reg0 m ρ c hb
    _ = A12 m ρ c (Proc.devRef .tc b) := keep_hostOps0_12 _ hb
    _ = A11 m ρ c (Proc.devRef .tc b) := keep_hostOps0_11 _ hb
    _ = A10 m ρ c (Proc.devRef .tc b) := keep_hostOps0_10 _ hb
    _ = A9 m ρ c (Proc.devRef .tc b) := keep_hostOps0_9 _ hb
    _ = A8 m ρ c (Proc.devRef .tc b) := keep_hostOps0_8 _ hb
    _ = A7 m ρ c (Proc.devRef .tc b) := keep_hostOps0_7 _ hb
    _ = A6 m ρ c (Proc.devRef .tc b) := keep_hostOps0_6 _ hb
    _ = A5 m ρ c (Proc.devRef .tc b) := keep_hostOps0_5 _ hb
    _ = A4 m ρ c (Proc.devRef .tc b) := keep_hostOps0_4 _ hb
    _ = A3 m ρ c (Proc.devRef .tc b) := keep_hostOps0_3 _ hb
    _ = A2 m ρ c (Proc.devRef .tc b) := keep_hostOps0_2 _ hb
    _ = A1 m ρ c (Proc.devRef .tc b) := keep_hostOps0_1 _ hb
    _ = A0 m ρ c (Proc.devRef .tc b) := keep_hostOps0 _ hb
    _ = m ((c : Thread nD τ).loc b) := rfl

set_option maxHeartbeats 4000000 in
/-- Neither earlier host stretch writes the array of the norms. -/
theorem h3_pre1_v48 (W : Valuation τ sig (Elt Ideal)) :
    StableHlo.after (hostOps1 (F := Ideal)) W (Proc.devRef .tc main_v48) = W (Proc.devRef .tc main_v48) := by
  after_results_simp
theorem h3_pre2_v48 (W : Valuation τ sig (Elt Ideal)) :
    StableHlo.after (hostOps2 (F := Ideal)) W (Proc.devRef .tc main_v48) = W (Proc.devRef .tc main_v48) := by
  after_results_simp

/-- The norms, as pipeline 2 leaves them, are as computed before the first pipeline: pipeline 1 stages them as an
    input and leaves them, nothing else touches them. -/
theorem X2_v48 (c : Dev nD) : X2 m ρ c (Proc.devRef .tc main_v48) = EW0 m ρ c (Proc.devRef .tc main_v48) :=
  calc X2 m ρ c (Proc.devRef .tc main_v48)
    _ = EW2 m ρ c (Proc.devRef .tc main_v48) := X2_of_ne m ρ c main_v48 (by decide)
    _ = X1 m ρ c (Proc.devRef .tc main_v48) := h3_pre2_v48 _
    _ = EW1 m ρ c (Proc.devRef .tc main_v48) := (X1_arr m ρ c 1).trans (((dat1 (E1 m ρ) c).arrAt_in 1 rfl _).trans (A_eq1 (E1 m ρ) c 1))
    _ = X0 m ρ c (Proc.devRef .tc main_v48) := h3_pre1_v48 _
    _ = EW0 m ρ c (Proc.devRef .tc main_v48) := X0_of_ne m ρ c main_v48 (by decide)

/-- Relation `r`'s messages as pipeline 1 is handed them: the rows of pipeline 2's messages of that relation named by
    the relation's (normalised) source indices, summed per destination index into zeros. -/
def msg3 (c : Dev nD) : Fin 3 → (S100000x128.Idx → EReal)
  | ⟨0, _⟩ => prop3 (fun y => (X2 m ρ c (Proc.devRef .tc main_v114) : S3x100000x128.Idx → EReal) (ix3 (0 : Fin 3) (y 0) (y 1)))
      (m ((c : Thread nD τ).loc main_arg1)) (m ((c : Thread nD τ).loc main_arg2))
  | ⟨1, _⟩ => prop3 (fun y => (X2 m ρ c (Proc.devRef .tc main_v114) : S3x100000x128.Idx → EReal) (ix3 (1 : Fin 3) (y 0) (y 1)))
      (m ((c : Thread nD τ).loc main_arg3)) (m ((c : Thread nD τ).loc main_arg4))
  | ⟨2, _⟩ => prop3 (fun y => (X2 m ρ c (Proc.devRef .tc main_v114) : S3x100000x128.Idx → EReal) (ix3 (2 : Fin 3) (y 0) (y 1)))
      (m ((c : Thread nD τ).loc main_arg5)) (m ((c : Thread nD τ).loc main_arg6))

/-- Window 0 of pipeline 1, the stacked propagated messages, at `(r, i, k)`. -/
theorem E3_w0 (c : Dev nD) (r : Fin 3) (i : Fin 100000) (k : Fin 128) :
    (E3 (F := Ideal) m ρ c (Pipeline.arrRef spec3 0) : S3x100000x128.Idx → EReal) (ix3 r i k) = msg3 m ρ c r (ix2 i k) := by
  show StableHlo.after (hostOps3 (F := Ideal)) (X2 m ρ c) (Proc.devRef .tc main_v154) (ix3 r i k) = _
  rw [h3_v154, X2_arg m ρ c (b := main_arg1) (by decide), X2_arg m ρ c (b := main_arg2) (by decide),
    X2_arg m ρ c (b := main_arg3) (by decide), X2_arg m ρ c (b := main_arg4) (by decide),
    X2_arg m ρ c (b := main_arg5) (by decide), X2_arg m ρ c (b := main_arg6) (by decide),
    hmat3_eq 0 _ _ _ (0 : Fin 3) rfl, hmat3_eq 1 _ _ _ (1 : Fin 3) rfl, hmat3_eq 2 _ _ _ (2 : Fin 3) rfl]
  match r with
  | ⟨0, _⟩ => exact (hstack3_apply _ _ _ _ _ i k).1
  | ⟨1, _⟩ => exact (hstack3_apply _ _ _ _ _ i k).2.1
  | ⟨2, _⟩ => exact (hstack3_apply _ _ _ _ _ i k).2.2

/-- Window 1 of pipeline 1, the stacked in-degree norms: as computed before the first pipeline, untouched since. -/
theorem E3_w1 (c : Dev nD) : E3 (F := Ideal) m ρ c (Pipeline.arrRef spec3 1) = EW0 m ρ c (Proc.devRef .tc main_v48) := by
  show StableHlo.after (hostOps3 (F := Ideal)) (X2 m ρ c) (Proc.devRef .tc main_v48) = _
  rw [h3_v48]
  exact X2_v48 m ρ c

/-- Window 2, the relation biases of the second layer. -/
theorem E3_w2 (c : Dev nD) (r : Fin 3) (k : Fin 128) :
    (E3 (F := Ideal) m ρ c (Pipeline.arrRef spec3 2) : S3x128.Idx → EReal) (ix2 r k)
      = (m ((c : Thread nD τ).loc main_arg8) : S3x3x128.Idx → EReal) (ix3 (1 : Fin 3) r k) := by
  show StableHlo.after (hostOps3 (F := Ideal)) (X2 m ρ c) (Proc.devRef .tc main_v156) (ix2 r k) = _
  rw [h3_v156, X2_arg m ρ c (b := main_arg8) (by decide)]
  exact hrow3_apply 1 _ _ _ (1 : Fin 3) rfl r k

/-- Window 3, the fully connected weight of the second layer. -/
theorem E3_w3 (c : Dev nD) (k j : Fin 128) :
    (E3 (F := Ideal) m ρ c (Pipeline.arrRef spec3 3) : S128x128.Idx → EReal) (ix2 k j)
      = (m ((c : Thread nD τ).loc main_arg9) : S3x128x128.Idx → EReal) (ix3 (1 : Fin 3) k j) := by
  show StableHlo.after (hostOps3 (F := Ideal)) (X2 m ρ c) (Proc.devRef .tc main_v158) (ix2 k j) = _
  rw [h3_v158, X2_arg m ρ c (b := main_arg9) (by decide)]
  exact hrow3_apply 1 _ _ _ (1 : Fin 3) rfl k j

/-- Window 4, the fully connected bias of the second layer. -/
theorem E3_w4 (c : Dev nD) (j : Fin 128) :
    (E3 (F := Ideal) m ρ c (Pipeline.arrRef spec3 4) : S1x128.Idx → EReal) (ix2 (0 : Fin 1) j)
      = (m ((c : Thread nD τ).loc main_arg10) : S3x128.Idx → EReal) (ix2 (1 : Fin 3) j) := by
  show StableHlo.after (hostOps3 (F := Ideal)) (X2 m ρ c) (Proc.devRef .tc main_v161) (ix2 (0 : Fin 1) j) = _
  rw [h3_v161, X2_arg m ρ c (b := main_arg10) (by decide)]
  exact hvec3_apply 1 _ _ _ _ (1 : Fin 3) rfl 0 j

/-- Windows 5 to 8, the second layer's scale, shift, mean and variance. -/
theorem E3_w5 (c : Dev nD) (j : Fin 128) :
    (E3 (F := Ideal) m ρ c (Pipeline.arrRef spec3 5) : S1x128.Idx → EReal) (ix2 (0 : Fin 1) j)
      = (m ((c : Thread nD τ).loc main_arg11) : S2x128.Idx → EReal) (ix2 (1 : Fin 2) j) := by
  show StableHlo.after (hostOps3 (F := Ideal)) (X2 m ρ c) (Proc.devRef .tc main_v164) (ix2 (0 : Fin 1) j) = _
  rw [h3_v164, X2_arg m ρ c (b := main_arg11) (by decide)]
  exact hvec3_apply 1 _ _ _ _ (1 : Fin 2) rfl 0 j
theorem E3_w6 (c : Dev nD) (j : Fin 128) :
    (E3 (F := Ideal) m ρ c (Pipeline.arrRef spec3 6) : S1x128.Idx → EReal) (ix2 (0 : Fin 1) j)
      = (m ((c : Thread nD τ).loc main_arg12) : S2x128.Idx → EReal) (ix2 (1 : Fin 2) j) := by
  show StableHlo.after (hostOps3 (F := Ideal)) (X2 m ρ c) (Proc.devRef .tc main_v167) (ix2 (0 : Fin 1) j) = _
  rw [h3_v167, X2_arg m ρ c (b := main_arg12) (by decide)]
  exact hvec3_apply 1 _ _ _ _ (1 : Fin 2) rfl 0 j
theorem E3_w7 (c : Dev nD) (j : Fin 128) :
    (E3 (F := Ideal) m ρ c (Pipeline.arrRef spec3 7) : S1x128.Idx → EReal) (ix2 (0 : Fin 1) j)
      = (m ((c : Thread nD τ).loc main_arg13) : S2x128.Idx → EReal) (ix2 (1 : Fin 2) j) := by
  show StableHlo.after (hostOps3 (F := Ideal)) (X2 m ρ c) (Proc.devRef .tc main_v170) (ix2 (0 : Fin 1) j) = _
  rw [h3_v170, X2_arg m ρ c (b := main_arg13) (by decide)]
  exact hvec3_apply 1 _ _ _ _ (1 : Fin 2) rfl 0 j
theorem E3_w8 (c : Dev nD) (j : Fin 128) :
    (E3 (F := Ideal) m ρ c (Pipeline.arrRef spec3 8) : S1x128.Idx → EReal) (ix2 (0 : Fin 1) j)
      = (m ((c : Thread nD τ).loc main_arg14) : S2x128.Idx → EReal) (ix2 (1 : Fin 2) j) := by
  show StableHlo.after (hostOps3 (F := Ideal)) (X2 m ρ c) (Proc.devRef .tc main_v173) (ix2 (0 : Fin 1) j) = _
  rw [h3_v173, X2_arg m ρ c (b := main_arg14) (by decide)]
  exact hvec3_apply 1 _ _ _ _ (1 : Fin 2) rfl 0 j

end Cert.KernelIdeal.Val

end
-- ==== Proof.ValueIdeal.Bridge1.lean ====
/-
  The second layer of the kernel program is the second layer of the reference.

  The third pipeline leaves, in slab r of its output, the first layer's output times relation r's second-layer
  weight, each row scaled by relation r's out-degree norm: the reference's scaled product. The host stretch after it
  propagates each slab along its relation's edges exactly as the reference does. The fourth pipeline then computes,
  index by index, the reference's normalised fully connected aggregate of the three propagated messages.
-/
import proofs.«143860_j29738353557974_1_alg».proof.Proof.FrameIdeal.Run
import proofs.«143860_j29738353557974_1_alg».proof.Proof.ValueIdeal.A2
import proofs.«143860_j29738353557974_1_alg».proof.Proof.ValueIdeal.B3
import proofs.«143860_j29738353557974_1_alg».proof.Proof.ValueIdeal.H2
import proofs.«143860_j29738353557974_1_alg».proof.Proof.ValueIdeal.H3
import proofs.«143860_j29738353557974_1_alg».proof.Proof.ValueIdeal.Pre
import proofs.«143860_j29738353557974_1_alg».proof.Proof.Step

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Cert.ReferenceIdeal.RefValue (ND NV FV EI M128 scaled prop agg3 fcl bnRelu layerBn layerLast wSlice bSlice fcSlice v3Slice v2Slice degNormR transform_step agg_step fc_step combine_step wSlice_apply bSlice_apply fcSlice_apply v3Slice_apply v2Slice_apply)

variable (m : (ℓ : Loc nD τ sig) → Buf (Elt Ideal) ℓ) (ρ : Dev nD → PrngReg)

/-- The degree norm is one function in both programs. -/
theorem degNorm_eq1 (idx : EI Ideal) : degNorm (F := Ideal) idx = degNormR idx := rfl

/-- The third pipeline's output array is the relation transform of the first layer's output, the second layer's weights
    and the stacked norms. -/
theorem X2_v114 (c : Dev nD) : X2 m ρ c (Proc.devRef .tc main_v114)
    = Cert.KernelIdeal.Val2.G2 (E2 m ρ c (Pipeline.arrRef spec2 0)) (E2 m ρ c (Pipeline.arrRef spec2 1)) (E2 m ρ c (Pipeline.arrRef spec2 2)) :=
  (X2_arr m ρ c 3).trans (Cert.KernelIdeal.Val2.final2 (E2 m ρ) c)

/-- Slab 0 of the third pipeline's output is the reference's scaled product for relation 0. -/
theorem T1_0 (c : Dev nD) :
    (fun y : S100000x128.Idx => (X2 m ρ c (Proc.devRef .tc main_v114) : S3x100000x128.Idx → EReal) (ix3 (0 : Fin 3) (y 0) (y 1)))
      = scaled (X1 m ρ c (Proc.devRef .tc main_v111)) (wSlice 1 0 Cert.ReferenceIdeal.Gen.slices_S3x3x128x128_S1x1x128x128_1_0_0_0 (m ((c : Thread nD τ).loc main_arg7))) (degNormR (m ((c : Thread nD τ).loc main_arg1))) := by
  funext y
  obtain ⟨i, j, rfl⟩ : ∃ (i : Fin 100000) (j : Fin 128), y = ix2 i j := ⟨y 0, y 1, eq_ix2 y⟩
  rw [X2_v114]
  show Cert.Spec.relT _ _ _ (0 : Fin 3) i j = _
  exact transform_step _ _ _ _ _ _ (0 : Fin 3)
    (fun i k => congrFun (E2_w0 m ρ c) (ix2 i k))
    (fun k j => (E2_w1 m ρ c (0 : Fin 3) k j).trans (wSlice_apply 1 0 (by omega) (by omega) _ _ k j).symm)
    (fun i => (congrFun (E2_w2 m ρ c) (ix3 (0 : Fin 3) i (0 : Fin 1))).trans (((ns_stack_apply m ρ c i).1).trans (congrFun (degNorm_eq1 _) _))) i j

/-- Slab 1 of the third pipeline's output is the reference's scaled product for relation 1. -/
theorem T1_1 (c : Dev nD) :
    (fun y : S100000x128.Idx => (X2 m ρ c (Proc.devRef .tc main_v114) : S3x100000x128.Idx → EReal) (ix3 (1 : Fin 3) (y 0) (y 1)))
      = scaled (X1 m ρ c (Proc.devRef .tc main_v111)) (wSlice 1 1 Cert.ReferenceIdeal.Gen.slices_S3x3x128x128_S1x1x128x128_1_1_0_0 (m ((c : Thread nD τ).loc main_arg7))) (degNormR (m ((c : Thread nD τ).loc main_arg3))) := by
  funext y
  obtain ⟨i, j, rfl⟩ : ∃ (i : Fin 100000) (j : Fin 128), y = ix2 i j := ⟨y 0, y 1, eq_ix2 y⟩
  rw [X2_v114]
  show Cert.Spec.relT _ _ _ (1 : Fin 3) i j = _
  exact transform_step _ _ _ _ _ _ (1 : Fin 3)
    (fun i k => congrFun (E2_w0 m ρ c) (ix2 i k))
    (fun k j => (E2_w1 m ρ c (1 : Fin 3) k j).trans (wSlice_apply 1 1 (by omega) (by omega) _ _ k j).symm)
    (fun i => (congrFun (E2_w2 m ρ c) (ix3 (1 : Fin 3) i (0 : Fin 1))).trans (((ns_stack_apply m ρ c i).2.1).trans (congrFun (degNorm_eq1 _) _))) i j

/-- Slab 2 of the third pipeline's output is the reference's scaled product for relation 2. -/
theorem T1_2 (c : Dev nD) :
    (fun y : S100000x128.Idx => (X2 m ρ c (Proc.devRef .tc main_v114) : S3x100000x128.Idx → EReal) (ix3 (2 : Fin 3) (y 0) (y 1)))
      = scaled (X1 m ρ c (Proc.devRef .tc main_v111)) (wSlice 1 2 Cert.ReferenceIdeal.Gen.slices_S3x3x128x128_S1x1x128x128_1_2_0_0 (m ((c : Thread nD τ).loc main_arg7))) (degNormR (m ((c : Thread nD τ).loc main_arg5))) := by
  funext y
  obtain ⟨i, j, rfl⟩ : ∃ (i : Fin 100000) (j : Fin 128), y = ix2 i j := ⟨y 0, y 1, eq_ix2 y⟩
  rw [X2_v114]
  show Cert.Spec.relT _ _ _ (2 : Fin 3) i j = _
  exact transform_step _ _ _ _ _ _ (2 : Fin 3)
    (fun i k => congrFun (E2_w0 m ρ c) (ix2 i k))
    (fun k j => (E2_w1 m ρ c (2 : Fin 3) k j).trans (wSlice_apply 1 2 (by omega) (by omega) _ _ k j).symm)
    (fun i => (congrFun (E2_w2 m ρ c) (ix3 (2 : Fin 3) i (0 : Fin 1))).trans (((ns_stack_apply m ρ c i).2.2).trans (congrFun (degNorm_eq1 _) _))) i j

set_option maxHeartbeats 1000000 in
/-- The aggregate the fourth pipeline forms is the reference's, of the three propagated scaled products. -/
theorem agg1 (c : Dev nD) (i : Fin 100000) (k : Fin 128) :
    Cert.Spec.agg (E3 m ρ c (Pipeline.arrRef spec3 0)) (E3 m ρ c (Pipeline.arrRef spec3 1)) (E3 m ρ c (Pipeline.arrRef spec3 2)) i k
      = agg3
        (prop (scaled (X1 m ρ c (Proc.devRef .tc main_v111)) (wSlice 1 0 Cert.ReferenceIdeal.Gen.slices_S3x3x128x128_S1x1x128x128_1_0_0_0 (m ((c : Thread nD τ).loc main_arg7))) (degNormR (m ((c : Thread nD τ).loc main_arg1)))) (m ((c : Thread nD τ).loc main_arg1)) (m ((c : Thread nD τ).loc main_arg2)))
        (prop (scaled (X1 m ρ c (Proc.devRef .tc main_v111)) (wSlice 1 1 Cert.ReferenceIdeal.Gen.slices_S3x3x128x128_S1x1x128x128_1_1_0_0 (m ((c : Thread nD τ).loc main_arg7))) (degNormR (m ((c : Thread nD τ).loc main_arg3)))) (m ((c : Thread nD τ).loc main_arg3)) (m ((c : Thread nD τ).loc main_arg4)))
        (prop (scaled (X1 m ρ c (Proc.devRef .tc main_v111)) (wSlice 1 2 Cert.ReferenceIdeal.Gen.slices_S3x3x128x128_S1x1x128x128_1_2_0_0 (m ((c : Thread nD τ).loc main_arg7))) (degNormR (m ((c : Thread nD τ).loc main_arg5)))) (m ((c : Thread nD τ).loc main_arg5)) (m ((c : Thread nD τ).loc main_arg6)))
        (degNormR (m ((c : Thread nD τ).loc main_arg2))) (degNormR (m ((c : Thread nD τ).loc main_arg4))) (degNormR (m ((c : Thread nD τ).loc main_arg6)))
        (bSlice 1 0 Cert.ReferenceIdeal.Gen.slices_S3x3x128_S1x1x128_1_0_0 (m ((c : Thread nD τ).loc main_arg8))) (bSlice 1 1 Cert.ReferenceIdeal.Gen.slices_S3x3x128_S1x1x128_1_1_0 (m ((c : Thread nD τ).loc main_arg8))) (bSlice 1 2 Cert.ReferenceIdeal.Gen.slices_S3x3x128_S1x1x128_1_2_0 (m ((c : Thread nD τ).loc main_arg8)))
        (ix2 i k) :=
  agg_step _ _ _ _ _ _ _ _ _ _ _ _
    (fun i k => (E3_w0 m ρ c (0 : Fin 3) i k).trans (congrFun (congrArg (fun f => prop f (m ((c : Thread nD τ).loc main_arg1)) (m ((c : Thread nD τ).loc main_arg2))) (T1_0 m ρ c)) (ix2 i k)))
    (fun i k => (E3_w0 m ρ c (1 : Fin 3) i k).trans (congrFun (congrArg (fun f => prop f (m ((c : Thread nD τ).loc main_arg3)) (m ((c : Thread nD τ).loc main_arg4))) (T1_1 m ρ c)) (ix2 i k)))
    (fun i k => (E3_w0 m ρ c (2 : Fin 3) i k).trans (congrFun (congrArg (fun f => prop f (m ((c : Thread nD τ).loc main_arg5)) (m ((c : Thread nD τ).loc main_arg6))) (T1_2 m ρ c)) (ix2 i k)))
    (fun i => (congrFun (E3_w1 m ρ c) (ix3 (0 : Fin 3) i (0 : Fin 1))).trans (((nd_stack_apply m ρ c i).1).trans (congrFun (degNorm_eq1 _) _)))
    (fun i => (congrFun (E3_w1 m ρ c) (ix3 (1 : Fin 3) i (0 : Fin 1))).trans (((nd_stack_apply m ρ c i).2.1).trans (congrFun (degNorm_eq1 _) _)))
    (fun i => (congrFun (E3_w1 m ρ c) (ix3 (2 : Fin 3) i (0 : Fin 1))).trans (((nd_stack_apply m ρ c i).2.2).trans (congrFun (degNorm_eq1 _) _)))
    (fun k => (E3_w2 m ρ c (0 : Fin 3) k).trans (bSlice_apply 1 0 (by omega) (by omega) _ _ k).symm)
    (fun k => (E3_w2 m ρ c (1 : Fin 3) k).trans (bSlice_apply 1 1 (by omega) (by omega) _ _ k).symm)
    (fun k => (E3_w2 m ρ c (2 : Fin 3) k).trans (bSlice_apply 1 2 (by omega) (by omega) _ _ k).symm)
    i k

set_option maxHeartbeats 1000000 in
/-- THE SECOND LAYER: the fourth pipeline's output array is the reference's second layer of the first layer's output. -/
theorem L1 (c : Dev nD) : (X3 m ρ c (Proc.devRef .tc main_v174) : S100000x128.Idx → EReal)
    = layerBn (X1 m ρ c (Proc.devRef .tc main_v111))
      (wSlice 1 0 Cert.ReferenceIdeal.Gen.slices_S3x3x128x128_S1x1x128x128_1_0_0_0 (m ((c : Thread nD τ).loc main_arg7))) (wSlice 1 1 Cert.ReferenceIdeal.Gen.slices_S3x3x128x128_S1x1x128x128_1_1_0_0 (m ((c : Thread nD τ).loc main_arg7))) (wSlice 1 2 Cert.ReferenceIdeal.Gen.slices_S3x3x128x128_S1x1x128x128_1_2_0_0 (m ((c : Thread nD τ).loc main_arg7)))
      (degNormR (m ((c : Thread nD τ).loc main_arg1))) (degNormR (m ((c : Thread nD τ).loc main_arg3))) (degNormR (m ((c : Thread nD τ).loc main_arg5))) (degNormR (m ((c : Thread nD τ).loc main_arg2))) (degNormR (m ((c : Thread nD τ).loc main_arg4))) (degNormR (m ((c : Thread nD τ).loc main_arg6)))
      (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (bSlice 1 0 Cert.ReferenceIdeal.Gen.slices_S3x3x128_S1x1x128_1_0_0 (m ((c : Thread nD τ).loc main_arg8))) (bSlice 1 1 Cert.ReferenceIdeal.Gen.slices_S3x3x128_S1x1x128_1_1_0 (m ((c : Thread nD τ).loc main_arg8))) (bSlice 1 2 Cert.ReferenceIdeal.Gen.slices_S3x3x128_S1x1x128_1_2_0 (m ((c : Thread nD τ).loc main_arg8)))
      (fcSlice 1 Cert.ReferenceIdeal.Gen.slices_S3x128x128_S1x128x128_1_0_0 (m ((c : Thread nD τ).loc main_arg9))) (v3Slice 1 Cert.ReferenceIdeal.Gen.slices_S3x128_S1x128_1_0 (m ((c : Thread nD τ).loc main_arg10)))
      (v2Slice 1 Cert.ReferenceIdeal.Gen.slices_S2x128_S1x128_1_0 (m ((c : Thread nD τ).loc main_arg11))) (v2Slice 1 Cert.ReferenceIdeal.Gen.slices_S2x128_S1x128_1_0 (m ((c : Thread nD τ).loc main_arg12))) (v2Slice 1 Cert.ReferenceIdeal.Gen.slices_S2x128_S1x128_1_0 (m ((c : Thread nD τ).loc main_arg13))) (v2Slice 1 Cert.ReferenceIdeal.Gen.slices_S2x128_S1x128_1_0 (m ((c : Thread nD τ).loc main_arg14))) := by
  funext y
  obtain ⟨i, j, rfl⟩ : ∃ (i : Fin 100000) (j : Fin 128), y = ix2 i j := ⟨y 0, y 1, eq_ix2 y⟩
  rw [(X3_arr m ρ c 9).trans (final3 (E3 m ρ) c)]
  show Cert.Spec.combineBn _ _ _ _ _ _ _ _ _ _ i j = _
  unfold layerBn
  exact combine_step _ _ _ _ _ _ _ _ _ _ _ _ _ _
    (fun i j => fc_step _ _ _ _ _ _ _ _
      (fun i k => agg1 m ρ c i k)
      (fun k j => (E3_w3 m ρ c k j).trans (fcSlice_apply 1 (by omega) _ _ k j).symm)
      (fun j => (E3_w4 m ρ c j).trans (v3Slice_apply 1 (by omega) _ _ j).symm) i j)
    (fun j => (E3_w5 m ρ c j).trans (v2Slice_apply 1 (by omega) _ _ j).symm)
    (fun j => (E3_w6 m ρ c j).trans (v2Slice_apply 1 (by omega) _ _ j).symm)
    (fun j => (E3_w7 m ρ c j).trans (v2Slice_apply 1 (by omega) _ _ j).symm)
    (fun j => (E3_w8 m ρ c j).trans (v2Slice_apply 1 (by omega) _ _ j).symm) i j

end Cert.KernelIdeal.Val

end
-- ==== Proof.ValueIdeal.A4.lean ====
/-
  What the third layer's relation-transform region leaves in its output array, index by index, at the ideal values.

  At a grid point the body's three stores write, into slab r of the 3×2000×128 output block, the block's 2000 feature
  rows times relation r's 128×128 weight (a matrix product into a zero accumulator: a plain sum over the 128 inner
  positions; the change of format before it is the identity on extended reals), each row scaled by the row's entry of
  relation r's norm column. So the block is ONE function of its index (r, p, q):
      (Σ_k x0[p,k] · x1[r,k,q]) · x2[r,p,0].
-/
import proofs.«143860_j29738353557974_1_alg».proof.Proof.FrameIdeal.R4
import proofs.«143860_j29738353557974_1_alg».proof.Proof.Spec
import proofs.«143860_j29738353557974_1_alg».proof.Proof.LibPlainDot
import proofs.«143860_j29738353557974_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val4

open Cert.KernelIdeal Cert.KernelIdeal.Gen Cert.KernelIdeal.Fr
open Idealize.ShloMosaic Idealize.ShloMosaic.TcCoe Idealize.ShloMosaic.ValueIdx
open scoped BigOperators

/-- One block of the relation transform at block index (r, p, q). -/
def blockRelT (x0 : Vec Ideal S2000x128 .f32) (x1 : Vec Ideal S3x128x128 .f32) (x2 : Vec Ideal S3x2000x1 .f32)
    (r : Fin 3) (p : Fin 2000) (q : Fin 128) : EReal :=
  (∑ k : Fin 128, x0 (ix2 p k) * x1 (ix3 r k q)) * x2 (ix3 r p 0)

/-- The printed dimension numbers of the body's products are the plain ones. -/
theorem dot_plain : dot_S2000x128_S128x128_S2000x128_1_0_0_1_n_n = DotDims.plain 2000 128 128 := rfl

/-- Relation r's slab before the final cast: the product with relation r's weight slice, scaled by relation r's norm
    column, read at (p, q). -/
theorem slab_apply (r : Fin 3) (x0 : Vec Ideal S2000x128 .f32) (x1 : Vec Ideal S3x128x128 .f32) (x2 : Vec Ideal S3x2000x1 .f32)
    (hW : S3x128x128.Slices ![r.val, 0, 0] S1x128x128) (hN : S3x2000x1.Slices ![r.val, 0, 0] S1x2000x1)
    (p : Fin 2000) (q : Fin 128) :
    mulf (matmul dot_S2000x128_S128x128_S2000x128_1_0_0_1_n_n none (truncf .bf16 x0 bitsLt_bf16_f32)
          (truncf .bf16 (shapeCast S128x128 (extractStridedSlice S1x128x128 ![r.val, 0, 0] x1 hW) shapeCasts_S1x128x128_S128x128) bitsLt_bf16_f32)
          (constant (F := Ideal) S2000x128 .f32 0x00000000#32))
        (broadcastTo S2000x128 (shapeCast S2000x1 (extractStridedSlice S1x2000x1 ![r.val, 0, 0] x2 hN) shapeCasts_S1x2000x1_S2000x1)
          broadcasts_S2000x1_S2000x128) (ix2 p q)
      = blockRelT x0 x1 x2 r p q := by
  unfold blockRelT
  rw [mulf_apply, Cert.Lib.broadcastTo_a1_ab_apply, shapeCast_1ab_ab_apply]
  rw [extractStridedSlice_apply ![r.val, 0, 0] x2 hN (ix3 (0 : Fin 1) p (0 : Fin 1)) (ix3 r p (0 : Fin 1)) (fun a => by
    match a with
    | ⟨0, _⟩ => rfl
    | ⟨1, _⟩ => show p.val = 0 + p.val; omega
    | ⟨2, _⟩ => rfl)]
  refine congrArg (· * x2 (ix3 r p (0 : Fin 1))) ?_
  rw [dot_plain]
  refine (Cert.Lib.plain_matmul_zero_apply 2000 128 128 none _ _ p q).trans ?_
  refine Finset.sum_congr rfl fun k _ => ?_
  rw [truncf_apply, truncf_apply, shapeCast_1ab_ab_apply]
  rw [extractStridedSlice_apply ![r.val, 0, 0] x1 hW (ix3 (0 : Fin 1) k q) (ix3 r k q) (fun a => by
    match a with
    | ⟨0, _⟩ => rfl
    | ⟨1, _⟩ => show k.val = 0 + k.val; omega
    | ⟨2, _⟩ => show q.val = 0 + q.val; omega)]

/-- The first slab's payload at (u, p, q): relation 0's product, scaled. -/
theorem pay5_apply (x0 : Vec Ideal S2000x128 .f32) (x1 : Vec Ideal S3x128x128 .f32) (x2 : Vec Ideal S3x2000x1 .f32)
    (u : Fin 1) (p : Fin 2000) (q : Fin 128) : k4_pay5 x0 x1 x2 (ix3 u p q) = blockRelT x0 x1 x2 0 p q := by
  unfold k4_pay5 k4_pay2 k4_pay3 k4_pay4
  dsimp only
  rw [shapeCast_ab_1ab_apply]
  simp only [shapeCast_self]
  exact slab_apply 0 x0 x1 x2 _ _ p q

/-- The second slab's payload at (u, p, q): relation 1's. -/
theorem pay6_apply (x0 : Vec Ideal S2000x128 .f32) (x1 : Vec Ideal S3x128x128 .f32) (x2 : Vec Ideal S3x2000x1 .f32)
    (u : Fin 1) (p : Fin 2000) (q : Fin 128) : k4_pay6 x0 x1 x2 (ix3 u p q) = blockRelT x0 x1 x2 1 p q := by
  unfold k4_pay6 k4_pay2 k4_pay3 k4_pay4
  dsimp only
  rw [shapeCast_ab_1ab_apply]
  simp only [shapeCast_self]
  exact slab_apply 1 x0 x1 x2 _ _ p q

/-- The third slab's payload at (u, p, q): relation 2's. -/
theorem pay7_apply (x0 : Vec Ideal S2000x128 .f32) (x1 : Vec Ideal S3x128x128 .f32) (x2 : Vec Ideal S3x2000x1 .f32)
    (u : Fin 1) (p : Fin 2000) (q : Fin 128) : k4_pay1 (k4_pay7 x0 x1 x2) (ix3 u p q) = blockRelT x0 x1 x2 2 p q := by
  unfold k4_pay1 k4_pay7 k4_pay2 k4_pay3 k4_pay4
  dsimp only
  rw [shapeCast_ab_1ab_apply]
  simp only [shapeCast_self]
  exact slab_apply 2 x0 x1 x2 _ _ p q

/-- The output block as ONE function of its index. -/
def blockG (x0 : Vec Ideal S2000x128 .f32) (x1 : Vec Ideal S3x128x128 .f32) (x2 : Vec Ideal S3x2000x1 .f32) :
    S3x2000x128.Idx → EReal := fun y =>
  blockRelT x0 x1 x2 ⟨(y 0).val, (y 0).isLt⟩ ⟨(y 1).val, (y 1).isLt⟩ ⟨(y 2).val, (y 2).isLt⟩

/-- Slab r's rectangle places the local index (u, p, q) at (r, p, q). -/
theorem blockG_slab (x0 : Vec Ideal S2000x128 .f32) (x1 : Vec Ideal S3x128x128 .f32) (x2 : Vec Ideal S3x2000x1 .f32)
    (r : Fin 3) (inb : ∀ a, (![r.val, 0, 0] : Fin 3 → Nat) a + S1x2000x128.size a ≤ S3x2000x128.size a)
    (u : Fin 1) (p : Fin 2000) (q : Fin 128) :
    blockG x0 x1 x2 ((Rect.unit (s := S3x2000x128) ![r.val, 0, 0] S1x2000x128.size inb).emb (ix3 u p q)) = blockRelT x0 x1 x2 r p q := by
  unfold blockG
  have e0 : (⟨(((Rect.unit (s := S3x2000x128) ![r.val, 0, 0] S1x2000x128.size inb).emb (ix3 u p q)) 0).val,
      (((Rect.unit (s := S3x2000x128) ![r.val, 0, 0] S1x2000x128.size inb).emb (ix3 u p q)) 0).isLt⟩ : Fin 3) = r :=
    Fin.ext (by show r.val + 1 * u.val = r.val; omega)
  have e1 : (⟨(((Rect.unit (s := S3x2000x128) ![r.val, 0, 0] S1x2000x128.size inb).emb (ix3 u p q)) 1).val,
      (((Rect.unit (s := S3x2000x128) ![r.val, 0, 0] S1x2000x128.size inb).emb (ix3 u p q)) 1).isLt⟩ : Fin 2000) = p :=
    Fin.ext (by show 0 + 1 * p.val = p.val; omega)
  have e2 : (⟨(((Rect.unit (s := S3x2000x128) ![r.val, 0, 0] S1x2000x128.size inb).emb (ix3 u p q)) 2).val,
      (((Rect.unit (s := S3x2000x128) ![r.val, 0, 0] S1x2000x128.size inb).emb (ix3 u p q)) 2).isLt⟩ : Fin 128) = q :=
    Fin.ext (by show 0 + 1 * q.val = q.val; omega)
  rw [e0, e1, e2]

/-- What the output buffer holds after the body, at any index: the block function. -/
theorem out4_3_apply (x0 : Vec Ideal S2000x128 .f32) (x1 : Vec Ideal S3x128x128 .f32) (x2 : Vec Ideal S3x2000x1 .f32)
    (y : S3x2000x128.Idx) : out4_3 x0 x1 x2 y = blockG x0 x1 x2 y := by
  unfold out4_3
  rw [View.ld_unit_zero (S := S2000x128) (funext fun a => by fin_cases a <;> rfl),
    View.ld_unit_zero (S := S3x128x128) (funext fun a => by fin_cases a <;> rfl),
    View.ld_unit_zero (S := S3x2000x1) (funext fun a => by fin_cases a <;> rfl)]
  refine View.canon_apply_of_pieces (Val := Elt Ideal) (blockG x0 x1 x2 : S3x2000x128.Idx → Elt Ideal .f32) _ (fun pc hpc x => ?_) y (cover4_3 _ _ _ y)
  simp only [List.mem_cons, List.not_mem_nil, or_false] at hpc
  rcases hpc with rfl | rfl | rfl
  · obtain ⟨u, p, q, rfl⟩ : ∃ (u : Fin 1) (p : Fin 2000) (q : Fin 128), x = ix3 u p q := ⟨x 0, x 1, x 2, eq_ix3 x⟩
    exact (pay7_apply x0 x1 x2 u p q).trans (blockG_slab x0 x1 x2 2 inb_S3x2000x128_S1x2000x128_2_0_0 u p q).symm
  · obtain ⟨u, p, q, rfl⟩ : ∃ (u : Fin 1) (p : Fin 2000) (q : Fin 128), x = ix3 u p q := ⟨x 0, x 1, x 2, eq_ix3 x⟩
    exact (pay6_apply x0 x1 x2 u p q).trans (blockG_slab x0 x1 x2 1 inb_S3x2000x128_S1x2000x128_1_0_0 u p q).symm
  · obtain ⟨u, p, q, rfl⟩ : ∃ (u : Fin 1) (p : Fin 2000) (q : Fin 128), x = ix3 u p q := ⟨x 0, x 1, x 2, eq_ix3 x⟩
    exact (pay5_apply x0 x1 x2 u p q).trans (blockG_slab x0 x1 x2 0 inb_S3x2000x128_S1x2000x128_0_0_0 u p q).symm

/-! ## From the blocks to the array -/

/-- The region's whole output array as ONE function of its three input arrays: at (r, i, j),
    (Σ_k h[i,k] · W[r,k,j]) · ns[r,i,0]. -/
def G4 (h : S100000x128.Idx → EReal) (W : S3x128x128.Idx → EReal) (ns : S3x100000x1.Idx → EReal) : S3x100000x128.Idx → EReal :=
  fun y => Cert.Spec.relT h W ns ⟨(y 0).val, (y 0).isLt⟩ ⟨(y 1).val, (y 1).isLt⟩ ⟨(y 2).val, (y 2).isLt⟩

/-- The printed index maps, decided over the grid: at point t the feature block is row block t, the weight block is the
    whole array, the norm block and the output block are row block t of every relation. -/
theorem idx_facts4 : ∀ t : Fin cfg4.N,
    win4_0.index t (0 : Fin 2) = t.val ∧ win4_0.index t (1 : Fin 2) = 0
    ∧ win4_1.index t (0 : Fin 3) = 0 ∧ win4_1.index t (1 : Fin 3) = 0 ∧ win4_1.index t (2 : Fin 3) = 0
    ∧ win4_2.index t (0 : Fin 3) = 0 ∧ win4_2.index t (1 : Fin 3) = t.val ∧ win4_2.index t (2 : Fin 3) = 0
    ∧ win4_3.index t (0 : Fin 3) = 0 ∧ win4_3.index t (1 : Fin 3) = t.val ∧ win4_3.index t (2 : Fin 3) = 0 :=
  (by decide +kernel : ∀ t : Fin grid4.N, _)

variable (V : (c : Dev nD) → (b : Ref sig .tc) → Buf (Elt Ideal) ((c : Thread nD τ).loc b))

/-- WHAT POINT t WRITES BACK is block t of `G4` of the arrays as the region finds them. -/
theorem flushed4_eq (c : Dev nD) (t : Fin cfg4.N) :
    (dat4 V c).flushed 3 t = ((cfg4.win 3).blk t).view.read (Elt Ideal)
      (G4 (V c (Pipeline.arrRef spec4 0)) (V c (Pipeline.arrRef spec4 1)) (V c (Pipeline.arrRef spec4 2))) := by
  show (cfg4.win 3).cut (grid4.coords t) ((dat4 V c).after 3 t) = _
  rw [after4_3]
  obtain ⟨a0, a1, b0, b1, b2, c0, c1, c2, d0, d1, d2⟩ := idx_facts4 t
  funext j
  show out4_3 (iblk4 V c 0 t) (iblk4 V c 1 t) (iblk4 V c 2 t) j
    = G4 (V c (Pipeline.arrRef spec4 0)) (V c (Pipeline.arrRef spec4 1)) (V c (Pipeline.arrRef spec4 2)) (((cfg4.win 3).blk t).view.emb j)
  rw [out4_3_apply]
  unfold blockG blockRelT G4 Cert.Spec.relT
  have hj0 : (j 0).val < 3 := (j 0).isLt
  have hj1 : (j 1).val < 2000 := (j 1).isLt
  have hj2 : (j 2).val < 128 := (j 2).isLt
  refine congrArg₂ (· * ·) (Finset.sum_congr rfl fun k _ => congrArg₂ (· * ·) ?_ ?_) ?_
  · show V c (Pipeline.arrRef spec4 0) (((cfg4.win 0).blk t).view.emb (ix2 (⟨(j 1).val, (j 1).isLt⟩ : Fin 2000) k)) = _
    refine congrArg _ (funext fun a => Fin.ext ?_)
    match a with
    | ⟨0, _⟩ => show win4_0.index t (0 : Fin 2) * 2000 + 1 * (j 1).val = win4_3.index t (1 : Fin 3) * 2000 + 1 * (j 1).val; omega
    | ⟨1, _⟩ => show win4_0.index t (1 : Fin 2) * 128 + 1 * k.val = k.val; omega
  · show V c (Pipeline.arrRef spec4 1) (((cfg4.win 1).blk t).view.emb (ix3 (⟨(j 0).val, (j 0).isLt⟩ : Fin 3) k (⟨(j 2).val, (j 2).isLt⟩ : Fin 128))) = _
    refine congrArg _ (funext fun a => Fin.ext ?_)
    match a with
    | ⟨0, _⟩ => show win4_1.index t (0 : Fin 3) * 3 + 1 * (j 0).val = win4_3.index t (0 : Fin 3) * 3 + 1 * (j 0).val; omega
    | ⟨1, _⟩ => show win4_1.index t (1 : Fin 3) * 128 + 1 * k.val = k.val; omega
    | ⟨2, _⟩ => show win4_1.index t (2 : Fin 3) * 128 + 1 * (j 2).val = win4_3.index t (2 : Fin 3) * 128 + 1 * (j 2).val; omega
  · show V c (Pipeline.arrRef spec4 2) (((cfg4.win 2).blk t).view.emb (ix3 (⟨(j 0).val, (j 0).isLt⟩ : Fin 3) (⟨(j 1).val, (j 1).isLt⟩ : Fin 2000) (0 : Fin 1))) = _
    refine congrArg _ (funext fun a => Fin.ext ?_)
    match a with
    | ⟨0, _⟩ => show win4_2.index t (0 : Fin 3) * 3 + 1 * (j 0).val = win4_3.index t (0 : Fin 3) * 3 + 1 * (j 0).val; omega
    | ⟨1, _⟩ => show win4_2.index t (1 : Fin 3) * 2000 + 1 * (j 1).val = win4_3.index t (1 : Fin 3) * 2000 + 1 * (j 1).val; omega
    | ⟨2, _⟩ => show win4_2.index t (2 : Fin 3) * 1 + 1 * 0 = 0; omega

/-- An index of the output array is in point t's block iff each coordinate is in the block's range on its axis. -/
theorem mem_blk4 (t : Fin cfg4.N) (i : S3x100000x128.Idx) :
    i ∈ ((cfg4.win 3).blk t).view.set ↔ ∀ a : Fin 3, win4_3.index t a * S3x2000x128.size a ≤ (i a).val
      ∧ (i a).val < win4_3.index t a * S3x2000x128.size a + S3x2000x128.size a := by
  show i ∈ ((View.whole main_v177).slice (win4_3.rect t)).set ↔ _
  rw [View.set_slice_whole, Rect.mem_set_unit]
  exact Iff.rfl

/-- Every index of the output array is in some point's block: row i of any relation is in row block i / 2000. -/
theorem cover4 (i : S3x100000x128.Idx) : ∃ t : Fin cfg4.N, (cfg4.win 3).flush t = true ∧ i ∈ ((cfg4.win 3).blk t).view.set := by
  have hi0 : (i 0).val < 3 := (i 0).isLt
  have hi1 : (i 1).val < 100000 := (i 1).isLt
  have hi2 : (i 2).val < 128 := (i 2).isLt
  have hN : cfg4.N = 50 := N_4
  have ht : (i 1).val / 2000 < cfg4.N := by rw [hN]; omega
  refine ⟨⟨(i 1).val / 2000, ht⟩, flush4_3 _, ?_⟩
  rw [mem_blk4]
  obtain ⟨-, -, -, -, -, -, -, -, d0, d1, d2⟩ := idx_facts4 ⟨(i 1).val / 2000, ht⟩
  intro a
  match a with
  | ⟨0, _⟩ =>
    show win4_3.index ⟨(i 1).val / 2000, ht⟩ (0 : Fin 3) * 3 ≤ (i 0).val ∧ (i 0).val < win4_3.index ⟨(i 1).val / 2000, ht⟩ (0 : Fin 3) * 3 + 3
    rw [d0]; omega
  | ⟨1, _⟩ =>
    show win4_3.index ⟨(i 1).val / 2000, ht⟩ (1 : Fin 3) * 2000 ≤ (i 1).val ∧ (i 1).val < win4_3.index ⟨(i 1).val / 2000, ht⟩ (1 : Fin 3) * 2000 + 2000
    rw [d1]; show (i 1).val / 2000 * 2000 ≤ (i 1).val ∧ (i 1).val < (i 1).val / 2000 * 2000 + 2000; omega
  | ⟨2, _⟩ =>
    show win4_3.index ⟨(i 1).val / 2000, ht⟩ (2 : Fin 3) * 128 ≤ (i 2).val ∧ (i 2).val < win4_3.index ⟨(i 1).val / 2000, ht⟩ (2 : Fin 3) * 128 + 128
    rw [d2]; omega

/-- THE ARRAY after the region: `G4` of the arrays the region found. -/
theorem final4 (c : Dev nD) : (dat4 V c).arrAt 3 cfg4.N
    = G4 (V c (Pipeline.arrRef spec4 0)) (V c (Pipeline.arrRef spec4 1)) (V c (Pipeline.arrRef spec4 2)) :=
  (dat4 V c).arrAt_eq_of_cover 3 _ (fun t _ => flushed4_eq V c t) cover4

end Cert.KernelIdeal.Val4

end
-- ==== Proof.ValueIdeal.B5.lean ====
import proofs.«143860_j29738353557974_1_alg».proof.Proof.FrameIdeal.R5
import proofs.«143860_j29738353557974_1_alg».proof.Proof.Spec
import proofs.«143860_j29738353557974_1_alg».proof.Proof.LibPlainDot
import proofs.«143860_j29738353557974_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

/-!
# What pipeline 5 leaves in its output array, on the extended reals

The body's one store, read at row `p` and column `q` of the block, is the fully connected layer of the three scaled
messages of that row (the specification's `fc`: no normalisation in the last layer); the block of point `t` sits at
rows `2000·t … 2000·t + 1999` of the array, the message and norm blocks at the same rows of theirs, and the three
small operands are read whole. The fifty blocks fill the 100000 rows, so the array ends as the specification's `fc`
of the arrays the pipeline found, at every index.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open Cert.Spec (Arr2 Arr3)
open scoped BigOperators

/-! ## Layout chains of the body, read at an index -/

/-- Row `r` of a stack of three matrices, taken as a slice of one matrix and cast to a matrix, reads at `(i, j)` the
    stack at `(r, i, j)`. -/
theorem stackRow5_apply {α : Type} {n1 n2 : Nat} (o : Nat) (X : (⟨3, ![3, n1, n2]⟩ : Shape).Idx → α)
    (h1 : (⟨3, ![3, n1, n2]⟩ : Shape).Slices ![o, 0, 0] ⟨3, ![1, n1, n2]⟩)
    (h2 : (⟨3, ![1, n1, n2]⟩ : Shape).ShapeCasts ⟨2, ![n1, n2]⟩)
    (r : Fin 3) (hr : r.val = o) (i : Fin n1) (j : Fin n2) :
    shapeCast ⟨2, ![n1, n2]⟩ (extractStridedSlice ⟨3, ![1, n1, n2]⟩ ![o, 0, 0] X h1) h2 (ix2 i j) = X (ix3 r i j) := by
  rw [shapeCast_1ab_ab_apply]
  exact extractStridedSlice_apply _ _ _ _ _ (fun ax => by
    match ax with
    | ⟨0, _⟩ => show r.val = o + 0; omega
    | ⟨1, _⟩ => exact (Nat.zero_add _).symm
    | ⟨2, _⟩ => exact (Nat.zero_add _).symm)

/-- Row `r` of a stack of three one-column matrices, spread over the columns, reads at `(p, k)` the stack at `(r, p, 0)`. -/
theorem normRow5_apply {α : Type} {n1 b : Nat} (o : Nat) (X : (⟨3, ![3, n1, 1]⟩ : Shape).Idx → α)
    (h1 : (⟨3, ![3, n1, 1]⟩ : Shape).Slices ![o, 0, 0] ⟨3, ![1, n1, 1]⟩)
    (h2 : (⟨3, ![1, n1, 1]⟩ : Shape).ShapeCasts ⟨2, ![n1, 1]⟩)
    (h3 : (⟨2, ![n1, 1]⟩ : Shape).Broadcasts ⟨2, ![n1, b]⟩)
    (r : Fin 3) (hr : r.val = o) (p : Fin n1) (k : Fin b) :
    broadcastTo ⟨2, ![n1, b]⟩ (shapeCast ⟨2, ![n1, 1]⟩ (extractStridedSlice ⟨3, ![1, n1, 1]⟩ ![o, 0, 0] X h1) h2) h3 (ix2 p k)
      = X (ix3 r p (0 : Fin 1)) := by
  rw [Cert.Lib.broadcastTo_a1_ab_apply]
  exact stackRow5_apply o X h1 h2 r hr p 0

/-- Row `r` of a three-row matrix, taken as a one-row slice, flattened, made a row again and spread over the rows,
    reads at `(p, k)` the matrix at `(r, k)`. -/
theorem biasRow5_apply {α : Type} {a b : Nat} (o : Nat) (X : (⟨2, ![3, b]⟩ : Shape).Idx → α)
    (h1 : (⟨2, ![3, b]⟩ : Shape).Slices ![o, 0] ⟨2, ![1, b]⟩)
    (h2 : (⟨2, ![1, b]⟩ : Shape).ShapeCasts ⟨1, ![b]⟩)
    (h3 : (⟨1, ![b]⟩ : Shape).ShapeCasts ⟨2, ![1, b]⟩)
    (h4 : (⟨2, ![1, b]⟩ : Shape).Broadcasts ⟨2, ![a, b]⟩)
    (r : Fin 3) (hr : r.val = o) (p : Fin a) (k : Fin b) :
    broadcastTo ⟨2, ![a, b]⟩ (shapeCast ⟨2, ![1, b]⟩ (shapeCast ⟨1, ![b]⟩ (extractStridedSlice ⟨2, ![1, b]⟩ ![o, 0] X h1) h2) h3) h4 (ix2 p k)
      = X (ix2 r k) := by
  rw [broadcastTo_1b_ab_apply, shapeCast_a_1a_apply, shapeCast_1a_a_apply]
  exact slice2_axis0_apply o X h1 (0 : Fin 1) k r (by show r.val = o + 0; omega)

/-! ## The body's payloads at an index -/

/-- The weight block passes through its change of format unchanged. -/
theorem pay2_5_eq (v41 : Arr2 128 128) : k5_pay2 (F := Ideal) v41 = v41 := by
  funext i; unfold k5_pay2; simp only [truncf_apply, shapeCast_self]

/-- The bias row passes through unchanged. -/
theorem pay3_5_eq (v44 : Arr2 1 128) : k5_pay3 (F := Ideal) v44 = v44 := by
  funext i; unfold k5_pay3; simp only [shapeCast_self]

/-- The aggregate of the three scaled messages with the relation biases, at row `p`, feature `k` of the block. -/
theorem pay4_5_apply (v0 : Arr3 3 2000 128) (v2 : Arr3 3 2000 1) (v4 : Arr2 3 128) (p : Fin 2000) (k : Fin 128) :
    k5_pay4 (F := Ideal) v0 v2 v4 (ix2 p k) =
      ((((v0 (ix3 0 p k) * v2 (ix3 0 p 0) + v4 (ix2 0 k)) + v0 (ix3 1 p k) * v2 (ix3 1 p 0)) + v4 (ix2 1 k))
        + v0 (ix3 2 p k) * v2 (ix3 2 p 0)) + v4 (ix2 2 k) := by
  unfold k5_pay4
  simp only [truncf_apply, addf_apply, mulf_apply, shapeCast_self]
  rw [stackRow5_apply 0 v0 _ _ 0 rfl p k, stackRow5_apply 1 v0 _ _ 1 rfl p k, stackRow5_apply 2 v0 _ _ 2 rfl p k,
    normRow5_apply 0 v2 _ _ _ 0 rfl p k, normRow5_apply 1 v2 _ _ _ 1 rfl p k, normRow5_apply 2 v2 _ _ _ 2 rfl p k,
    biasRow5_apply 0 v4 _ _ _ _ 0 rfl p k, biasRow5_apply 1 v4 _ _ _ _ 1 rfl p k, biasRow5_apply 2 v4 _ _ _ _ 2 rfl p k]

/-- The printed dimension numbers are those of a plain matrix product. -/
theorem dot5_plain : dot_S2000x128_S128x128_S2000x128_1_0_0_1_n_n = DotDims.plain 2000 128 128 := rfl

/-- The stored vector at row `p`, column `q`: the product with the weight, and the bias. -/
theorem pay1_5_apply (v43 : Arr2 128 128) (v45 : Arr2 1 128) (v46 : Arr2 2000 128) (p : Fin 2000) (q : Fin 128) :
    k5_pay1 (F := Ideal) v43 v45 v46 (ix2 p q) = (∑ k : Fin 128, v46 (ix2 p k) * v43 (ix2 k q)) + v45 (ix2 0 q) := by
  unfold k5_pay1
  simp only [addf_apply, broadcastTo_1b_ab_apply, dot5_plain]
  rw [Cert.Lib.plain_matmul_zero_apply]

/-! ## The output block at an index, over any input blocks -/

theorem hz2_5 : (![0, 0] : Fin 2 → Nat) = fun _ => 0 := funext fun a => by fin_cases a <;> rfl
theorem hz3_5 : (![0, 0, 0] : Fin 3 → Nat) = fun _ => 0 := funext fun a => by fin_cases a <;> rfl

/-- What the body leaves at row `p`, column `q` of the output block, from the five input blocks. -/
theorem out5_apply (x0 : Arr3 3 2000 128) (x1 : Arr3 3 2000 1) (x2 : Arr2 3 128) (x3 : Arr2 128 128)
    (x4 : Arr2 1 128) (p : Fin 2000) (q : Fin 128) :
    out5_5 (F := Ideal) x0 x1 x2 x3 x4 (ix2 p q) =
      (∑ k : Fin 128, (((((x0 (ix3 0 p k) * x1 (ix3 0 p 0) + x2 (ix2 0 k)) + x0 (ix3 1 p k) * x1 (ix3 1 p 0)) + x2 (ix2 1 k))
          + x0 (ix3 2 p k) * x1 (ix3 2 p 0)) + x2 (ix2 2 k)) * x3 (ix2 k q)) + x4 (ix2 0 q) := by
  unfold out5_5
  rw [View.canon_unit_zero hz2_5]
  simp only [View.ld_unit_zero (S := S3x2000x128) hz3_5, View.ld_unit_zero (S := S3x2000x1) hz3_5, View.ld_unit_zero (S := S3x128) hz2_5,
    View.ld_unit_zero (S := S128x128) hz2_5, View.ld_unit_zero (S := S1x128) hz2_5]
  rw [pay1_5_apply, pay2_5_eq, pay3_5_eq]
  simp only [pay4_5_apply]

/-- The output block at `(p, q)` is the specification at row `i`, column `q` of the arrays, when the two moving
    blocks are rows of their arrays around `i` at row `p` and the three small operands are read whole. -/
theorem block5_eq (A0 : Arr3 3 100000 128) (A1 : Arr3 3 100000 1) (A2 : Arr2 3 128) (A3 : Arr2 128 128) (A4 : Arr2 1 128)
    (x0 : Arr3 3 2000 128) (x1 : Arr3 3 2000 1) (x2 : Arr2 3 128) (x3 : Arr2 128 128) (x4 : Arr2 1 128)
    (i : Fin 100000) (p : Fin 2000) (q : Fin 128)
    (h0 : ∀ (r : Fin 3) (k : Fin 128), x0 (ix3 r p k) = A0 (ix3 r i k))
    (h1 : ∀ r : Fin 3, x1 (ix3 r p (0 : Fin 1)) = A1 (ix3 r i (0 : Fin 1)))
    (h2 : x2 = A2) (h3 : x3 = A3) (h4 : x4 = A4) :
    out5_5 (F := Ideal) x0 x1 x2 x3 x4 (ix2 p q) = Cert.Spec.fc A0 A1 A2 A3 A4 i q := by
  subst h2 h3 h4
  rw [out5_apply]
  unfold Cert.Spec.fc Cert.Spec.agg
  simp only [h0, h1]

/-! ## From the blocks to the array -/

variable (V : (c : Dev nD) → (b : Ref sig .tc) → Buf (Elt Ideal) ((c : Thread nD τ).loc b))

/-- The array the pipeline leaves, as one function of the arrays it found. -/
def G5 (c : Dev nD) : S100000x128.Idx → EReal := fun y =>
  Cert.Spec.fc (V c (Pipeline.arrRef spec5 0)) (V c (Pipeline.arrRef spec5 1)) (V c (Pipeline.arrRef spec5 2))
    (V c (Pipeline.arrRef spec5 3)) (V c (Pipeline.arrRef spec5 4)) (y 0) (y 1)

/-- The index maps over the grid: the two moving inputs sit at the output's row block, every other block index is
    zero, and the output's row blocks stay in range. -/
theorem idx_facts5 : ∀ t : Fin cfg5.N,
    win5_0.index t (0 : Fin 3) = 0 ∧ win5_0.index t (1 : Fin 3) = win5_5.index t (0 : Fin 2) ∧ win5_0.index t (2 : Fin 3) = 0
    ∧ win5_1.index t (0 : Fin 3) = 0 ∧ win5_1.index t (1 : Fin 3) = win5_5.index t (0 : Fin 2) ∧ win5_1.index t (2 : Fin 3) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (1 : Fin 2) = 0 ∧ win5_5.index t (0 : Fin 2) ≤ 49 :=
  (by decide +kernel : ∀ t : Fin grid5.N, _)

/-- Every row block of the output is some point's. -/
theorem idx_onto5 : ∀ q0 : Fin 50, ∃ t : Fin cfg5.N, win5_5.index t (0 : Fin 2) = q0.val ∧ win5_5.index t (1 : Fin 2) = 0 :=
  (by decide +kernel : ∀ q0 : Fin 50, ∃ t : Fin grid5.N, win5_5.index t (0 : Fin 2) = q0.val ∧ win5_5.index t (1 : Fin 2) = 0)

/-- The block of the messages at point `t` is rows `2000·t …` of their array. -/
theorem blk5_0 (c : Dev nD) (t : Fin cfg5.N) (r : Fin 3) (p : Fin 2000) (k : Fin 128) (i : Fin 100000)
    (hi : i.val = win5_5.index t (0 : Fin 2) * 2000 + 1 * p.val) :
    iblk5 (F := Ideal) V c 0 t (ix3 r p k) = V c (Pipeline.arrRef spec5 0) (ix3 r i k) := by
  obtain ⟨a00, a01, a02, -⟩ := idx_facts5 t
  show V c (Pipeline.arrRef spec5 0) (((cfg5.win 0).blk t).view.emb (ix3 r p k)) = V c (Pipeline.arrRef spec5 0) _
  refine congrArg _ (funext fun a => Fin.ext ?_)
  match a with
  | ⟨0, _⟩ => show win5_0.index t (0 : Fin 3) * 3 + 1 * r.val = r.val; omega
  | ⟨1, _⟩ => show win5_0.index t (1 : Fin 3) * 2000 + 1 * p.val = i.val; omega
  | ⟨2, _⟩ => show win5_0.index t (2 : Fin 3) * 128 + 1 * k.val = k.val; omega

/-- The block of the norms at point `t` is the same rows of their array. -/
theorem blk5_1 (c : Dev nD) (t : Fin cfg5.N) (r : Fin 3) (p : Fin 2000) (i : Fin 100000)
    (hi : i.val = win5_5.index t (0 : Fin 2) * 2000 + 1 * p.val) :
    iblk5 (F := Ideal) V c 1 t (ix3 r p (0 : Fin 1)) = V c (Pipeline.arrRef spec5 1) (ix3 r i (0 : Fin 1)) := by
  obtain ⟨-, -, -, a10, a11, a12, -⟩ := idx_facts5 t
  show V c (Pipeline.arrRef spec5 1) (((cfg5.win 1).blk t).view.emb (ix3 r p (0 : Fin 1))) = V c (Pipeline.arrRef spec5 1) _
  refine congrArg _ (funext fun a => Fin.ext ?_)
  match a with
  | ⟨0, _⟩ => show win5_1.index t (0 : Fin 3) * 3 + 1 * r.val = r.val; omega
  | ⟨1, _⟩ => show win5_1.index t (1 : Fin 3) * 2000 + 1 * p.val = i.val; omega
  | ⟨2, _⟩ => show win5_1.index t (2 : Fin 3) * 1 + 1 * 0 = 0; omega

/-- Each of the three small operands is read whole at every point. -/
theorem blk5_2 (c : Dev nD) (t : Fin cfg5.N) : (iblk5 (F := Ideal) V c 2 t : Arr2 3 128) = V c (Pipeline.arrRef spec5 2) := by
  obtain ⟨-, -, -, -, -, -, a20, a21, -⟩ := idx_facts5 t
  funext y
  show V c (Pipeline.arrRef spec5 2) (((cfg5.win 2).blk t).view.emb y) = V c (Pipeline.arrRef spec5 2) y
  refine congrArg _ (funext fun a => Fin.ext ?_)
  match a with
  | ⟨0, _⟩ => show win5_2.index t (0 : Fin 2) * 3 + 1 * (y 0).val = (y 0).val; omega
  | ⟨1, _⟩ => show win5_2.index t (1 : Fin 2) * 128 + 1 * (y 1).val = (y 1).val; omega
theorem blk5_3 (c : Dev nD) (t : Fin cfg5.N) : (iblk5 (F := Ideal) V c 3 t : Arr2 128 128) = V c (Pipeline.arrRef spec5 3) := by
  obtain ⟨-, -, -, -, -, -, -, -, a30, a31, -⟩ := idx_facts5 t
  funext y
  show V c (Pipeline.arrRef spec5 3) (((cfg5.win 3).blk t).view.emb y) = V c (Pipeline.arrRef spec5 3) y
  refine congrArg _ (funext fun a => Fin.ext ?_)
  match a with
  | ⟨0, _⟩ => show win5_3.index t (0 : Fin 2) * 128 + 1 * (y 0).val = (y 0).val; omega
  | ⟨1, _⟩ => show win5_3.index t (1 : Fin 2) * 128 + 1 * (y 1).val = (y 1).val; omega
theorem blk5_4 (c : Dev nD) (t : Fin cfg5.N) : (iblk5 (F := Ideal) V c 4 t : Arr2 1 128) = V c (Pipeline.arrRef spec5 4) := by
  obtain ⟨-, -, -, -, -, -, -, -, -, -, a40, a41, -⟩ := idx_facts5 t
  funext y
  show V c (Pipeline.arrRef spec5 4) (((cfg5.win 4).blk t).view.emb y) = V c (Pipeline.arrRef spec5 4) y
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 128 + 1 * (y 1).val = (y 1).val; omega

/-- What point `t` writes back is block `t` of `G5`. -/
theorem flushed5_eq (c : Dev nD) (t : Fin cfg5.N) :
    (dat5 (F := Ideal) V c).flushed 5 t = ((cfg5.win 5).blk t).view.read (Elt Ideal) (G5 V c) := by
  show (cfg5.win 5).cut (grid5.coords t) ((dat5 V c).after 5 t) = _
  rw [after5_5]
  have a51 : win5_5.index t (1 : Fin 2) = 0 := (idx_facts5 t).2.2.2.2.2.2.2.2.2.2.2.2.1
  funext j
  obtain ⟨p, q, rfl⟩ : ∃ (p : Fin 2000) (q : Fin 128), j = ix2 p q := ⟨j 0, j 1, eq_ix2 j⟩
  show out5_5 (F := Ideal) (iblk5 V c 0 t) (iblk5 V c 1 t) (iblk5 V c 2 t) (iblk5 V c 3 t) (iblk5 V c 4 t) (ix2 p q)
    = G5 V c (((cfg5.win 5).blk t).view.emb (ix2 p q))
  have hq : (((cfg5.win 5).blk t).view.emb (ix2 p q)) 1 = q := by
    apply Fin.ext
    show win5_5.index t (1 : Fin 2) * 128 + 1 * q.val = q.val
    omega
  have hp : ((((cfg5.win 5).blk t).view.emb (ix2 p q)) 0).val = win5_5.index t (0 : Fin 2) * 2000 + 1 * p.val := rfl
  unfold G5
  rw [hq]
  exact block5_eq _ _ _ _ _ _ _ _ _ _ _ p q (fun r k => blk5_0 V c t r p k _ hp) (fun r => blk5_1 V c t r p _ hp)
    (blk5_2 V c t) (blk5_3 V c t) (blk5_4 V c t)

/-- An index of the array is in point `t`'s block iff each coordinate is in the block's range on its axis. -/
theorem mem_blk5 (t : Fin cfg5.N) (i : S100000x128.Idx) :
    i ∈ ((cfg5.win 5).blk t).view.set ↔ ∀ a : Fin 2, win5_5.index t a * S2000x128.size a ≤ (i a).val ∧ (i a).val < win5_5.index t a * S2000x128.size a + S2000x128.size a := by
  show i ∈ ((View.whole main_v225).slice (win5_5.rect t)).set ↔ _
  rw [View.set_slice_whole, Rect.mem_set_unit]
  exact Iff.rfl

/-- The fifty blocks of 2000 rows fill the array: row `r` is in the block of point `r / 2000`. -/
theorem cover5 (i : S100000x128.Idx) : ∃ t : Fin cfg5.N, (cfg5.win 5).flush t = true ∧ i ∈ ((cfg5.win 5).blk t).view.set := by
  have hi0 : (i 0).val < 100000 := (i 0).isLt
  have hi1 : (i 1).val < 128 := (i 1).isLt
  obtain ⟨t, ht0, ht1⟩ := idx_onto5 ⟨(i 0).val / 2000, by omega⟩
  have q0 : win5_5.index t (0 : Fin 2) = (i 0).val / 2000 := ht0
  refine ⟨t, flush5_5 t, ?_⟩
  rw [mem_blk5]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 128 ≤ (i 1).val ∧ (i 1).val < win5_5.index t (1 : Fin 2) * 128 + 128; omega

/-- THE ARRAY after the pipeline: the specification's fully connected layer of the arrays it found, at every index. -/
theorem final5 (c : Dev nD) : ((dat5 (F := Ideal) V c).arrAt 5 cfg5.N : S100000x128.Idx → EReal) =
    fun y => Cert.Spec.fc (V c (Pipeline.arrRef spec5 0)) (V c (Pipeline.arrRef spec5 1)) (V c (Pipeline.arrRef spec5 2))
      (V c (Pipeline.arrRef spec5 3)) (V c (Pipeline.arrRef spec5 4)) (y 0) (y 1) :=
  (dat5 (F := Ideal) V c).arrAt_eq_of_cover 5 (G5 V c) (fun t _ => flushed5_eq V c t) (cover5)

end Cert.KernelIdeal.Val

end
-- ==== Proof.ValueIdeal.H4.lean ====
import proofs.«143860_j29738353557974_1_alg».proof.Proof.FrameIdeal.Run
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

/-!
# What pipeline 4 is entered from: the host stretch between pipelines 3 and 4

Between the fourth and fifth pipelines the host takes the last layer's three relation weights out of the stacked
weight array. This module reads the three arrays pipeline 4 stages: the features are what pipeline 3 left, the weights
are the launch memory's at the last layer, and the out-degree norms are as computed before the first pipeline.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.StableHlo
open scoped BigOperators

/-! ## The stretch's results over any entry contents -/

/-- The last layer's relation weights. -/
theorem h4_v176 (W : Valuation τ sig (Elt Ideal)) :
    StableHlo.after (hostOps4 (F := Ideal)) W (Proc.devRef .tc main_v176) =
      shapeCast S3x128x128 (extractStridedSlice S1x3x128x128 ![2, 0, 0, 0] (W (Proc.devRef .tc main_arg7)) slices_S3x3x128x128_S1x3x128x128_2_0_0_0) shapeCasts_S1x3x128x128_S3x128x128 := by
  after_results_simp
  rfl

/-- The stretch writes neither the features nor the norms. -/
theorem h4_v174 (W : Valuation τ sig (Elt Ideal)) :
    StableHlo.after (hostOps4 (F := Ideal)) W (Proc.devRef .tc main_v174) = W (Proc.devRef .tc main_v174) := by
  after_results_simp
theorem h4_v43 (W : Valuation τ sig (Elt Ideal)) :
    StableHlo.after (hostOps4 (F := Ideal)) W (Proc.devRef .tc main_v43) = W (Proc.devRef .tc main_v43) := by
  after_results_simp
set_option maxHeartbeats 4000000 in
/-- Nor do the earlier stretches since the norms were computed write them. -/
theorem h4_pre1_v43 (W : Valuation τ sig (Elt Ideal)) :
    StableHlo.after (hostOps1 (F := Ideal)) W (Proc.devRef .tc main_v43) = W (Proc.devRef .tc main_v43) := by
  after_results_simp
theorem h4_pre2_v43 (W : Valuation τ sig (Elt Ideal)) :
    StableHlo.after (hostOps2 (F := Ideal)) W (Proc.devRef .tc main_v43) = W (Proc.devRef .tc main_v43) := by
  after_results_simp
set_option maxHeartbeats 4000000 in
theorem h4_pre3_v43 (W : Valuation τ sig (Elt Ideal)) :
    StableHlo.after (hostOps3 (F := Ideal)) W (Proc.devRef .tc main_v43) = W (Proc.devRef .tc main_v43) := by
  after_results_simp

/-! ## A layer of a stack of stacks, read at an index -/

/-- Layer `l` of a stack of stacks of matrices, taken as a slice of one stack and cast to a stack, reads at `(r, k, j)`
    the whole at `(l, r, k, j)`. -/
theorem hlayer4_apply {α : Type} {n0 n1 n2 n3 : Nat} (o : Nat) (X : (⟨4, ![n0, n1, n2, n3]⟩ : Shape).Idx → α)
    (h1 : (⟨4, ![n0, n1, n2, n3]⟩ : Shape).Slices ![o, 0, 0, 0] ⟨4, ![1, n1, n2, n3]⟩)
    (h2 : (⟨4, ![1, n1, n2, n3]⟩ : Shape).ShapeCasts ⟨3, ![n1, n2, n3]⟩)
    (l : Fin n0) (hl : l.val = o) (r : Fin n1) (k : Fin n2) (j : Fin n3) :
    shapeCast ⟨3, ![n1, n2, n3]⟩ (extractStridedSlice ⟨4, ![1, n1, n2, n3]⟩ ![o, 0, 0, 0] X h1) h2 (ix3 r k j) = X (ix4 l r k j) := by
  rw [shapeCast_1abc_abc_apply]
  exact extractStridedSlice_apply _ _ _ _ _ (fun ax => by
    match ax with
    | ⟨0, _⟩ => show l.val = o + 0; omega
    | ⟨1, _⟩ => exact (Nat.zero_add _).symm
    | ⟨2, _⟩ => exact (Nat.zero_add _).symm
    | ⟨3, _⟩ => exact (Nat.zero_add _).symm)

/-! ## At the contents pipeline 3 leaves -/

variable (m : (ℓ : Loc nD τ sig) → Buf (Elt Ideal) ℓ) (ρ : Dev nD → PrngReg)

/-- Each argument array, as pipeline 3 leaves it, is as launched. -/
theorem X3_arg (c : Dev nD) {b : Ref sig .tc} (hb : b ∈ argRefs) : X3 m ρ c (Proc.devRef .tc b) = m ((c : Thread nD τ).loc b) :=
  calc X3 m ρ c (Proc.devRef .tc b)
    _ = EW3 m ρ c (Proc.devRef .tc b) := keep_reg3 m ρ c hb
    _ = X2 m ρ c (Proc.devRef .tc b) := keep_hostOps3 _ hb
    _ = EW2 m ρ c (Proc.devRef .tc b) := keep_reg2 m ρ c hb
    _ = X1 m ρ c (Proc.devRef .tc b) := keep_hostOps2 _ hb
    _ = EW1 m ρ c (Proc.devRef .tc b) := keep_reg1 m ρ c hb
    _ = X0 m ρ c (Proc.devRef .tc b) := keep_hostOps1 _ hb
    _ = EW0 m ρ c (Proc.devRef .tc b) := keep_reg0 m ρ c hb
    _ = A12 m ρ c (Proc.devRef .tc b) := keep_hostOps0_12 _ hb
    _ = A11 m ρ c (Proc.devRef .tc b) := keep_hostOps0_11 _ hb
    _ = A10 m ρ c (Proc.devRef .tc b) := keep_hostOps0_10 _ hb
    _ = A9 m ρ c (Proc.devRef .tc b) := keep_hostOps0_9 _ hb
    _ = A8 m ρ c (Proc.devRef .tc b) := keep_hostOps0_8 _ hb
    _ = A7 m ρ c (Proc.devRef .tc b) := keep_hostOps0_7 _ hb
    _ = A6 m ρ c (Proc.devRef .tc b) := keep_hostOps0_6 _ hb
    _ = A5 m ρ c (Proc.devRef .tc b) := keep_hostOps0_5 _ hb
    _ = A4 m ρ c (Proc.devRef .tc b) := keep_hostOps0_4 _ hb
    _ = A3 m ρ c (Proc.devRef .tc b) := keep_hostOps0_3 _ hb
    _ = A2 m ρ c (Proc.devRef .tc b) := keep_hostOps0_2 _ hb
    _ = A1 m ρ c (Proc.devRef .tc b) := keep_hostOps0_1 _ hb
    _ = A0 m ρ c (Proc.devRef .tc b) := keep_hostOps0 _ hb
    _ = m ((c : Thread nD τ).loc b) := rfl

/-- The out-degree norms, as pipeline 3 leaves them, are as computed before the first pipeline: pipelines 0 and 2 stage
    them as an input and leave them, nothing else touches them. -/
theorem X3_v43 (c : Dev nD) : X3 m ρ c (Proc.devRef .tc main_v43) = EW0 m ρ c (Proc.devRef .tc main_v43) :=
  calc X3 m ρ c (Proc.devRef .tc main_v43)
    _ = EW3 m ρ c (Proc.devRef .tc main_v43) := X3_of_ne m ρ c main_v43 (by decide)
    _ = X2 m ρ c (Proc.devRef .tc main_v43) := h4_pre3_v43 _
    _ = EW2 m ρ c (Proc.devRef .tc main_v43) := (X2_arr m ρ c 2).trans (((dat2 (E2 m ρ) c).arrAt_in 2 rfl _).trans (A_eq2 (E2 m ρ) c 2))
    _ = X1 m ρ c (Proc.devRef .tc main_v43) := h4_pre2_v43 _
    _ = EW1 m ρ c (Proc.devRef .tc main_v43) := X1_of_ne m ρ c main_v43 (by decide)
    _ = X0 m ρ c (Proc.devRef .tc main_v43) := h4_pre1_v43 _
    _ = EW0 m ρ c (Proc.devRef .tc main_v43) := (X0_arr m ρ c 2).trans (((dat0 (E0 m ρ) c).arrAt_in 2 rfl _).trans (A_eq0 (E0 m ρ) c 2))

/-- Window 0 of pipeline 4, the features: what pipeline 3 left in its output array. -/
theorem E4_w0 (c : Dev nD) : E4 (F := Ideal) m ρ c (Pipeline.arrRef spec4 0) = X3 m ρ c (Proc.devRef .tc main_v174) := by
  show StableHlo.after (hostOps4 (F := Ideal)) (X3 m ρ c) (Proc.devRef .tc main_v174) = _
  rw [h4_v174]

/-- Window 1, the last layer's relation weights. -/
theorem E4_w1 (c : Dev nD) (r : Fin 3) (k j : Fin 128) :
    (E4 (F := Ideal) m ρ c (Pipeline.arrRef spec4 1) : S3x128x128.Idx → EReal) (ix3 r k j)
      = (m ((c : Thread nD τ).loc main_arg7) : S3x3x128x128.Idx → EReal) (ix4 (2 : Fin 3) r k j) := by
  show StableHlo.after (hostOps4 (F := Ideal)) (X3 m ρ c) (Proc.devRef .tc main_v176) (ix3 r k j) = _
  rw [h4_v176, X3_arg m ρ c (b := main_arg7) (by decide)]
  exact hlayer4_apply 2 _ _ _ (2 : Fin 3) rfl r k j

/-- Window 2, the stacked out-degree norms: as computed before the first pipeline. -/
theorem E4_w2 (c : Dev nD) : E4 (F := Ideal) m ρ c (Pipeline.arrRef spec4 2) = EW0 m ρ c (Proc.devRef .tc main_v43) := by
  show StableHlo.after (hostOps4 (F := Ideal)) (X3 m ρ c) (Proc.devRef .tc main_v43) = _
  rw [h4_v43]
  exact X3_v43 m ρ c

end Cert.KernelIdeal.Val

end
-- ==== Proof.ValueIdeal.H5.lean ====
import proofs.«143860_j29738353557974_1_alg».proof.Proof.FrameIdeal.Run
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

/-!
# What pipeline 5 is entered from: the host stretch between pipelines 4 and 5

Between the fifth and sixth pipelines the host, three times over — once per relation —, takes that relation's messages out
of the stacked message array, gathers the rows named by the (normalised) source indices and adds them up per
destination index into a zero array; it stacks the three sums again; and it takes the last layer's parameters out
of the stacked parameter arrays. This module reads each of the five arrays pipeline 5 stages, index by index, in
terms of the message array pipeline 4 left, the norms computed before the first pipeline, and the launch memory.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.StableHlo
open scoped BigOperators

/-! ## The stretch's results over any entry contents -/

/-- An operation of three literal operands: its result with each operand's contents at its own reference. -/
theorem h5_nary3_result' {τ' : Topo} {sig' : RefSig} {Val : EltTy → Type} {x a b y : Ref sig' .tc}
    (f : ((k : Fin 3) → ((![x, a, b] : Fin 3 → Ref sig' .tc) k).ty.Contents Val) → y.ty.Contents Val) (hxs hy)
    (F : Valuation τ' sig' Val) :
    (StableHlo.nary (τ := τ') ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- The source indices as the gather takes them: a negative index counted from the end, then as a column. -/
abbrev normIdx5 (a : IVec S600000 32) : IVec S600000x1 32 :=
  broadcastInDim S600000x1 ![0] bcast_S600000_S600000x1_0
    (select (cmpi .slt a (broadcastInDim S600000 ![] bcast_S_S600000 (constantI S_ 32 0#32)))
      (addi a (broadcastInDim S600000 ![] bcast_S_S600000 (constantI S_ 32 100000#32))) a)

/-- One relation's propagation: the rows of `feat` named by the source indices, summed per destination index into zeros. -/
abbrev prop5 (feat : FVec Ideal S100000x128 .f32) (src dst : IVec S600000 32) : FVec Ideal S100000x128 .f32 :=
  Host.scatterAdd (F := Ideal) scatter_S100000x128_S600000x1_S600000x128_1_0_0_1
    (broadcastInDim S100000x128 ![] bcast_S_S100000x128 (constant (F := Ideal) S_ .f32 0x00000000#32))
    (broadcastInDim S600000x1 ![0] bcast_S600000_S600000x1_0 dst)
    (Host.gather gather_S100000x128_S600000x1_S600000x128_1_0_n_n_0_1_1128 feat (normIdx5 src))

set_option maxHeartbeats 4000000 in
/-- The stacked propagated messages, as the operations compute them. -/
theorem h5_v217 (W : Valuation τ sig (Elt Ideal)) :
    StableHlo.after (hostOps5 (F := Ideal)) W (Proc.devRef .tc main_v217) =
      concatenate S3x100000x128 0
        [⟨S1x100000x128, broadcastInDim S1x100000x128 ![1, 2] bcast_S100000x128_S1x100000x128_1_2
            (prop5 (shapeCast S100000x128 (extractStridedSlice S1x100000x128 ![0, 0, 0] (W (Proc.devRef .tc main_v177)) slices_S3x100000x128_S1x100000x128_0_0_0) shapeCasts_S1x100000x128_S100000x128)
              (W (Proc.devRef .tc main_arg1)) (W (Proc.devRef .tc main_arg2)))⟩,
         ⟨S1x100000x128, broadcastInDim S1x100000x128 ![1, 2] bcast_S100000x128_S1x100000x128_1_2
            (prop5 (shapeCast S100000x128 (extractStridedSlice S1x100000x128 ![1, 0, 0] (W (Proc.devRef .tc main_v177)) slices_S3x100000x128_S1x100000x128_1_0_0) shapeCasts_S1x100000x128_S100000x128)
              (W (Proc.devRef .tc main_arg3)) (W (Proc.devRef .tc main_arg4)))⟩,
         ⟨S1x100000x128, broadcastInDim S1x100000x128 ![1, 2] bcast_S100000x128_S1x100000x128_1_2
            (prop5 (shapeCast S100000x128 (extractStridedSlice S1x100000x128 ![2, 0, 0] (W (Proc.devRef .tc main_v177)) slices_S3x100000x128_S1x100000x128_2_0_0) shapeCasts_S1x100000x128_S100000x128)
              (W (Proc.devRef .tc main_arg5)) (W (Proc.devRef .tc main_arg6)))⟩]
        concatenates_S1x100000x128_S1x100000x128_S1x100000x128_S3x100000x128_d0 := by
  simp (disch := decide) only [after_cons, after_nil, nullary_result', unary_result', binary_result', ternary_result', reshape_result',
    h5_nary3_result', nullary_result_ne', unary_result_ne', binary_result_ne', ternary_result_ne', reshape_result_ne', nary_result_ne']
  rfl

set_option maxHeartbeats 4000000 in
/-- The stretch writes no array of the norms. -/
theorem h5_v48 (W : Valuation τ sig (Elt Ideal)) :
    StableHlo.after (hostOps5 (F := Ideal)) W (Proc.devRef .tc main_v48) = W (Proc.devRef .tc main_v48) := by
  after_results_simp

set_option maxHeartbeats 4000000 in
/-- The last layer's relation biases. -/
theorem h5_v219 (W : Valuation τ sig (Elt Ideal)) :
    StableHlo.after (hostOps5 (F := Ideal)) W (Proc.devRef .tc main_v219) =
      shapeCast S3x128 (extractStridedSlice S1x3x128 ![2, 0, 0] (W (Proc.devRef .tc main_arg8)) slices_S3x3x128_S1x3x128_2_0_0) shapeCasts_S1x3x128_S3x128 := by
  after_results_simp
  rfl

set_option maxHeartbeats 4000000 in
/-- The last layer's fully connected weight. -/
theorem h5_v221 (W : Valuation τ sig (Elt Ideal)) :
    StableHlo.after (hostOps5 (F := Ideal)) W (Proc.devRef .tc main_v221) =
      shapeCast S128x128 (extractStridedSlice S1x128x128 ![2, 0, 0] (W (Proc.devRef .tc main_arg9)) slices_S3x128x128_S1x128x128_2_0_0) shapeCasts_S1x128x128_S128x128 := by
  after_results_simp
  rfl

set_option maxHeartbeats 4000000 in
/-- The last layer's fully connected bias, as a row. -/
theorem h5_v224 (W : Valuation τ sig (Elt Ideal)) :
    StableHlo.after (hostOps5 (F := Ideal)) W (Proc.devRef .tc main_v224) =
      shapeCast S1x128 (shapeCast S128 (extractStridedSlice S1x128 ![2, 0] (W (Proc.devRef .tc main_arg10)) slices_S3x128_S1x128_2_0) shapeCasts_S1x128_S128) shapeCasts_S128_S1x128 := by
  after_results_simp
  rfl

/-! ## Layout chains read at an index -/

/-- Row `r` of a stack of matrices, taken as a slice of one matrix and cast to a matrix, reads at `(i, j)` the stack
    at `(r, i, j)`. -/
theorem hrow5_apply {α : Type} {n0 n1 n2 : Nat} (o : Nat) (X : (⟨3, ![n0, n1, n2]⟩ : Shape).Idx → α)
    (h1 : (⟨3, ![n0, n1, n2]⟩ : Shape).Slices ![o, 0, 0] ⟨3, ![1, n1, n2]⟩)
    (h2 : (⟨3, ![1, n1, n2]⟩ : Shape).ShapeCasts ⟨2, ![n1, n2]⟩)
    (r : Fin n0) (hr : r.val = o) (i : Fin n1) (j : Fin n2) :
    shapeCast ⟨2, ![n1, n2]⟩ (extractStridedSlice ⟨3, ![1, n1, n2]⟩ ![o, 0, 0] X h1) h2 (ix2 i j) = X (ix3 r i j) := by
  rw [shapeCast_1ab_ab_apply]
  exact extractStridedSlice_apply _ _ _ _ _ (fun ax => by
    match ax with
    | ⟨0, _⟩ => show r.val = o + 0; omega
    | ⟨1, _⟩ => exact (Nat.zero_add _).symm
    | ⟨2, _⟩ => exact (Nat.zero_add _).symm)

/-- The same as a function of the matrix index. -/
theorem hmat5_eq {α : Type} {n0 n1 n2 : Nat} (o : Nat) (X : (⟨3, ![n0, n1, n2]⟩ : Shape).Idx → α)
    (h1 : (⟨3, ![n0, n1, n2]⟩ : Shape).Slices ![o, 0, 0] ⟨3, ![1, n1, n2]⟩)
    (h2 : (⟨3, ![1, n1, n2]⟩ : Shape).ShapeCasts ⟨2, ![n1, n2]⟩)
    (r : Fin n0) (hr : r.val = o) :
    shapeCast ⟨2, ![n1, n2]⟩ (extractStridedSlice ⟨3, ![1, n1, n2]⟩ ![o, 0, 0] X h1) h2
      = fun y : (⟨2, ![n1, n2]⟩ : Shape).Idx => X (ix3 r (y 0) (y 1)) := by
  funext y
  obtain ⟨a, b, rfl⟩ : ∃ (a : Fin n1) (b : Fin n2), y = ix2 a b := ⟨y 0, y 1, eq_ix2 y⟩
  exact hrow5_apply o X h1 h2 r hr a b

/-- Row `r` of a matrix, taken as a one-row slice, flattened and made a row again, reads at `(u, j)` the matrix at `(r, j)`. -/
theorem hvec5_apply {α : Type} {n0 b : Nat} (o : Nat) (X : (⟨2, ![n0, b]⟩ : Shape).Idx → α)
    (h1 : (⟨2, ![n0, b]⟩ : Shape).Slices ![o, 0] ⟨2, ![1, b]⟩)
    (h2 : (⟨2, ![1, b]⟩ : Shape).ShapeCasts ⟨1, ![b]⟩)
    (h3 : (⟨1, ![b]⟩ : Shape).ShapeCasts ⟨2, ![1, b]⟩)
    (r : Fin n0) (hr : r.val = o) (u : Fin 1) (j : Fin b) :
    shapeCast ⟨2, ![1, b]⟩ (shapeCast ⟨1, ![b]⟩ (extractStridedSlice ⟨2, ![1, b]⟩ ![o, 0] X h1) h2) h3 (ix2 u j) = X (ix2 r j) := by
  rw [shapeCast_a_1a_apply, shapeCast_1a_a_apply]
  exact slice2_axis0_apply o X h1 (0 : Fin 1) j r (by show r.val = o + 0; omega)

/-- A matrix given a leading unit axis reads at `(0, i, k)` the matrix at `(i, k)`. -/
theorem hlift5_apply {α : Type} (T : S100000x128.Idx → α) (hb : S100000x128.BroadcastsInDim S1x100000x128 (![1, 2] : Fin 2 → Fin S1x100000x128.rank))
    (u : Fin 1) (i : Fin 100000) (k : Fin 128) :
    broadcastInDim S1x100000x128 ![1, 2] hb T (ix3 u i k) = T (ix2 i k) :=
  broadcastInDim_apply _ hb T _ _ (fun a => by
    match a with
    | ⟨0, _⟩ => show i.val = if (100000 : ℕ) = 1 then 0 else i.val; rw [if_neg (by decide)]
    | ⟨1, _⟩ => show k.val = if (128 : ℕ) = 1 then 0 else k.val; rw [if_neg (by decide)])

/-- Three matrices stacked along a new leading axis read at `(r, i, k)` the `r`-th at `(i, k)`. -/
theorem hstack5_apply {α : Type} (T0 T1 T2 : S100000x128.Idx → α)
    (hb : S100000x128.BroadcastsInDim S1x100000x128 (![1, 2] : Fin 2 → Fin S1x100000x128.rank))
    (hc : Shape.Concatenates [S1x100000x128, S1x100000x128, S1x100000x128] S3x100000x128 0) (i : Fin 100000) (k : Fin 128) :
    concatenate S3x100000x128 0 [⟨S1x100000x128, broadcastInDim S1x100000x128 ![1, 2] hb T0⟩,
        ⟨S1x100000x128, broadcastInDim S1x100000x128 ![1, 2] hb T1⟩, ⟨S1x100000x128, broadcastInDim S1x100000x128 ![1, 2] hb T2⟩] hc (ix3 (0 : Fin 3) i k) = T0 (ix2 i k)
    ∧ concatenate S3x100000x128 0 [⟨S1x100000x128, broadcastInDim S1x100000x128 ![1, 2] hb T0⟩,
        ⟨S1x100000x128, broadcastInDim S1x100000x128 ![1, 2] hb T1⟩, ⟨S1x100000x128, broadcastInDim S1x100000x128 ![1, 2] hb T2⟩] hc (ix3 (1 : Fin 3) i k) = T1 (ix2 i k)
    ∧ concatenate S3x100000x128 0 [⟨S1x100000x128, broadcastInDim S1x100000x128 ![1, 2] hb T0⟩,
        ⟨S1x100000x128, broadcastInDim S1x100000x128 ![1, 2] hb T1⟩, ⟨S1x100000x128, broadcastInDim S1x100000x128 ![1, 2] hb T2⟩] hc (ix3 (2 : Fin 3) i k) = T2 (ix2 i k) := by
  refine ⟨?_, ?_, ?_⟩
  · refine (concatenate_apply_piece (0 : Fin S3x100000x128.rank)
      [⟨S1x100000x128, broadcastInDim S1x100000x128 ![1, 2] hb T0⟩, ⟨S1x100000x128, broadcastInDim S1x100000x128 ![1, 2] hb T1⟩, ⟨S1x100000x128, broadcastInDim S1x100000x128 ![1, 2] hb T2⟩]
      hc (ix3 (0 : Fin 3) i k) 0 (by show (0 : ℕ) < 3; omega) S1x100000x128 _ rfl rfl 0 rfl
      (ix3 (0 : Fin 1) i k) (fun b hb' => ?_) rfl).trans (hlift5_apply T0 hb 0 i k)
    match b with
    | ⟨0, _⟩ => exact absurd (Fin.ext rfl) hb'
    | ⟨1, _⟩ => rfl
    | ⟨2, _⟩ => rfl
  · refine (concatenate_apply_piece (0 : Fin S3x100000x128.rank)
      [⟨S1x100000x128, broadcastInDim S1x100000x128 ![1, 2] hb T0⟩, ⟨S1x100000x128, broadcastInDim S1x100000x128 ![1, 2] hb T1⟩, ⟨S1x100000x128, broadcastInDim S1x100000x128 ![1, 2] hb T2⟩]
      hc (ix3 (1 : Fin 3) i k) 1 (by show (1 : ℕ) < 3; omega) S1x100000x128 _ rfl rfl 1 rfl
      (ix3 (0 : Fin 1) i k) (fun b hb' => ?_) rfl).trans (hlift5_apply T1 hb 0 i k)
    match b with
    | ⟨0, _⟩ => exact absurd (Fin.ext rfl) hb'
    | ⟨1, _⟩ => rfl
    | ⟨2, _⟩ => rfl
  · refine (concatenate_apply_piece (0 : Fin S3x100000x128.rank)
      [⟨S1x100000x128, broadcastInDim S1x100000x128 ![1, 2] hb T0⟩, ⟨S1x100000x128, broadcastInDim S1x100000x128 ![1, 2] hb T1⟩, ⟨S1x100000x128, broadcastInDim S1x100000x128 ![1, 2] hb T2⟩]
      hc (ix3 (2 : Fin 3) i k) 2 (by show (2 : ℕ) < 3; omega) S1x100000x128 _ rfl rfl 2 rfl
      (ix3 (0 : Fin 1) i k) (fun b hb' => ?_) rfl).trans (hlift5_apply T2 hb 0 i k)
    match b with
    | ⟨0, _⟩ => exact absurd (Fin.ext rfl) hb'
    | ⟨1, _⟩ => rfl
    | ⟨2, _⟩ => rfl

/-! ## At the contents pipeline 0 leaves -/

variable (m : (ℓ : Loc nD τ sig) → Buf (Elt Ideal) ℓ) (ρ : Dev nD → PrngReg)

/-- Each argument array, as pipeline 4 leaves it, is as launched: no host operation before it writes one, and the
    pipelines only read what they stage. -/
theorem X4_arg (c : Dev nD) {b : Ref sig .tc} (hb : b ∈ argRefs) : X4 m ρ c (Proc.devRef .tc b) = m ((c : Thread nD τ).loc b) :=
  calc X4 m ρ c (Proc.devRef .tc b)
    _ = EW4 m ρ c (Proc.devRef .tc b) := keep_reg4 m ρ c hb
    _ = X3 m ρ c (Proc.devRef .tc b) := keep_hostOps4 _ hb
    _ = EW3 m ρ c (Proc.devRef .tc b) := keep_reg3 m ρ c hb
    _ = X2 m ρ c (Proc.devRef .tc b) := keep_hostOps3 _ hb
    _ = EW2 m ρ c (Proc.devRef .tc b) := keep_reg2 m ρ c hb
    _ = X1 m ρ c (Proc.devRef .tc b) := keep_hostOps2 _ hb
    _ = EW1 m ρ c (Proc.devRef .tc b) := keep_reg1 m ρ c hb
    _ = X0 m ρ c (Proc.devRef .tc b) := keep_hostOps1 _ hb
    _ = EW0 m ρ c (Proc.devRef .tc b) := keep_reg0 m ρ c hb
    _ = A12 m ρ c (Proc.devRef .tc b) := keep_hostOps0_12 _ hb
    _ = A11 m ρ c (Proc.devRef .tc b) := keep_hostOps0_11 _ hb
    _ = A10 m ρ c (Proc.devRef .tc b) := keep_hostOps0_10 _ hb
    _ = A9 m ρ c (Proc.devRef .tc b) := keep_hostOps0_9 _ hb
    _ = A8 m ρ c (Proc.devRef .tc b) := keep_hostOps0_8 _ hb
    _ = A7 m ρ c (Proc.devRef .tc b) := keep_hostOps0_7 _ hb
    _ = A6 m ρ c (Proc.devRef .tc b) := keep_hostOps0_6 _ hb
    _ = A5 m ρ c (Proc.devRef .tc b) := keep_hostOps0_5 _ hb
    _ = A4 m ρ c (Proc.devRef .tc b) := keep_hostOps0_4 _ hb
    _ = A3 m ρ c (Proc.devRef .tc b) := keep_hostOps0_3 _ hb
    _ = A2 m ρ c (Proc.devRef .tc b) := keep_hostOps0_2 _ hb
    _ = A1 m ρ c (Proc.devRef .tc b) := keep_hostOps0_1 _ hb
    _ = A0 m ρ c (Proc.devRef .tc b) := keep_hostOps0 _ hb
    _ = m ((c : Thread nD τ).loc b) := rfl

set_option maxHeartbeats 4000000 in
/-- No earlier host stretch after the norms were computed writes their array. -/
theorem h5_pre1_v48 (W : Valuation τ sig (Elt Ideal)) :
    StableHlo.after (hostOps1 (F := Ideal)) W (Proc.devRef .tc main_v48) = W (Proc.devRef .tc main_v48) := by
  after_results_simp
theorem h5_pre2_v48 (W : Valuation τ sig (Elt Ideal)) :
    StableHlo.after (hostOps2 (F := Ideal)) W (Proc.devRef .tc main_v48) = W (Proc.devRef .tc main_v48) := by
  after_results_simp
set_option maxHeartbeats 4000000 in
theorem h5_pre3_v48 (W : Valuation τ sig (Elt Ideal)) :
    StableHlo.after (hostOps3 (F := Ideal)) W (Proc.devRef .tc main_v48) = W (Proc.devRef .tc main_v48) := by
  after_results_simp
theorem h5_pre4_v48 (W : Valuation τ sig (Elt Ideal)) :
    StableHlo.after (hostOps4 (F := Ideal)) W (Proc.devRef .tc main_v48) = W (Proc.devRef .tc main_v48) := by
  after_results_simp

/-- The norms, as pipeline 4 leaves them, are as computed before the first pipeline: pipelines 1 and 3 stage them as
    an input and leave them, nothing else touches them. -/
theorem X4_v48 (c : Dev nD) : X4 m ρ c (Proc.devRef .tc main_v48) = EW0 m ρ c (Proc.devRef .tc main_v48) :=
  calc X4 m ρ c (Proc.devRef .tc main_v48)
    _ = EW4 m ρ c (Proc.devRef .tc main_v48) := X4_of_ne m ρ c main_v48 (by decide)
    _ = X3 m ρ c (Proc.devRef .tc main_v48) := h5_pre4_v48 _
    _ = EW3 m ρ c (Proc.devRef .tc main_v48) := (X3_arr m ρ c 1).trans (((dat3 (E3 m ρ) c).arrAt_in 1 rfl _).trans (A_eq3 (E3 m ρ) c 1))
    _ = X2 m ρ c (Proc.devRef .tc main_v48) := h5_pre3_v48 _
    _ = EW2 m ρ c (Proc.devRef .tc main_v48) := X2_of_ne m ρ c main_v48 (by decide)
    _ = X1 m ρ c (Proc.devRef .tc main_v48) := h5_pre2_v48 _
    _ = EW1 m ρ c (Proc.devRef .tc main_v48) := (X1_arr m ρ c 1).trans (((dat1 (E1 m ρ) c).arrAt_in 1 rfl _).trans (A_eq1 (E1 m ρ) c 1))
    _ = X0 m ρ c (Proc.devRef .tc main_v48) := h5_pre1_v48 _
    _ = EW0 m ρ c (Proc.devRef .tc main_v48) := X0_of_ne m ρ c main_v48 (by decide)

/-- Relation `r`'s messages as pipeline 1 is handed them: the rows of pipeline 4's messages of that relation named by
    the relation's (normalised) source indices, summed per destination index into zeros. -/
def msg5 (c : Dev nD) : Fin 3 → (S100000x128.Idx → EReal)
  | ⟨0, _⟩ => prop5 (fun y => (X4 m ρ c (Proc.devRef .tc main_v177) : S3x100000x128.Idx → EReal) (ix3 (0 : Fin 3) (y 0) (y 1)))
      (m ((c : Thread nD τ).loc main_arg1)) (m ((c : Thread nD τ).loc main_arg2))
  | ⟨1, _⟩ => prop5 (fun y => (X4 m ρ c (Proc.devRef .tc main_v177) : S3x100000x128.Idx → EReal) (ix3 (1 : Fin 3) (y 0) (y 1)))
      (m ((c : Thread nD τ).loc main_arg3)) (m ((c : Thread nD τ).loc main_arg4))
  | ⟨2, _⟩ => prop5 (fun y => (X4 m ρ c (Proc.devRef .tc main_v177) : S3x100000x128.Idx → EReal) (ix3 (2 : Fin 3) (y 0) (y 1)))
      (m ((c : Thread nD τ).loc main_arg5)) (m ((c : Thread nD τ).loc main_arg6))

/-- Window 0 of pipeline 1, the stacked propagated messages, at `(r, i, k)`. -/
theorem E5_w0 (c : Dev nD) (r : Fin 3) (i : Fin 100000) (k : Fin 128) :
    (E5 (F := Ideal) m ρ c (Pipeline.arrRef spec5 0) : S3x100000x128.Idx → EReal) (ix3 r i k) = msg5 m ρ c r (ix2 i k) := by
  show StableHlo.after (hostOps5 (F := Ideal)) (X4 m ρ c) (Proc.devRef .tc main_v217) (ix3 r i k) = _
  rw [h5_v217, X4_arg m ρ c (b := main_arg1) (by decide), X4_arg m ρ c (b := main_arg2) (by decide),
    X4_arg m ρ c (b := main_arg3) (by decide), X4_arg m ρ c (b := main_arg4) (by decide),
    X4_arg m ρ c (b := main_arg5) (by decide), X4_arg m ρ c (b := main_arg6) (by decide),
    hmat5_eq 0 _ _ _ (0 : Fin 3) rfl, hmat5_eq 1 _ _ _ (1 : Fin 3) rfl, hmat5_eq 2 _ _ _ (2 : Fin 3) rfl]
  match r with
  | ⟨0, _⟩ => exact (hstack5_apply _ _ _ _ _ i k).1
  | ⟨1, _⟩ => exact (hstack5_apply _ _ _ _ _ i k).2.1
  | ⟨2, _⟩ => exact (hstack5_apply _ _ _ _ _ i k).2.2

/-- Window 1 of pipeline 1, the stacked in-degree norms: as computed before the first pipeline, untouched since. -/
theorem E5_w1 (c : Dev nD) : E5 (F := Ideal) m ρ c (Pipeline.arrRef spec5 1) = EW0 m ρ c (Proc.devRef .tc main_v48) := by
  show StableHlo.after (hostOps5 (F := Ideal)) (X4 m ρ c) (Proc.devRef .tc main_v48) = _
  rw [h5_v48]
  exact X4_v48 m ρ c

/-- Window 2, the relation biases of the last layer. -/
theorem E5_w2 (c : Dev nD) (r : Fin 3) (k : Fin 128) :
    (E5 (F := Ideal) m ρ c (Pipeline.arrRef spec5 2) : S3x128.Idx → EReal) (ix2 r k)
      = (m ((c : Thread nD τ).loc main_arg8) : S3x3x128.Idx → EReal) (ix3 (2 : Fin 3) r k) := by
  show StableHlo.after (hostOps5 (F := Ideal)) (X4 m ρ c) (Proc.devRef .tc main_v219) (ix2 r k) = _
  rw [h5_v219, X4_arg m ρ c (b := main_arg8) (by decide)]
  exact hrow5_apply 2 _ _ _ (2 : Fin 3) rfl r k

/-- Window 3, the fully connected weight of the last layer. -/
theorem E5_w3 (c : Dev nD) (k j : Fin 128) :
    (E5 (F := Ideal) m ρ c (Pipeline.arrRef spec5 3) : S128x128.Idx → EReal) (ix2 k j)
      = (m ((c : Thread nD τ).loc main_arg9) : S3x128x128.Idx → EReal) (ix3 (2 : Fin 3) k j) := by
  show StableHlo.after (hostOps5 (F := Ideal)) (X4 m ρ c) (Proc.devRef .tc main_v221) (ix2 k j) = _
  rw [h5_v221, X4_arg m ρ c (b := main_arg9) (by decide)]
  exact hrow5_apply 2 _ _ _ (2 : Fin 3) rfl k j

/-- Window 4, the fully connected bias of the last layer. -/
theorem E5_w4 (c : Dev nD) (j : Fin 128) :
    (E5 (F := Ideal) m ρ c (Pipeline.arrRef spec5 4) : S1x128.Idx → EReal) (ix2 (0 : Fin 1) j)
      = (m ((c : Thread nD τ).loc main_arg10) : S3x128.Idx → EReal) (ix2 (2 : Fin 3) j) := by
  show StableHlo.after (hostOps5 (F := Ideal)) (X4 m ρ c) (Proc.devRef .tc main_v224) (ix2 (0 : Fin 1) j) = _
  rw [h5_v224, X4_arg m ρ c (b := main_arg10) (by decide)]
  exact hvec5_apply 2 _ _ _ _ (2 : Fin 3) rfl 0 j

end Cert.KernelIdeal.Val

end
-- ==== Proof.ValueIdeal.Bridge2.lean ====
/-
  The last layer of the kernel program is the last layer of the reference.

  The fifth pipeline leaves, in slab r of its output, the second layer's output times relation r's last-layer weight,
  each row scaled by relation r's out-degree norm: the reference's scaled product. The host stretch after it
  propagates each slab along its relation's edges exactly as the reference does. The sixth pipeline then computes,
  index by index, the reference's fully connected aggregate of the three propagated messages; there is no
  normalisation in the last layer.
-/
import proofs.«143860_j29738353557974_1_alg».proof.Proof.FrameIdeal.Run
import proofs.«143860_j29738353557974_1_alg».proof.Proof.ValueIdeal.A4
import proofs.«143860_j29738353557974_1_alg».proof.Proof.ValueIdeal.B5
import proofs.«143860_j29738353557974_1_alg».proof.Proof.ValueIdeal.H4
import proofs.«143860_j29738353557974_1_alg».proof.Proof.ValueIdeal.H5
import proofs.«143860_j29738353557974_1_alg».proof.Proof.ValueIdeal.Pre
import proofs.«143860_j29738353557974_1_alg».proof.Proof.Step

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Cert.ReferenceIdeal.RefValue (ND NV FV EI M128 scaled prop agg3 fcl bnRelu layerBn layerLast wSlice bSlice fcSlice v3Slice v2Slice degNormR transform_step agg_step fc_step combine_step wSlice_apply bSlice_apply fcSlice_apply v3Slice_apply v2Slice_apply)

variable (m : (ℓ : Loc nD τ sig) → Buf (Elt Ideal) ℓ) (ρ : Dev nD → PrngReg)

/-- The degree norm is one function in both programs. -/
theorem degNorm_eq2 (idx : EI Ideal) : degNorm (F := Ideal) idx = degNormR idx := rfl

/-- The fifth pipeline's output array is the relation transform of the second layer's output, the last layer's weights
    and the stacked norms. -/
theorem X4_v177 (c : Dev nD) : X4 m ρ c (Proc.devRef .tc main_v177)
    = Cert.KernelIdeal.Val4.G4 (E4 m ρ c (Pipeline.arrRef spec4 0)) (E4 m ρ c (Pipeline.arrRef spec4 1)) (E4 m ρ c (Pipeline.arrRef spec4 2)) :=
  (X4_arr m ρ c 3).trans (Cert.KernelIdeal.Val4.final4 (E4 m ρ) c)

/-- Slab 0 of the fifth pipeline's output is the reference's scaled product for relation 0. -/
theorem T2_0 (c : Dev nD) :
    (fun y : S100000x128.Idx => (X4 m ρ c (Proc.devRef .tc main_v177) : S3x100000x128.Idx → EReal) (ix3 (0 : Fin 3) (y 0) (y 1)))
      = scaled (X3 m ρ c (Proc.devRef .tc main_v174)) (wSlice 2 0 Cert.ReferenceIdeal.Gen.slices_S3x3x128x128_S1x1x128x128_2_0_0_0 (m ((c : Thread nD τ).loc main_arg7))) (degNormR (m ((c : Thread nD τ).loc main_arg1))) := by
  funext y
  obtain ⟨i, j, rfl⟩ : ∃ (i : Fin 100000) (j : Fin 128), y = ix2 i j := ⟨y 0, y 1, eq_ix2 y⟩
  rw [X4_v177]
  show Cert.Spec.relT _ _ _ (0 : Fin 3) i j = _
  exact transform_step _ _ _ _ _ _ (0 : Fin 3)
    (fun i k => congrFun (E4_w0 m ρ c) (ix2 i k))
    (fun k j => (E4_w1 m ρ c (0 : Fin 3) k j).trans (wSlice_apply 2 0 (by omega) (by omega) _ _ k j).symm)
    (fun i => (congrFun (E4_w2 m ρ c) (ix3 (0 : Fin 3) i (0 : Fin 1))).trans (((ns_stack_apply m ρ c i).1).trans (congrFun (degNorm_eq2 _) _))) i j

/-- Slab 1 of the fifth pipeline's output is the reference's scaled product for relation 1. -/
theorem T2_1 (c : Dev nD) :
    (fun y : S100000x128.Idx => (X4 m ρ c (Proc.devRef .tc main_v177) : S3x100000x128.Idx → EReal) (ix3 (1 : Fin 3) (y 0) (y 1)))
      = scaled (X3 m ρ c (Proc.devRef .tc main_v174)) (wSlice 2 1 Cert.ReferenceIdeal.Gen.slices_S3x3x128x128_S1x1x128x128_2_1_0_0 (m ((c : Thread nD τ).loc main_arg7))) (degNormR (m ((c : Thread nD τ).loc main_arg3))) := by
  funext y
  obtain ⟨i, j, rfl⟩ : ∃ (i : Fin 100000) (j : Fin 128), y = ix2 i j := ⟨y 0, y 1, eq_ix2 y⟩
  rw [X4_v177]
  show Cert.Spec.relT _ _ _ (1 : Fin 3) i j = _
  exact transform_step _ _ _ _ _ _ (1 : Fin 3)
    (fun i k => congrFun (E4_w0 m ρ c) (ix2 i k))
    (fun k j => (E4_w1 m ρ c (1 : Fin 3) k j).trans (wSlice_apply 2 1 (by omega) (by omega) _ _ k j).symm)
    (fun i => (congrFun (E4_w2 m ρ c) (ix3 (1 : Fin 3) i (0 : Fin 1))).trans (((ns_stack_apply m ρ c i).2.1).trans (congrFun (degNorm_eq2 _) _))) i j

/-- Slab 2 of the fifth pipeline's output is the reference's scaled product for relation 2. -/
theorem T2_2 (c : Dev nD) :
    (fun y : S100000x128.Idx => (X4 m ρ c (Proc.devRef .tc main_v177) : S3x100000x128.Idx → EReal) (ix3 (2 : Fin 3) (y 0) (y 1)))
      = scaled (X3 m ρ c (Proc.devRef .tc main_v174)) (wSlice 2 2 Cert.ReferenceIdeal.Gen.slices_S3x3x128x128_S1x1x128x128_2_2_0_0 (m ((c : Thread nD τ).loc main_arg7))) (degNormR (m ((c : Thread nD τ).loc main_arg5))) := by
  funext y
  obtain ⟨i, j, rfl⟩ : ∃ (i : Fin 100000) (j : Fin 128), y = ix2 i j := ⟨y 0, y 1, eq_ix2 y⟩
  rw [X4_v177]
  show Cert.Spec.relT _ _ _ (2 : Fin 3) i j = _
  exact transform_step _ _ _ _ _ _ (2 : Fin 3)
    (fun i k => congrFun (E4_w0 m ρ c) (ix2 i k))
    (fun k j => (E4_w1 m ρ c (2 : Fin 3) k j).trans (wSlice_apply 2 2 (by omega) (by omega) _ _ k j).symm)
    (fun i => (congrFun (E4_w2 m ρ c) (ix3 (2 : Fin 3) i (0 : Fin 1))).trans (((ns_stack_apply m ρ c i).2.2).trans (congrFun (degNorm_eq2 _) _))) i j

set_option maxHeartbeats 1000000 in
/-- The aggregate the sixth pipeline forms is the reference's, of the three propagated scaled products. -/
theorem agg2 (c : Dev nD) (i : Fin 100000) (k : Fin 128) :
    Cert.Spec.agg (E5 m ρ c (Pipeline.arrRef spec5 0)) (E5 m ρ c (Pipeline.arrRef spec5 1)) (E5 m ρ c (Pipeline.arrRef spec5 2)) i k
      = agg3
        (prop (scaled (X3 m ρ c (Proc.devRef .tc main_v174)) (wSlice 2 0 Cert.ReferenceIdeal.Gen.slices_S3x3x128x128_S1x1x128x128_2_0_0_0 (m ((c : Thread nD τ).loc main_arg7))) (degNormR (m ((c : Thread nD τ).loc main_arg1)))) (m ((c : Thread nD τ).loc main_arg1)) (m ((c : Thread nD τ).loc main_arg2)))
        (prop (scaled (X3 m ρ c (Proc.devRef .tc main_v174)) (wSlice 2 1 Cert.ReferenceIdeal.Gen.slices_S3x3x128x128_S1x1x128x128_2_1_0_0 (m ((c : Thread nD τ).loc main_arg7))) (degNormR (m ((c : Thread nD τ).loc main_arg3)))) (m ((c : Thread nD τ).loc main_arg3)) (m ((c : Thread nD τ).loc main_arg4)))
        (prop (scaled (X3 m ρ c (Proc.devRef .tc main_v174)) (wSlice 2 2 Cert.ReferenceIdeal.Gen.slices_S3x3x128x128_S1x1x128x128_2_2_0_0 (m ((c : Thread nD τ).loc main_arg7))) (degNormR (m ((c : Thread nD τ).loc main_arg5)))) (m ((c : Thread nD τ).loc main_arg5)) (m ((c : Thread nD τ).loc main_arg6)))
        (degNormR (m ((c : Thread nD τ).loc main_arg2))) (degNormR (m ((c : Thread nD τ).loc main_arg4))) (degNormR (m ((c : Thread nD τ).loc main_arg6)))
        (bSlice 2 0 Cert.ReferenceIdeal.Gen.slices_S3x3x128_S1x1x128_2_0_0 (m ((c : Thread nD τ).loc main_arg8))) (bSlice 2 1 Cert.ReferenceIdeal.Gen.slices_S3x3x128_S1x1x128_2_1_0 (m ((c : Thread nD τ).loc main_arg8))) (bSlice 2 2 Cert.ReferenceIdeal.Gen.slices_S3x3x128_S1x1x128_2_2_0 (m ((c : Thread nD τ).loc main_arg8)))
        (ix2 i k) :=
  agg_step _ _ _ _ _ _ _ _ _ _ _ _
    (fun i k => (E5_w0 m ρ c (0 : Fin 3) i k).trans (congrFun (congrArg (fun f => prop f (m ((c : Thread nD τ).loc main_arg1)) (m ((c : Thread nD τ).loc main_arg2))) (T2_0 m ρ c)) (ix2 i k)))
    (fun i k => (E5_w0 m ρ c (1 : Fin 3) i k).trans (congrFun (congrArg (fun f => prop f (m ((c : Thread nD τ).loc main_arg3)) (m ((c : Thread nD τ).loc main_arg4))) (T2_1 m ρ c)) (ix2 i k)))
    (fun i k => (E5_w0 m ρ c (2 : Fin 3) i k).trans (congrFun (congrArg (fun f => prop f (m ((c : Thread nD τ).loc main_arg5)) (m ((c : Thread nD τ).loc main_arg6))) (T2_2 m ρ c)) (ix2 i k)))
    (fun i => (congrFun (E5_w1 m ρ c) (ix3 (0 : Fin 3) i (0 : Fin 1))).trans (((nd_stack_apply m ρ c i).1).trans (congrFun (degNorm_eq2 _) _)))
    (fun i => (congrFun (E5_w1 m ρ c) (ix3 (1 : Fin 3) i (0 : Fin 1))).trans (((nd_stack_apply m ρ c i).2.1).trans (congrFun (degNorm_eq2 _) _)))
    (fun i => (congrFun (E5_w1 m ρ c) (ix3 (2 : Fin 3) i (0 : Fin 1))).trans (((nd_stack_apply m ρ c i).2.2).trans (congrFun (degNorm_eq2 _) _)))
    (fun k => (E5_w2 m ρ c (0 : Fin 3) k).trans (bSlice_apply 2 0 (by omega) (by omega) _ _ k).symm)
    (fun k => (E5_w2 m ρ c (1 : Fin 3) k).trans (bSlice_apply 2 1 (by omega) (by omega) _ _ k).symm)
    (fun k => (E5_w2 m ρ c (2 : Fin 3) k).trans (bSlice_apply 2 2 (by omega) (by omega) _ _ k).symm)
    i k

set_option maxHeartbeats 1000000 in
/-- THE LAST LAYER: the sixth pipeline's output array is the reference's last layer of the second layer's output. -/
theorem L2 (c : Dev nD) : (X5 m ρ c (Proc.devRef .tc main_v225) : S100000x128.Idx → EReal)
    = layerLast (X3 m ρ c (Proc.devRef .tc main_v174))
      (wSlice 2 0 Cert.ReferenceIdeal.Gen.slices_S3x3x128x128_S1x1x128x128_2_0_0_0 (m ((c : Thread nD τ).loc main_arg7))) (wSlice 2 1 Cert.ReferenceIdeal.Gen.slices_S3x3x128x128_S1x1x128x128_2_1_0_0 (m ((c : Thread nD τ).loc main_arg7))) (wSlice 2 2 Cert.ReferenceIdeal.Gen.slices_S3x3x128x128_S1x1x128x128_2_2_0_0 (m ((c : Thread nD τ).loc main_arg7)))
      (degNormR (m ((c : Thread nD τ).loc main_arg1))) (degNormR (m ((c : Thread nD τ).loc main_arg3))) (degNormR (m ((c : Thread nD τ).loc main_arg5))) (degNormR (m ((c : Thread nD τ).loc main_arg2))) (degNormR (m ((c : Thread nD τ).loc main_arg4))) (degNormR (m ((c : Thread nD τ).loc main_arg6)))
      (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (bSlice 2 0 Cert.ReferenceIdeal.Gen.slices_S3x3x128_S1x1x128_2_0_0 (m ((c : Thread nD τ).loc main_arg8))) (bSlice 2 1 Cert.ReferenceIdeal.Gen.slices_S3x3x128_S1x1x128_2_1_0 (m ((c : Thread nD τ).loc main_arg8))) (bSlice 2 2 Cert.ReferenceIdeal.Gen.slices_S3x3x128_S1x1x128_2_2_0 (m ((c : Thread nD τ).loc main_arg8)))
      (fcSlice 2 Cert.ReferenceIdeal.Gen.slices_S3x128x128_S1x128x128_2_0_0 (m ((c : Thread nD τ).loc main_arg9))) (v3Slice 2 Cert.ReferenceIdeal.Gen.slices_S3x128_S1x128_2_0 (m ((c : Thread nD τ).loc main_arg10))) := by
  funext y
  obtain ⟨i, j, rfl⟩ : ∃ (i : Fin 100000) (j : Fin 128), y = ix2 i j := ⟨y 0, y 1, eq_ix2 y⟩
  rw [(X5_arr m ρ c 5).trans (final5 (E5 m ρ) c)]
  show Cert.Spec.fc _ _ _ _ _ i j = _
  unfold layerLast
  exact fc_step _ _ _ _ _ _ _ _
    (fun i k => agg2 m ρ c i k)
    (fun k j => (E5_w3 m ρ c k j).trans (fcSlice_apply 2 (by omega) _ _ k j).symm)
    (fun j => (E5_w4 m ρ c j).trans (v3Slice_apply 2 (by omega) _ _ j).symm) i j

end Cert.KernelIdeal.Val

end
-- ==== Proof.ValueIdeal.Net.lean ====
/-
  The kernel program's result array is the reference's result value of the same arguments.

  Layer by layer: the first combine region's output is the reference's first layer of the launch features; the second's is
  the reference's second layer of the first's; the third's (no normalisation) is the reference's last layer of the
  second's. The reference's own result is those three layer functions composed (Proof/RefNetDirect.lean).
-/
import proofs.«143860_j29738353557974_1_alg».proof.Proof.ValueIdeal.Bridge0
import proofs.«143860_j29738353557974_1_alg».proof.Proof.ValueIdeal.Bridge1
import proofs.«143860_j29738353557974_1_alg».proof.Proof.ValueIdeal.Bridge2

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Cert.ReferenceIdeal.RefValue (ND NV FV EI M128 scaled prop agg3 fcl bnRelu layerBn layerLast wSlice bSlice fcSlice v3Slice v2Slice degNormR transform_step agg_step fc_step combine_step wSlice_apply bSlice_apply fcSlice_apply v3Slice_apply v2Slice_apply)

variable (m : (ℓ : Loc nD τ sig) → Buf (Elt Ideal) ℓ) (ρ : Dev nD → PrngReg)

/-- THE RESULT: the kernel program's result array, at the last boundary, is the reference's result value of the launch
    arguments. -/
theorem net_eq (c : Dev nD) : (X5 m ρ c (Proc.devRef .tc main_v225) : S100000x128.Idx → EReal)
    = layerLast (layerBn (layerBn (m ((c : Thread nD τ).loc main_arg0))
      (wSlice 0 0 Cert.ReferenceIdeal.Gen.slices_S3x3x128x128_S1x1x128x128_0_0_0_0 (m ((c : Thread nD τ).loc main_arg7))) (wSlice 0 1 Cert.ReferenceIdeal.Gen.slices_S3x3x128x128_S1x1x128x128_0_1_0_0 (m ((c : Thread nD τ).loc main_arg7))) (wSlice 0 2 Cert.ReferenceIdeal.Gen.slices_S3x3x128x128_S1x1x128x128_0_2_0_0 (m ((c : Thread nD τ).loc main_arg7)))
      (degNormR (m ((c : Thread nD τ).loc main_arg1))) (degNormR (m ((c : Thread nD τ).loc main_arg3))) (degNormR (m ((c : Thread nD τ).loc main_arg5))) (degNormR (m ((c : Thread nD τ).loc main_arg2))) (degNormR (m ((c : Thread nD τ).loc main_arg4))) (degNormR (m ((c : Thread nD τ).loc main_arg6)))
      (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (bSlice 0 0 Cert.ReferenceIdeal.Gen.slices_S3x3x128_S1x1x128_0_0_0 (m ((c : Thread nD τ).loc main_arg8))) (bSlice 0 1 Cert.ReferenceIdeal.Gen.slices_S3x3x128_S1x1x128_0_1_0 (m ((c : Thread nD τ).loc main_arg8))) (bSlice 0 2 Cert.ReferenceIdeal.Gen.slices_S3x3x128_S1x1x128_0_2_0 (m ((c : Thread nD τ).loc main_arg8)))
      (fcSlice 0 Cert.ReferenceIdeal.Gen.slices_S3x128x128_S1x128x128_0_0_0 (m ((c : Thread nD τ).loc main_arg9))) (v3Slice 0 Cert.ReferenceIdeal.Gen.slices_S3x128_S1x128_0_0 (m ((c : Thread nD τ).loc main_arg10)))
      (v2Slice 0 Cert.ReferenceIdeal.Gen.slices_S2x128_S1x128_0_0 (m ((c : Thread nD τ).loc main_arg11))) (v2Slice 0 Cert.ReferenceIdeal.Gen.slices_S2x128_S1x128_0_0 (m ((c : Thread nD τ).loc main_arg12))) (v2Slice 0 Cert.ReferenceIdeal.Gen.slices_S2x128_S1x128_0_0 (m ((c : Thread nD τ).loc main_arg13))) (v2Slice 0 Cert.ReferenceIdeal.Gen.slices_S2x128_S1x128_0_0 (m ((c : Thread nD τ).loc main_arg14))))
      (wSlice 1 0 Cert.ReferenceIdeal.Gen.slices_S3x3x128x128_S1x1x128x128_1_0_0_0 (m ((c : Thread nD τ).loc main_arg7))) (wSlice 1 1 Cert.ReferenceIdeal.Gen.slices_S3x3x128x128_S1x1x128x128_1_1_0_0 (m ((c : Thread nD τ).loc main_arg7))) (wSlice 1 2 Cert.ReferenceIdeal.Gen.slices_S3x3x128x128_S1x1x128x128_1_2_0_0 (m ((c : Thread nD τ).loc main_arg7)))
      (degNormR (m ((c : Thread nD τ).loc main_arg1))) (degNormR (m ((c : Thread nD τ).loc main_arg3))) (degNormR (m ((c : Thread nD τ).loc main_arg5))) (degNormR (m ((c : Thread nD τ).loc main_arg2))) (degNormR (m ((c : Thread nD τ).loc main_arg4))) (degNormR (m ((c : Thread nD τ).loc main_arg6)))
      (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (bSlice 1 0 Cert.ReferenceIdeal.Gen.slices_S3x3x128_S1x1x128_1_0_0 (m ((c : Thread nD τ).loc main_arg8))) (bSlice 1 1 Cert.ReferenceIdeal.Gen.slices_S3x3x128_S1x1x128_1_1_0 (m ((c : Thread nD τ).loc main_arg8))) (bSlice 1 2 Cert.ReferenceIdeal.Gen.slices_S3x3x128_S1x1x128_1_2_0 (m ((c : Thread nD τ).loc main_arg8)))
      (fcSlice 1 Cert.ReferenceIdeal.Gen.slices_S3x128x128_S1x128x128_1_0_0 (m ((c : Thread nD τ).loc main_arg9))) (v3Slice 1 Cert.ReferenceIdeal.Gen.slices_S3x128_S1x128_1_0 (m ((c : Thread nD τ).loc main_arg10)))
      (v2Slice 1 Cert.ReferenceIdeal.Gen.slices_S2x128_S1x128_1_0 (m ((c : Thread nD τ).loc main_arg11))) (v2Slice 1 Cert.ReferenceIdeal.Gen.slices_S2x128_S1x128_1_0 (m ((c : Thread nD τ).loc main_arg12))) (v2Slice 1 Cert.ReferenceIdeal.Gen.slices_S2x128_S1x128_1_0 (m ((c : Thread nD τ).loc main_arg13))) (v2Slice 1 Cert.ReferenceIdeal.Gen.slices_S2x128_S1x128_1_0 (m ((c : Thread nD τ).loc main_arg14))))
      (wSlice 2 0 Cert.ReferenceIdeal.Gen.slices_S3x3x128x128_S1x1x128x128_2_0_0_0 (m ((c : Thread nD τ).loc main_arg7))) (wSlice 2 1 Cert.ReferenceIdeal.Gen.slices_S3x3x128x128_S1x1x128x128_2_1_0_0 (m ((c : Thread nD τ).loc main_arg7))) (wSlice 2 2 Cert.ReferenceIdeal.Gen.slices_S3x3x128x128_S1x1x128x128_2_2_0_0 (m ((c : Thread nD τ).loc main_arg7)))
      (degNormR (m ((c : Thread nD τ).loc main_arg1))) (degNormR (m ((c : Thread nD τ).loc main_arg3))) (degNormR (m ((c : Thread nD τ).loc main_arg5))) (degNormR (m ((c : Thread nD τ).loc main_arg2))) (degNormR (m ((c : Thread nD τ).loc main_arg4))) (degNormR (m ((c : Thread nD τ).loc main_arg6)))
      (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (bSlice 2 0 Cert.ReferenceIdeal.Gen.slices_S3x3x128_S1x1x128_2_0_0 (m ((c : Thread nD τ).loc main_arg8))) (bSlice 2 1 Cert.ReferenceIdeal.Gen.slices_S3x3x128_S1x1x128_2_1_0 (m ((c : Thread nD τ).loc main_arg8))) (bSlice 2 2 Cert.ReferenceIdeal.Gen.slices_S3x3x128_S1x1x128_2_2_0 (m ((c : Thread nD τ).loc main_arg8)))
      (fcSlice 2 Cert.ReferenceIdeal.Gen.slices_S3x128x128_S1x128x128_2_0_0 (m ((c : Thread nD τ).loc main_arg9))) (v3Slice 2 Cert.ReferenceIdeal.Gen.slices_S3x128_S1x128_2_0 (m ((c : Thread nD τ).loc main_arg10))) := by
  rw [L2 m ρ c, L1 m ρ c, L0 m ρ c]

end Cert.KernelIdeal.Val

end
-- ==== Proof.lean ====
/-
  The certificate's five claims.

  The two kernel programs' frames are the runs of their 24 segments (Proof/FrameBits/Run.lean, Proof/FrameIdeal/Run.lean:
  the same text at the two float instances). The reference's frame is its run with the result dropped. The ideal pass
  rewrote nothing, so `preserves` is trivial. For the algebraic claim the idealized kernel's result array is read off its
  run — every unscoped buffer ends at the last boundary's contents — and is, layer by layer, the reference's result value
  of the same arguments (Proof/ValueIdeal/Net.lean); no law that needs finiteness is used, so the precondition is never
  opened.
-/
import proofs.«143860_j29738353557974_1_alg».proof.Defs
import proofs.«143860_j29738353557974_1_alg».proof.Proof.Gen.Kernel
import proofs.«143860_j29738353557974_1_alg».proof.Proof.Gen.KernelIdeal
import proofs.«143860_j29738353557974_1_alg».proof.Proof.Gen.ReferenceIdeal
import proofs.«143860_j29738353557974_1_alg».proof.Proof.Gen.Pre_finite_inputs
import proofs.«143860_j29738353557974_1_alg».proof.Proof.FrameBits.Run
import proofs.«143860_j29738353557974_1_alg».proof.Proof.FrameIdeal.Run
import proofs.«143860_j29738353557974_1_alg».proof.Proof.RefRun
import proofs.«143860_j29738353557974_1_alg».proof.Proof.RefNetDirect
import proofs.«143860_j29738353557974_1_alg».proof.Proof.ValueIdeal.Net
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end, faults nowhere, and leaves its arguments as launched. -/
theorem frame_k : Cert.frame_Kernel := fun m ρ _ => Cert.Kernel.Fr.frame (F := Bits) m ρ

/-- So does the idealized kernel program. -/
theorem frame_ki : Cert.frame_KernelIdeal := fun m ρ _ => Cert.KernelIdeal.Fr.frame (F := Ideal) m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

open Cert.KernelIdeal Cert.KernelIdeal.Fr in
/-- From memories agreeing on the arguments both programs run to the end with one result array: the kernel's, read off
    its run at the last boundary, is the reference's result value of the same arguments. -/
theorem algebraic : Cert.algebraic_KernelIdeal_ReferenceIdeal := by
  intro m ρ m' ρ' _ hagree
  refine ⟨fun c => X5 (F := Ideal) m ρ c (Proc.devRef .tc main_v225), ?_, ?_⟩
  · exact (θ_run Cert.KernelIdeal.defs _ _).mono (fun _ h c =>
      ⟨h c _ (mem_uc main_v225 (by decide)),
      (h c _ (mem_uc main_arg0 (by decide))).trans (X5_arg m ρ c (by decide)),
      (h c _ (mem_uc main_arg1 (by decide))).trans (X5_arg m ρ c (by decide)),
      (h c _ (mem_uc main_arg2 (by decide))).trans (X5_arg m ρ c (by decide)),
      (h c _ (mem_uc main_arg3 (by decide))).trans (X5_arg m ρ c (by decide)),
      (h c _ (mem_uc main_arg4 (by decide))).trans (X5_arg m ρ c (by decide)),
      (h c _ (mem_uc main_arg5 (by decide))).trans (X5_arg m ρ c (by decide)),
      (h c _ (mem_uc main_arg6 (by decide))).trans (X5_arg m ρ c (by decide)),
      (h c _ (mem_uc main_arg7 (by decide))).trans (X5_arg m ρ c (by decide)),
      (h c _ (mem_uc main_arg8 (by decide))).trans (X5_arg m ρ c (by decide)),
      (h c _ (mem_uc main_arg9 (by decide))).trans (X5_arg m ρ c (by decide)),
      (h c _ (mem_uc main_arg10 (by decide))).trans (X5_arg m ρ c (by decide)),
      (h c _ (mem_uc main_arg11 (by decide))).trans (X5_arg m ρ c (by decide)),
      (h c _ (mem_uc main_arg12 (by decide))).trans (X5_arg m ρ c (by decide)),
      (h c _ (mem_uc main_arg13 (by decide))).trans (X5_arg m ρ c (by decide)),
      (h c _ (mem_uc main_arg14 (by decide))).trans (X5_arg m ρ c (by decide))⟩) (run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14⟩ := hagree c
    rw [Cert.ReferenceIdeal.RefValue.res_eq, a0, a1, a2, a3, a4, a5, a6, a7, a8, a9, a10, a11, a12, a13, a14]
    exact (Cert.KernelIdeal.Val.net_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
